-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v130)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v130) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v154) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128 : Shape := ⟨1, ![128]⟩
abbrev S128x64 : Shape := ⟨2, ![128, 64]⟩
abbrev S64 : Shape := ⟨1, ![64]⟩
abbrev S64x64 : Shape := ⟨2, ![64, 64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part3 {F : FTy → Type} [FloatOps F] (main_arg12 : FVec F S64 .f32) (main_arg13 : FVec F S64 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64 .f32 := Host.absf main_arg12
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64 .f32 := Host.absf main_arg13
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  main_v63

def fn_part2 {F : FTy → Type} [FloatOps F] (main_arg8 : FVec F S64 .f32) (main_arg9 : FVec F S64 .f32) (main_arg10 : FVec F S64x64 .f32) (main_arg11 : FVec F S64 .f32) (main_arg12 : FVec F S64 .f32) (main_arg13 : FVec F S64 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x64 .f32 := Host.absf main_arg10
  let main_cst_16 : FVec F S_ .f32 := constant S_ .f32 0x7F800000#32
  let main_v45 : FVec F S64x64 .f32 := broadcastInDim S64x64 ![] bcast_S_S64x64 main_cst_16
  let main_v46 : IVec S64x64 1 := cmpf .olt main_v44 main_v45
  let main_c_17 : IVec S_ 1 := constantI S_ 1 1#1
  let main_v47 : IVec S_ 1 := (fun x v => Host.reduce IntOp.andi x v reducesTo_S64x64_S_d0_1 h_S_) main_v46 main_c_17
  let main_v48 : IVec S_ 1 := andi main_v43 main_v47
  let main_v49 : FVec F S64 .f32 := Host.absf main_arg11
  let main_cst_18 : FVec F S_ .f32 := constant S_ .f32 0x7F800000#32
  let main_v50 : FVec F S64 .f32 := broadcastInDim S64 ![] bcast_S_S64 main_cst_18
  fn_part3 (F := F) main_arg12 main_arg13 main_v48 main_v49 main_v50

def fn_part1 {F : FTy → Type} [FloatOps F] (main_arg5 : FVec F S64 .f32) (main_arg6 : FVec F S64x64 .f32) (main_arg7 : FVec F S64 .f32) (main_arg8 : FVec F S64 .f32) (main_arg9 : FVec F S64 .f32) (main_arg10 : FVec F S64x64 .f32) (main_arg11 : FVec F S64 .f32) (main_arg12 : FVec F S64 .f32) (main_arg13 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg6
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_arg10 main_arg11 main_arg12 main_arg13 main_v33

def fn {F : FTy → Type} [FloatOps F] (main_arg0 : FVec F S100000x128 .f32) (main_arg1 : IVec S2x1600000 32) (main_arg2 : FVec F S128 .f32) (main_arg3 : FVec F S128 .f32) (main_arg4 : FVec F S128x64 .f32) (main_arg5 : FVec F S64 .f32) (main_arg6 : FVec F S64x64 .f32) (main_arg7 : FVec F S64 .f32) (main_arg8 : FVec F S64 .f32) (main_arg9 : FVec F S64 .f32) (main_arg10 : FVec F S64x64 .f32) (main_arg11 : FVec F S64 .f32) (main_arg12 : FVec F S64 .f32) (main_arg13 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128 .f32 := Host.absf main_arg2
  let main_cst_0 : FVec F S_ .f32 := constant S_ .f32 0x7F800000#32
  let main_v5 : FVec F S128 .f32 := broadcastInDim S128 ![] bcast_S_S128 main_cst_0
  let main_v6 : IVec S128 1 := cmpf .olt main_v4 main_v5
  let main_c_1 : IVec S_ 1 := constantI S_ 1 1#1
  let main_v7 : IVec S_ 1 := (fun x v => Host.reduce IntOp.andi x v reducesTo_S128_S_d0 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_arg6 main_arg7 main_arg8 main_arg9 main_arg10 main_arg11 main_arg12 main_arg13 main_v13 main_v16
-- ==== Kernel.lean ====
abbrev S100000x128 : Shape := ⟨2, ![100000, 128]⟩
abbrev S2x1600000 : Shape := ⟨2, ![2, 1600000]⟩
abbrev S128 : Shape := ⟨1, ![128]⟩
abbrev S128x64 : Shape := ⟨2, ![128, 64]⟩
abbrev S64 : Shape := ⟨1, ![64]⟩
abbrev S64x64 : Shape := ⟨2, ![64, 64]⟩
abbrev S1x1600000 : Shape := ⟨2, ![1, 1600000]⟩
abbrev S1600000 : Shape := ⟨1, ![1600000]⟩
abbrev S1x128 : Shape := ⟨2, ![1, 128]⟩
abbrev S10000x128 : Shape := ⟨2, ![10000, 128]⟩
abbrev S_ : Shape := ⟨0, ![]⟩
abbrev S1x64 : Shape := ⟨2, ![1, 64]⟩
abbrev S100000x64 : Shape := ⟨2, ![100000, 64]⟩
abbrev S10000x64 : Shape := ⟨2, ![10000, 64]⟩
abbrev S100000 : Shape := ⟨1, ![100000]⟩
abbrev S1700000 : Shape := ⟨1, ![1700000]⟩
abbrev S1700000x1 : Shape := ⟨2, ![1700000, 1]⟩
abbrev S1700000x64 : Shape := ⟨2, ![1700000, 64]⟩

abbrev nBuf : Space → Nat
  | .hbm => 180
  | .vmem => 52
  | .smem => 0
  | _ => 0

abbrev hbmTy0_0 (i : Nat) : BufTy := match i % 128 with
  | 0 => ⟨S100000x128, .f32⟩
  | 1 => ⟨S2x1600000, .i32⟩
  | 2 => ⟨S128, .f32⟩
  | 3 => ⟨S128, .f32⟩
  | 4 => ⟨S128x64, .f32⟩
  | 5 => ⟨S64, .f32⟩
  | 6 => ⟨S64x64, .f32⟩
  | 7 => ⟨S64, .f32⟩
  | 8 => ⟨S64, .f32⟩
  | 9 => ⟨S64, .f32⟩
  | 10 => ⟨S64x64, .f32⟩
  | 11 => ⟨S64, .f32⟩
  | 12 => ⟨S64, .f32⟩
  | 13 => ⟨S64, .f32⟩
  | 14 => ⟨S1x1600000, .i32⟩
  | 15 => ⟨S1600000, .i32⟩
  | 16 => ⟨S1x1600000, .i32⟩
  | 17 => ⟨S1600000, .i32⟩
  | 18 => ⟨S1x128, .f32⟩
  | 19 => ⟨S1x128, .f32⟩
  | 20 => ⟨S128, .f32⟩
  | 21 => ⟨S_, .f32⟩
  | 22 => ⟨S128, .f32⟩
  | 23 => ⟨S128, .f32⟩
  | 24 => ⟨S128, .f32⟩
  | 25 => ⟨S_, .f32⟩
  | 26 => ⟨S128, .f32⟩
  | 27 => ⟨S128, .f32⟩
  | 28 => ⟨S128, .f32⟩
  | 29 => ⟨S128, .f32⟩
  | 30 => ⟨S1x128, .f32⟩
  | 31 => ⟨S1x128, .f32⟩
  | 32 => ⟨S1x128, .f32⟩
  | 33 => ⟨S1x128, .f32⟩
  | 34 => ⟨S1x64, .f32⟩
  | 35 => ⟨S100000x64, .f32⟩
  | 36 => ⟨S100000x64, .f32⟩
  | 37 => ⟨S100000, .i32⟩
  | 38 => ⟨S1700000, .i32⟩
  | 39 => ⟨S1700000, .i32⟩
  | 40 => ⟨S_, .f32⟩
  | 41 => ⟨S1700000, .f32⟩
  | 42 => ⟨S_, .f32⟩
  | 43 => ⟨S100000, .f32⟩
  | 44 => ⟨S1700000x1, .i32⟩
  | 45 => ⟨S100000, .f32⟩
  | 46 => ⟨S_, .f32⟩
  | 47 => ⟨S100000, .f32⟩
  | 48 => ⟨S100000, .i1⟩
  | 49 => ⟨S100000, .f32⟩
  | 50 => ⟨S_, .f32⟩
  | 51 => ⟨S_, .f32⟩
  | 52 => ⟨S100000, .f32⟩
  | 53 => ⟨S100000, .f32⟩
  | 54 => ⟨S_, .i32⟩
  | 55 => ⟨S1700000, .i32⟩
  | 56 => ⟨S1700000, .i1⟩
  | 57 => ⟨S_, .i32⟩
  | 58 => ⟨S1700000, .i32⟩
  | 59 => ⟨S1700000, .i32⟩
  | 60 => ⟨S1700000, .i32⟩
  | 61 => ⟨S1700000x1, .i32⟩
  | 62 => ⟨S1700000, .f32⟩
  | 63 => ⟨S_, .i32⟩
  | 64 => ⟨S1700000, .i32⟩
  | 65 => ⟨S1700000, .i1⟩
  | 66 => ⟨S_, .i32⟩
  | 67 => ⟨S1700000, .i32⟩
  | 68 => ⟨S1700000, .i32⟩
  | 69 => ⟨S1700000, .i32⟩
  | 70 => ⟨S1700000x1, .i32⟩
  | 71 => ⟨S1700000, .f32⟩
  | 72 => ⟨S1700000, .f32⟩
  | 73 => ⟨S_, .i32⟩
  | 74 => ⟨S1700000, .i32⟩
  | 75 => ⟨S1700000, .i1⟩
  | 76 => ⟨S_, .i32⟩
  | 77 => ⟨S1700000, .i32⟩
  | 78 => ⟨S1700000, .i32⟩
  | 79 => ⟨S1700000, .i32⟩
  | 80 => ⟨S1700000x1, .i32⟩
  | 81 => ⟨S1700000x64, .f32⟩
  | 82 => ⟨S1700000x1, .f32⟩
  | 83 => ⟨S1700000x64, .f32⟩
  | 84 => ⟨S1700000x64, .f32⟩
  | 85 => ⟨S_, .f32⟩
  | 86 => ⟨S100000x64, .f32⟩
  | 87 => ⟨S1700000x1, .i32⟩
  | 88 => ⟨S100000x64, .f32⟩
  | 89 => ⟨S1x64, .f32⟩
  | 90 => ⟨S1x64, .f32⟩
  | 91 => ⟨S1x64, .f32⟩
  | 92 => ⟨S64, .f32⟩
  | 93 => ⟨S_, .f32⟩
  | 94 => ⟨S64, .f32⟩
  | 95 => ⟨S64, .f32⟩
  | 96 => ⟨S64, .f32⟩
  | 97 => ⟨S_, .f32⟩
  | 98 => ⟨S64, .f32⟩
  | 99 => ⟨S64, .f32⟩
  | 100 => ⟨S64, .f32⟩
  | 101 => ⟨S64, .f32⟩
  | 102 => ⟨S1x64, .f32⟩
  | 103 => ⟨S1x64, .f32⟩
  | 104 => ⟨S1x64, .f32⟩
  | 105 => ⟨S1x64, .f32⟩
  | 106 => ⟨S1x64, .f32⟩
  | 107 => ⟨S100000x64, .f32⟩
  | 108 => ⟨S100000x64, .f32⟩
  | 109 => ⟨S100000, .i32⟩
  | 110 => ⟨S1700000, .i32⟩
  | 111 => ⟨S1700000, .i32⟩
  | 112 => ⟨S_, .f32⟩
  | 113 => ⟨S1700000, .f32⟩
  | 114 => ⟨S_, .f32⟩
  | 115 => ⟨S100000, .f32⟩
  | 116 => ⟨S1700000x1, .i32⟩
  | 117 => ⟨S100000, .f32⟩
  | 118 => ⟨S_, .f32⟩
  | 119 => ⟨S100000, .f32⟩
  | 120 => ⟨S100000, .i1⟩
  | 121 => ⟨S100000, .f32⟩
  | 122 => ⟨S_, .f32⟩
  | 123 => ⟨S_, .f32⟩
  | 124 => ⟨S100000, .f32⟩
  | 125 => ⟨S100000, .f32⟩
  | 126 => ⟨S_, .i32⟩
  | 127 => ⟨S1700000, .i32⟩
  | _ => ⟨S100000x128, .f32⟩

abbrev hbmTy0_1 (i : Nat) : BufTy := match i % 128 with
  | 0 => ⟨S1700000, .i1⟩
  | 1 => ⟨S_, .i32⟩
  | 2 => ⟨S1700000, .i32⟩
  | 3 => ⟨S1700000, .i32⟩
  | 4 => ⟨S1700000, .i32⟩
  | 5 => ⟨S1700000x1, .i32⟩
  | 6 => ⟨S1700000, .f32⟩
  | 7 => ⟨S_, .i32⟩
  | 8 => ⟨S1700000, .i32⟩
  | 9 => ⟨S1700000, .i1⟩
  | 10 => ⟨S_, .i32⟩
  | 11 => ⟨S1700000, .i32⟩
  | 12 => ⟨S1700000, .i32⟩
  | 13 => ⟨S1700000, .i32⟩
  | 14 => ⟨S1700000x1, .i32⟩
  | 15 => ⟨S1700000, .f32⟩
  | 16 => ⟨S1700000, .f32⟩
  | 17 => ⟨S_, .i32⟩
  | 18 => ⟨S1700000, .i32⟩
  | 19 => ⟨S1700000, .i1⟩
  | 20 => ⟨S_, .i32⟩
  | 21 => ⟨S1700000, .i32⟩
  | 22 => ⟨S1700000, .i32⟩
  | 23 => ⟨S1700000, .i32⟩
  | 24 => ⟨S1700000x1, .i32⟩
  | 25 => ⟨S1700000x64, .f32⟩
  | 26 => ⟨S1700000x1, .f32⟩
  | 27 => ⟨S1700000x64, .f32⟩
  | 28 => ⟨S1700000x64, .f32⟩
  | 29 => ⟨S_, .f32⟩
  | 30 => ⟨S100000x64, .f32⟩
  | 31 => ⟨S1700000x1, .i32⟩
  | 32 => ⟨S100000x64, .f32⟩
  | 33 => ⟨S1x64, .f32⟩
  | 34 => ⟨S1x64, .f32⟩
  | 35 => ⟨S1x64, .f32⟩
  | 36 => ⟨S64, .f32⟩
  | 37 => ⟨S_, .f32⟩
  | 38 => ⟨S64, .f32⟩
  | 39 => ⟨S64, .f32⟩
  | 40 => ⟨S64, .f32⟩
  | 41 => ⟨S_, .f32⟩
  | 42 => ⟨S64, .f32⟩
  | 43 => ⟨S64, .f32⟩
  | 44 => ⟨S64, .f32⟩
  | 45 => ⟨S64, .f32⟩
  | 46 => ⟨S1x64, .f32⟩
  | 47 => ⟨S1x64, .f32⟩
  | 48 => ⟨S1x64, .f32⟩
  | 49 => ⟨S1x64, .f32⟩
  | 50 => ⟨S1x64, .f32⟩
  | 51 => ⟨S100000x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S10000x128, .f32⟩
  | .local _ .vmem, ⟨1, _⟩ => ⟨S10000x128, .f32⟩
  | .local _ .vmem, ⟨2, _⟩ => ⟨S1x128, .f32⟩
  | .local _ .vmem, ⟨3, _⟩ => ⟨S1x128, .f32⟩
  | .local _ .vmem, ⟨4, _⟩ => ⟨S10000x128, .f32⟩
  | .local _ .vmem, ⟨5, _⟩ => ⟨S10000x128, .f32⟩
  | .local _ .vmem, ⟨6, _⟩ => ⟨S1x128, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S128x64, .f32⟩
  | .local _ .vmem, ⟨11, _⟩ => ⟨S1x64, .f32⟩
  | .local _ .vmem, ⟨12, _⟩ => ⟨S10000x64, .f32⟩
  | .local _ .vmem, ⟨13, _⟩ => ⟨S10000x64, .f32⟩
  | .local _ .vmem, ⟨14, _⟩ => ⟨S10000x64, .f32⟩
  | .local _ .vmem, ⟨15, _⟩ => ⟨S10000x64, .f32⟩
  | .local _ .vmem, ⟨16, _⟩ => ⟨S64x64, .f32⟩
  | .local _ .vmem, ⟨17, _⟩ => ⟨S10000x64, .f32⟩
  | .local _ .vmem, ⟨18, _⟩ => ⟨S10000x64, .f32⟩
  | .local _ .vmem, ⟨19, _⟩ => ⟨S10000x64, .f32⟩
  | .local _ .vmem, ⟨20, _⟩ => ⟨S10000x64, .f32⟩
  | .local _ .vmem, ⟨21, _⟩ => ⟨S1x64, .f32⟩
  | .local _ .vmem, ⟨22, _⟩ => ⟨S1x64, .f32⟩
  | .local _ .vmem, ⟨23, _⟩ => ⟨S1x64, .f32⟩
  | .local _ .vmem, ⟨24, _⟩ => ⟨S10000x64, .f32⟩
  | .local _ .vmem, ⟨25, _⟩ => ⟨S10000x64, .f32⟩
  | .local _ .vmem, ⟨26, _⟩ => ⟨S1x64, .f32⟩
  | .local _ .vmem, ⟨27, _⟩ => ⟨S1x64, .f32⟩
  | .local _ .vmem, ⟨28, _⟩ => ⟨S1x64, .f32⟩
  | .local _ .vmem, ⟨29, _⟩ => ⟨S1x64, .f32⟩
  | .local _ .vmem, ⟨30, _⟩ => ⟨S1x64, .f32⟩
  | .local _ .vmem, ⟨31, _⟩ => ⟨S10000x64, .f32⟩
  | .local _ .vmem, ⟨32, _⟩ => ⟨S10000x64, .f32⟩
  | .local _ .vmem, ⟨33, _⟩ => ⟨S10000x64, .f32⟩
  | .local _ .vmem, ⟨34, _⟩ => ⟨S10000x64, .f32⟩
  | .local _ .vmem, ⟨35, _⟩ => ⟨S64x64, .f32⟩
  | .local _ .vmem, ⟨36, _⟩ => ⟨S10000x64, .f32⟩
  | .local _ .vmem, ⟨37, _⟩ => ⟨S10000x64, .f32⟩
  | .local _ .vmem, ⟨38, _⟩ => ⟨S10000x64, .f32⟩
  | .local _ .vmem, ⟨39, _⟩ => ⟨S10000x64, .f32⟩
  | .local _ .vmem, ⟨40, _⟩ => ⟨S1x64, .f32⟩
  | .local _ .vmem, ⟨41, _⟩ => ⟨S1x64, .f32⟩
  | .local _ .vmem, ⟨42, _⟩ => ⟨S1x64, .f32⟩
  | .local _ .vmem, ⟨43, _⟩ => ⟨S10000x64, .f32⟩
  | .local _ .vmem, ⟨44, _⟩ => ⟨S10000x64, .f32⟩
  | .local _ .vmem, ⟨45, _⟩ => ⟨S1x64, .f32⟩
  | .local _ .vmem, ⟨46, _⟩ => ⟨S1x64, .f32⟩
  | .local _ .vmem, ⟨47, _⟩ => ⟨S1x64, .f32⟩
  | .local _ .vmem, ⟨48, _⟩ => ⟨S1x64, .f32⟩
  | .local _ .vmem, ⟨49, _⟩ => ⟨S1x64, .f32⟩
  | .local _ .vmem, ⟨50, _⟩ => ⟨S10000x64, .f32⟩
  | .local _ .vmem, ⟨51, _⟩ => ⟨S10000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | _, _ => false

abbrev semScoped : Fin 0 → Bool
  | ⟨_, h⟩ => absurd h (Nat.not_lt_zero _)

abbrev dmaSemScoped : Fin 52 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | _ => false

abbrev sig : RefSig :=
  ofTc nBuf bufTy 0 52 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4_0 : Ref sig .tc := ⟨.hbm, 18, rfl⟩
abbrev main_v4_1 : Ref sig .tc := ⟨.hbm, 19, rfl⟩
abbrev main_v5 : Ref sig .tc := ⟨.hbm, 20, rfl⟩
abbrev main_cst : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_cst_0 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst_1 : Ref sig .tc := ⟨.hbm, 40, rfl⟩
abbrev main_v23 : Ref sig .tc := ⟨.hbm, 41, rfl⟩
abbrev main_cst_2 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_cst_3 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_cst_4 : Ref sig .tc := ⟨.hbm, 50, rfl⟩
abbrev main_call0_v0 : Ref sig .tc := ⟨.hbm, 51, rfl⟩
abbrev main_call0_v1 : Ref sig .tc := ⟨.hbm, 52, rfl⟩
abbrev main_v30 : Ref sig .tc := ⟨.hbm, 53, rfl⟩
abbrev main_c : Ref sig .tc := ⟨.hbm, 54, rfl⟩
abbrev main_v31 : Ref sig .tc := ⟨.hbm, 55, rfl⟩
abbrev main_v32 : Ref sig .tc := ⟨.hbm, 56, rfl⟩
abbrev main_c_5 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_c_6 : Ref sig .tc := ⟨.hbm, 63, rfl⟩
abbrev main_v38 : Ref sig .tc := ⟨.hbm, 64, rfl⟩
abbrev main_v39 : Ref sig .tc := ⟨.hbm, 65, rfl⟩
abbrev main_c_7 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_c_8 : Ref sig .tc := ⟨.hbm, 73, rfl⟩
abbrev main_v46 : Ref sig .tc := ⟨.hbm, 74, rfl⟩
abbrev main_v47 : Ref sig .tc := ⟨.hbm, 75, rfl⟩
abbrev main_c_9 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_cst_10 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60_0 : Ref sig .tc := ⟨.hbm, 90, rfl⟩
abbrev main_v60_1 : Ref sig .tc := ⟨.hbm, 91, rfl⟩
abbrev main_v61 : Ref sig .tc := ⟨.hbm, 92, rfl⟩
abbrev main_cst_11 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_cst_12 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_cst_13 : Ref sig .tc := ⟨.hbm, 112, rfl⟩
abbrev main_v79 : Ref sig .tc := ⟨.hbm, 113, rfl⟩
abbrev main_cst_14 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_cst_15 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_cst_16 : Ref sig .tc := ⟨.hbm, 122, rfl⟩
abbrev main_call1_v0 : Ref sig .tc := ⟨.hbm, 123, rfl⟩
abbrev main_call1_v1 : Ref sig .tc := ⟨.hbm, 124, rfl⟩
abbrev main_v86 : Ref sig .tc := ⟨.hbm, 125, rfl⟩
abbrev main_c_17 : Ref sig .tc := ⟨.hbm, 126, rfl⟩
abbrev main_v87 : Ref sig .tc := ⟨.hbm, 127, rfl⟩
abbrev main_v88 : Ref sig .tc := ⟨.hbm, 128, rfl⟩
abbrev main_c_18 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_c_19 : Ref sig .tc := ⟨.hbm, 135, rfl⟩
abbrev main_v94 : Ref sig .tc := ⟨.hbm, 136, rfl⟩
abbrev main_v95 : Ref sig .tc := ⟨.hbm, 137, rfl⟩
abbrev main_c_20 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_c_21 : Ref sig .tc := ⟨.hbm, 145, rfl⟩
abbrev main_v102 : Ref sig .tc := ⟨.hbm, 146, rfl⟩
abbrev main_v103 : Ref sig .tc := ⟨.hbm, 147, rfl⟩
abbrev main_c_22 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_cst_23 : Ref sig .tc := ⟨.hbm, 157, rfl⟩
abbrev main_v112 : Ref sig .tc := ⟨.hbm, 158, rfl⟩
abbrev main_v113 : Ref sig .tc := ⟨.hbm, 159, rfl⟩
abbrev main_v114 : Ref sig .tc := ⟨.hbm, 160, rfl⟩
abbrev main_v115 : Ref sig .tc := ⟨.hbm, 161, rfl⟩
abbrev main_v116_0 : Ref sig .tc := ⟨.hbm, 162, rfl⟩
abbrev main_v116_1 : Ref sig .tc := ⟨.hbm, 163, rfl⟩
abbrev main_v117 : Ref sig .tc := ⟨.hbm, 164, rfl⟩
abbrev main_cst_24 : Ref sig .tc := ⟨.hbm, 165, rfl⟩
abbrev main_v118 : Ref sig .tc := ⟨.hbm, 166, rfl⟩
abbrev main_v119 : Ref sig .tc := ⟨.hbm, 167, rfl⟩
abbrev main_v120 : Ref sig .tc := ⟨.hbm, 168, rfl⟩
abbrev main_cst_25 : Ref sig .tc := ⟨.hbm, 169, rfl⟩
abbrev main_v121 : Ref sig .tc := ⟨.hbm, 170, rfl⟩
abbrev main_v122 : Ref sig .tc := ⟨.hbm, 171, rfl⟩
abbrev main_v123 : Ref sig .tc := ⟨.hbm, 172, rfl⟩
abbrev main_v124 : Ref sig .tc := ⟨.hbm, 173, rfl⟩
abbrev main_v125 : Ref sig .tc := ⟨.hbm, 174, rfl⟩
abbrev main_v126 : Ref sig .tc := ⟨.hbm, 175, rfl⟩
abbrev main_v127 : Ref sig .tc := ⟨.hbm, 176, rfl⟩
abbrev main_v128 : Ref sig .tc := ⟨.hbm, 177, rfl⟩
abbrev main_v129 : Ref sig .tc := ⟨.hbm, 178, rfl⟩
abbrev main_v130 : Ref sig .tc := ⟨.hbm, 179, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg3_0 : Ref sig .tc := ⟨.vmem, 8, rfl⟩
abbrev cc1_stg4_0 : Ref sig .tc := ⟨.vmem, 9, rfl⟩
abbrev cc1_stg5_0 : Ref sig .tc := ⟨.vmem, 10, rfl⟩
abbrev cc1_stg6_0 : Ref sig .tc := ⟨.vmem, 11, rfl⟩
abbrev cc1_stg7_0 : Ref sig .tc := ⟨.vmem, 12, rfl⟩
abbrev cc1_stg7_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg2_0 : Ref sig .tc := ⟨.vmem, 22, rfl⟩
abbrev cc3_stg3_0 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg2_0 : Ref sig .tc := ⟨.vmem, 27, rfl⟩
abbrev cc4_stg3_0 : Ref sig .tc := ⟨.vmem, 28, rfl⟩
abbrev cc4_stg4_0 : Ref sig .tc := ⟨.vmem, 29, rfl⟩
abbrev cc4_stg5_0 : Ref sig .tc := ⟨.vmem, 30, rfl⟩
abbrev cc4_stg6_0 : Ref sig .tc := ⟨.vmem, 31, rfl⟩
abbrev cc4_stg6_1 : Ref sig .tc := ⟨.vmem, 32, rfl⟩
abbrev cc5_stg0_0 : Ref sig .tc := ⟨.vmem, 33, rfl⟩
abbrev cc5_stg0_1 : Ref sig .tc := ⟨.vmem, 34, rfl⟩
abbrev cc5_stg1_0 : Ref sig .tc := ⟨.vmem, 35, rfl⟩
abbrev cc5_stg2_0 : Ref sig .tc := ⟨.vmem, 36, rfl⟩
abbrev cc5_stg2_1 : Ref sig .tc := ⟨.vmem, 37, rfl⟩
abbrev cc6_stg0_0 : Ref sig .tc := ⟨.vmem, 38, rfl⟩
abbrev cc6_stg0_1 : Ref sig .tc := ⟨.vmem, 39, rfl⟩
abbrev cc6_stg1_0 : Ref sig .tc := ⟨.vmem, 40, rfl⟩
abbrev cc6_stg2_0 : Ref sig .tc := ⟨.vmem, 41, rfl⟩
abbrev cc6_stg3_0 : Ref sig .tc := ⟨.vmem, 42, rfl⟩
abbrev cc7_stg0_0 : Ref sig .tc := ⟨.vmem, 43, rfl⟩
abbrev cc7_stg0_1 : Ref sig .tc := ⟨.vmem, 44, rfl⟩
abbrev cc7_stg1_0 : Ref sig .tc := ⟨.vmem, 45, rfl⟩
abbrev cc7_stg2_0 : Ref sig .tc := ⟨.vmem, 46, rfl⟩
abbrev cc7_stg3_0 : Ref sig .tc := ⟨.vmem, 47, rfl⟩
abbrev cc7_stg4_0 : Ref sig .tc := ⟨.vmem, 48, rfl⟩
abbrev cc7_stg5_0 : Ref sig .tc := ⟨.vmem, 49, rfl⟩
abbrev cc7_stg6_0 : Ref sig .tc := ⟨.vmem, 50, rfl⟩
abbrev cc7_stg6_1 : Ref sig .tc := ⟨.vmem, 51, rfl⟩
abbrev cc0_sem0_0 : DmaSem sig := 0
abbrev cc0_sem0_1 : DmaSem sig := 1
abbrev cc0_sem1_0 : DmaSem sig := 2
abbrev cc0_sem2_0 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem3_0 : DmaSem sig := 8
abbrev cc1_sem4_0 : DmaSem sig := 9
abbrev cc1_sem5_0 : DmaSem sig := 10
abbrev cc1_sem6_0 : DmaSem sig := 11
abbrev cc1_sem7_0 : DmaSem sig := 12
abbrev cc1_sem7_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem2_0 : DmaSem sig := 22
abbrev cc3_sem3_0 : DmaSem sig := 23
abbrev cc4_sem0_0 : DmaSem sig := 24
abbrev cc4_sem0_1 : DmaSem sig := 25
abbrev cc4_sem1_0 : DmaSem sig := 26
abbrev cc4_sem2_0 : DmaSem sig := 27
abbrev cc4_sem3_0 : DmaSem sig := 28
abbrev cc4_sem4_0 : DmaSem sig := 29
abbrev cc4_sem5_0 : DmaSem sig := 30
abbrev cc4_sem6_0 : DmaSem sig := 31
abbrev cc4_sem6_1 : DmaSem sig := 32
abbrev cc5_sem0_0 : DmaSem sig := 33
abbrev cc5_sem0_1 : DmaSem sig := 34
abbrev cc5_sem1_0 : DmaSem sig := 35
abbrev cc5_sem2_0 : DmaSem sig := 36
abbrev cc5_sem2_1 : DmaSem sig := 37
abbrev cc6_sem0_0 : DmaSem sig := 38
abbrev cc6_sem0_1 : DmaSem sig := 39
abbrev cc6_sem1_0 : DmaSem sig := 40
abbrev cc6_sem2_0 : DmaSem sig := 41
abbrev cc6_sem3_0 : DmaSem sig := 42
abbrev cc7_sem0_0 : DmaSem sig := 43
abbrev cc7_sem0_1 : DmaSem sig := 44
abbrev cc7_sem1_0 : DmaSem sig := 45
abbrev cc7_sem2_0 : DmaSem sig := 46
abbrev cc7_sem3_0 : DmaSem sig := 47
abbrev cc7_sem4_0 : DmaSem sig := 48
abbrev cc7_sem5_0 : DmaSem sig := 49
abbrev cc7_sem6_0 : DmaSem sig := 50
abbrev cc7_sem6_1 : DmaSem sig := 51

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S10000x64 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x64 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S10000x64 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S64x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S10000x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 2 → Memref sig .tc .vmem S10000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S1x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x64 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x64 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_6 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S10000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x64 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x64 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x64 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x64 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 1 → Memref sig .tc .vmem S1x64 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev stage7_6 : Fin 2 → Memref sig .tc .vmem S10000x64 .f32 := fun | 0 => Memref.whole cc7_stg6_0 | 1 => Memref.whole cc7_stg6_1 | ⟨_ + 2, h⟩ => absurd h (Nat.not_lt.2 (Nat.le_add_left _ _))
abbrev sem7_6 : Fin 2 → DmaSem sig := fun | 0 => cc7_sem6_0 | 1 => cc7_sem6_1 | ⟨_ + 2, h⟩ => absurd h (Nat.not_lt.2 (Nat.le_add_left _ _))
abbrev reads7_6 : Fin grid7.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  inb_S10000x128_S10000x128_0_0 : ∀ a, (![0, 0] : Fin 2 → Nat) a + S10000x128.size a ≤ S10000x128.size a
  h_S10000x128 : 0 < S10000x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  reduces_S10000x128_S128 : S10000x128.Reduces [0] S128
  shapeCasts_S128_S1x128 : S128.ShapeCasts S1x128
  shapeCasts_S1x128_S128 : S1x128.ShapeCasts S128
  bcast_S_S128 : S_.BroadcastsInDim S128 (![] : Fin 0 → Fin S128.rank)
  shapeCasts_S64_S1x64 : S64.ShapeCasts S1x64
  broadcasts_S1x128_S10000x128 : S1x128.Broadcasts S10000x128
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  bitsLt_bf16_f32 : FTy.bits .bf16 < FTy.bits .f32
  broadcasts_S1x64_S10000x64 : S1x64.Broadcasts S10000x64
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S64x64_S64x64_0_0 : ∀ a, (![0, 0] : Fin 2 → Nat) a + S64x64.size a ≤ S64x64.size a
  h_S64x64 : 0 < S64x64.numel
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  reduces_S10000x64_S64 : S10000x64.Reduces [0] S64
  shapeCasts_S1x64_S64 : S1x64.ShapeCasts S64
  bcast_S_S64 : S_.BroadcastsInDim S64 (![] : Fin 0 → Fin S64.rank)
  dot_S10000x128_S128x64_S10000x64_1_0_0_1_n_n_wf : DotDims.WF S10000x128 S128x64 S10000x64 [1] [0] [0] [1] [] []
  dot_S10000x64_S64x64_S10000x64_1_0_0_1_n_n_wf : DotDims.WF S10000x64 S64x64 S10000x64 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x128.size a ≤ S1x128.size a
  hwx0_1 : ∀ i : grid0.Coords, EltTy.bits .f32 = 32 ∨ (Rect.block (s := S1x128) S1x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x64.size a ≤ S128x64.size a
  hwx1_5 : ∀ i : grid1.Coords, EltTy.bits .f32 = 32 ∨ (Rect.block (s := S128x64) S128x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64.size a ≤ S1x64.size a
  hwx1_6 : ∀ i : grid1.Coords, EltTy.bits .f32 = 32 ∨ (Rect.block (s := S1x64) S1x64.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S10000x64.size a ≤ S100000x64.size a
  hwx1_7 : ∀ i : grid1.Coords, EltTy.bits .f32 = 32 ∨ (Rect.block (s := S100000x64) S10000x64.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x64.size a ≤ S100000x64.size a
  hwx2_2 : ∀ i : grid2.Coords, EltTy.bits .f32 = 32 ∨ (Rect.block (s := S100000x64) S10000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x64.size a ≤ S100000x64.size a
  hwx4_0 : ∀ i : grid4.Coords, EltTy.bits .f32 = 32 ∨ (Rect.block (s := S100000x64) S10000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x64.size a ≤ S1x64.size a
  hwx4_1 : ∀ i : grid4.Coords, EltTy.bits .f32 = 32 ∨ (Rect.block (s := S1x64) S1x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x64.size a ≤ S1x64.size a
  hwx4_2 : ∀ i : grid4.Coords, EltTy.bits .f32 = 32 ∨ (Rect.block (s := S1x64) S1x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x64.size a ≤ S1x64.size a
  hwx4_3 : ∀ i : grid4.Coords, EltTy.bits .f32 = 32 ∨ (Rect.block (s := S1x64) S1x64.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x64.size a ≤ S1x64.size a
  hwx4_4 : ∀ i : grid4.Coords, EltTy.bits .f32 = 32 ∨ (Rect.block (s := S1x64) S1x64.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x64.size a ≤ S1x64.size a
  hwx4_5 : ∀ i : grid4.Coords, EltTy.bits .f32 = 32 ∨ (Rect.block (s := S1x64) S1x64.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S10000x64.size a ≤ S100000x64.size a
  hwx4_6 : ∀ i : grid4.Coords, EltTy.bits .f32 = 32 ∨ (Rect.block (s := S100000x64) S10000x64.size (cc4_transform_6 i) (hinb4_6 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x64.size a ≤ S100000x64.size a
  hwx5_0 : ∀ i : grid5.Coords, EltTy.bits .f32 = 32 ∨ (Rect.block (s := S100000x64) S10000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S64x64.size a ≤ S64x64.size a
  hwx5_1 : ∀ i : grid5.Coords, EltTy.bits .f32 = 32 ∨ (Rect.block (s := S64x64) S64x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S10000x64.size a ≤ S100000x64.size a
  hwx5_2 : ∀ i : grid5.Coords, EltTy.bits .f32 = 32 ∨ (Rect.block (s := S100000x64) S10000x64.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S10000x64.size a ≤ S100000x64.size a
  hwx6_0 : ∀ i : grid6.Coords, EltTy.bits .f32 = 32 ∨ (Rect.block (s := S100000x64) S10000x64.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S1x64.size a ≤ S1x64.size a
  hwx6_1 : ∀ i : grid6.Coords, EltTy.bits .f32 = 32 ∨ (Rect.block (s := S1x64) S1x64.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x64.size a ≤ S1x64.size a
  hwx6_2 : ∀ i : grid6.Coords, EltTy.bits .f32 = 32 ∨ (Rect.block (s := S1x64) S1x64.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x64.size a ≤ S1x64.size a
  hwx6_3 : ∀ i : grid6.Coords, EltTy.bits .f32 = 32 ∨ (Rect.block (s := S1x64) S1x64.size (cc6_transform_3 i) (hinb6_3 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S10000x64.size a ≤ S100000x64.size a
  hwx7_0 : ∀ i : grid7.Coords, EltTy.bits .f32 = 32 ∨ (Rect.block (s := S100000x64) S10000x64.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x64.size a ≤ S1x64.size a
  hwx7_1 : ∀ i : grid7.Coords, EltTy.bits .f32 = 32 ∨ (Rect.block (s := S1x64) S1x64.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x64.size a ≤ S1x64.size a
  hwx7_2 : ∀ i : grid7.Coords, EltTy.bits .f32 = 32 ∨ (Rect.block (s := S1x64) S1x64.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x64.size a ≤ S1x64.size a
  hwx7_3 : ∀ i : grid7.Coords, EltTy.bits .f32 = 32 ∨ (Rect.block (s := S1x64) S1x64.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x64.size a ≤ S1x64.size a
  hwx7_4 : ∀ i : grid7.Coords, EltTy.bits .f32 = 32 ∨ (Rect.block (s := S1x64) S1x64.size (cc7_transform_4 i) (hinb7_4 i)).WholeWords (EltTy.packing .f32)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S1x64.size a ≤ S1x64.size a
  hwx7_5 : ∀ i : grid7.Coords, EltTy.bits .f32 = 32 ∨ (Rect.block (s := S1x64) S1x64.size (cc7_transform_5 i) (hinb7_5 i)).WholeWords (EltTy.packing .f32)
  hstage7_6 : ∀ j, (stage7_6 j).IsWhole
  nbuf7_6 : grid7.bufCount reads7_6 false = 2
  hreads7_6 : ∀ i i' : grid7.Coords, (∀ a, reads7_6 a = true → i a = i' a) → cc7_transform_6 i = cc7_transform_6 i'
  hinb7_6 : ∀ (i : grid7.Coords) a, (cc7_transform_6 i a + 1) * S10000x64.size a ≤ S100000x64.size a
  hwx7_6 : ∀ i : grid7.Coords, EltTy.bits .f32 = 32 ∨ (Rect.block (s := S100000x64) S10000x64.size (cc7_transform_6 i) (hinb7_6 i)).WholeWords (EltTy.packing .f32)

variable [Facts₀]

def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4_0) S1x128.size cc0_transform_1 reads0_1 true true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4_1) S1x128.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v13) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v14) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v15) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v16) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg4) S128x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v17) S1x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v18) S10000x64.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v18) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v19) S10000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v58) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v59) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v60_0) S1x64.size cc3_transform_2 reads3_2 true true 1 stage3_2 sem3_2
    hrank3 hreads3_2 hinb3_2 nbuf3_2 (Memref.isWhole_whole _) hwx3_2 hstage3_2

abbrev win3_3 : Pipeline.Window sig grid3 :=
  Pipeline.Window.ofSpec (Memref.whole main_v60_1) S1x64.size cc3_transform_3 reads3_3 true true 1 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v58) S10000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v69) S1x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v70) S1x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v71) S1x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v72) S1x64.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v73) S1x64.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v74) S10000x64.size cc4_transform_6 reads4_6 true false 2 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

abbrev win5_0 : Pipeline.Window sig grid5 :=
  Pipeline.Window.ofSpec (Memref.whole main_v74) S10000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg10) S64x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v75) S10000x64.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v114) S10000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v115) S1x64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v116_0) S1x64.size cc6_transform_2 reads6_2 true true 1 stage6_2 sem6_2
    hrank6 hreads6_2 hinb6_2 nbuf6_2 (Memref.isWhole_whole _) hwx6_2 hstage6_2

abbrev win6_3 : Pipeline.Window sig grid6 :=
  Pipeline.Window.ofSpec (Memref.whole main_v116_1) S1x64.size cc6_transform_3 reads6_3 true true 1 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev win7_0 : Pipeline.Window sig grid7 :=
  Pipeline.Window.ofSpec (Memref.whole main_v114) S10000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v125) S1x64.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v126) S1x64.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v127) S1x64.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v128) S1x64.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v129) S1x64.size cc7_transform_5 reads7_5 false true 1 stage7_5 sem7_5
    hrank7 hreads7_5 hinb7_5 nbuf7_5 (Memref.isWhole_whole _) hwx7_5 hstage7_5

abbrev win7_6 : Pipeline.Window sig grid7 :=
  Pipeline.Window.ofSpec (Memref.whole main_v130) S10000x64.size cc7_transform_6 reads7_6 true false 2 stage7_6 sem7_6
    hrank7 hreads7_6 hinb7_6 nbuf7_6 (Memref.isWhole_whole _) hwx7_6 hstage7_6

abbrev win7 : Fin 7 → Pipeline.Window sig grid7 := fun | 0 => win7_0 | 1 => win7_1 | 2 => win7_2 | 3 => win7_3 | 4 => win7_4 | 5 => win7_5 | 6 => win7_6 | ⟨_ + 7, h⟩ => absurd h (Nat.not_lt.2 (Nat.le_add_left _ _))
abbrev spec7 : Fin 7 → Pipeline.WinSpec sig grid7.rank := fun w => (win7 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128 : Shape := ⟨1, ![128]⟩
abbrev S128x64 : Shape := ⟨2, ![128, 64]⟩
abbrev S64 : Shape := ⟨1, ![64]⟩
abbrev S64x64 : Shape := ⟨2, ![64, 64]⟩
abbrev S1x1600000 : Shape := ⟨2, ![1, 1600000]⟩
abbrev S1600000 : Shape := ⟨1, ![1600000]⟩
abbrev S_ : Shape := ⟨0, ![]⟩
abbrev S1x128 : Shape := ⟨2, ![1, 128]⟩
abbrev S100000x64 : Shape := ⟨2, ![100000, 64]⟩
abbrev S1x64 : Shape := ⟨2, ![1, 64]⟩
abbrev S100000 : Shape := ⟨1, ![100000]⟩
abbrev S1700000 : Shape := ⟨1, ![1700000]⟩
abbrev S1700000x1 : Shape := ⟨2, ![1700000, 1]⟩
abbrev S1700000x64 : Shape := ⟨2, ![1700000, 64]⟩

abbrev nBuf : Space → Nat
  | .hbm => 274
  | .vmem => 0
  | .smem => 0
  | _ => 0

abbrev hbmTy0_0 (i : Nat) : BufTy := match i % 128 with
  | 0 => ⟨S100000x128, .f32⟩
  | 1 => ⟨S2x1600000, .i32⟩
  | 2 => ⟨S128, .f32⟩
  | 3 => ⟨S128, .f32⟩
  | 4 => ⟨S128x64, .f32⟩
  | 5 => ⟨S64, .f32⟩
  | 6 => ⟨S64x64, .f32⟩
  | 7 => ⟨S64, .f32⟩
  | 8 => ⟨S64, .f32⟩
  | 9 => ⟨S64, .f32⟩
  | 10 => ⟨S64x64, .f32⟩
  | 11 => ⟨S64, .f32⟩
  | 12 => ⟨S64, .f32⟩
  | 13 => ⟨S64, .f32⟩
  | 14 => ⟨S1x1600000, .i32⟩
  | 15 => ⟨S1600000, .i32⟩
  | 16 => ⟨S1x1600000, .i32⟩
  | 17 => ⟨S1600000, .i32⟩
  | 18 => ⟨S_, .f32⟩
  | 19 => ⟨S128, .f32⟩
  | 20 => ⟨S_, .f32⟩
  | 21 => ⟨S128, .f32⟩
  | 22 => ⟨S128, .f32⟩
  | 23 => ⟨S_, .i32⟩
  | 24 => ⟨S_, .f32⟩
  | 25 => ⟨S128, .f32⟩
  | 26 => ⟨S1x128, .f32⟩
  | 27 => ⟨S_, .f32⟩
  | 28 => ⟨S1x128, .f32⟩
  | 29 => ⟨S1x128, .f32⟩
  | 30 => ⟨S100000x128, .f32⟩
  | 31 => ⟨S100000x128, .f32⟩
  | 32 => ⟨S100000x128, .f32⟩
  | 33 => ⟨S_, .f32⟩
  | 34 => ⟨S_, .f32⟩
  | 35 => ⟨S_, .f32⟩
  | 36 => ⟨S_, .f32⟩
  | 37 => ⟨S128, .f32⟩
  | 38 => ⟨S128, .f32⟩
  | 39 => ⟨S128, .f32⟩
  | 40 => ⟨S_, .f32⟩
  | 41 => ⟨S_, .i1⟩
  | 42 => ⟨S_, .f32⟩
  | 43 => ⟨S_, .f32⟩
  | 44 => ⟨S128, .f32⟩
  | 45 => ⟨S128, .f32⟩
  | 46 => ⟨S1x128, .f32⟩
  | 47 => ⟨S100000x128, .f32⟩
  | 48 => ⟨S100000x128, .f32⟩
  | 49 => ⟨S_, .f32⟩
  | 50 => ⟨S128, .f32⟩
  | 51 => ⟨S128, .f32⟩
  | 52 => ⟨S128, .f32⟩
  | 53 => ⟨S1x128, .f32⟩
  | 54 => ⟨S100000x128, .f32⟩
  | 55 => ⟨S100000x128, .f32⟩
  | 56 => ⟨S1x128, .f32⟩
  | 57 => ⟨S100000x128, .f32⟩
  | 58 => ⟨S100000x128, .f32⟩
  | 59 => ⟨S1x128, .f32⟩
  | 60 => ⟨S100000x128, .f32⟩
  | 61 => ⟨S100000x128, .f32⟩
  | 62 => ⟨S100000x64, .f32⟩
  | 63 => ⟨S1x64, .f32⟩
  | 64 => ⟨S100000x64, .f32⟩
  | 65 => ⟨S100000x64, .f32⟩
  | 66 => ⟨S_, .f32⟩
  | 67 => ⟨S100000x64, .f32⟩
  | 68 => ⟨S100000x64, .f32⟩
  | 69 => ⟨S100000, .i32⟩
  | 70 => ⟨S1700000, .i32⟩
  | 71 => ⟨S1700000, .i32⟩
  | 72 => ⟨S_, .f32⟩
  | 73 => ⟨S1700000, .f32⟩
  | 74 => ⟨S_, .f32⟩
  | 75 => ⟨S100000, .f32⟩
  | 76 => ⟨S1700000x1, .i32⟩
  | 77 => ⟨S100000, .f32⟩
  | 78 => ⟨S_, .f32⟩
  | 79 => ⟨S100000, .f32⟩
  | 80 => ⟨S100000, .i1⟩
  | 81 => ⟨S100000, .f32⟩
  | 82 => ⟨S_, .f32⟩
  | 83 => ⟨S_, .f32⟩
  | 84 => ⟨S100000, .f32⟩
  | 85 => ⟨S100000, .f32⟩
  | 86 => ⟨S_, .i32⟩
  | 87 => ⟨S1700000, .i32⟩
  | 88 => ⟨S1700000, .i1⟩
  | 89 => ⟨S_, .i32⟩
  | 90 => ⟨S1700000, .i32⟩
  | 91 => ⟨S1700000, .i32⟩
  | 92 => ⟨S1700000, .i32⟩
  | 93 => ⟨S1700000x1, .i32⟩
  | 94 => ⟨S1700000, .f32⟩
  | 95 => ⟨S1700000, .f32⟩
  | 96 => ⟨S_, .i32⟩
  | 97 => ⟨S1700000, .i32⟩
  | 98 => ⟨S1700000, .i1⟩
  | 99 => ⟨S_, .i32⟩
  | 100 => ⟨S1700000, .i32⟩
  | 101 => ⟨S1700000, .i32⟩
  | 102 => ⟨S1700000, .i32⟩
  | 103 => ⟨S1700000x1, .i32⟩
  | 104 => ⟨S1700000, .f32⟩
  | 105 => ⟨S1700000, .f32⟩
  | 106 => ⟨S100000x64, .f32⟩
  | 107 => ⟨S_, .i32⟩
  | 108 => ⟨S1700000, .i32⟩
  | 109 => ⟨S1700000, .i1⟩
  | 110 => ⟨S_, .i32⟩
  | 111 => ⟨S1700000, .i32⟩
  | 112 => ⟨S1700000, .i32⟩
  | 113 => ⟨S1700000, .i32⟩
  | 114 => ⟨S1700000x1, .i32⟩
  | 115 => ⟨S1700000x64, .f32⟩
  | 116 => ⟨S1700000x1, .f32⟩
  | 117 => ⟨S1700000x64, .f32⟩
  | 118 => ⟨S1700000x64, .f32⟩
  | 119 => ⟨S_, .f32⟩
  | 120 => ⟨S100000x64, .f32⟩
  | 121 => ⟨S1700000x1, .i32⟩
  | 122 => ⟨S100000x64, .f32⟩
  | 123 => ⟨S1x64, .f32⟩
  | 124 => ⟨S100000x64, .f32⟩
  | 125 => ⟨S100000x64, .f32⟩
  | 126 => ⟨S_, .f32⟩
  | 127 => ⟨S64, .f32⟩
  | _ => ⟨S100000x128, .f32⟩

abbrev hbmTy0_1 (i : Nat) : BufTy := match i % 128 with
  | 0 => ⟨S_, .f32⟩
  | 1 => ⟨S64, .f32⟩
  | 2 => ⟨S64, .f32⟩
  | 3 => ⟨S_, .i32⟩
  | 4 => ⟨S_, .f32⟩
  | 5 => ⟨S64, .f32⟩
  | 6 => ⟨S1x64, .f32⟩
  | 7 => ⟨S_, .f32⟩
  | 8 => ⟨S1x64, .f32⟩
  | 9 => ⟨S1x64, .f32⟩
  | 10 => ⟨S100000x64, .f32⟩
  | 11 => ⟨S100000x64, .f32⟩
  | 12 => ⟨S100000x64, .f32⟩
  | 13 => ⟨S_, .f32⟩
  | 14 => ⟨S_, .f32⟩
  | 15 => ⟨S_, .f32⟩
  | 16 => ⟨S_, .f32⟩
  | 17 => ⟨S64, .f32⟩
  | 18 => ⟨S64, .f32⟩
  | 19 => ⟨S64, .f32⟩
  | 20 => ⟨S_, .f32⟩
  | 21 => ⟨S_, .i1⟩
  | 22 => ⟨S_, .f32⟩
  | 23 => ⟨S_, .f32⟩
  | 24 => ⟨S64, .f32⟩
  | 25 => ⟨S64, .f32⟩
  | 26 => ⟨S1x64, .f32⟩
  | 27 => ⟨S100000x64, .f32⟩
  | 28 => ⟨S100000x64, .f32⟩
  | 29 => ⟨S_, .f32⟩
  | 30 => ⟨S64, .f32⟩
  | 31 => ⟨S64, .f32⟩
  | 32 => ⟨S64, .f32⟩
  | 33 => ⟨S1x64, .f32⟩
  | 34 => ⟨S100000x64, .f32⟩
  | 35 => ⟨S100000x64, .f32⟩
  | 36 => ⟨S1x64, .f32⟩
  | 37 => ⟨S100000x64, .f32⟩
  | 38 => ⟨S100000x64, .f32⟩
  | 39 => ⟨S1x64, .f32⟩
  | 40 => ⟨S100000x64, .f32⟩
  | 41 => ⟨S100000x64, .f32⟩
  | 42 => ⟨S_, .f32⟩
  | 43 => ⟨S100000x64, .f32⟩
  | 44 => ⟨S100000x64, .f32⟩
  | 45 => ⟨S100000, .i32⟩
  | 46 => ⟨S1700000, .i32⟩
  | 47 => ⟨S1700000, .i32⟩
  | 48 => ⟨S_, .f32⟩
  | 49 => ⟨S1700000, .f32⟩
  | 50 => ⟨S_, .f32⟩
  | 51 => ⟨S100000, .f32⟩
  | 52 => ⟨S1700000x1, .i32⟩
  | 53 => ⟨S100000, .f32⟩
  | 54 => ⟨S_, .f32⟩
  | 55 => ⟨S100000, .f32⟩
  | 56 => ⟨S100000, .i1⟩
  | 57 => ⟨S100000, .f32⟩
  | 58 => ⟨S_, .f32⟩
  | 59 => ⟨S_, .f32⟩
  | 60 => ⟨S100000, .f32⟩
  | 61 => ⟨S100000, .f32⟩
  | 62 => ⟨S_, .i32⟩
  | 63 => ⟨S1700000, .i32⟩
  | 64 => ⟨S1700000, .i1⟩
  | 65 => ⟨S_, .i32⟩
  | 66 => ⟨S1700000, .i32⟩
  | 67 => ⟨S1700000, .i32⟩
  | 68 => ⟨S1700000, .i32⟩
  | 69 => ⟨S1700000x1, .i32⟩
  | 70 => ⟨S1700000, .f32⟩
  | 71 => ⟨S1700000, .f32⟩
  | 72 => ⟨S_, .i32⟩
  | 73 => ⟨S1700000, .i32⟩
  | 74 => ⟨S1700000, .i1⟩
  | 75 => ⟨S_, .i32⟩
  | 76 => ⟨S1700000, .i32⟩
  | 77 => ⟨S1700000, .i32⟩
  | 78 => ⟨S1700000, .i32⟩
  | 79 => ⟨S1700000x1, .i32⟩
  | 80 => ⟨S1700000, .f32⟩
  | 81 => ⟨S1700000, .f32⟩
  | 82 => ⟨S100000x64, .f32⟩
  | 83 => ⟨S_, .i32⟩
  | 84 => ⟨S1700000, .i32⟩
  | 85 => ⟨S1700000, .i1⟩
  | 86 => ⟨S_, .i32⟩
  | 87 => ⟨S1700000, .i32⟩
  | 88 => ⟨S1700000, .i32⟩
  | 89 => ⟨S1700000, .i32⟩
  | 90 => ⟨S1700000x1, .i32⟩
  | 91 => ⟨S1700000x64, .f32⟩
  | 92 => ⟨S1700000x1, .f32⟩
  | 93 => ⟨S1700000x64, .f32⟩
  | 94 => ⟨S1700000x64, .f32⟩
  | 95 => ⟨S_, .f32⟩
  | 96 => ⟨S100000x64, .f32⟩
  | 97 => ⟨S1700000x1, .i32⟩
  | 98 => ⟨S100000x64, .f32⟩
  | 99 => ⟨S1x64, .f32⟩
  | 100 => ⟨S100000x64, .f32⟩
  | 101 => ⟨S100000x64, .f32⟩
  | 102 => ⟨S_, .f32⟩
  | 103 => ⟨S64, .f32⟩
  | 104 => ⟨S_, .f32⟩
  | 105 => ⟨S64, .f32⟩
  | 106 => ⟨S64, .f32⟩
  | 107 => ⟨S_, .i32⟩
  | 108 => ⟨S_, .f32⟩
  | 109 => ⟨S64, .f32⟩
  | 110 => ⟨S1x64, .f32⟩
  | 111 => ⟨S_, .f32⟩
  | 112 => ⟨S1x64, .f32⟩
  | 113 => ⟨S1x64, .f32⟩
  | 114 => ⟨S100000x64, .f32⟩
  | 115 => ⟨S100000x64, .f32⟩
  | 116 => ⟨S100000x64, .f32⟩
  | 117 => ⟨S_, .f32⟩
  | 118 => ⟨S_, .f32⟩
  | 119 => ⟨S_, .f32⟩
  | 120 => ⟨S_, .f32⟩
  | 121 => ⟨S64, .f32⟩
  | 122 => ⟨S64, .f32⟩
  | 123 => ⟨S64, .f32⟩
  | 124 => ⟨S_, .f32⟩
  | 125 => ⟨S_, .i1⟩
  | 126 => ⟨S_, .f32⟩
  | 127 => ⟨S_, .f32⟩
  | _ => ⟨S100000x128, .f32⟩

abbrev hbmTy0_2 (i : Nat) : BufTy := match i % 128 with
  | 0 => ⟨S64, .f32⟩
  | 1 => ⟨S64, .f32⟩
  | 2 => ⟨S1x64, .f32⟩
  | 3 => ⟨S100000x64, .f32⟩
  | 4 => ⟨S100000x64, .f32⟩
  | 5 => ⟨S_, .f32⟩
  | 6 => ⟨S64, .f32⟩
  | 7 => ⟨S64, .f32⟩
  | 8 => ⟨S64, .f32⟩
  | 9 => ⟨S1x64, .f32⟩
  | 10 => ⟨S100000x64, .f32⟩
  | 11 => ⟨S100000x64, .f32⟩
  | 12 => ⟨S1x64, .f32⟩
  | 13 => ⟨S100000x64, .f32⟩
  | 14 => ⟨S100000x64, .f32⟩
  | 15 => ⟨S1x64, .f32⟩
  | 16 => ⟨S100000x64, .f32⟩
  | 17 => ⟨S100000x64, .f32⟩
  | _ => ⟨S100000x128, .f32⟩

abbrev hbmTy (i : Nat) : BufTy := match i / 128 with
  | 0 => hbmTy0_0 i
  | 1 => hbmTy0_1 i
  | 2 => hbmTy0_2 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst : Ref sig .tc := ⟨.hbm, 18, rfl⟩
abbrev main_v4 : Ref sig .tc := ⟨.hbm, 19, rfl⟩
abbrev main_cst_0 : Ref sig .tc := ⟨.hbm, 20, rfl⟩
abbrev main_v5 : Ref sig .tc := ⟨.hbm, 21, rfl⟩
abbrev main_v6 : Ref sig .tc := ⟨.hbm, 22, rfl⟩
abbrev main_c : Ref sig .tc := ⟨.hbm, 23, rfl⟩
abbrev main_call0_cst : Ref sig .tc := ⟨.hbm, 24, rfl⟩
abbrev main_call0_v0 : Ref sig .tc := ⟨.hbm, 25, rfl⟩
abbrev main_call0_v1 : Ref sig .tc := ⟨.hbm, 26, rfl⟩
abbrev main_call0_cst_0 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_call0_v5 : Ref sig .tc := ⟨.hbm, 31, rfl⟩
abbrev main_call0_v6 : Ref sig .tc := ⟨.hbm, 32, rfl⟩
abbrev main_call0_v7 : Ref sig .tc := ⟨.hbm, 33, rfl⟩
abbrev main_call0_cst_1 : Ref sig .tc := ⟨.hbm, 34, rfl⟩
abbrev main_call0_v8 : Ref sig .tc := ⟨.hbm, 35, rfl⟩
abbrev main_call0_cst_2 : Ref sig .tc := ⟨.hbm, 36, rfl⟩
abbrev main_call0_v9 : Ref sig .tc := ⟨.hbm, 37, rfl⟩
abbrev main_call0_v10 : Ref sig .tc := ⟨.hbm, 38, rfl⟩
abbrev main_call0_v11 : Ref sig .tc := ⟨.hbm, 39, rfl⟩
abbrev main_call0_cst_3 : Ref sig .tc := ⟨.hbm, 40, rfl⟩
abbrev main_call0_v12 : Ref sig .tc := ⟨.hbm, 41, rfl⟩
abbrev main_call0_cst_4 : Ref sig .tc := ⟨.hbm, 42, rfl⟩
abbrev main_call0_call0_v0 : Ref sig .tc := ⟨.hbm, 43, rfl⟩
abbrev main_call0_call0_v1 : Ref sig .tc := ⟨.hbm, 44, rfl⟩
abbrev main_v7 : Ref sig .tc := ⟨.hbm, 45, rfl⟩
abbrev main_v8 : Ref sig .tc := ⟨.hbm, 46, rfl⟩
abbrev main_v9 : Ref sig .tc := ⟨.hbm, 47, rfl⟩
abbrev main_v10 : Ref sig .tc := ⟨.hbm, 48, rfl⟩
abbrev main_cst_1 : Ref sig .tc := ⟨.hbm, 49, rfl⟩
abbrev main_v11 : Ref sig .tc := ⟨.hbm, 50, rfl⟩
abbrev main_v12 : Ref sig .tc := ⟨.hbm, 51, rfl⟩
abbrev main_v13 : Ref sig .tc := ⟨.hbm, 52, rfl⟩
abbrev main_v14 : Ref sig .tc := ⟨.hbm, 53, rfl⟩
abbrev main_v15 : Ref sig .tc := ⟨.hbm, 54, rfl⟩
abbrev main_v16 : Ref sig .tc := ⟨.hbm, 55, rfl⟩
abbrev main_v17 : Ref sig .tc := ⟨.hbm, 56, rfl⟩
abbrev main_v18 : Ref sig .tc := ⟨.hbm, 57, rfl⟩
abbrev main_v19 : Ref sig .tc := ⟨.hbm, 58, rfl⟩
abbrev main_v20 : Ref sig .tc := ⟨.hbm, 59, rfl⟩
abbrev main_v21 : Ref sig .tc := ⟨.hbm, 60, rfl⟩
abbrev main_v22 : Ref sig .tc := ⟨.hbm, 61, rfl⟩
abbrev main_v23 : Ref sig .tc := ⟨.hbm, 62, rfl⟩
abbrev main_v24 : Ref sig .tc := ⟨.hbm, 63, rfl⟩
abbrev main_v25 : Ref sig .tc := ⟨.hbm, 64, rfl⟩
abbrev main_v26 : Ref sig .tc := ⟨.hbm, 65, rfl⟩
abbrev main_call1_cst : Ref sig .tc := ⟨.hbm, 66, rfl⟩
abbrev main_call1_v0 : Ref sig .tc := ⟨.hbm, 67, rfl⟩
abbrev main_v27 : Ref sig .tc := ⟨.hbm, 68, rfl⟩
abbrev main_v28 : Ref sig .tc := ⟨.hbm, 69, rfl⟩
abbrev main_v29 : Ref sig .tc := ⟨.hbm, 70, rfl⟩
abbrev main_v30 : Ref sig .tc := ⟨.hbm, 71, rfl⟩
abbrev main_cst_2 : Ref sig .tc := ⟨.hbm, 72, rfl⟩
abbrev main_v31 : Ref sig .tc := ⟨.hbm, 73, rfl⟩
abbrev main_cst_3 : Ref sig .tc := ⟨.hbm, 74, rfl⟩
abbrev main_v32 : Ref sig .tc := ⟨.hbm, 75, rfl⟩
abbrev main_v33 : Ref sig .tc := ⟨.hbm, 76, rfl⟩
abbrev main_v34 : Ref sig .tc := ⟨.hbm, 77, rfl⟩
abbrev main_cst_4 : Ref sig .tc := ⟨.hbm, 78, rfl⟩
abbrev main_v35 : Ref sig .tc := ⟨.hbm, 79, rfl⟩
abbrev main_v36 : Ref sig .tc := ⟨.hbm, 80, rfl⟩
abbrev main_v37 : Ref sig .tc := ⟨.hbm, 81, rfl⟩
abbrev main_cst_5 : Ref sig .tc := ⟨.hbm, 82, rfl⟩
abbrev main_call2_v0 : Ref sig .tc := ⟨.hbm, 83, rfl⟩
abbrev main_call2_v1 : Ref sig .tc := ⟨.hbm, 84, rfl⟩
abbrev main_v38 : Ref sig .tc := ⟨.hbm, 85, rfl⟩
abbrev main_c_6 : Ref sig .tc := ⟨.hbm, 86, rfl⟩
abbrev main_v39 : Ref sig .tc := ⟨.hbm, 87, rfl⟩
abbrev main_v40 : Ref sig .tc := ⟨.hbm, 88, rfl⟩
abbrev main_c_7 : Ref sig .tc := ⟨.hbm, 89, rfl⟩
abbrev main_v41 : Ref sig .tc := ⟨.hbm, 90, rfl⟩
abbrev main_v42 : Ref sig .tc := ⟨.hbm, 91, rfl⟩
abbrev main_v43 : Ref sig .tc := ⟨.hbm, 92, rfl⟩
abbrev main_v44 : Ref sig .tc := ⟨.hbm, 93, rfl⟩
abbrev main_v45 : Ref sig .tc := ⟨.hbm, 94, rfl⟩
abbrev main_v46 : Ref sig .tc := ⟨.hbm, 95, rfl⟩
abbrev main_c_8 : Ref sig .tc := ⟨.hbm, 96, rfl⟩
abbrev main_v47 : Ref sig .tc := ⟨.hbm, 97, rfl⟩
abbrev main_v48 : Ref sig .tc := ⟨.hbm, 98, rfl⟩
abbrev main_c_9 : Ref sig .tc := ⟨.hbm, 99, rfl⟩
abbrev main_v49 : Ref sig .tc := ⟨.hbm, 100, rfl⟩
abbrev main_v50 : Ref sig .tc := ⟨.hbm, 101, rfl⟩
abbrev main_v51 : Ref sig .tc := ⟨.hbm, 102, rfl⟩
abbrev main_v52 : Ref sig .tc := ⟨.hbm, 103, rfl⟩
abbrev main_v53 : Ref sig .tc := ⟨.hbm, 104, rfl⟩
abbrev main_v54 : Ref sig .tc := ⟨.hbm, 105, rfl⟩
abbrev main_v55 : Ref sig .tc := ⟨.hbm, 106, rfl⟩
abbrev main_c_10 : Ref sig .tc := ⟨.hbm, 107, rfl⟩
abbrev main_v56 : Ref sig .tc := ⟨.hbm, 108, rfl⟩
abbrev main_v57 : Ref sig .tc := ⟨.hbm, 109, rfl⟩
abbrev main_c_11 : Ref sig .tc := ⟨.hbm, 110, rfl⟩
abbrev main_v58 : Ref sig .tc := ⟨.hbm, 111, rfl⟩
abbrev main_v59 : Ref sig .tc := ⟨.hbm, 112, rfl⟩
abbrev main_v60 : Ref sig .tc := ⟨.hbm, 113, rfl⟩
abbrev main_v61 : Ref sig .tc := ⟨.hbm, 114, rfl⟩
abbrev main_v62 : Ref sig .tc := ⟨.hbm, 115, rfl⟩
abbrev main_v63 : Ref sig .tc := ⟨.hbm, 116, rfl⟩
abbrev main_v64 : Ref sig .tc := ⟨.hbm, 117, rfl⟩
abbrev main_v65 : Ref sig .tc := ⟨.hbm, 118, rfl⟩
abbrev main_cst_12 : Ref sig .tc := ⟨.hbm, 119, rfl⟩
abbrev main_v66 : Ref sig .tc := ⟨.hbm, 120, rfl⟩
abbrev main_v67 : Ref sig .tc := ⟨.hbm, 121, rfl⟩
abbrev main_v68 : Ref sig .tc := ⟨.hbm, 122, rfl⟩
abbrev main_v69 : Ref sig .tc := ⟨.hbm, 123, rfl⟩
abbrev main_v70 : Ref sig .tc := ⟨.hbm, 124, rfl⟩
abbrev main_v71 : Ref sig .tc := ⟨.hbm, 125, rfl⟩
abbrev main_cst_13 : Ref sig .tc := ⟨.hbm, 126, rfl⟩
abbrev main_v72 : Ref sig .tc := ⟨.hbm, 127, rfl⟩
abbrev main_cst_14 : Ref sig .tc := ⟨.hbm, 128, rfl⟩
abbrev main_v73 : Ref sig .tc := ⟨.hbm, 129, rfl⟩
abbrev main_v74 : Ref sig .tc := ⟨.hbm, 130, rfl⟩
abbrev main_c_15 : Ref sig .tc := ⟨.hbm, 131, rfl⟩
abbrev main_call3_cst : Ref sig .tc := ⟨.hbm, 132, rfl⟩
abbrev main_call3_v0 : Ref sig .tc := ⟨.hbm, 133, rfl⟩
abbrev main_call3_v1 : Ref sig .tc := ⟨.hbm, 134, rfl⟩
abbrev main_call3_cst_0 : Ref sig .tc := ⟨.hbm, 135, rfl⟩
abbrev main_call3_v2 : Ref sig .tc := ⟨.hbm, 136, rfl⟩
abbrev main_call3_v3 : Ref sig .tc := ⟨.hbm, 137, rfl⟩
abbrev main_call3_v4 : Ref sig .tc := ⟨.hbm, 138, rfl⟩
abbrev main_call3_v5 : Ref sig .tc := ⟨.hbm, 139, rfl⟩
abbrev main_call3_v6 : Ref sig .tc := ⟨.hbm, 140, rfl⟩
abbrev main_call3_v7 : Ref sig .tc := ⟨.hbm, 141, rfl⟩
abbrev main_call3_cst_1 : Ref sig .tc := ⟨.hbm, 142, rfl⟩
abbrev main_call3_v8 : Ref sig .tc := ⟨.hbm, 143, rfl⟩
abbrev main_call3_cst_2 : Ref sig .tc := ⟨.hbm, 144, rfl⟩
abbrev main_call3_v9 : Ref sig .tc := ⟨.hbm, 145, rfl⟩
abbrev main_call3_v10 : Ref sig .tc := ⟨.hbm, 146, rfl⟩
abbrev main_call3_v11 : Ref sig .tc := ⟨.hbm, 147, rfl⟩
abbrev main_call3_cst_3 : Ref sig .tc := ⟨.hbm, 148, rfl⟩
abbrev main_call3_v12 : Ref sig .tc := ⟨.hbm, 149, rfl⟩
abbrev main_call3_cst_4 : Ref sig .tc := ⟨.hbm, 150, rfl⟩
abbrev main_call3_call0_v0 : Ref sig .tc := ⟨.hbm, 151, rfl⟩
abbrev main_call3_call0_v1 : Ref sig .tc := ⟨.hbm, 152, rfl⟩
abbrev main_v75 : Ref sig .tc := ⟨.hbm, 153, rfl⟩
abbrev main_v76 : Ref sig .tc := ⟨.hbm, 154, rfl⟩
abbrev main_v77 : Ref sig .tc := ⟨.hbm, 155, rfl⟩
abbrev main_v78 : Ref sig .tc := ⟨.hbm, 156, rfl⟩
abbrev main_cst_16 : Ref sig .tc := ⟨.hbm, 157, rfl⟩
abbrev main_v79 : Ref sig .tc := ⟨.hbm, 158, rfl⟩
abbrev main_v80 : Ref sig .tc := ⟨.hbm, 159, rfl⟩
abbrev main_v81 : Ref sig .tc := ⟨.hbm, 160, rfl⟩
abbrev main_v82 : Ref sig .tc := ⟨.hbm, 161, rfl⟩
abbrev main_v83 : Ref sig .tc := ⟨.hbm, 162, rfl⟩
abbrev main_v84 : Ref sig .tc := ⟨.hbm, 163, rfl⟩
abbrev main_v85 : Ref sig .tc := ⟨.hbm, 164, rfl⟩
abbrev main_v86 : Ref sig .tc := ⟨.hbm, 165, rfl⟩
abbrev main_v87 : Ref sig .tc := ⟨.hbm, 166, rfl⟩
abbrev main_v88 : Ref sig .tc := ⟨.hbm, 167, rfl⟩
abbrev main_v89 : Ref sig .tc := ⟨.hbm, 168, rfl⟩
abbrev main_v90 : Ref sig .tc := ⟨.hbm, 169, rfl⟩
abbrev main_call4_cst : Ref sig .tc := ⟨.hbm, 170, rfl⟩
abbrev main_call4_v0 : Ref sig .tc := ⟨.hbm, 171, rfl⟩
abbrev main_v91 : Ref sig .tc := ⟨.hbm, 172, rfl⟩
abbrev main_v92 : Ref sig .tc := ⟨.hbm, 173, rfl⟩
abbrev main_v93 : Ref sig .tc := ⟨.hbm, 174, rfl⟩
abbrev main_v94 : Ref sig .tc := ⟨.hbm, 175, rfl⟩
abbrev main_cst_17 : Ref sig .tc := ⟨.hbm, 176, rfl⟩
abbrev main_v95 : Ref sig .tc := ⟨.hbm, 177, rfl⟩
abbrev main_cst_18 : Ref sig .tc := ⟨.hbm, 178, rfl⟩
abbrev main_v96 : Ref sig .tc := ⟨.hbm, 179, rfl⟩
abbrev main_v97 : Ref sig .tc := ⟨.hbm, 180, rfl⟩
abbrev main_v98 : Ref sig .tc := ⟨.hbm, 181, rfl⟩
abbrev main_cst_19 : Ref sig .tc := ⟨.hbm, 182, rfl⟩
abbrev main_v99 : Ref sig .tc := ⟨.hbm, 183, rfl⟩
abbrev main_v100 : Ref sig .tc := ⟨.hbm, 184, rfl⟩
abbrev main_v101 : Ref sig .tc := ⟨.hbm, 185, rfl⟩
abbrev main_cst_20 : Ref sig .tc := ⟨.hbm, 186, rfl⟩
abbrev main_call5_v0 : Ref sig .tc := ⟨.hbm, 187, rfl⟩
abbrev main_call5_v1 : Ref sig .tc := ⟨.hbm, 188, rfl⟩
abbrev main_v102 : Ref sig .tc := ⟨.hbm, 189, rfl⟩
abbrev main_c_21 : Ref sig .tc := ⟨.hbm, 190, rfl⟩
abbrev main_v103 : Ref sig .tc := ⟨.hbm, 191, rfl⟩
abbrev main_v104 : Ref sig .tc := ⟨.hbm, 192, rfl⟩
abbrev main_c_22 : Ref sig .tc := ⟨.hbm, 193, rfl⟩
abbrev main_v105 : Ref sig .tc := ⟨.hbm, 194, rfl⟩
abbrev main_v106 : Ref sig .tc := ⟨.hbm, 195, rfl⟩
abbrev main_v107 : Ref sig .tc := ⟨.hbm, 196, rfl⟩
abbrev main_v108 : Ref sig .tc := ⟨.hbm, 197, rfl⟩
abbrev main_v109 : Ref sig .tc := ⟨.hbm, 198, rfl⟩
abbrev main_v110 : Ref sig .tc := ⟨.hbm, 199, rfl⟩
abbrev main_c_23 : Ref sig .tc := ⟨.hbm, 200, rfl⟩
abbrev main_v111 : Ref sig .tc := ⟨.hbm, 201, rfl⟩
abbrev main_v112 : Ref sig .tc := ⟨.hbm, 202, rfl⟩
abbrev main_c_24 : Ref sig .tc := ⟨.hbm, 203, rfl⟩
abbrev main_v113 : Ref sig .tc := ⟨.hbm, 204, rfl⟩
abbrev main_v114 : Ref sig .tc := ⟨.hbm, 205, rfl⟩
abbrev main_v115 : Ref sig .tc := ⟨.hbm, 206, rfl⟩
abbrev main_v116 : Ref sig .tc := ⟨.hbm, 207, rfl⟩
abbrev main_v117 : Ref sig .tc := ⟨.hbm, 208, rfl⟩
abbrev main_v118 : Ref sig .tc := ⟨.hbm, 209, rfl⟩
abbrev main_v119 : Ref sig .tc := ⟨.hbm, 210, rfl⟩
abbrev main_c_25 : Ref sig .tc := ⟨.hbm, 211, rfl⟩
abbrev main_v120 : Ref sig .tc := ⟨.hbm, 212, rfl⟩
abbrev main_v121 : Ref sig .tc := ⟨.hbm, 213, rfl⟩
abbrev main_c_26 : Ref sig .tc := ⟨.hbm, 214, rfl⟩
abbrev main_v122 : Ref sig .tc := ⟨.hbm, 215, rfl⟩
abbrev main_v123 : Ref sig .tc := ⟨.hbm, 216, rfl⟩
abbrev main_v124 : Ref sig .tc := ⟨.hbm, 217, rfl⟩
abbrev main_v125 : Ref sig .tc := ⟨.hbm, 218, rfl⟩
abbrev main_v126 : Ref sig .tc := ⟨.hbm, 219, rfl⟩
abbrev main_v127 : Ref sig .tc := ⟨.hbm, 220, rfl⟩
abbrev main_v128 : Ref sig .tc := ⟨.hbm, 221, rfl⟩
abbrev main_v129 : Ref sig .tc := ⟨.hbm, 222, rfl⟩
abbrev main_cst_27 : Ref sig .tc := ⟨.hbm, 223, rfl⟩
abbrev main_v130 : Ref sig .tc := ⟨.hbm, 224, rfl⟩
abbrev main_v131 : Ref sig .tc := ⟨.hbm, 225, rfl⟩
abbrev main_v132 : Ref sig .tc := ⟨.hbm, 226, rfl⟩
abbrev main_v133 : Ref sig .tc := ⟨.hbm, 227, rfl⟩
abbrev main_v134 : Ref sig .tc := ⟨.hbm, 228, rfl⟩
abbrev main_v135 : Ref sig .tc := ⟨.hbm, 229, rfl⟩
abbrev main_cst_28 : Ref sig .tc := ⟨.hbm, 230, rfl⟩
abbrev main_v136 : Ref sig .tc := ⟨.hbm, 231, rfl⟩
abbrev main_cst_29 : Ref sig .tc := ⟨.hbm, 232, rfl⟩
abbrev main_v137 : Ref sig .tc := ⟨.hbm, 233, rfl⟩
abbrev main_v138 : Ref sig .tc := ⟨.hbm, 234, rfl⟩
abbrev main_c_30 : Ref sig .tc := ⟨.hbm, 235, rfl⟩
abbrev main_call6_cst : Ref sig .tc := ⟨.hbm, 236, rfl⟩
abbrev main_call6_v0 : Ref sig .tc := ⟨.hbm, 237, rfl⟩
abbrev main_call6_v1 : Ref sig .tc := ⟨.hbm, 238, rfl⟩
abbrev main_call6_cst_0 : Ref sig .tc := ⟨.hbm, 239, rfl⟩
abbrev main_call6_v2 : Ref sig .tc := ⟨.hbm, 240, rfl⟩
abbrev main_call6_v3 : Ref sig .tc := ⟨.hbm, 241, rfl⟩
abbrev main_call6_v4 : Ref sig .tc := ⟨.hbm, 242, rfl⟩
abbrev main_call6_v5 : Ref sig .tc := ⟨.hbm, 243, rfl⟩
abbrev main_call6_v6 : Ref sig .tc := ⟨.hbm, 244, rfl⟩
abbrev main_call6_v7 : Ref sig .tc := ⟨.hbm, 245, rfl⟩
abbrev main_call6_cst_1 : Ref sig .tc := ⟨.hbm, 246, rfl⟩
abbrev main_call6_v8 : Ref sig .tc := ⟨.hbm, 247, rfl⟩
abbrev main_call6_cst_2 : Ref sig .tc := ⟨.hbm, 248, rfl⟩
abbrev main_call6_v9 : Ref sig .tc := ⟨.hbm, 249, rfl⟩
abbrev main_call6_v10 : Ref sig .tc := ⟨.hbm, 250, rfl⟩
abbrev main_call6_v11 : Ref sig .tc := ⟨.hbm, 251, rfl⟩
abbrev main_call6_cst_3 : Ref sig .tc := ⟨.hbm, 252, rfl⟩
abbrev main_call6_v12 : Ref sig .tc := ⟨.hbm, 253, rfl⟩
abbrev main_call6_cst_4 : Ref sig .tc := ⟨.hbm, 254, rfl⟩
abbrev main_call6_call0_v0 : Ref sig .tc := ⟨.hbm, 255, rfl⟩
abbrev main_call6_call0_v1 : Ref sig .tc := ⟨.hbm, 256, rfl⟩
abbrev main_v139 : Ref sig .tc := ⟨.hbm, 257, rfl⟩
abbrev main_v140 : Ref sig .tc := ⟨.hbm, 258, rfl⟩
abbrev main_v141 : Ref sig .tc := ⟨.hbm, 259, rfl⟩
abbrev main_v142 : Ref sig .tc := ⟨.hbm, 260, rfl⟩
abbrev main_cst_31 : Ref sig .tc := ⟨.hbm, 261, rfl⟩
abbrev main_v143 : Ref sig .tc := ⟨.hbm, 262, rfl⟩
abbrev main_v144 : Ref sig .tc := ⟨.hbm, 263, rfl⟩
abbrev main_v145 : Ref sig .tc := ⟨.hbm, 264, rfl⟩
abbrev main_v146 : Ref sig .tc := ⟨.hbm, 265, rfl⟩
abbrev main_v147 : Ref sig .tc := ⟨.hbm, 266, rfl⟩
abbrev main_v148 : Ref sig .tc := ⟨.hbm, 267, rfl⟩
abbrev main_v149 : Ref sig .tc := ⟨.hbm, 268, rfl⟩
abbrev main_v150 : Ref sig .tc := ⟨.hbm, 269, rfl⟩
abbrev main_v151 : Ref sig .tc := ⟨.hbm, 270, rfl⟩
abbrev main_v152 : Ref sig .tc := ⟨.hbm, 271, rfl⟩
abbrev main_v153 : Ref sig .tc := ⟨.hbm, 272, rfl⟩
abbrev main_v154 : Ref sig .tc := ⟨.hbm, 273, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  reducesTo_S100000x128_S128_d0 : S100000x128.ReducesTo [0] S128
  h_S_ : 0 < S_.numel
  bcast_S_S128 : S_.BroadcastsInDim S128 (![] : Fin 0 → Fin S128.rank)
  bcast_S128_S1x128_1 : S128.BroadcastsInDim S1x128 (![1] : Fin 1 → Fin S1x128.rank)
  bcast_S_S1x128 : S_.BroadcastsInDim S1x128 (![] : Fin 0 → Fin S1x128.rank)
  bcast_S1x128_S100000x128_0_1 : S1x128.BroadcastsInDim S100000x128 (![0, 1] : Fin 2 → Fin S100000x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  reducesTo_S100000x64_S64_d0 : S100000x64.ReducesTo [0] S64
  bcast_S_S64 : S_.BroadcastsInDim S64 (![] : Fin 0 → Fin S64.rank)
  bcast_S_S1x64 : S_.BroadcastsInDim S1x64 (![] : Fin 0 → Fin S1x64.rank)
  dot_S100000x128_S128x64_S100000x64_1_0_0_1_n_n_wf : DotDims.WF S100000x128 S128x64 S100000x64 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x64_S64x64_S100000x64_1_0_0_1_n_n_wf : DotDims.WF S100000x64 S64x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1

variable [Facts₀]

def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

class Facts : Prop extends Facts₀ where

variable [Facts]
-- ==== Proof.KRun.lean ====
import proofs.«103981_j8873402434235_1_alg».proof.Proof.Gen.KernelIdeal.Frame

set_option maxRecDepth 16384

noncomputable section

namespace Cert.KernelIdeal.KVal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The run of @main with its result named

Every weakly fair execution of @main on the TensorCores from a memory with zero counters terminates without fault, and
in every final state the result buffer holds the last boundary's contents `W18` read at the result's reference, while
each argument array holds what it held at launch. The last thread state keeps every unscoped buffer at `W18`; the
result's reference is one of them, so the same reading that returns the arguments returns the result. -/

-- the launch lemma's implicit arguments are found by unifying its conclusion with this one, which takes unfolding
-- plain definitions in a metavariable's type
set_option backward.isDefEq.respectTransparency.types false in
theorem run_value : θ_run defs (onTc (τ := τ) (main (F := F))) ⟨m, fun _ => 0, ρ⟩ (fun r => ∀ c : Dev nD,
      r.2.mem ((c.tc : Thread nD τ).loc main_v130) = W18 m ρ c (Proc.devRef .tc main_v130)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W18 m ρ c b)
    (hfin := fun c s' => by
      iintro ⟨⟨Hh, -⟩, HSI⟩
      unfold StableHlo.held
      imodintro
      iapply (pointsTo_read_all (Pipeline.ucRefs τ sig) (fun b => (((c : Thread nD τ)).1, b)) (W18 m ρ c) s')
      isplitl [Hh] <;> iassumption)
    (hQ := fun s h c =>
      ⟨h c _ (mem_uc main_v130 (by decide)),
       (h c _ (mem_uc main_arg0 (by decide))).trans (W18_main_arg0 m ρ c),
       (h c _ (mem_uc main_arg1 (by decide))).trans (W18_main_arg1 m ρ c),
       (h c _ (mem_uc main_arg2 (by decide))).trans (W18_main_arg2 m ρ c),
       (h c _ (mem_uc main_arg3 (by decide))).trans (W18_main_arg3 m ρ c),
       (h c _ (mem_uc main_arg4 (by decide))).trans (W18_main_arg4 m ρ c),
       (h c _ (mem_uc main_arg5 (by decide))).trans (W18_main_arg5 m ρ c),
       (h c _ (mem_uc main_arg6 (by decide))).trans (W18_main_arg6 m ρ c),
       (h c _ (mem_uc main_arg7 (by decide))).trans (W18_main_arg7 m ρ c),
       (h c _ (mem_uc main_arg8 (by decide))).trans (W18_main_arg8 m ρ c),
       (h c _ (mem_uc main_arg9 (by decide))).trans (W18_main_arg9 m ρ c),
       (h c _ (mem_uc main_arg10 (by decide))).trans (W18_main_arg10 m ρ c),
       (h c _ (mem_uc main_arg11 (by decide))).trans (W18_main_arg11 m ρ c),
       (h c _ (mem_uc main_arg12 (by decide))).trans (W18_main_arg12 m ρ c),
       (h c _ (mem_uc main_arg13 (by decide))).trans (W18_main_arg13 m ρ c)⟩)

end Cert.KernelIdeal.KVal

end
-- ==== Proof.RefOps.lean ====
/- The reference's @main as a list of host operations, the outlined functions' operations listed inline at their
   call sites over the calls' buffer records, cut into 18 consecutive windows along the stages of the
   computation; that @main is the straight line of these operations; and its run: every weakly fair execution
   terminates with every buffer at the fold of the operations' results over the launch contents. -/
import proofs.«103981_j8873402434235_1_alg».proof.ReferenceIdeal
import Idealize.ShloMosaic.Lib.StableHlo.Run
import Idealize.ShloMosaic.Lib.Pipeline.Frame

noncomputable section

namespace Cert.ReferenceIdeal.RefValue

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Facts]

/-- The concatenation of the edges' end points with the self loops, as a function of its two operands (the
    operations that compute it are spelt with this name, so that an operand can be rewritten where it stands: the
    concatenation packs its operands into a list of dependent pairs). -/
def catIx (a : IVec S1600000 32) (b : IVec S100000 32) : IVec S1700000 32 :=
  concatenate S1700000 0 [⟨S1600000, a⟩, ⟨S100000, b⟩] concatenates_S1600000_S100000_S1700000_d0

/-- Window 1 of 18: 32 operations, from the one that writes main_v0 to the one that writes main_v7. -/
abbrev w01 : List (HloOp τ sig (Elt F)) :=
  [ StableHlo.unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v0 main_v1 rfl shapeCasts_S1x1600000_S1600000,
    StableHlo.unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v2 main_v3 rfl shapeCasts_S1x1600000_S1600000,
    StableHlo.nullary main_cst (constant S_ .f32 0x00000000#32),
    StableHlo.binary main_arg0 main_cst main_v4 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_0 (constant S_ .f32 0x47C35000#32),
    StableHlo.unary main_cst_0 main_v5 (broadcastInDim S128 ![] bcast_S_S128 : (⟨S_, .f32⟩ : BufTy).Contents (Elt F) → (⟨S128, .f32⟩ : BufTy).Contents (Elt F)),
    StableHlo.binary main_v4 main_v5 main_v6 (Host.divf : (⟨S128, .f32⟩ : BufTy).Contents (Elt F) → (⟨S128, .f32⟩ : BufTy).Contents (Elt F) → (⟨S128, .f32⟩ : BufTy).Contents (Elt F)),
    StableHlo.nullary main_c (constantI S_ 32 0#32),
    StableHlo.TRef.nullary main_call0.cst (constant S_ .f32 0x00000000#32),
    StableHlo.TRef.binary (.of main_arg0) main_call0.cst main_call0.v0 (fun x v => Host.reduceAdd x v reducesTo_S100000x128_S128_d0 h_S_),
    StableHlo.TRef.unary main_call0.v0 main_call0.v1 (broadcastInDim S1x128 ![1] bcast_S128_S1x128_1),
    StableHlo.TRef.nullary main_call0.cst_0 (constant S_ .f32 0x47C35000#32),
    StableHlo.TRef.unary main_call0.cst_0 main_call0.v2 (broadcastInDim S1x128 ![] bcast_S_S1x128),
    StableHlo.TRef.binary main_call0.v1 main_call0.v2 main_call0.v3 Host.divf,
    StableHlo.TRef.unary main_call0.v3 main_call0.v4 (broadcastInDim S100000x128 ![0, 1] bcast_S1x128_S100000x128_0_1),
    StableHlo.TRef.binary (.of main_arg0) main_call0.v4 main_call0.v5 subf,
    StableHlo.TRef.binary main_call0.v5 main_call0.v5 main_call0.v6 mulf,
    StableHlo.TRef.unary (.of main_c) main_call0.v7 (sitofp .f32),
    StableHlo.TRef.nullary main_call0.cst_1 (constant S_ .f32 0x47C35000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S100000x128_S128_d0 h_S_),
    StableHlo.TRef.unary main_call0.v8 main_call0.v10 (broadcastInDim S128 ![] bcast_S_S128),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S128 ![] bcast_S_S128),
    StableHlo.TRef.ternary main_call0.v12 main_call0.v11 main_call0.call0.v1 main_call0.call0.v2 (fun p a b => select (broadcastInDim S128 ![] bcast_S_S128 p) a b) ]

/-- Window 2 of 18: 23 operations, from the one that writes main_v8 to the one that writes main_v27. -/
abbrev w02 : List (HloOp τ sig (Elt F)) :=
  [ StableHlo.unary main_v6 main_v8 (broadcastInDim S1x128 ![1] bcast_S128_S1x128_1 : (⟨S128, .f32⟩ : BufTy).Contents (Elt F) → (⟨S1x128, .f32⟩ : BufTy).Contents (Elt F)),
    StableHlo.unary main_v8 main_v9 (broadcastInDim S100000x128 ![0, 1] bcast_S1x128_S100000x128_0_1 : (⟨S1x128, .f32⟩ : BufTy).Contents (Elt F) → (⟨S100000x128, .f32⟩ : BufTy).Contents (Elt F)),
    StableHlo.binary main_arg0 main_v9 main_v10 (subf : (⟨S100000x128, .f32⟩ : BufTy).Contents (Elt F) → (⟨S100000x128, .f32⟩ : BufTy).Contents (Elt F) → (⟨S100000x128, .f32⟩ : BufTy).Contents (Elt F)),
    StableHlo.nullary main_cst_1 (constant S_ .f32 0x3727C5AC#32),
    StableHlo.unary main_cst_1 main_v11 (broadcastInDim S128 ![] bcast_S_S128 : (⟨S_, .f32⟩ : BufTy).Contents (Elt F) → (⟨S128, .f32⟩ : BufTy).Contents (Elt F)),
    StableHlo.binary main_v7 main_v11 main_v12 (addf : (⟨S128, .f32⟩ : BufTy).Contents (Elt F) → (⟨S128, .f32⟩ : BufTy).Contents (Elt F) → (⟨S128, .f32⟩ : BufTy).Contents (Elt F)),
    StableHlo.unary main_v12 main_v13 (Host.rsqrt : (⟨S128, .f32⟩ : BufTy).Contents (Elt F) → (⟨S128, .f32⟩ : BufTy).Contents (Elt F)),
    StableHlo.unary main_v13 main_v14 (broadcastInDim S1x128 ![1] bcast_S128_S1x128_1 : (⟨S128, .f32⟩ : BufTy).Contents (Elt F) → (⟨S1x128, .f32⟩ : BufTy).Contents (Elt F)),
    StableHlo.unary main_v14 main_v15 (broadcastInDim S100000x128 ![0, 1] bcast_S1x128_S100000x128_0_1 : (⟨S1x128, .f32⟩ : BufTy).Contents (Elt F) → (⟨S100000x128, .f32⟩ : BufTy).Contents (Elt F)),
    StableHlo.binary main_v10 main_v15 main_v16 (mulf : (⟨S100000x128, .f32⟩ : BufTy).Contents (Elt F) → (⟨S100000x128, .f32⟩ : BufTy).Contents (Elt F) → (⟨S100000x128, .f32⟩ : BufTy).Contents (Elt F)),
    StableHlo.unary main_arg2 main_v17 (broadcastInDim S1x128 ![1] bcast_S128_S1x128_1 : (⟨S128, .f32⟩ : BufTy).Contents (Elt F) → (⟨S1x128, .f32⟩ : BufTy).Contents (Elt F)),
    StableHlo.unary main_v17 main_v18 (broadcastInDim S100000x128 ![0, 1] bcast_S1x128_S100000x128_0_1 : (⟨S1x128, .f32⟩ : BufTy).Contents (Elt F) → (⟨S100000x128, .f32⟩ : BufTy).Contents (Elt F)),
    StableHlo.binary main_v16 main_v18 main_v19 (mulf : (⟨S100000x128, .f32⟩ : BufTy).Contents (Elt F) → (⟨S100000x128, .f32⟩ : BufTy).Contents (Elt F) → (⟨S100000x128, .f32⟩ : BufTy).Contents (Elt F)),
    StableHlo.unary main_arg3 main_v20 (broadcastInDim S1x128 ![1] bcast_S128_S1x128_1 : (⟨S128, .f32⟩ : BufTy).Contents (Elt F) → (⟨S1x128, .f32⟩ : BufTy).Contents (Elt F)),
    StableHlo.unary main_v20 main_v21 (broadcastInDim S100000x128 ![0, 1] bcast_S1x128_S100000x128_0_1 : (⟨S1x128, .f32⟩ : BufTy).Contents (Elt F) → (⟨S100000x128, .f32⟩ : BufTy).Contents (Elt F)),
    StableHlo.binary main_v19 main_v21 main_v22 (addf : (⟨S100000x128, .f32⟩ : BufTy).Contents (Elt F) → (⟨S100000x128, .f32⟩ : BufTy).Contents (Elt F) → (⟨S100000x128, .f32⟩ : BufTy).Contents (Elt F)),
    StableHlo.binary main_v22 main_arg4 main_v23 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    StableHlo.unary main_arg5 main_v24 (broadcastInDim S1x64 ![1] bcast_S64_S1x64_1 : (⟨S64, .f32⟩ : BufTy).Contents (Elt F) → (⟨S1x64, .f32⟩ : BufTy).Contents (Elt F)),
    StableHlo.unary main_v24 main_v25 (broadcastInDim S100000x64 ![0, 1] bcast_S1x64_S100000x64_0_1 : (⟨S1x64, .f32⟩ : BufTy).Contents (Elt F) → (⟨S100000x64, .f32⟩ : BufTy).Contents (Elt F)),
    StableHlo.binary main_v23 main_v25 main_v26 (addf : (⟨S100000x64, .f32⟩ : BufTy).Contents (Elt F) → (⟨S100000x64, .f32⟩ : BufTy).Contents (Elt F) → (⟨S100000x64, .f32⟩ : BufTy).Contents (Elt F)),
    StableHlo.TRef.nullary main_call1.cst (constant S_ .f32 0x00000000#32),
    StableHlo.TRef.unary main_call1.cst main_call1.v0 (broadcastInDim S100000x64 ![] bcast_S_S100000x64),
    StableHlo.TRef.binary (.of main_v26) main_call1.v0 main_call1.v1 maximumf ]

/-- Window 3 of 18: 9 operations, from the one that writes main_v28 to the one that writes main_v34. -/
abbrev w03 : List (HloOp τ sig (Elt F)) :=
  [ StableHlo.nullary main_v28 (iotaInDim S100000 32 0),
    StableHlo.binary main_v1 main_v28 main_v29 (catIx : (⟨S1600000, .i32⟩ : BufTy).Contents (Elt F) → (⟨S100000, .i32⟩ : BufTy).Contents (Elt F) → (⟨S1700000, .i32⟩ : BufTy).Contents (Elt F)),
    StableHlo.binary main_v3 main_v28 main_v30 (catIx : (⟨S1600000, .i32⟩ : BufTy).Contents (Elt F) → (⟨S100000, .i32⟩ : BufTy).Contents (Elt F) → (⟨S1700000, .i32⟩ : BufTy).Contents (Elt F)),
    StableHlo.nullary main_cst_2 (constant S_ .f32 0x3F800000#32),
    StableHlo.unary main_cst_2 main_v31 (broadcastInDim S1700000 ![] bcast_S_S1700000 : (⟨S_, .f32⟩ : BufTy).Contents (Elt F) → (⟨S1700000, .f32⟩ : BufTy).Contents (Elt F)),
    StableHlo.nullary main_cst_3 (constant S_ .f32 0x00000000#32),
    StableHlo.unary main_cst_3 main_v32 (broadcastInDim S100000 ![] bcast_S_S100000 : (⟨S_, .f32⟩ : BufTy).Contents (Elt F) → (⟨S100000, .f32⟩ : BufTy).Contents (Elt F)),
    StableHlo.unary main_v30 main_v33 (broadcastInDim S1700000x1 ![0] bcast_S1700000_S1700000x1_0 : (⟨S1700000, .i32⟩ : BufTy).Contents (Elt F) → (⟨S1700000x1, .i32⟩ : BufTy).Contents (Elt F)),
    StableHlo.ternary main_v32 main_v33 main_v31 main_v34 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)) ]

/-- Window 4 of 18: 4 operations, from the one that writes main_cst_4 to the one that writes main_v37. -/
abbrev w04 : List (HloOp τ sig (Elt F)) :=
  [ StableHlo.nullary main_cst_4 (constant S_ .f32 0x00000000#32),
    StableHlo.unary main_cst_4 main_v35 (broadcastInDim S100000 ![] bcast_S_S100000 : (⟨S_, .f32⟩ : BufTy).Contents (Elt F) → (⟨S100000, .f32⟩ : BufTy).Contents (Elt F)),
    StableHlo.binary main_v34 main_v35 main_v36 (cmpf .ogt : (⟨S100000, .f32⟩ : BufTy).Contents (Elt F) → (⟨S100000, .f32⟩ : BufTy).Contents (Elt F) → (⟨S100000, .i1⟩ : BufTy).Contents (Elt F)),
    StableHlo.unary main_v34 main_v37 (Host.rsqrt : (⟨S100000, .f32⟩ : BufTy).Contents (Elt F) → (⟨S100000, .f32⟩ : BufTy).Contents (Elt F)) ]

/-- Window 5 of 18: 4 operations, from the one that writes main_cst_5 to the one that writes main_v38. -/
abbrev w05 : List (HloOp τ sig (Elt F)) :=
  [ StableHlo.nullary main_cst_5 (constant S_ .f32 0x00000000#32),
    StableHlo.TRef.unary (.of main_cst_5) main_call2.v0 id,
    StableHlo.TRef.unary main_call2.v0 main_call2.v1 (broadcastInDim S100000 ![] bcast_S_S100000),
    StableHlo.TRef.ternary (.of main_v36) (.of main_v37) main_call2.v1 main_call2.v2 select ]

/-- Window 6 of 18: 13 operations, from the one that writes main_c_6 to the one that writes main_v48. -/
abbrev w06 : List (HloOp τ sig (Elt F)) :=
  [ StableHlo.nullary main_c_6 (constantI S_ 32 0#32),
    StableHlo.unary main_c_6 main_v39 (broadcastInDim S1700000 ![] bcast_S_S1700000 : (⟨S_, .i32⟩ : BufTy).Contents (Elt F) → (⟨S1700000, .i32⟩ : BufTy).Contents (Elt F)),
    StableHlo.binary main_v29 main_v39 main_v40 (cmpi .slt : (⟨S1700000, .i32⟩ : BufTy).Contents (Elt F) → (⟨S1700000, .i32⟩ : BufTy).Contents (Elt F) → (⟨S1700000, .i1⟩ : BufTy).Contents (Elt F)),
    StableHlo.nullary main_c_7 (constantI S_ 32 100000#32),
    StableHlo.unary main_c_7 main_v41 (broadcastInDim S1700000 ![] bcast_S_S1700000 : (⟨S_, .i32⟩ : BufTy).Contents (Elt F) → (⟨S1700000, .i32⟩ : BufTy).Contents (Elt F)),
    StableHlo.binary main_v29 main_v41 main_v42 (addi : (⟨S1700000, .i32⟩ : BufTy).Contents (Elt F) → (⟨S1700000, .i32⟩ : BufTy).Contents (Elt F) → (⟨S1700000, .i32⟩ : BufTy).Contents (Elt F)),
    StableHlo.ternary main_v40 main_v42 main_v29 main_v43 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v43 main_v44 (broadcastInDim S1700000x1 ![0] bcast_S1700000_S1700000x1_0 : (⟨S1700000, .i32⟩ : BufTy).Contents (Elt F) → (⟨S1700000x1, .i32⟩ : BufTy).Contents (Elt F)),
    StableHlo.binary main_v38 main_v44 main_v45 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    StableHlo.binary main_v45 main_v31 main_v46 (mulf : (⟨S1700000, .f32⟩ : BufTy).Contents (Elt F) → (⟨S1700000, .f32⟩ : BufTy).Contents (Elt F) → (⟨S1700000, .f32⟩ : BufTy).Contents (Elt F)),
    StableHlo.nullary main_c_8 (constantI S_ 32 0#32),
    StableHlo.unary main_c_8 main_v47 (broadcastInDim S1700000 ![] bcast_S_S1700000 : (⟨S_, .i32⟩ : BufTy).Contents (Elt F) → (⟨S1700000, .i32⟩ : BufTy).Contents (Elt F)),
    StableHlo.binary main_v30 main_v47 main_v48 (cmpi .slt : (⟨S1700000, .i32⟩ : BufTy).Contents (Elt F) → (⟨S1700000, .i32⟩ : BufTy).Contents (Elt F) → (⟨S1700000, .i1⟩ : BufTy).Contents (Elt F)) ]

/-- Window 7 of 18: 7 operations, from the one that writes main_c_9 to the one that writes main_v54. -/
abbrev w07 : List (HloOp τ sig (Elt F)) :=
  [ StableHlo.nullary main_c_9 (constantI S_ 32 100000#32),
    StableHlo.unary main_c_9 main_v49 (broadcastInDim S1700000 ![] bcast_S_S1700000 : (⟨S_, .i32⟩ : BufTy).Contents (Elt F) → (⟨S1700000, .i32⟩ : BufTy).Contents (Elt F)),
    StableHlo.binary main_v30 main_v49 main_v50 (addi : (⟨S1700000, .i32⟩ : BufTy).Contents (Elt F) → (⟨S1700000, .i32⟩ : BufTy).Contents (Elt F) → (⟨S1700000, .i32⟩ : BufTy).Contents (Elt F)),
    StableHlo.ternary main_v48 main_v50 main_v30 main_v51 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v51 main_v52 (broadcastInDim S1700000x1 ![0] bcast_S1700000_S1700000x1_0 : (⟨S1700000, .i32⟩ : BufTy).Contents (Elt F) → (⟨S1700000x1, .i32⟩ : BufTy).Contents (Elt F)),
    StableHlo.binary main_v38 main_v52 main_v53 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    StableHlo.binary main_v46 main_v53 main_v54 (mulf : (⟨S1700000, .f32⟩ : BufTy).Contents (Elt F) → (⟨S1700000, .f32⟩ : BufTy).Contents (Elt F) → (⟨S1700000, .f32⟩ : BufTy).Contents (Elt F)) ]

/-- Window 8 of 18: 20 operations, from the one that writes main_v55 to the one that writes main_v71. -/
abbrev w08 : List (HloOp τ sig (Elt F)) :=
  [ StableHlo.binary main_v27 main_arg6 main_v55 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.nullary main_c_10 (constantI S_ 32 0#32),
    StableHlo.unary main_c_10 main_v56 (broadcastInDim S1700000 ![] bcast_S_S1700000 : (⟨S_, .i32⟩ : BufTy).Contents (Elt F) → (⟨S1700000, .i32⟩ : BufTy).Contents (Elt F)),
    StableHlo.binary main_v29 main_v56 main_v57 (cmpi .slt : (⟨S1700000, .i32⟩ : BufTy).Contents (Elt F) → (⟨S1700000, .i32⟩ : BufTy).Contents (Elt F) → (⟨S1700000, .i1⟩ : BufTy).Contents (Elt F)),
    StableHlo.nullary main_c_11 (constantI S_ 32 100000#32),
    StableHlo.unary main_c_11 main_v58 (broadcastInDim S1700000 ![] bcast_S_S1700000 : (⟨S_, .i32⟩ : BufTy).Contents (Elt F) → (⟨S1700000, .i32⟩ : BufTy).Contents (Elt F)),
    StableHlo.binary main_v29 main_v58 main_v59 (addi : (⟨S1700000, .i32⟩ : BufTy).Contents (Elt F) → (⟨S1700000, .i32⟩ : BufTy).Contents (Elt F) → (⟨S1700000, .i32⟩ : BufTy).Contents (Elt F)),
    StableHlo.ternary main_v57 main_v59 main_v29 main_v60 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v60 main_v61 (broadcastInDim S1700000x1 ![0] bcast_S1700000_S1700000x1_0 : (⟨S1700000, .i32⟩ : BufTy).Contents (Elt F) → (⟨S1700000x1, .i32⟩ : BufTy).Contents (Elt F)),
    StableHlo.binary main_v55 main_v61 main_v62 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    StableHlo.unary main_v54 main_v63 (broadcastInDim S1700000x1 ![0] bcast_S1700000_S1700000x1_0 : (⟨S1700000, .f32⟩ : BufTy).Contents (Elt F) → (⟨S1700000x1, .f32⟩ : BufTy).Contents (Elt F)),
    StableHlo.unary main_v63 main_v64 (broadcastInDim S1700000x64 ![0, 1] bcast_S1700000x1_S1700000x64_0_1 : (⟨S1700000x1, .f32⟩ : BufTy).Contents (Elt F) → (⟨S1700000x64, .f32⟩ : BufTy).Contents (Elt F)),
    StableHlo.binary main_v62 main_v64 main_v65 (mulf : (⟨S1700000x64, .f32⟩ : BufTy).Contents (Elt F) → (⟨S1700000x64, .f32⟩ : BufTy).Contents (Elt F) → (⟨S1700000x64, .f32⟩ : BufTy).Contents (Elt F)),
    StableHlo.nullary main_cst_12 (constant S_ .f32 0x00000000#32),
    StableHlo.unary main_cst_12 main_v66 (broadcastInDim S100000x64 ![] bcast_S_S100000x64 : (⟨S_, .f32⟩ : BufTy).Contents (Elt F) → (⟨S100000x64, .f32⟩ : BufTy).Contents (Elt F)),
    StableHlo.unary main_v30 main_v67 (broadcastInDim S1700000x1 ![0] bcast_S1700000_S1700000x1_0 : (⟨S1700000, .i32⟩ : BufTy).Contents (Elt F) → (⟨S1700000x1, .i32⟩ : BufTy).Contents (Elt F)),
    StableHlo.ternary main_v66 main_v67 main_v65 main_v68 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)),
    StableHlo.unary main_arg7 main_v69 (broadcastInDim S1x64 ![1] bcast_S64_S1x64_1 : (⟨S64, .f32⟩ : BufTy).Contents (Elt F) → (⟨S1x64, .f32⟩ : BufTy).Contents (Elt F)),
    StableHlo.unary main_v69 main_v70 (broadcastInDim S100000x64 ![0, 1] bcast_S1x64_S100000x64_0_1 : (⟨S1x64, .f32⟩ : BufTy).Contents (Elt F) → (⟨S100000x64, .f32⟩ : BufTy).Contents (Elt F)),
    StableHlo.binary main_v68 main_v70 main_v71 (addf : (⟨S100000x64, .f32⟩ : BufTy).Contents (Elt F) → (⟨S100000x64, .f32⟩ : BufTy).Contents (Elt F) → (⟨S100000x64, .f32⟩ : BufTy).Contents (Elt F)) ]

/-- Window 9 of 18: 28 operations, from the one that writes main_cst_13 to the one that writes main_v75. -/
abbrev w09 : List (HloOp τ sig (Elt F)) :=
  [ StableHlo.nullary main_cst_13 (constant S_ .f32 0x00000000#32),
    StableHlo.binary main_v71 main_cst_13 main_v72 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    StableHlo.nullary main_cst_14 (constant S_ .f32 0x47C35000#32),
    StableHlo.unary main_cst_14 main_v73 (broadcastInDim S64 ![] bcast_S_S64 : (⟨S_, .f32⟩ : BufTy).Contents (Elt F) → (⟨S64, .f32⟩ : BufTy).Contents (Elt F)),
    StableHlo.binary main_v72 main_v73 main_v74 (Host.divf : (⟨S64, .f32⟩ : BufTy).Contents (Elt F) → (⟨S64, .f32⟩ : BufTy).Contents (Elt F) → (⟨S64, .f32⟩ : BufTy).Contents (Elt F)),
    StableHlo.nullary main_c_15 (constantI S_ 32 0#32),
    StableHlo.TRef.nullary main_call3.cst (constant S_ .f32 0x00000000#32),
    StableHlo.TRef.binary (.of main_v71) main_call3.cst main_call3.v0 (fun x v => Host.reduceAdd x v reducesTo_S100000x64_S64_d0 h_S_),
    StableHlo.TRef.unary main_call3.v0 main_call3.v1 (broadcastInDim S1x64 ![1] bcast_S64_S1x64_1),
    StableHlo.TRef.nullary main_call3.cst_0 (constant S_ .f32 0x47C35000#32),
    StableHlo.TRef.unary main_call3.cst_0 main_call3.v2 (broadcastInDim S1x64 ![] bcast_S_S1x64),
    StableHlo.TRef.binary main_call3.v1 main_call3.v2 main_call3.v3 Host.divf,
    StableHlo.TRef.unary main_call3.v3 main_call3.v4 (broadcastInDim S100000x64 ![0, 1] bcast_S1x64_S100000x64_0_1),
    StableHlo.TRef.binary (.of main_v71) main_call3.v4 main_call3.v5 subf,
    StableHlo.TRef.binary main_call3.v5 main_call3.v5 main_call3.v6 mulf,
    StableHlo.TRef.unary (.of main_c_15) main_call3.v7 (sitofp .f32),
    StableHlo.TRef.nullary main_call3.cst_1 (constant S_ .f32 0x47C35000#32),
    StableHlo.TRef.binary main_call3.cst_1 main_call3.v7 main_call3.v8 subf,
    StableHlo.TRef.nullary main_call3.cst_2 (constant S_ .f32 0x00000000#32),
    StableHlo.TRef.binary main_call3.v6 main_call3.cst_2 main_call3.v9 (fun x v => Host.reduceAdd x v reducesTo_S100000x64_S64_d0 h_S_),
    StableHlo.TRef.unary main_call3.v8 main_call3.v10 (broadcastInDim S64 ![] bcast_S_S64),
    StableHlo.TRef.binary main_call3.v9 main_call3.v10 main_call3.v11 Host.divf,
    StableHlo.TRef.nullary main_call3.cst_3 (constant S_ .f32 0x00000000#32),
    StableHlo.TRef.binary main_call3.v8 main_call3.cst_3 main_call3.v12 (cmpf .ogt),
    StableHlo.TRef.nullary main_call3.cst_4 (constant S_ .f32 0x7FC00000#32),
    StableHlo.TRef.unary main_call3.cst_4 main_call3.call0.v0 id,
    StableHlo.TRef.unary main_call3.call0.v0 main_call3.call0.v1 (broadcastInDim S64 ![] bcast_S_S64),
    StableHlo.TRef.ternary main_call3.v12 main_call3.v11 main_call3.call0.v1 main_call3.call0.v2 (fun p a b => select (broadcastInDim S64 ![] bcast_S_S64 p) a b) ]

/-- Window 10 of 18: 19 operations, from the one that writes main_v76 to the one that writes main_v91. -/
abbrev w10 : List (HloOp τ sig (Elt F)) :=
  [ StableHlo.unary main_v74 main_v76 (broadcastInDim S1x64 ![1] bcast_S64_S1x64_1 : (⟨S64, .f32⟩ : BufTy).Contents (Elt F) → (⟨S1x64, .f32⟩ : BufTy).Contents (Elt F)),
    StableHlo.unary main_v76 main_v77 (broadcastInDim S100000x64 ![0, 1] bcast_S1x64_S100000x64_0_1 : (⟨S1x64, .f32⟩ : BufTy).Contents (Elt F) → (⟨S100000x64, .f32⟩ : BufTy).Contents (Elt F)),
    StableHlo.binary main_v71 main_v77 main_v78 (subf : (⟨S100000x64, .f32⟩ : BufTy).Contents (Elt F) → (⟨S100000x64, .f32⟩ : BufTy).Contents (Elt F) → (⟨S100000x64, .f32⟩ : BufTy).Contents (Elt F)),
    StableHlo.nullary main_cst_16 (constant S_ .f32 0x3727C5AC#32),
    StableHlo.unary main_cst_16 main_v79 (broadcastInDim S64 ![] bcast_S_S64 : (⟨S_, .f32⟩ : BufTy).Contents (Elt F) → (⟨S64, .f32⟩ : BufTy).Contents (Elt F)),
    StableHlo.binary main_v75 main_v79 main_v80 (addf : (⟨S64, .f32⟩ : BufTy).Contents (Elt F) → (⟨S64, .f32⟩ : BufTy).Contents (Elt F) → (⟨S64, .f32⟩ : BufTy).Contents (Elt F)),
    StableHlo.unary main_v80 main_v81 (Host.rsqrt : (⟨S64, .f32⟩ : BufTy).Contents (Elt F) → (⟨S64, .f32⟩ : BufTy).Contents (Elt F)),
    StableHlo.unary main_v81 main_v82 (broadcastInDim S1x64 ![1] bcast_S64_S1x64_1 : (⟨S64, .f32⟩ : BufTy).Contents (Elt F) → (⟨S1x64, .f32⟩ : BufTy).Contents (Elt F)),
    StableHlo.unary main_v82 main_v83 (broadcastInDim S100000x64 ![0, 1] bcast_S1x64_S100000x64_0_1 : (⟨S1x64, .f32⟩ : BufTy).Contents (Elt F) → (⟨S100000x64, .f32⟩ : BufTy).Contents (Elt F)),
    StableHlo.binary main_v78 main_v83 main_v84 (mulf : (⟨S100000x64, .f32⟩ : BufTy).Contents (Elt F) → (⟨S100000x64, .f32⟩ : BufTy).Contents (Elt F) → (⟨S100000x64, .f32⟩ : BufTy).Contents (Elt F)),
    StableHlo.unary main_arg8 main_v85 (broadcastInDim S1x64 ![1] bcast_S64_S1x64_1 : (⟨S64, .f32⟩ : BufTy).Contents (Elt F) → (⟨S1x64, .f32⟩ : BufTy).Contents (Elt F)),
    StableHlo.unary main_v85 main_v86 (broadcastInDim S100000x64 ![0, 1] bcast_S1x64_S100000x64_0_1 : (⟨S1x64, .f32⟩ : BufTy).Contents (Elt F) → (⟨S100000x64, .f32⟩ : BufTy).Contents (Elt F)),
    StableHlo.binary main_v84 main_v86 main_v87 (mulf : (⟨S100000x64, .f32⟩ : BufTy).Contents (Elt F) → (⟨S100000x64, .f32⟩ : BufTy).Contents (Elt F) → (⟨S100000x64, .f32⟩ : BufTy).Contents (Elt F)),
    StableHlo.unary main_arg9 main_v88 (broadcastInDim S1x64 ![1] bcast_S64_S1x64_1 : (⟨S64, .f32⟩ : BufTy).Contents (Elt F) → (⟨S1x64, .f32⟩ : BufTy).Contents (Elt F)),
    StableHlo.unary main_v88 main_v89 (broadcastInDim S100000x64 ![0, 1] bcast_S1x64_S100000x64_0_1 : (⟨S1x64, .f32⟩ : BufTy).Contents (Elt F) → (⟨S100000x64, .f32⟩ : BufTy).Contents (Elt F)),
    StableHlo.binary main_v87 main_v89 main_v90 (addf : (⟨S100000x64, .f32⟩ : BufTy).Contents (Elt F) → (⟨S100000x64, .f32⟩ : BufTy).Contents (Elt F) → (⟨S100000x64, .f32⟩ : BufTy).Contents (Elt F)),
    StableHlo.TRef.nullary main_call4.cst (constant S_ .f32 0x00000000#32),
    StableHlo.TRef.unary main_call4.cst main_call4.v0 (broadcastInDim S100000x64 ![] bcast_S_S100000x64),
    StableHlo.TRef.binary (.of main_v90) main_call4.v0 main_call4.v1 maximumf ]

/-- Window 11 of 18: 9 operations, from the one that writes main_v92 to the one that writes main_v98. -/
abbrev w11 : List (HloOp τ sig (Elt F)) :=
  [ StableHlo.nullary main_v92 (iotaInDim S100000 32 0),
    StableHlo.binary main_v1 main_v92 main_v93 (catIx : (⟨S1600000, .i32⟩ : BufTy).Contents (Elt F) → (⟨S100000, .i32⟩ : BufTy).Contents (Elt F) → (⟨S1700000, .i32⟩ : BufTy).Contents (Elt F)),
    StableHlo.binary main_v3 main_v92 main_v94 (catIx : (⟨S1600000, .i32⟩ : BufTy).Contents (Elt F) → (⟨S100000, .i32⟩ : BufTy).Contents (Elt F) → (⟨S1700000, .i32⟩ : BufTy).Contents (Elt F)),
    StableHlo.nullary main_cst_17 (constant S_ .f32 0x3F800000#32),
    StableHlo.unary main_cst_17 main_v95 (broadcastInDim S1700000 ![] bcast_S_S1700000 : (⟨S_, .f32⟩ : BufTy).Contents (Elt F) → (⟨S1700000, .f32⟩ : BufTy).Contents (Elt F)),
    StableHlo.nullary main_cst_18 (constant S_ .f32 0x00000000#32),
    StableHlo.unary main_cst_18 main_v96 (broadcastInDim S100000 ![] bcast_S_S100000 : (⟨S_, .f32⟩ : BufTy).Contents (Elt F) → (⟨S100000, .f32⟩ : BufTy).Contents (Elt F)),
    StableHlo.unary main_v94 main_v97 (broadcastInDim S1700000x1 ![0] bcast_S1700000_S1700000x1_0 : (⟨S1700000, .i32⟩ : BufTy).Contents (Elt F) → (⟨S1700000x1, .i32⟩ : BufTy).Contents (Elt F)),
    StableHlo.ternary main_v96 main_v97 main_v95 main_v98 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)) ]

/-- Window 12 of 18: 4 operations, from the one that writes main_cst_19 to the one that writes main_v101. -/
abbrev w12 : List (HloOp τ sig (Elt F)) :=
  [ StableHlo.nullary main_cst_19 (constant S_ .f32 0x00000000#32),
    StableHlo.unary main_cst_19 main_v99 (broadcastInDim S100000 ![] bcast_S_S100000 : (⟨S_, .f32⟩ : BufTy).Contents (Elt F) → (⟨S100000, .f32⟩ : BufTy).Contents (Elt F)),
    StableHlo.binary main_v98 main_v99 main_v100 (cmpf .ogt : (⟨S100000, .f32⟩ : BufTy).Contents (Elt F) → (⟨S100000, .f32⟩ : BufTy).Contents (Elt F) → (⟨S100000, .i1⟩ : BufTy).Contents (Elt F)),
    StableHlo.unary main_v98 main_v101 (Host.rsqrt : (⟨S100000, .f32⟩ : BufTy).Contents (Elt F) → (⟨S100000, .f32⟩ : BufTy).Contents (Elt F)) ]

/-- Window 13 of 18: 4 operations, from the one that writes main_cst_20 to the one that writes main_v102. -/
abbrev w13 : List (HloOp τ sig (Elt F)) :=
  [ StableHlo.nullary main_cst_20 (constant S_ .f32 0x00000000#32),
    StableHlo.TRef.unary (.of main_cst_20) main_call5.v0 id,
    StableHlo.TRef.unary main_call5.v0 main_call5.v1 (broadcastInDim S100000 ![] bcast_S_S100000),
    StableHlo.TRef.ternary (.of main_v100) (.of main_v101) main_call5.v1 main_call5.v2 select ]

/-- Window 14 of 18: 20 operations, from the one that writes main_c_21 to the one that writes main_v118. -/
abbrev w14 : List (HloOp τ sig (Elt F)) :=
  [ StableHlo.nullary main_c_21 (constantI S_ 32 0#32),
    StableHlo.unary main_c_21 main_v103 (broadcastInDim S1700000 ![] bcast_S_S1700000 : (⟨S_, .i32⟩ : BufTy).Contents (Elt F) → (⟨S1700000, .i32⟩ : BufTy).Contents (Elt F)),
    StableHlo.binary main_v93 main_v103 main_v104 (cmpi .slt : (⟨S1700000, .i32⟩ : BufTy).Contents (Elt F) → (⟨S1700000, .i32⟩ : BufTy).Contents (Elt F) → (⟨S1700000, .i1⟩ : BufTy).Contents (Elt F)),
    StableHlo.nullary main_c_22 (constantI S_ 32 100000#32),
    StableHlo.unary main_c_22 main_v105 (broadcastInDim S1700000 ![] bcast_S_S1700000 : (⟨S_, .i32⟩ : BufTy).Contents (Elt F) → (⟨S1700000, .i32⟩ : BufTy).Contents (Elt F)),
    StableHlo.binary main_v93 main_v105 main_v106 (addi : (⟨S1700000, .i32⟩ : BufTy).Contents (Elt F) → (⟨S1700000, .i32⟩ : BufTy).Contents (Elt F) → (⟨S1700000, .i32⟩ : BufTy).Contents (Elt F)),
    StableHlo.ternary main_v104 main_v106 main_v93 main_v107 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v107 main_v108 (broadcastInDim S1700000x1 ![0] bcast_S1700000_S1700000x1_0 : (⟨S1700000, .i32⟩ : BufTy).Contents (Elt F) → (⟨S1700000x1, .i32⟩ : BufTy).Contents (Elt F)),
    StableHlo.binary main_v102 main_v108 main_v109 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    StableHlo.binary main_v109 main_v95 main_v110 (mulf : (⟨S1700000, .f32⟩ : BufTy).Contents (Elt F) → (⟨S1700000, .f32⟩ : BufTy).Contents (Elt F) → (⟨S1700000, .f32⟩ : BufTy).Contents (Elt F)),
    StableHlo.nullary main_c_23 (constantI S_ 32 0#32),
    StableHlo.unary main_c_23 main_v111 (broadcastInDim S1700000 ![] bcast_S_S1700000 : (⟨S_, .i32⟩ : BufTy).Contents (Elt F) → (⟨S1700000, .i32⟩ : BufTy).Contents (Elt F)),
    StableHlo.binary main_v94 main_v111 main_v112 (cmpi .slt : (⟨S1700000, .i32⟩ : BufTy).Contents (Elt F) → (⟨S1700000, .i32⟩ : BufTy).Contents (Elt F) → (⟨S1700000, .i1⟩ : BufTy).Contents (Elt F)),
    StableHlo.nullary main_c_24 (constantI S_ 32 100000#32),
    StableHlo.unary main_c_24 main_v113 (broadcastInDim S1700000 ![] bcast_S_S1700000 : (⟨S_, .i32⟩ : BufTy).Contents (Elt F) → (⟨S1700000, .i32⟩ : BufTy).Contents (Elt F)),
    StableHlo.binary main_v94 main_v113 main_v114 (addi : (⟨S1700000, .i32⟩ : BufTy).Contents (Elt F) → (⟨S1700000, .i32⟩ : BufTy).Contents (Elt F) → (⟨S1700000, .i32⟩ : BufTy).Contents (Elt F)),
    StableHlo.ternary main_v112 main_v114 main_v94 main_v115 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v115 main_v116 (broadcastInDim S1700000x1 ![0] bcast_S1700000_S1700000x1_0 : (⟨S1700000, .i32⟩ : BufTy).Contents (Elt F) → (⟨S1700000x1, .i32⟩ : BufTy).Contents (Elt F)),
    StableHlo.binary main_v102 main_v116 main_v117 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    StableHlo.binary main_v110 main_v117 main_v118 (mulf : (⟨S1700000, .f32⟩ : BufTy).Contents (Elt F) → (⟨S1700000, .f32⟩ : BufTy).Contents (Elt F) → (⟨S1700000, .f32⟩ : BufTy).Contents (Elt F)) ]

/-- Window 15 of 18: 20 operations, from the one that writes main_v119 to the one that writes main_v135. -/
abbrev w15 : List (HloOp τ sig (Elt F)) :=
  [ StableHlo.binary main_v91 main_arg10 main_v119 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.nullary main_c_25 (constantI S_ 32 0#32),
    StableHlo.unary main_c_25 main_v120 (broadcastInDim S1700000 ![] bcast_S_S1700000 : (⟨S_, .i32⟩ : BufTy).Contents (Elt F) → (⟨S1700000, .i32⟩ : BufTy).Contents (Elt F)),
    StableHlo.binary main_v93 main_v120 main_v121 (cmpi .slt : (⟨S1700000, .i32⟩ : BufTy).Contents (Elt F) → (⟨S1700000, .i32⟩ : BufTy).Contents (Elt F) → (⟨S1700000, .i1⟩ : BufTy).Contents (Elt F)),
    StableHlo.nullary main_c_26 (constantI S_ 32 100000#32),
    StableHlo.unary main_c_26 main_v122 (broadcastInDim S1700000 ![] bcast_S_S1700000 : (⟨S_, .i32⟩ : BufTy).Contents (Elt F) → (⟨S1700000, .i32⟩ : BufTy).Contents (Elt F)),
    StableHlo.binary main_v93 main_v122 main_v123 (addi : (⟨S1700000, .i32⟩ : BufTy).Contents (Elt F) → (⟨S1700000, .i32⟩ : BufTy).Contents (Elt F) → (⟨S1700000, .i32⟩ : BufTy).Contents (Elt F)),
    StableHlo.ternary main_v121 main_v123 main_v93 main_v124 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v124 main_v125 (broadcastInDim S1700000x1 ![0] bcast_S1700000_S1700000x1_0 : (⟨S1700000, .i32⟩ : BufTy).Contents (Elt F) → (⟨S1700000x1, .i32⟩ : BufTy).Contents (Elt F)),
    StableHlo.binary main_v119 main_v125 main_v126 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    StableHlo.unary main_v118 main_v127 (broadcastInDim S1700000x1 ![0] bcast_S1700000_S1700000x1_0 : (⟨S1700000, .f32⟩ : BufTy).Contents (Elt F) → (⟨S1700000x1, .f32⟩ : BufTy).Contents (Elt F)),
    StableHlo.unary main_v127 main_v128 (broadcastInDim S1700000x64 ![0, 1] bcast_S1700000x1_S1700000x64_0_1 : (⟨S1700000x1, .f32⟩ : BufTy).Contents (Elt F) → (⟨S1700000x64, .f32⟩ : BufTy).Contents (Elt F)),
    StableHlo.binary main_v126 main_v128 main_v129 (mulf : (⟨S1700000x64, .f32⟩ : BufTy).Contents (Elt F) → (⟨S1700000x64, .f32⟩ : BufTy).Contents (Elt F) → (⟨S1700000x64, .f32⟩ : BufTy).Contents (Elt F)),
    StableHlo.nullary main_cst_27 (constant S_ .f32 0x00000000#32),
    StableHlo.unary main_cst_27 main_v130 (broadcastInDim S100000x64 ![] bcast_S_S100000x64 : (⟨S_, .f32⟩ : BufTy).Contents (Elt F) → (⟨S100000x64, .f32⟩ : BufTy).Contents (Elt F)),
    StableHlo.unary main_v94 main_v131 (broadcastInDim S1700000x1 ![0] bcast_S1700000_S1700000x1_0 : (⟨S1700000, .i32⟩ : BufTy).Contents (Elt F) → (⟨S1700000x1, .i32⟩ : BufTy).Contents (Elt F)),
    StableHlo.ternary main_v130 main_v131 main_v129 main_v132 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)),
    StableHlo.unary main_arg11 main_v133 (broadcastInDim S1x64 ![1] bcast_S64_S1x64_1 : (⟨S64, .f32⟩ : BufTy).Contents (Elt F) → (⟨S1x64, .f32⟩ : BufTy).Contents (Elt F)),
    StableHlo.unary main_v133 main_v134 (broadcastInDim S100000x64 ![0, 1] bcast_S1x64_S100000x64_0_1 : (⟨S1x64, .f32⟩ : BufTy).Contents (Elt F) → (⟨S100000x64, .f32⟩ : BufTy).Contents (Elt F)),
    StableHlo.binary main_v132 main_v134 main_v135 (addf : (⟨S100000x64, .f32⟩ : BufTy).Contents (Elt F) → (⟨S100000x64, .f32⟩ : BufTy).Contents (Elt F) → (⟨S100000x64, .f32⟩ : BufTy).Contents (Elt F)) ]

/-- Window 16 of 18: 28 operations, from the one that writes main_cst_28 to the one that writes main_v139. -/
abbrev w16 : List (HloOp τ sig (Elt F)) :=
  [ StableHlo.nullary main_cst_28 (constant S_ .f32 0x00000000#32),
    StableHlo.binary main_v135 main_cst_28 main_v136 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    StableHlo.nullary main_cst_29 (constant S_ .f32 0x47C35000#32),
    StableHlo.unary main_cst_29 main_v137 (broadcastInDim S64 ![] bcast_S_S64 : (⟨S_, .f32⟩ : BufTy).Contents (Elt F) → (⟨S64, .f32⟩ : BufTy).Contents (Elt F)),
    StableHlo.binary main_v136 main_v137 main_v138 (Host.divf : (⟨S64, .f32⟩ : BufTy).Contents (Elt F) → (⟨S64, .f32⟩ : BufTy).Contents (Elt F) → (⟨S64, .f32⟩ : BufTy).Contents (Elt F)),
    StableHlo.nullary main_c_30 (constantI S_ 32 0#32),
    StableHlo.TRef.nullary main_call6.cst (constant S_ .f32 0x00000000#32),
    StableHlo.TRef.binary (.of main_v135) main_call6.cst main_call6.v0 (fun x v => Host.reduceAdd x v reducesTo_S100000x64_S64_d0 h_S_),
    StableHlo.TRef.unary main_call6.v0 main_call6.v1 (broadcastInDim S1x64 ![1] bcast_S64_S1x64_1),
    StableHlo.TRef.nullary main_call6.cst_0 (constant S_ .f32 0x47C35000#32),
    StableHlo.TRef.unary main_call6.cst_0 main_call6.v2 (broadcastInDim S1x64 ![] bcast_S_S1x64),
    StableHlo.TRef.binary main_call6.v1 main_call6.v2 main_call6.v3 Host.divf,
    StableHlo.TRef.unary main_call6.v3 main_call6.v4 (broadcastInDim S100000x64 ![0, 1] bcast_S1x64_S100000x64_0_1),
    StableHlo.TRef.binary (.of main_v135) main_call6.v4 main_call6.v5 subf,
    StableHlo.TRef.binary main_call6.v5 main_call6.v5 main_call6.v6 mulf,
    StableHlo.TRef.unary (.of main_c_30) main_call6.v7 (sitofp .f32),
    StableHlo.TRef.nullary main_call6.cst_1 (constant S_ .f32 0x47C35000#32),
    StableHlo.TRef.binary main_call6.cst_1 main_call6.v7 main_call6.v8 subf,
    StableHlo.TRef.nullary main_call6.cst_2 (constant S_ .f32 0x00000000#32),
    StableHlo.TRef.binary main_call6.v6 main_call6.cst_2 main_call6.v9 (fun x v => Host.reduceAdd x v reducesTo_S100000x64_S64_d0 h_S_),
    StableHlo.TRef.unary main_call6.v8 main_call6.v10 (broadcastInDim S64 ![] bcast_S_S64),
    StableHlo.TRef.binary main_call6.v9 main_call6.v10 main_call6.v11 Host.divf,
    StableHlo.TRef.nullary main_call6.cst_3 (constant S_ .f32 0x00000000#32),
    StableHlo.TRef.binary main_call6.v8 main_call6.cst_3 main_call6.v12 (cmpf .ogt),
    StableHlo.TRef.nullary main_call6.cst_4 (constant S_ .f32 0x7FC00000#32),
    StableHlo.TRef.unary main_call6.cst_4 main_call6.call0.v0 id,
    StableHlo.TRef.unary main_call6.call0.v0 main_call6.call0.v1 (broadcastInDim S64 ![] bcast_S_S64),
    StableHlo.TRef.ternary main_call6.v12 main_call6.v11 main_call6.call0.v1 main_call6.call0.v2 (fun p a b => select (broadcastInDim S64 ![] bcast_S_S64 p) a b) ]

/-- Window 17 of 18: 7 operations, from the one that writes main_v140 to the one that writes main_v145. -/
abbrev w17 : List (HloOp τ sig (Elt F)) :=
  [ StableHlo.unary main_v138 main_v140 (broadcastInDim S1x64 ![1] bcast_S64_S1x64_1 : (⟨S64, .f32⟩ : BufTy).Contents (Elt F) → (⟨S1x64, .f32⟩ : BufTy).Contents (Elt F)),
    StableHlo.unary main_v140 main_v141 (broadcastInDim S100000x64 ![0, 1] bcast_S1x64_S100000x64_0_1 : (⟨S1x64, .f32⟩ : BufTy).Contents (Elt F) → (⟨S100000x64, .f32⟩ : BufTy).Contents (Elt F)),
    StableHlo.binary main_v135 main_v141 main_v142 (subf : (⟨S100000x64, .f32⟩ : BufTy).Contents (Elt F) → (⟨S100000x64, .f32⟩ : BufTy).Contents (Elt F) → (⟨S100000x64, .f32⟩ : BufTy).Contents (Elt F)),
    StableHlo.nullary main_cst_31 (constant S_ .f32 0x3727C5AC#32),
    StableHlo.unary main_cst_31 main_v143 (broadcastInDim S64 ![] bcast_S_S64 : (⟨S_, .f32⟩ : BufTy).Contents (Elt F) → (⟨S64, .f32⟩ : BufTy).Contents (Elt F)),
    StableHlo.binary main_v139 main_v143 main_v144 (addf : (⟨S64, .f32⟩ : BufTy).Contents (Elt F) → (⟨S64, .f32⟩ : BufTy).Contents (Elt F) → (⟨S64, .f32⟩ : BufTy).Contents (Elt F)),
    StableHlo.unary main_v144 main_v145 (Host.rsqrt : (⟨S64, .f32⟩ : BufTy).Contents (Elt F) → (⟨S64, .f32⟩ : BufTy).Contents (Elt F)) ]

/-- Window 18 of 18: 9 operations, from the one that writes main_v146 to the one that writes main_v154. -/
abbrev w18 : List (HloOp τ sig (Elt F)) :=
  [ StableHlo.unary main_v145 main_v146 (broadcastInDim S1x64 ![1] bcast_S64_S1x64_1 : (⟨S64, .f32⟩ : BufTy).Contents (Elt F) → (⟨S1x64, .f32⟩ : BufTy).Contents (Elt F)),
    StableHlo.unary main_v146 main_v147 (broadcastInDim S100000x64 ![0, 1] bcast_S1x64_S100000x64_0_1 : (⟨S1x64, .f32⟩ : BufTy).Contents (Elt F) → (⟨S100000x64, .f32⟩ : BufTy).Contents (Elt F)),
    StableHlo.binary main_v142 main_v147 main_v148 (mulf : (⟨S100000x64, .f32⟩ : BufTy).Contents (Elt F) → (⟨S100000x64, .f32⟩ : BufTy).Contents (Elt F) → (⟨S100000x64, .f32⟩ : BufTy).Contents (Elt F)),
    StableHlo.unary main_arg12 main_v149 (broadcastInDim S1x64 ![1] bcast_S64_S1x64_1 : (⟨S64, .f32⟩ : BufTy).Contents (Elt F) → (⟨S1x64, .f32⟩ : BufTy).Contents (Elt F)),
    StableHlo.unary main_v149 main_v150 (broadcastInDim S100000x64 ![0, 1] bcast_S1x64_S100000x64_0_1 : (⟨S1x64, .f32⟩ : BufTy).Contents (Elt F) → (⟨S100000x64, .f32⟩ : BufTy).Contents (Elt F)),
    StableHlo.binary main_v148 main_v150 main_v151 (mulf : (⟨S100000x64, .f32⟩ : BufTy).Contents (Elt F) → (⟨S100000x64, .f32⟩ : BufTy).Contents (Elt F) → (⟨S100000x64, .f32⟩ : BufTy).Contents (Elt F)),
    StableHlo.unary main_arg13 main_v152 (broadcastInDim S1x64 ![1] bcast_S64_S1x64_1 : (⟨S64, .f32⟩ : BufTy).Contents (Elt F) → (⟨S1x64, .f32⟩ : BufTy).Contents (Elt F)),
    StableHlo.unary main_v152 main_v153 (broadcastInDim S100000x64 ![0, 1] bcast_S1x64_S100000x64_0_1 : (⟨S1x64, .f32⟩ : BufTy).Contents (Elt F) → (⟨S100000x64, .f32⟩ : BufTy).Contents (Elt F)),
    StableHlo.binary main_v151 main_v153 main_v154 (addf : (⟨S100000x64, .f32⟩ : BufTy).Contents (Elt F) → (⟨S100000x64, .f32⟩ : BufTy).Contents (Elt F) → (⟨S100000x64, .f32⟩ : BufTy).Contents (Elt F)) ]

/-- @main's 260 operations, in order. -/
abbrev ops : List (HloOp τ sig (Elt F)) :=
  w01 ++ (w02 ++ (w03 ++ (w04 ++ (w05 ++ (w06 ++ (w07 ++ (w08 ++ (w09 ++ (w10 ++ (w11 ++ (w12 ++ (w13 ++ (w14 ++ (w15 ++ (w16 ++ (w17 ++ (w18)))))))))))))))))

set_option maxRecDepth 8192 in
set_option maxHeartbeats 4000000 in
theorem main_part0_eq (c : Dev nD) : main_part0 (F := F) c = seq (w01 ++ (w02 ++ (w03 ++ (w04 ++ (w05 ++ (w06)))))) := rfl

set_option maxRecDepth 8192 in
set_option maxHeartbeats 4000000 in
theorem main_part1_eq (c : Dev nD) : main_part1 (F := F) c = seq (w07 ++ (w08 ++ (w09 ++ (w10 ++ (w11))))) := rfl

set_option maxRecDepth 8192 in
set_option maxHeartbeats 4000000 in
theorem main_part2_eq (c : Dev nD) : main_part2 (F := F) c = seq (w12 ++ (w13 ++ (w14 ++ (w15 ++ (w16 ++ (w17)))))) := rfl

set_option maxRecDepth 8192 in
set_option maxHeartbeats 4000000 in
theorem main_part3_eq (c : Dev nD) : main_part3 (F := F) c = seq (w18) := rfl

set_option maxRecDepth 8192 in
theorem main_eq (c : Dev nD) : main (F := F) c = seq ops := by
  simp only [ops, seq_append]
  rw [main]
  simp only [main_part0_eq, main_part1_eq, main_part2_eq, main_part3_eq, seq_append, bind_assoc]

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem w01_sub : (w01 : List (HloOp τ sig (Elt F))).Forall fun op => op.bufs ⊆ tcRefs τ sig :=
  ⟨unary_bufs_sub .., reshape_bufs_sub .., unary_bufs_sub .., reshape_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩
set_option maxRecDepth 8192 in
theorem w01_fresh : (w01 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
theorem w02_sub : (w02 : List (HloOp τ sig (Elt F))).Forall fun op => op.bufs ⊆ tcRefs τ sig :=
  ⟨unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., binary_bufs_sub .., unary_bufs_sub .., unary_bufs_sub .., binary_bufs_sub .., nullary_bufs_sub .., unary_bufs_sub .., binary_bufs_sub ..⟩
set_option maxRecDepth 8192 in
theorem w02_fresh : (w02 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl⟩

set_option maxRecDepth 8192 in
theorem w03_sub : (w03 : List (HloOp τ sig (Elt F))).Forall fun op => op.bufs ⊆ tcRefs τ sig :=
  ⟨nullary_bufs_sub .., binary_bufs_sub .., binary_bufs_sub .., nullary_bufs_sub .., unary_bufs_sub .., nullary_bufs_sub .., unary_bufs_sub .., unary_bufs_sub .., ternary_bufs_sub ..⟩
set_option maxRecDepth 8192 in
theorem w03_fresh : (w03 : List (HloOp τ sig (Elt F))).Forall fun op => op.fresh = ∅ :=
  ⟨rfl, rfl, rfl, rfl, rfl, rfl, rfl, rfl, rfl⟩

set_option maxRecDepth 8192 in
theorem w04_sub : (w04 : List (HloOp τ sig (Elt F))).Forall fun op => op.bufs ⊆ tcRefs τ sig :=
  ⟨nullary_bufs_sub .., unary_bufs_sub .., binary_bufs_sub .., unary_bufs_sub ..⟩
set_option maxRecDepth 8192 in
theorem w04_fresh : (w04 : List (HloOp τ sig (Elt F))).Forall fun op => op.fresh = ∅ :=
  ⟨rfl, rfl, rfl, rfl⟩

set_option maxRecDepth 8192 in
theorem w05_sub : (w05 : List (HloOp τ sig (Elt F))).Forall fun op => op.bufs ⊆ tcRefs τ sig :=
  ⟨nullary_bufs_sub .., unary_bufs_sub .., unary_bufs_sub .., ternary_bufs_sub ..⟩
set_option maxRecDepth 8192 in
theorem w05_fresh : (w05 : List (HloOp τ sig (Elt F))).Forall fun op => op.fresh = ∅ :=
  ⟨rfl, rfl, rfl, rfl⟩

set_option maxRecDepth 8192 in
theorem w06_sub : (w06 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub ..⟩
set_option maxRecDepth 8192 in
theorem w06_fresh : (w06 : List (HloOp τ sig (Elt F))).Forall fun op => op.fresh = ∅ :=
  ⟨rfl, rfl, rfl, rfl, rfl, rfl, rfl, rfl, rfl, rfl, rfl, rfl, rfl⟩

set_option maxRecDepth 8192 in
theorem w07_sub : (w07 : List (HloOp τ sig (Elt F))).Forall fun op => op.bufs ⊆ tcRefs τ sig :=
  ⟨nullary_bufs_sub .., unary_bufs_sub .., binary_bufs_sub .., ternary_bufs_sub .., unary_bufs_sub .., binary_bufs_sub .., binary_bufs_sub ..⟩
set_option maxRecDepth 8192 in
theorem w07_fresh : (w07 : List (HloOp τ sig (Elt F))).Forall fun op => op.fresh = ∅ :=
  ⟨rfl, rfl, rfl, rfl, rfl, rfl, rfl⟩

set_option maxRecDepth 8192 in
theorem w08_sub : (w08 : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub ..⟩
set_option maxRecDepth 8192 in
theorem w08_fresh : (w08 : List (HloOp τ sig (Elt F))).Forall fun op => op.fresh = ∅ :=
  ⟨rfl, rfl, rfl, rfl, rfl, rfl, rfl, rfl, rfl, rfl, rfl, rfl, rfl, rfl, rfl, rfl, rfl, rfl, rfl, rfl⟩

set_option maxRecDepth 8192 in
theorem w09_sub : (w09 : List (HloOp τ sig (Elt F))).Forall fun op => op.bufs ⊆ tcRefs τ sig :=
  ⟨nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩
set_option maxRecDepth 8192 in
theorem w09_fresh : (w09 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
theorem w10_sub : (w10 : List (HloOp τ sig (Elt F))).Forall fun op => op.bufs ⊆ tcRefs τ sig :=
  ⟨unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub ..⟩
set_option maxRecDepth 8192 in
theorem w10_fresh : (w10 : List (HloOp τ sig (Elt F))).Forall fun op => op.fresh = ∅ :=
  ⟨rfl, rfl, rfl, rfl, rfl, rfl, rfl, rfl, rfl, rfl, rfl, rfl, rfl, rfl, rfl, rfl, rfl, rfl, rfl⟩

set_option maxRecDepth 8192 in
theorem w11_sub : (w11 : List (HloOp τ sig (Elt F))).Forall fun op => op.bufs ⊆ tcRefs τ sig :=
  ⟨nullary_bufs_sub .., binary_bufs_sub .., binary_bufs_sub .., nullary_bufs_sub .., unary_bufs_sub .., nullary_bufs_sub .., unary_bufs_sub .., unary_bufs_sub .., ternary_bufs_sub ..⟩
set_option maxRecDepth 8192 in
theorem w11_fresh : (w11 : List (HloOp τ sig (Elt F))).Forall fun op => op.fresh = ∅ :=
  ⟨rfl, rfl, rfl, rfl, rfl, rfl, rfl, rfl, rfl⟩

set_option maxRecDepth 8192 in
theorem w12_sub : (w12 : List (HloOp τ sig (Elt F))).Forall fun op => op.bufs ⊆ tcRefs τ sig :=
  ⟨nullary_bufs_sub .., unary_bufs_sub .., binary_bufs_sub .., unary_bufs_sub ..⟩
set_option maxRecDepth 8192 in
theorem w12_fresh : (w12 : List (HloOp τ sig (Elt F))).Forall fun op => op.fresh = ∅ :=
  ⟨rfl, rfl, rfl, rfl⟩

set_option maxRecDepth 8192 in
theorem w13_sub : (w13 : List (HloOp τ sig (Elt F))).Forall fun op => op.bufs ⊆ tcRefs τ sig :=
  ⟨nullary_bufs_sub .., unary_bufs_sub .., unary_bufs_sub .., ternary_bufs_sub ..⟩
set_option maxRecDepth 8192 in
theorem w13_fresh : (w13 : List (HloOp τ sig (Elt F))).Forall fun op => op.fresh = ∅ :=
  ⟨rfl, rfl, rfl, rfl⟩

set_option maxRecDepth 8192 in
theorem w14_sub : (w14 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub ..⟩
set_option maxRecDepth 8192 in
theorem w14_fresh : (w14 : List (HloOp τ sig (Elt F))).Forall fun op => op.fresh = ∅ :=
  ⟨rfl, rfl, rfl, rfl, rfl, rfl, rfl, rfl, rfl, rfl, rfl, rfl, rfl, rfl, rfl, rfl, rfl, rfl, rfl, rfl⟩

set_option maxRecDepth 8192 in
theorem w15_sub : (w15 : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub ..⟩
set_option maxRecDepth 8192 in
theorem w15_fresh : (w15 : List (HloOp τ sig (Elt F))).Forall fun op => op.fresh = ∅ :=
  ⟨rfl, rfl, rfl, rfl, rfl, rfl, rfl, rfl, rfl, rfl, rfl, rfl, rfl, rfl, rfl, rfl, rfl, rfl, rfl, rfl⟩

set_option maxRecDepth 8192 in
theorem w16_sub : (w16 : List (HloOp τ sig (Elt F))).Forall fun op => op.bufs ⊆ tcRefs τ sig :=
  ⟨nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩
set_option maxRecDepth 8192 in
theorem w16_fresh : (w16 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
theorem w17_sub : (w17 : List (HloOp τ sig (Elt F))).Forall fun op => op.bufs ⊆ tcRefs τ sig :=
  ⟨unary_bufs_sub .., unary_bufs_sub .., binary_bufs_sub .., nullary_bufs_sub .., unary_bufs_sub .., binary_bufs_sub .., unary_bufs_sub ..⟩
set_option maxRecDepth 8192 in
theorem w17_fresh : (w17 : List (HloOp τ sig (Elt F))).Forall fun op => op.fresh = ∅ :=
  ⟨rfl, rfl, rfl, rfl, rfl, rfl, rfl⟩

set_option maxRecDepth 8192 in
theorem w18_sub : (w18 : List (HloOp τ sig (Elt F))).Forall fun op => op.bufs ⊆ tcRefs τ sig :=
  ⟨unary_bufs_sub .., unary_bufs_sub .., binary_bufs_sub .., unary_bufs_sub .., unary_bufs_sub .., binary_bufs_sub .., unary_bufs_sub .., unary_bufs_sub .., binary_bufs_sub ..⟩
set_option maxRecDepth 8192 in
theorem w18_fresh : (w18 : List (HloOp τ sig (Elt F))).Forall fun op => op.fresh = ∅ :=
  ⟨rfl, rfl, rfl, rfl, rfl, rfl, rfl, rfl, rfl⟩

theorem ops_sub : (ops : List (HloOp τ sig (Elt F))).Forall fun op => op.bufs ⊆ tcRefs τ sig :=
  List.forall_iff_forall_mem.mpr fun op h => by
    simp only [ops, List.mem_append] at h
    rcases h with h | h | h | h | h | h | h | h | h | h | h | h | h | h | h | h | h | h
    exacts [List.forall_iff_forall_mem.mp w01_sub op h, List.forall_iff_forall_mem.mp w02_sub op h, List.forall_iff_forall_mem.mp w03_sub op h, List.forall_iff_forall_mem.mp w04_sub op h, List.forall_iff_forall_mem.mp w05_sub op h, List.forall_iff_forall_mem.mp w06_sub op h, List.forall_iff_forall_mem.mp w07_sub op h, List.forall_iff_forall_mem.mp w08_sub op h, List.forall_iff_forall_mem.mp w09_sub op h, List.forall_iff_forall_mem.mp w10_sub op h, List.forall_iff_forall_mem.mp w11_sub op h, List.forall_iff_forall_mem.mp w12_sub op h, List.forall_iff_forall_mem.mp w13_sub op h, List.forall_iff_forall_mem.mp w14_sub op h, List.forall_iff_forall_mem.mp w15_sub op h, List.forall_iff_forall_mem.mp w16_sub op h, List.forall_iff_forall_mem.mp w17_sub op h, List.forall_iff_forall_mem.mp w18_sub op h]

theorem ops_fresh : ∀ op ∈ (ops : List (HloOp τ sig (Elt F))), op.fresh = ∅ := fun op h => by
    simp only [ops, List.mem_append] at h
    rcases h with h | h | h | h | h | h | h | h | h | h | h | h | h | h | h | h | h | h
    exacts [List.forall_iff_forall_mem.mp w01_fresh op h, List.forall_iff_forall_mem.mp w02_fresh op h, List.forall_iff_forall_mem.mp w03_fresh op h, List.forall_iff_forall_mem.mp w04_fresh op h, List.forall_iff_forall_mem.mp w05_fresh op h, List.forall_iff_forall_mem.mp w06_fresh op h, List.forall_iff_forall_mem.mp w07_fresh op h, List.forall_iff_forall_mem.mp w08_fresh op h, List.forall_iff_forall_mem.mp w09_fresh op h, List.forall_iff_forall_mem.mp w10_fresh op h, List.forall_iff_forall_mem.mp w11_fresh op h, List.forall_iff_forall_mem.mp w12_fresh op h, List.forall_iff_forall_mem.mp w13_fresh op h, List.forall_iff_forall_mem.mp w14_fresh op h, List.forall_iff_forall_mem.mp w15_fresh op h, List.forall_iff_forall_mem.mp w16_fresh op h, List.forall_iff_forall_mem.mp w17_fresh op h, List.forall_iff_forall_mem.mp w18_fresh op h]

/-- The device's buffer contents after the first k windows, from contents V0. -/
def val0 (V0 : Valuation τ sig (Elt F)) : Valuation τ sig (Elt F) := V0
def val1 (V0 : Valuation τ sig (Elt F)) : Valuation τ sig (Elt F) := after w01 (val0 V0)
def val2 (V0 : Valuation τ sig (Elt F)) : Valuation τ sig (Elt F) := after w02 (val1 V0)
def val3 (V0 : Valuation τ sig (Elt F)) : Valuation τ sig (Elt F) := after w03 (val2 V0)
def val4 (V0 : Valuation τ sig (Elt F)) : Valuation τ sig (Elt F) := after w04 (val3 V0)
def val5 (V0 : Valuation τ sig (Elt F)) : Valuation τ sig (Elt F) := after w05 (val4 V0)
def val6 (V0 : Valuation τ sig (Elt F)) : Valuation τ sig (Elt F) := after w06 (val5 V0)
def val7 (V0 : Valuation τ sig (Elt F)) : Valuation τ sig (Elt F) := after w07 (val6 V0)
def val8 (V0 : Valuation τ sig (Elt F)) : Valuation τ sig (Elt F) := after w08 (val7 V0)
def val9 (V0 : Valuation τ sig (Elt F)) : Valuation τ sig (Elt F) := after w09 (val8 V0)
def val10 (V0 : Valuation τ sig (Elt F)) : Valuation τ sig (Elt F) := after w10 (val9 V0)
def val11 (V0 : Valuation τ sig (Elt F)) : Valuation τ sig (Elt F) := after w11 (val10 V0)
def val12 (V0 : Valuation τ sig (Elt F)) : Valuation τ sig (Elt F) := after w12 (val11 V0)
def val13 (V0 : Valuation τ sig (Elt F)) : Valuation τ sig (Elt F) := after w13 (val12 V0)
def val14 (V0 : Valuation τ sig (Elt F)) : Valuation τ sig (Elt F) := after w14 (val13 V0)
def val15 (V0 : Valuation τ sig (Elt F)) : Valuation τ sig (Elt F) := after w15 (val14 V0)
def val16 (V0 : Valuation τ sig (Elt F)) : Valuation τ sig (Elt F) := after w16 (val15 V0)
def val17 (V0 : Valuation τ sig (Elt F)) : Valuation τ sig (Elt F) := after w17 (val16 V0)
def val18 (V0 : Valuation τ sig (Elt F)) : Valuation τ sig (Elt F) := after w18 (val17 V0)

theorem after_ops (V0 : Valuation τ sig (Elt F)) : after ops V0 = val18 V0 := by
  simp only [ops, after_append]
  rfl

/-- On every device, from any memory with zero counters: every weakly fair execution of @main terminates, and every
    buffer ends at the fold of the windows over its launch contents. -/
theorem run_after (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = val18 (launchContents m c) (Proc.devRef .tc b) :=
  (θ_run defs _ _).mono (fun _ h c b => (h c b).trans (by rw [after_ops]))
    (run_seq scopedRefs_eq scopedSems_eq defs main (fun _ => ops) main_eq (fun _ => ops_sub) m ρ (fun _ => ops_fresh))

end Cert.ReferenceIdeal.RefValue

end
-- ==== Proof.RefStages.lean ====
/- The reference's value as named pure stage functions at the ideal instance: each definition is the composed
   term of the printed operations of @main (windows main_part0 … main_part3 of the printed reference) that
   compute one stage of the two-layer graph convolution, the outlined functions' operations inlined at their
   call sites. Batch normalisation over the node axis (mean, variance, scale and shift), the input projection,
   the symmetric degree normalisation of the edge list with self loops, the gather–scale–scatter aggregation,
   and their composition OUT. -/
import proofs.«103981_j8873402434235_1_alg».proof.ReferenceIdeal
import Idealize.ShloMosaic.PureOps.Ideal

noncomputable section

namespace Cert.ReferenceIdeal.RefValue

open Cert.ReferenceIdeal Idealize.ShloMosaic
open Cert.ReferenceIdeal.Facts₀ Cert.ReferenceIdeal.Facts

variable [Facts]

/-! ## Constants -/

/-- The scalar zero. -/
def zeroS : FVec Ideal S_ .f32 := constant (F := Ideal) S_ .f32 0x00000000#32
/-- The scalar 100000: the number of rows. -/
def rowsS : FVec Ideal S_ .f32 := constant (F := Ideal) S_ .f32 0x47C35000#32
/-- The variance's regulariser (the binary32 value nearest to 1e-5). -/
def epsS : FVec Ideal S_ .f32 := constant (F := Ideal) S_ .f32 0x3727C5AC#32
/-- The scalar one. -/
def oneS : FVec Ideal S_ .f32 := constant (F := Ideal) S_ .f32 0x3F800000#32
/-- The scalar the variance takes where its divisor is not positive (the quiet NaN's bits). -/
def nanS : FVec Ideal S_ .f32 := constant (F := Ideal) S_ .f32 0x7FC00000#32
/-- The variance's divisor: the number of rows minus the degrees of freedom removed (zero, converted). -/
def cntS : FVec Ideal S_ .f32 := subf rowsS (sitofp (F := Ideal) .f32 (constantI S_ 32 0#32))

/-! ## The 128-wide batch normalisation (on the input features) -/

/-- A 128-vector as every row of a 100000 by 128 array. -/
def row128 (v : FVec Ideal S128 .f32) : FVec Ideal S100000x128 .f32 :=
  broadcastInDim S100000x128 ![0, 1] bcast_S1x128_S100000x128_0_1 (broadcastInDim S1x128 ![1] bcast_S128_S1x128_1 v)

/-- The column means: the column sums over the row count. -/
def mean128 (y : FVec Ideal S100000x128 .f32) : FVec Ideal S128 .f32 :=
  Host.divf (Host.reduceAdd y zeroS reducesTo_S100000x128_S128_d0 h_S_) (broadcastInDim S128 ![] bcast_S_S128 rowsS)

/-- The array minus its column means, as the variance computes them (the mean kept as a 1 by 128 row). -/
def cen128 (y : FVec Ideal S100000x128 .f32) : FVec Ideal S100000x128 .f32 :=
  subf y (broadcastInDim S100000x128 ![0, 1] bcast_S1x128_S100000x128_0_1
    (Host.divf (broadcastInDim S1x128 ![1] bcast_S128_S1x128_1 (Host.reduceAdd y zeroS reducesTo_S100000x128_S128_d0 h_S_))
      (broadcastInDim S1x128 ![] bcast_S_S1x128 rowsS)))

/-- The column variances: the column sums of the squared centred entries over the divisor, where the divisor
    is positive. -/
def var128 (y : FVec Ideal S100000x128 .f32) : FVec Ideal S128 .f32 :=
  select (broadcastInDim S128 ![] bcast_S_S128 (cmpf .ogt cntS zeroS))
    (Host.divf (Host.reduceAdd (mulf (cen128 y) (cen128 y)) zeroS reducesTo_S100000x128_S128_d0 h_S_)
      (broadcastInDim S128 ![] bcast_S_S128 cntS))
    (broadcastInDim S128 ![] bcast_S_S128 nanS)

/-- Batch normalisation of the columns: centred, scaled by the reciprocal root of the regularised variance,
    times g, plus b. -/
def bn128 (y : FVec Ideal S100000x128 .f32) (g b : FVec Ideal S128 .f32) : FVec Ideal S100000x128 .f32 :=
  addf (mulf (mulf (subf y (row128 (mean128 y)))
      (row128 (Host.rsqrt (addf (var128 y) (broadcastInDim S128 ![] bcast_S_S128 epsS))))) (row128 g)) (row128 b)

/-! ## The 64-wide pieces -/

/-- A 64-vector as every row of a 100000 by 64 array. -/
def row64 (v : FVec Ideal S64 .f32) : FVec Ideal S100000x64 .f32 :=
  broadcastInDim S100000x64 ![0, 1] bcast_S1x64_S100000x64_0_1 (broadcastInDim S1x64 ![1] bcast_S64_S1x64_1 v)

/-- The positive part. -/
def relu64 (z : FVec Ideal S100000x64 .f32) : FVec Ideal S100000x64 .f32 :=
  maximumf z (broadcastInDim S100000x64 ![] bcast_S_S100000x64 zeroS)

/-- The input projection: z times Wp plus bp, positive part. -/
def proj (z : FVec Ideal S100000x128 .f32) (Wp : FVec Ideal S128x64 .f32) (bp : FVec Ideal S64 .f32) :
    FVec Ideal S100000x64 .f32 :=
  relu64 (addf (Host.dotGeneral dot_S100000x128_S128x64_S100000x64_1_0_0_1_n_n none z Wp) (row64 bp))

/-- The layer's matrix product h times W. -/
def mm64 (h : FVec Ideal S100000x64 .f32) (W : FVec Ideal S64x64 .f32) : FVec Ideal S100000x64 .f32 :=
  Host.dotGeneral dot_S100000x64_S64x64_S100000x64_1_0_0_1_n_n none h W

/-- Adding the bias b to every row. -/
def bias64 (y : FVec Ideal S100000x64 .f32) (b : FVec Ideal S64 .f32) : FVec Ideal S100000x64 .f32 :=
  addf y (row64 b)

/-- The column means. -/
def mean64 (y : FVec Ideal S100000x64 .f32) : FVec Ideal S64 .f32 :=
  Host.divf (Host.reduceAdd y zeroS reducesTo_S100000x64_S64_d0 h_S_) (broadcastInDim S64 ![] bcast_S_S64 rowsS)

/-- The array minus its column means, as the variance computes them. -/
def cen64 (y : FVec Ideal S100000x64 .f32) : FVec Ideal S100000x64 .f32 :=
  subf y (broadcastInDim S100000x64 ![0, 1] bcast_S1x64_S100000x64_0_1
    (Host.divf (broadcastInDim S1x64 ![1] bcast_S64_S1x64_1 (Host.reduceAdd y zeroS reducesTo_S100000x64_S64_d0 h_S_))
      (broadcastInDim S1x64 ![] bcast_S_S1x64 rowsS)))

/-- The column variances. -/
def var64 (y : FVec Ideal S100000x64 .f32) : FVec Ideal S64 .f32 :=
  select (broadcastInDim S64 ![] bcast_S_S64 (cmpf .ogt cntS zeroS))
    (Host.divf (Host.reduceAdd (mulf (cen64 y) (cen64 y)) zeroS reducesTo_S100000x64_S64_d0 h_S_)
      (broadcastInDim S64 ![] bcast_S_S64 cntS))
    (broadcastInDim S64 ![] bcast_S_S64 nanS)

/-- Batch normalisation of the columns. -/
def bn64 (y : FVec Ideal S100000x64 .f32) (g b : FVec Ideal S64 .f32) : FVec Ideal S100000x64 .f32 :=
  addf (mulf (mulf (subf y (row64 (mean64 y)))
      (row64 (Host.rsqrt (addf (var64 y) (broadcastInDim S64 ![] bcast_S_S64 epsS))))) (row64 g)) (row64 b)

/-! ## The edge list: end points with self loops, degrees, normalisation -/

/-- The edges' first end points followed by the self loops 0 … 99999. -/
def srcV (e : IVec S2x1600000 32) : IVec S1700000 32 :=
  concatenate S1700000 0
    [⟨S1600000, shapeCast S1600000 (extractStridedSlice S1x1600000 ![0, 0] e slices_S2x1600000_S1x1600000_0_0)
        shapeCasts_S1x1600000_S1600000⟩,
      ⟨S100000, iotaInDim S100000 32 0⟩] concatenates_S1600000_S100000_S1700000_d0

/-- The edges' second end points followed by the self loops. -/
def dstV (e : IVec S2x1600000 32) : IVec S1700000 32 :=
  concatenate S1700000 0
    [⟨S1600000, shapeCast S1600000 (extractStridedSlice S1x1600000 ![1, 0] e slices_S2x1600000_S1x1600000_1_0)
        shapeCasts_S1x1600000_S1600000⟩,
      ⟨S100000, iotaInDim S100000 32 0⟩] concatenates_S1600000_S100000_S1700000_d0

/-- An index vector with its negative entries moved up by the row count, as a column of gather indices. -/
def wrapIx (v : IVec S1700000 32) : IVec S1700000x1 32 :=
  broadcastInDim S1700000x1 ![0] bcast_S1700000_S1700000x1_0
    (select (cmpi .slt v (broadcastInDim S1700000 ![] bcast_S_S1700000 (constantI S_ 32 0#32)))
      (addi v (broadcastInDim S1700000 ![] bcast_S_S1700000 (constantI S_ 32 100000#32))) v)

/-- One per edge and self loop. -/
def ones17 : FVec Ideal S1700000 .f32 := broadcastInDim S1700000 ![] bcast_S_S1700000 oneS

/-- The degrees: ones added at the second end points. -/
def degOf (e : IVec S2x1600000 32) : FVec Ideal S100000 .f32 :=
  Host.scatterAdd scatter_S100000_S1700000x1_S1700000_n_0_0_1 (broadcastInDim S100000 ![] bcast_S_S100000 zeroS)
    (broadcastInDim S1700000x1 ![0] bcast_S1700000_S1700000x1_0 (dstV e)) ones17

/-- The reciprocal roots of the degrees, zero where the degree is not positive. -/
def dinvOf (e : IVec S2x1600000 32) : FVec Ideal S100000 .f32 :=
  select (cmpf .ogt (degOf e) (broadcastInDim S100000 ![] bcast_S_S100000 zeroS)) (Host.rsqrt (degOf e))
    (broadcastInDim S100000 ![] bcast_S_S100000 zeroS)

/-- The gather indices of the aggregation: the wrapped first end points. -/
def srcIx (e : IVec S2x1600000 32) : IVec S1700000x1 32 := wrapIx (srcV e)

/-- The scatter indices of the aggregation: the second end points. -/
def dstIx (e : IVec S2x1600000 32) : IVec S1700000x1 32 :=
  broadcastInDim S1700000x1 ![0] bcast_S1700000_S1700000x1_0 (dstV e)

/-- The edge weights: the reciprocal root degree at the first end point, times one, times that at the second. -/
def normOf (e : IVec S2x1600000 32) : FVec Ideal S1700000 .f32 :=
  mulf (mulf (Host.gather gather_S100000_S1700000x1_S1700000_n_0_n_n_0_1_1 (dinvOf e) (wrapIx (srcV e))) ones17)
    (Host.gather gather_S100000_S1700000x1_S1700000_n_0_n_n_0_1_1 (dinvOf e) (wrapIx (dstV e)))

/-- The aggregation: the rows of p at the first end points, each times its edge weight, added at the second
    end points into zeros. -/
def aggOf (e : IVec S2x1600000 32) (p : FVec Ideal S100000x64 .f32) : FVec Ideal S100000x64 .f32 :=
  Host.scatterAdd scatter_S100000x64_S1700000x1_S1700000x64_1_0_0_1
    (broadcastInDim S100000x64 ![] bcast_S_S100000x64 zeroS) (dstIx e)
    (mulf (Host.gather gather_S100000x64_S1700000x1_S1700000x64_1_0_n_n_0_1_164 p (srcIx e))
      (broadcastInDim S1700000x64 ![0, 1] bcast_S1700000x1_S1700000x64_0_1
        (broadcastInDim S1700000x1 ![0] bcast_S1700000_S1700000x1_0 (normOf e))))

/-! ## The whole function -/

/-- The reference's result as a function of its fourteen arguments. -/
def OUT (x : FVec Ideal S100000x128 .f32) (e : IVec S2x1600000 32) (g0 b0 : FVec Ideal S128 .f32)
    (Wp : FVec Ideal S128x64 .f32) (bp : FVec Ideal S64 .f32)
    (W1 : FVec Ideal S64x64 .f32) (b1 g1 be1 : FVec Ideal S64 .f32)
    (W2 : FVec Ideal S64x64 .f32) (b2 g2 be2 : FVec Ideal S64 .f32) : FVec Ideal S100000x64 .f32 :=
  bn64 (bias64 (aggOf e (mm64 (relu64 (bn64 (bias64 (aggOf e (mm64 (proj (bn128 x g0 b0) Wp bp) W1)) b1) g1 be1)) W2)) b2) g2 be2

end Cert.ReferenceIdeal.RefValue

end
-- ==== Proof.RefAux.lean ====
/- Names for the values that cross from one window of the reference's operations to the next and are not
   stages of their own: the two rows of the edge list as vectors, and the two partial products of the edge
   weights' computation. -/
import proofs.«103981_j8873402434235_1_alg».proof.Proof.RefStages

noncomputable section

namespace Cert.ReferenceIdeal.RefValue

open Cert.ReferenceIdeal Idealize.ShloMosaic
open Cert.ReferenceIdeal.Facts₀ Cert.ReferenceIdeal.Facts

variable [Facts]

/-- The edges' first end points: row 0 of the edge list, as a vector. -/
def edge0 (e : IVec S2x1600000 32) : IVec S1600000 32 :=
  shapeCast S1600000 (extractStridedSlice S1x1600000 ![0, 0] e slices_S2x1600000_S1x1600000_0_0) shapeCasts_S1x1600000_S1600000

/-- The edges' second end points: row 1 of the edge list, as a vector. -/
def edge1 (e : IVec S2x1600000 32) : IVec S1600000 32 :=
  shapeCast S1600000 (extractStridedSlice S1x1600000 ![1, 0] e slices_S2x1600000_S1x1600000_1_0) shapeCasts_S1x1600000_S1600000

/-- The first factor of the edge weights: the reciprocal root degree at the first end point, times one. -/
def half1 (e : IVec S2x1600000 32) : FVec Ideal S1700000 .f32 :=
  mulf (Host.gather gather_S100000_S1700000x1_S1700000_n_0_n_n_0_1_1 (dinvOf e) (wrapIx (srcV e))) ones17

/-- Where a second end point is negative. -/
def neg1 (e : IVec S2x1600000 32) : IVec S1700000 1 :=
  cmpi .slt (dstV e) (broadcastInDim S1700000 ![] bcast_S_S1700000 (constantI S_ 32 0#32))

/-- The centred array of the last normalisation. -/
def cenOut (y : FVec Ideal S100000x64 .f32) : FVec Ideal S100000x64 .f32 := subf y (row64 (mean64 y))

/-- The reciprocal root of the regularised variance of the last normalisation. -/
def scaleOut (y : FVec Ideal S100000x64 .f32) : FVec Ideal S64 .f32 :=
  Host.rsqrt (addf (var64 y) (broadcastInDim S64 ![] bcast_S_S64 epsS))

end Cert.ReferenceIdeal.RefValue

end
-- ==== Proof.RefW01.lean ====
/- One window of the reference's operations read back: which buffers it writes, that every other buffer keeps its
   contents through it, and what it leaves in the buffers later windows read, as the named stages of the values
   it finds in the buffers it reads. -/
import proofs.«103981_j8873402434235_1_alg».proof.Proof.RefOps
import proofs.«103981_j8873402434235_1_alg».proof.Proof.RefAux

noncomputable section

namespace Cert.ReferenceIdeal.RefValue

open Cert.ReferenceIdeal Idealize.ShloMosaic Idealize.ShloMosaic.TcCoe Idealize.SL.Sem Idealize.ShloMosaic.StableHlo
open Cert.ReferenceIdeal.Facts₀ Cert.ReferenceIdeal.Facts

variable [Facts]

/-- The buffers the window's operations write. -/
abbrev w01_W : List (Ref sig .tc) := [main_v0, main_v1, main_v2, main_v3, main_cst, main_v4, main_cst_0, main_v5, main_v6, main_c, main_call0_cst, main_call0_v0, main_call0_v1, main_call0_cst_0, main_call0_v2, main_call0_v3, main_call0_v4, main_call0_v5, main_call0_v6, main_call0_v7, main_call0_cst_1, main_call0_v8, main_call0_cst_2, main_call0_v9, main_call0_v10, main_call0_v11, main_call0_cst_3, main_call0_v12, main_call0_cst_4, main_call0_call0_v0, main_call0_call0_v1, main_v7]

set_option maxRecDepth 8192 in
theorem w01_writes {F : FTy → Type} [FloatOps F] : (w01 : List (HloOp τ sig (Elt F))).Forall fun op =>
    op.writes ⊆ (w01_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer the window does not write keeps its contents through it. -/
theorem w01_keep {F : FTy → Type} [FloatOps F] (W : Valuation τ sig (Elt F)) (r : Ref sig .tc) (h : r ∉ w01_W) :
    after w01 W (Proc.devRef .tc r) = W (Proc.devRef .tc r) :=
  after_of_writes_sub w01 _ w01_writes h

attribute [local irreducible] Host.reduceAdd Host.gather Host.scatterAdd in
set_option maxRecDepth 8192 in
set_option maxHeartbeats 3200000 in
theorem w01_main_v1 (W : Valuation τ sig (Elt Ideal)) (x : FVec Ideal S100000x128 .f32) (e : IVec S2x1600000 32)
    (h0 : W (Proc.devRef .tc main_arg0 : DevRef τ sig) = x)
    (h1 : W (Proc.devRef .tc main_arg1 : DevRef τ sig) = e) :
    after w01 W (Proc.devRef .tc main_v1 : DevRef τ sig) = edge0 e := by
  simp only [w01]
  after_results_simp
  try simp only [h0, h1]
  all_goals rfl

attribute [local irreducible] Host.reduceAdd Host.gather Host.scatterAdd in
set_option maxRecDepth 8192 in
set_option maxHeartbeats 3200000 in
theorem w01_main_v3 (W : Valuation τ sig (Elt Ideal)) (x : FVec Ideal S100000x128 .f32) (e : IVec S2x1600000 32)
    (h0 : W (Proc.devRef .tc main_arg0 : DevRef τ sig) = x)
    (h1 : W (Proc.devRef .tc main_arg1 : DevRef τ sig) = e) :
    after w01 W (Proc.devRef .tc main_v3 : DevRef τ sig) = edge1 e := by
  simp only [w01]
  after_results_simp
  try simp only [h0, h1]
  all_goals rfl

attribute [local irreducible] Host.reduceAdd Host.gather Host.scatterAdd in
set_option maxRecDepth 8192 in
set_option maxHeartbeats 3200000 in
theorem w01_main_v6 (W : Valuation τ sig (Elt Ideal)) (x : FVec Ideal S100000x128 .f32) (e : IVec S2x1600000 32)
    (h0 : W (Proc.devRef .tc main_arg0 : DevRef τ sig) = x)
    (h1 : W (Proc.devRef .tc main_arg1 : DevRef τ sig) = e) :
    after w01 W (Proc.devRef .tc main_v6 : DevRef τ sig) = mean128 x := by
  simp only [w01]
  after_results_simp
  try simp only [h0, h1]
  all_goals rfl

attribute [local irreducible] Host.reduceAdd Host.gather Host.scatterAdd in
set_option maxRecDepth 8192 in
set_option maxHeartbeats 3200000 in
theorem w01_main_v7 (W : Valuation τ sig (Elt Ideal)) (x : FVec Ideal S100000x128 .f32) (e : IVec S2x1600000 32)
    (h0 : W (Proc.devRef .tc main_arg0 : DevRef τ sig) = x)
    (h1 : W (Proc.devRef .tc main_arg1 : DevRef τ sig) = e) :
    after w01 W (Proc.devRef .tc main_v7 : DevRef τ sig) = var128 x := by
  simp only [w01]
  after_results_simp
  try simp only [h0, h1]
  all_goals rfl

end Cert.ReferenceIdeal.RefValue

end
-- ==== Proof.RefW02.lean ====
/- One window of the reference's operations read back: which buffers it writes, that every other buffer keeps its
   contents through it, and what it leaves in the buffers later windows read, as the named stages of the values
   it finds in the buffers it reads. -/
import proofs.«103981_j8873402434235_1_alg».proof.Proof.RefOps
import proofs.«103981_j8873402434235_1_alg».proof.Proof.RefAux

noncomputable section

namespace Cert.ReferenceIdeal.RefValue

open Cert.ReferenceIdeal Idealize.ShloMosaic Idealize.ShloMosaic.TcCoe Idealize.SL.Sem Idealize.ShloMosaic.StableHlo
open Cert.ReferenceIdeal.Facts₀ Cert.ReferenceIdeal.Facts

variable [Facts]

/-- The buffers the window's operations write. -/
abbrev w02_W : List (Ref sig .tc) := [main_v8, main_v9, main_v10, main_cst_1, main_v11, main_v12, main_v13, main_v14, main_v15, main_v16, main_v17, main_v18, main_v19, main_v20, main_v21, main_v22, main_v23, main_v24, main_v25, main_v26, main_call1_cst, main_call1_v0, main_v27]

set_option maxRecDepth 8192 in
theorem w02_writes {F : FTy → Type} [FloatOps F] : (w02 : List (HloOp τ sig (Elt F))).Forall fun op =>
    op.writes ⊆ (w02_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer the window does not write keeps its contents through it. -/
theorem w02_keep {F : FTy → Type} [FloatOps F] (W : Valuation τ sig (Elt F)) (r : Ref sig .tc) (h : r ∉ w02_W) :
    after w02 W (Proc.devRef .tc r) = W (Proc.devRef .tc r) :=
  after_of_writes_sub w02 _ w02_writes h

attribute [local irreducible] Host.reduceAdd Host.gather Host.scatterAdd in
set_option maxRecDepth 8192 in
set_option maxHeartbeats 2300000 in
theorem w02_main_v27 (W : Valuation τ sig (Elt Ideal)) (x : FVec Ideal S100000x128 .f32) (g b : FVec Ideal S128 .f32) (Wp : FVec Ideal S128x64 .f32) (bp : FVec Ideal S64 .f32)
    (h0 : W (Proc.devRef .tc main_arg0 : DevRef τ sig) = x)
    (h1 : W (Proc.devRef .tc main_arg2 : DevRef τ sig) = g)
    (h2 : W (Proc.devRef .tc main_arg3 : DevRef τ sig) = b)
    (h3 : W (Proc.devRef .tc main_arg4 : DevRef τ sig) = Wp)
    (h4 : W (Proc.devRef .tc main_arg5 : DevRef τ sig) = bp)
    (h5 : W (Proc.devRef .tc main_v6 : DevRef τ sig) = mean128 x)
    (h6 : W (Proc.devRef .tc main_v7 : DevRef τ sig) = var128 x) :
    after w02 W (Proc.devRef .tc main_v27 : DevRef τ sig) = proj (bn128 x g b) Wp bp := by
  simp only [w02]
  after_results_simp
  try simp only [h0, h1, h2, h3, h4, h5, h6]
  all_goals rfl

end Cert.ReferenceIdeal.RefValue

end
-- ==== Proof.RefW03.lean ====
/- One window of the reference's operations read back: which buffers it writes, that every other buffer keeps its
   contents through it, and what it leaves in the buffers later windows read, as the named stages of the values
   it finds in the buffers it reads. -/
import proofs.«103981_j8873402434235_1_alg».proof.Proof.RefOps
import proofs.«103981_j8873402434235_1_alg».proof.Proof.RefAux

noncomputable section

namespace Cert.ReferenceIdeal.RefValue

open Cert.ReferenceIdeal Idealize.ShloMosaic Idealize.ShloMosaic.TcCoe Idealize.SL.Sem Idealize.ShloMosaic.StableHlo
open Cert.ReferenceIdeal.Facts₀ Cert.ReferenceIdeal.Facts

variable [Facts]

/-- The buffers the window's operations write. -/
abbrev w03_W : List (Ref sig .tc) := [main_v28, main_v29, main_v30, main_cst_2, main_v31, main_cst_3, main_v32, main_v33, main_v34]

set_option maxRecDepth 8192 in
theorem w03_writes {F : FTy → Type} [FloatOps F] : (w03 : List (HloOp τ sig (Elt F))).Forall fun op =>
    op.writes ⊆ (w03_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer the window does not write keeps its contents through it. -/
theorem w03_keep {F : FTy → Type} [FloatOps F] (W : Valuation τ sig (Elt F)) (r : Ref sig .tc) (h : r ∉ w03_W) :
    after w03 W (Proc.devRef .tc r) = W (Proc.devRef .tc r) :=
  after_of_writes_sub w03 _ w03_writes h

attribute [local irreducible] Host.reduceAdd Host.gather Host.scatterAdd in
set_option maxRecDepth 8192 in
set_option maxHeartbeats 900000 in
theorem w03_main_v29 (W : Valuation τ sig (Elt Ideal)) (e : IVec S2x1600000 32)
    (h0 : W (Proc.devRef .tc main_v1 : DevRef τ sig) = edge0 e)
    (h1 : W (Proc.devRef .tc main_v3 : DevRef τ sig) = edge1 e) :
    after w03 W (Proc.devRef .tc main_v29 : DevRef τ sig) = srcV e := by
  simp only [w03]
  after_results_simp
  try simp only [h0, h1]
  all_goals rfl

attribute [local irreducible] Host.reduceAdd Host.gather Host.scatterAdd in
set_option maxRecDepth 8192 in
set_option maxHeartbeats 900000 in
theorem w03_main_v30 (W : Valuation τ sig (Elt Ideal)) (e : IVec S2x1600000 32)
    (h0 : W (Proc.devRef .tc main_v1 : DevRef τ sig) = edge0 e)
    (h1 : W (Proc.devRef .tc main_v3 : DevRef τ sig) = edge1 e) :
    after w03 W (Proc.devRef .tc main_v30 : DevRef τ sig) = dstV e := by
  simp only [w03]
  after_results_simp
  try simp only [h0, h1]
  all_goals rfl

attribute [local irreducible] Host.reduceAdd Host.gather Host.scatterAdd in
set_option maxRecDepth 8192 in
set_option maxHeartbeats 900000 in
theorem w03_main_v31 (W : Valuation τ sig (Elt Ideal)) (e : IVec S2x1600000 32)
    (h0 : W (Proc.devRef .tc main_v1 : DevRef τ sig) = edge0 e)
    (h1 : W (Proc.devRef .tc main_v3 : DevRef τ sig) = edge1 e) :
    after w03 W (Proc.devRef .tc main_v31 : DevRef τ sig) = ones17 := by
  simp only [w03]
  after_results_simp
  try simp only [h0, h1]
  all_goals rfl

attribute [local irreducible] Host.reduceAdd Host.gather Host.scatterAdd in
set_option maxRecDepth 8192 in
set_option maxHeartbeats 900000 in
theorem w03_main_v34 (W : Valuation τ sig (Elt Ideal)) (e : IVec S2x1600000 32)
    (h0 : W (Proc.devRef .tc main_v1 : DevRef τ sig) = edge0 e)
    (h1 : W (Proc.devRef .tc main_v3 : DevRef τ sig) = edge1 e) :
    after w03 W (Proc.devRef .tc main_v34 : DevRef τ sig) = degOf e := by
  simp only [w03]
  after_results_simp
  try simp only [h0, h1]
  all_goals rfl

end Cert.ReferenceIdeal.RefValue

end
-- ==== Proof.RefW04.lean ====
/- One window of the reference's operations read back: which buffers it writes, that every other buffer keeps its
   contents through it, and what it leaves in the buffers later windows read, as the named stages of the values
   it finds in the buffers it reads. -/
import proofs.«103981_j8873402434235_1_alg».proof.Proof.RefOps
import proofs.«103981_j8873402434235_1_alg».proof.Proof.RefAux

noncomputable section

namespace Cert.ReferenceIdeal.RefValue

open Cert.ReferenceIdeal Idealize.ShloMosaic Idealize.ShloMosaic.TcCoe Idealize.SL.Sem Idealize.ShloMosaic.StableHlo
open Cert.ReferenceIdeal.Facts₀ Cert.ReferenceIdeal.Facts

variable [Facts]

/-- The buffers the window's operations write. -/
abbrev w04_W : List (Ref sig .tc) := [main_cst_4, main_v35, main_v36, main_v37]

set_option maxRecDepth 8192 in
theorem w04_writes {F : FTy → Type} [FloatOps F] : (w04 : List (HloOp τ sig (Elt F))).Forall fun op =>
    op.writes ⊆ (w04_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer the window does not write keeps its contents through it. -/
theorem w04_keep {F : FTy → Type} [FloatOps F] (W : Valuation τ sig (Elt F)) (r : Ref sig .tc) (h : r ∉ w04_W) :
    after w04 W (Proc.devRef .tc r) = W (Proc.devRef .tc r) :=
  after_of_writes_sub w04 _ w04_writes h

attribute [local irreducible] Host.reduceAdd Host.gather Host.scatterAdd in
set_option maxRecDepth 8192 in
set_option maxHeartbeats 400000 in
theorem w04_main_v36 (W : Valuation τ sig (Elt Ideal)) (d : FVec Ideal S100000 .f32)
    (h0 : W (Proc.devRef .tc main_v34 : DevRef τ sig) = d) :
    after w04 W (Proc.devRef .tc main_v36 : DevRef τ sig) = cmpf .ogt d (broadcastInDim S100000 ![] bcast_S_S100000 zeroS) := by
  simp only [w04]
  after_results_simp
  try simp only [h0]
  all_goals rfl

attribute [local irreducible] Host.reduceAdd Host.gather Host.scatterAdd in
set_option maxRecDepth 8192 in
set_option maxHeartbeats 400000 in
theorem w04_main_v37 (W : Valuation τ sig (Elt Ideal)) (d : FVec Ideal S100000 .f32)
    (h0 : W (Proc.devRef .tc main_v34 : DevRef τ sig) = d) :
    after w04 W (Proc.devRef .tc main_v37 : DevRef τ sig) = Host.rsqrt d := by
  simp only [w04]
  after_results_simp
  try simp only [h0]
  all_goals rfl

end Cert.ReferenceIdeal.RefValue

end
-- ==== Proof.RefW05.lean ====
/- One window of the reference's operations read back: which buffers it writes, that every other buffer keeps its
   contents through it, and what it leaves in the buffers later windows read, as the named stages of the values
   it finds in the buffers it reads. -/
import proofs.«103981_j8873402434235_1_alg».proof.Proof.RefOps
import proofs.«103981_j8873402434235_1_alg».proof.Proof.RefAux

noncomputable section

namespace Cert.ReferenceIdeal.RefValue

open Cert.ReferenceIdeal Idealize.ShloMosaic Idealize.ShloMosaic.TcCoe Idealize.SL.Sem Idealize.ShloMosaic.StableHlo
open Cert.ReferenceIdeal.Facts₀ Cert.ReferenceIdeal.Facts

variable [Facts]

/-- The buffers the window's operations write. -/
abbrev w05_W : List (Ref sig .tc) := [main_cst_5, main_call2_v0, main_call2_v1, main_v38]

set_option maxRecDepth 8192 in
theorem w05_writes {F : FTy → Type} [FloatOps F] : (w05 : List (HloOp τ sig (Elt F))).Forall fun op =>
    op.writes ⊆ (w05_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer the window does not write keeps its contents through it. -/
theorem w05_keep {F : FTy → Type} [FloatOps F] (W : Valuation τ sig (Elt F)) (r : Ref sig .tc) (h : r ∉ w05_W) :
    after w05 W (Proc.devRef .tc r) = W (Proc.devRef .tc r) :=
  after_of_writes_sub w05 _ w05_writes h

attribute [local irreducible] Host.reduceAdd Host.gather Host.scatterAdd in
set_option maxRecDepth 8192 in
set_option maxHeartbeats 400000 in
theorem w05_main_v38 (W : Valuation τ sig (Elt Ideal)) (c : IVec S100000 1) (r : FVec Ideal S100000 .f32)
    (h0 : W (Proc.devRef .tc main_v36 : DevRef τ sig) = c)
    (h1 : W (Proc.devRef .tc main_v37 : DevRef τ sig) = r) :
    after w05 W (Proc.devRef .tc main_v38 : DevRef τ sig) = select c r (broadcastInDim S100000 ![] bcast_S_S100000 zeroS) := by
  simp only [w05]
  after_results_simp
  try simp only [h0, h1]
  all_goals rfl

end Cert.ReferenceIdeal.RefValue

end
-- ==== Proof.RefW06.lean ====
/- One window of the reference's operations read back: which buffers it writes, that every other buffer keeps its
   contents through it, and what it leaves in the buffers later windows read, as the named stages of the values
   it finds in the buffers it reads. -/
import proofs.«103981_j8873402434235_1_alg».proof.Proof.RefOps
import proofs.«103981_j8873402434235_1_alg».proof.Proof.RefAux

noncomputable section

namespace Cert.ReferenceIdeal.RefValue

open Cert.ReferenceIdeal Idealize.ShloMosaic Idealize.ShloMosaic.TcCoe Idealize.SL.Sem Idealize.ShloMosaic.StableHlo
open Cert.ReferenceIdeal.Facts₀ Cert.ReferenceIdeal.Facts

variable [Facts]

/-- The buffers the window's operations write. -/
abbrev w06_W : List (Ref sig .tc) := [main_c_6, main_v39, main_v40, main_c_7, main_v41, main_v42, main_v43, main_v44, main_v45, main_v46, main_c_8, main_v47, main_v48]

set_option maxRecDepth 8192 in
theorem w06_writes {F : FTy → Type} [FloatOps F] : (w06 : List (HloOp τ sig (Elt F))).Forall fun op =>
    op.writes ⊆ (w06_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer the window does not write keeps its contents through it. -/
theorem w06_keep {F : FTy → Type} [FloatOps F] (W : Valuation τ sig (Elt F)) (r : Ref sig .tc) (h : r ∉ w06_W) :
    after w06 W (Proc.devRef .tc r) = W (Proc.devRef .tc r) :=
  after_of_writes_sub w06 _ w06_writes h

attribute [local irreducible] Host.reduceAdd Host.gather Host.scatterAdd in
set_option maxRecDepth 8192 in
set_option maxHeartbeats 1300000 in
theorem w06_main_v46 (W : Valuation τ sig (Elt Ideal)) (e : IVec S2x1600000 32)
    (h0 : W (Proc.devRef .tc main_v29 : DevRef τ sig) = srcV e)
    (h1 : W (Proc.devRef .tc main_v30 : DevRef τ sig) = dstV e)
    (h2 : W (Proc.devRef .tc main_v31 : DevRef τ sig) = ones17)
    (h3 : W (Proc.devRef .tc main_v38 : DevRef τ sig) = dinvOf e) :
    after w06 W (Proc.devRef .tc main_v46 : DevRef τ sig) = half1 e := by
  simp only [w06]
  after_results_simp
  try simp only [h0, h1, h2, h3]
  all_goals rfl

attribute [local irreducible] Host.reduceAdd Host.gather Host.scatterAdd in
set_option maxRecDepth 8192 in
set_option maxHeartbeats 1300000 in
theorem w06_main_v48 (W : Valuation τ sig (Elt Ideal)) (e : IVec S2x1600000 32)
    (h0 : W (Proc.devRef .tc main_v29 : DevRef τ sig) = srcV e)
    (h1 : W (Proc.devRef .tc main_v30 : DevRef τ sig) = dstV e)
    (h2 : W (Proc.devRef .tc main_v31 : DevRef τ sig) = ones17)
    (h3 : W (Proc.devRef .tc main_v38 : DevRef τ sig) = dinvOf e) :
    after w06 W (Proc.devRef .tc main_v48 : DevRef τ sig) = neg1 e := by
  simp only [w06]
  after_results_simp
  try simp only [h0, h1, h2, h3]
  all_goals rfl

end Cert.ReferenceIdeal.RefValue

end
-- ==== Proof.RefW07.lean ====
/- One window of the reference's operations read back: which buffers it writes, that every other buffer keeps its
   contents through it, and what it leaves in the buffers later windows read, as the named stages of the values
   it finds in the buffers it reads. -/
import proofs.«103981_j8873402434235_1_alg».proof.Proof.RefOps
import proofs.«103981_j8873402434235_1_alg».proof.Proof.RefAux

noncomputable section

namespace Cert.ReferenceIdeal.RefValue

open Cert.ReferenceIdeal Idealize.ShloMosaic Idealize.ShloMosaic.TcCoe Idealize.SL.Sem Idealize.ShloMosaic.StableHlo
open Cert.ReferenceIdeal.Facts₀ Cert.ReferenceIdeal.Facts

variable [Facts]

/-- The buffers the window's operations write. -/
abbrev w07_W : List (Ref sig .tc) := [main_c_9, main_v49, main_v50, main_v51, main_v52, main_v53, main_v54]

set_option maxRecDepth 8192 in
theorem w07_writes {F : FTy → Type} [FloatOps F] : (w07 : List (HloOp τ sig (Elt F))).Forall fun op =>
    op.writes ⊆ (w07_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer the window does not write keeps its contents through it. -/
theorem w07_keep {F : FTy → Type} [FloatOps F] (W : Valuation τ sig (Elt F)) (r : Ref sig .tc) (h : r ∉ w07_W) :
    after w07 W (Proc.devRef .tc r) = W (Proc.devRef .tc r) :=
  after_of_writes_sub w07 _ w07_writes h

attribute [local irreducible] Host.reduceAdd Host.gather Host.scatterAdd in
set_option maxRecDepth 8192 in
set_option maxHeartbeats 700000 in
theorem w07_main_v54 (W : Valuation τ sig (Elt Ideal)) (e : IVec S2x1600000 32)
    (h0 : W (Proc.devRef .tc main_v30 : DevRef τ sig) = dstV e)
    (h1 : W (Proc.devRef .tc main_v38 : DevRef τ sig) = dinvOf e)
    (h2 : W (Proc.devRef .tc main_v46 : DevRef τ sig) = half1 e)
    (h3 : W (Proc.devRef .tc main_v48 : DevRef τ sig) = neg1 e) :
    after w07 W (Proc.devRef .tc main_v54 : DevRef τ sig) = normOf e := by
  simp only [w07]
  after_results_simp
  try simp only [h0, h1, h2, h3]
  all_goals rfl

end Cert.ReferenceIdeal.RefValue

end
-- ==== Proof.RefW08.lean ====
/- One window of the reference's operations read back: which buffers it writes, that every other buffer keeps its
   contents through it, and what it leaves in the buffers later windows read, as the named stages of the values
   it finds in the buffers it reads. -/
import proofs.«103981_j8873402434235_1_alg».proof.Proof.RefOps
import proofs.«103981_j8873402434235_1_alg».proof.Proof.RefAux

noncomputable section

namespace Cert.ReferenceIdeal.RefValue

open Cert.ReferenceIdeal Idealize.ShloMosaic Idealize.ShloMosaic.TcCoe Idealize.SL.Sem Idealize.ShloMosaic.StableHlo
open Cert.ReferenceIdeal.Facts₀ Cert.ReferenceIdeal.Facts

variable [Facts]

/-- The buffers the window's operations write. -/
abbrev w08_W : List (Ref sig .tc) := [main_v55, main_c_10, main_v56, main_v57, main_c_11, main_v58, main_v59, main_v60, main_v61, main_v62, main_v63, main_v64, main_v65, main_cst_12, main_v66, main_v67, main_v68, main_v69, main_v70, main_v71]

set_option maxRecDepth 8192 in
theorem w08_writes {F : FTy → Type} [FloatOps F] : (w08 : List (HloOp τ sig (Elt F))).Forall fun op =>
    op.writes ⊆ (w08_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer the window does not write keeps its contents through it. -/
theorem w08_keep {F : FTy → Type} [FloatOps F] (W : Valuation τ sig (Elt F)) (r : Ref sig .tc) (h : r ∉ w08_W) :
    after w08 W (Proc.devRef .tc r) = W (Proc.devRef .tc r) :=
  after_of_writes_sub w08 _ w08_writes h

attribute [local irreducible] Host.reduceAdd Host.gather Host.scatterAdd in
set_option maxRecDepth 8192 in
set_option maxHeartbeats 2000000 in
theorem w08_main_v71 (W : Valuation τ sig (Elt Ideal)) (e : IVec S2x1600000 32) (h : FVec Ideal S100000x64 .f32) (W1 : FVec Ideal S64x64 .f32) (b1 : FVec Ideal S64 .f32)
    (h0 : W (Proc.devRef .tc main_v27 : DevRef τ sig) = h)
    (h1 : W (Proc.devRef .tc main_v29 : DevRef τ sig) = srcV e)
    (h2 : W (Proc.devRef .tc main_v30 : DevRef τ sig) = dstV e)
    (h3 : W (Proc.devRef .tc main_v54 : DevRef τ sig) = normOf e)
    (h4 : W (Proc.devRef .tc main_arg6 : DevRef τ sig) = W1)
    (h5 : W (Proc.devRef .tc main_arg7 : DevRef τ sig) = b1) :
    after w08 W (Proc.devRef .tc main_v71 : DevRef τ sig) = bias64 (aggOf e (mm64 h W1)) b1 := by
  simp only [w08]
  after_results_simp
  try simp only [h0, h1, h2, h3, h4, h5]
  all_goals rfl

end Cert.ReferenceIdeal.RefValue

end
-- ==== Proof.RefW09.lean ====
/- One window of the reference's operations read back: which buffers it writes, that every other buffer keeps its
   contents through it, and what it leaves in the buffers later windows read, as the named stages of the values
   it finds in the buffers it reads. -/
import proofs.«103981_j8873402434235_1_alg».proof.Proof.RefOps
import proofs.«103981_j8873402434235_1_alg».proof.Proof.RefAux

noncomputable section

namespace Cert.ReferenceIdeal.RefValue

open Cert.ReferenceIdeal Idealize.ShloMosaic Idealize.ShloMosaic.TcCoe Idealize.SL.Sem Idealize.ShloMosaic.StableHlo
open Cert.ReferenceIdeal.Facts₀ Cert.ReferenceIdeal.Facts

variable [Facts]

/-- The buffers the window's operations write. -/
abbrev w09_W : List (Ref sig .tc) := [main_cst_13, main_v72, main_cst_14, main_v73, main_v74, main_c_15, main_call3_cst, main_call3_v0, main_call3_v1, main_call3_cst_0, main_call3_v2, main_call3_v3, main_call3_v4, main_call3_v5, main_call3_v6, main_call3_v7, main_call3_cst_1, main_call3_v8, main_call3_cst_2, main_call3_v9, main_call3_v10, main_call3_v11, main_call3_cst_3, main_call3_v12, main_call3_cst_4, main_call3_call0_v0, main_call3_call0_v1, main_v75]

set_option maxRecDepth 8192 in
theorem w09_writes {F : FTy → Type} [FloatOps F] : (w09 : List (HloOp τ sig (Elt F))).Forall fun op =>
    op.writes ⊆ (w09_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer the window does not write keeps its contents through it. -/
theorem w09_keep {F : FTy → Type} [FloatOps F] (W : Valuation τ sig (Elt F)) (r : Ref sig .tc) (h : r ∉ w09_W) :
    after w09 W (Proc.devRef .tc r) = W (Proc.devRef .tc r) :=
  after_of_writes_sub w09 _ w09_writes h

attribute [local irreducible] Host.reduceAdd Host.gather Host.scatterAdd in
set_option maxRecDepth 8192 in
set_option maxHeartbeats 2800000 in
theorem w09_main_v74 (W : Valuation τ sig (Elt Ideal)) (y : FVec Ideal S100000x64 .f32)
    (h0 : W (Proc.devRef .tc main_v71 : DevRef τ sig) = y) :
    after w09 W (Proc.devRef .tc main_v74 : DevRef τ sig) = mean64 y := by
  simp only [w09]
  after_results_simp
  try simp only [h0]
  all_goals rfl

attribute [local irreducible] Host.reduceAdd Host.gather Host.scatterAdd in
set_option maxRecDepth 8192 in
set_option maxHeartbeats 2800000 in
theorem w09_main_v75 (W : Valuation τ sig (Elt Ideal)) (y : FVec Ideal S100000x64 .f32)
    (h0 : W (Proc.devRef .tc main_v71 : DevRef τ sig) = y) :
    after w09 W (Proc.devRef .tc main_v75 : DevRef τ sig) = var64 y := by
  simp only [w09]
  after_results_simp
  try simp only [h0]
  all_goals rfl

end Cert.ReferenceIdeal.RefValue

end
-- ==== Proof.RefW10.lean ====
/- One window of the reference's operations read back: which buffers it writes, that every other buffer keeps its
   contents through it, and what it leaves in the buffers later windows read, as the named stages of the values
   it finds in the buffers it reads. -/
import proofs.«103981_j8873402434235_1_alg».proof.Proof.RefOps
import proofs.«103981_j8873402434235_1_alg».proof.Proof.RefAux

noncomputable section

namespace Cert.ReferenceIdeal.RefValue

open Cert.ReferenceIdeal Idealize.ShloMosaic Idealize.ShloMosaic.TcCoe Idealize.SL.Sem Idealize.ShloMosaic.StableHlo
open Cert.ReferenceIdeal.Facts₀ Cert.ReferenceIdeal.Facts

variable [Facts]

/-- The buffers the window's operations write. -/
abbrev w10_W : List (Ref sig .tc) := [main_v76, main_v77, main_v78, main_cst_16, main_v79, main_v80, main_v81, main_v82, main_v83, main_v84, main_v85, main_v86, main_v87, main_v88, main_v89, main_v90, main_call4_cst, main_call4_v0, main_v91]

set_option maxRecDepth 8192 in
theorem w10_writes {F : FTy → Type} [FloatOps F] : (w10 : List (HloOp τ sig (Elt F))).Forall fun op =>
    op.writes ⊆ (w10_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer the window does not write keeps its contents through it. -/
theorem w10_keep {F : FTy → Type} [FloatOps F] (W : Valuation τ sig (Elt F)) (r : Ref sig .tc) (h : r ∉ w10_W) :
    after w10 W (Proc.devRef .tc r) = W (Proc.devRef .tc r) :=
  after_of_writes_sub w10 _ w10_writes h

attribute [local irreducible] Host.reduceAdd Host.gather Host.scatterAdd in
set_option maxRecDepth 8192 in
set_option maxHeartbeats 1900000 in
theorem w10_main_v91 (W : Valuation τ sig (Elt Ideal)) (y : FVec Ideal S100000x64 .f32) (g b : FVec Ideal S64 .f32)
    (h0 : W (Proc.devRef .tc main_v71 : DevRef τ sig) = y)
    (h1 : W (Proc.devRef .tc main_v74 : DevRef τ sig) = mean64 y)
    (h2 : W (Proc.devRef .tc main_v75 : DevRef τ sig) = var64 y)
    (h3 : W (Proc.devRef .tc main_arg8 : DevRef τ sig) = g)
    (h4 : W (Proc.devRef .tc main_arg9 : DevRef τ sig) = b) :
    after w10 W (Proc.devRef .tc main_v91 : DevRef τ sig) = relu64 (bn64 y g b) := by
  simp only [w10]
  after_results_simp
  try simp only [h0, h1, h2, h3, h4]
  all_goals rfl

end Cert.ReferenceIdeal.RefValue

end
-- ==== Proof.RefW11.lean ====
/- One window of the reference's operations read back: which buffers it writes, that every other buffer keeps its
   contents through it, and what it leaves in the buffers later windows read, as the named stages of the values
   it finds in the buffers it reads. -/
import proofs.«103981_j8873402434235_1_alg».proof.Proof.RefOps
import proofs.«103981_j8873402434235_1_alg».proof.Proof.RefAux

noncomputable section

namespace Cert.ReferenceIdeal.RefValue

open Cert.ReferenceIdeal Idealize.ShloMosaic Idealize.ShloMosaic.TcCoe Idealize.SL.Sem Idealize.ShloMosaic.StableHlo
open Cert.ReferenceIdeal.Facts₀ Cert.ReferenceIdeal.Facts

variable [Facts]

/-- The buffers the window's operations write. -/
abbrev w11_W : List (Ref sig .tc) := [main_v92, main_v93, main_v94, main_cst_17, main_v95, main_cst_18, main_v96, main_v97, main_v98]

set_option maxRecDepth 8192 in
theorem w11_writes {F : FTy → Type} [FloatOps F] : (w11 : List (HloOp τ sig (Elt F))).Forall fun op =>
    op.writes ⊆ (w11_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer the window does not write keeps its contents through it. -/
theorem w11_keep {F : FTy → Type} [FloatOps F] (W : Valuation τ sig (Elt F)) (r : Ref sig .tc) (h : r ∉ w11_W) :
    after w11 W (Proc.devRef .tc r) = W (Proc.devRef .tc r) :=
  after_of_writes_sub w11 _ w11_writes h

attribute [local irreducible] Host.reduceAdd Host.gather Host.scatterAdd in
set_option maxRecDepth 8192 in
set_option maxHeartbeats 900000 in
theorem w11_main_v93 (W : Valuation τ sig (Elt Ideal)) (e : IVec S2x1600000 32)
    (h0 : W (Proc.devRef .tc main_v1 : DevRef τ sig) = edge0 e)
    (h1 : W (Proc.devRef .tc main_v3 : DevRef τ sig) = edge1 e) :
    after w11 W (Proc.devRef .tc main_v93 : DevRef τ sig) = srcV e := by
  simp only [w11]
  after_results_simp
  try simp only [h0, h1]
  all_goals rfl

attribute [local irreducible] Host.reduceAdd Host.gather Host.scatterAdd in
set_option maxRecDepth 8192 in
set_option maxHeartbeats 900000 in
theorem w11_main_v94 (W : Valuation τ sig (Elt Ideal)) (e : IVec S2x1600000 32)
    (h0 : W (Proc.devRef .tc main_v1 : DevRef τ sig) = edge0 e)
    (h1 : W (Proc.devRef .tc main_v3 : DevRef τ sig) = edge1 e) :
    after w11 W (Proc.devRef .tc main_v94 : DevRef τ sig) = dstV e := by
  simp only [w11]
  after_results_simp
  try simp only [h0, h1]
  all_goals rfl

attribute [local irreducible] Host.reduceAdd Host.gather Host.scatterAdd in
set_option maxRecDepth 8192 in
set_option maxHeartbeats 900000 in
theorem w11_main_v95 (W : Valuation τ sig (Elt Ideal)) (e : IVec S2x1600000 32)
    (h0 : W (Proc.devRef .tc main_v1 : DevRef τ sig) = edge0 e)
    (h1 : W (Proc.devRef .tc main_v3 : DevRef τ sig) = edge1 e) :
    after w11 W (Proc.devRef .tc main_v95 : DevRef τ sig) = ones17 := by
  simp only [w11]
  after_results_simp
  try simp only [h0, h1]
  all_goals rfl

attribute [local irreducible] Host.reduceAdd Host.gather Host.scatterAdd in
set_option maxRecDepth 8192 in
set_option maxHeartbeats 900000 in
theorem w11_main_v98 (W : Valuation τ sig (Elt Ideal)) (e : IVec S2x1600000 32)
    (h0 : W (Proc.devRef .tc main_v1 : DevRef τ sig) = edge0 e)
    (h1 : W (Proc.devRef .tc main_v3 : DevRef τ sig) = edge1 e) :
    after w11 W (Proc.devRef .tc main_v98 : DevRef τ sig) = degOf e := by
  simp only [w11]
  after_results_simp
  try simp only [h0, h1]
  all_goals rfl

end Cert.ReferenceIdeal.RefValue

end
-- ==== Proof.RefW12.lean ====
/- One window of the reference's operations read back: which buffers it writes, that every other buffer keeps its
   contents through it, and what it leaves in the buffers later windows read, as the named stages of the values
   it finds in the buffers it reads. -/
import proofs.«103981_j8873402434235_1_alg».proof.Proof.RefOps
import proofs.«103981_j8873402434235_1_alg».proof.Proof.RefAux

noncomputable section

namespace Cert.ReferenceIdeal.RefValue

open Cert.ReferenceIdeal Idealize.ShloMosaic Idealize.ShloMosaic.TcCoe Idealize.SL.Sem Idealize.ShloMosaic.StableHlo
open Cert.ReferenceIdeal.Facts₀ Cert.ReferenceIdeal.Facts

variable [Facts]

/-- The buffers the window's operations write. -/
abbrev w12_W : List (Ref sig .tc) := [main_cst_19, main_v99, main_v100, main_v101]

set_option maxRecDepth 8192 in
theorem w12_writes {F : FTy → Type} [FloatOps F] : (w12 : List (HloOp τ sig (Elt F))).Forall fun op =>
    op.writes ⊆ (w12_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer the window does not write keeps its contents through it. -/
theorem w12_keep {F : FTy → Type} [FloatOps F] (W : Valuation τ sig (Elt F)) (r : Ref sig .tc) (h : r ∉ w12_W) :
    after w12 W (Proc.devRef .tc r) = W (Proc.devRef .tc r) :=
  after_of_writes_sub w12 _ w12_writes h

attribute [local irreducible] Host.reduceAdd Host.gather Host.scatterAdd in
set_option maxRecDepth 8192 in
set_option maxHeartbeats 400000 in
theorem w12_main_v100 (W : Valuation τ sig (Elt Ideal)) (d : FVec Ideal S100000 .f32)
    (h0 : W (Proc.devRef .tc main_v98 : DevRef τ sig) = d) :
    after w12 W (Proc.devRef .tc main_v100 : DevRef τ sig) = cmpf .ogt d (broadcastInDim S100000 ![] bcast_S_S100000 zeroS) := by
  simp only [w12]
  after_results_simp
  try simp only [h0]
  all_goals rfl

attribute [local irreducible] Host.reduceAdd Host.gather Host.scatterAdd in
set_option maxRecDepth 8192 in
set_option maxHeartbeats 400000 in
theorem w12_main_v101 (W : Valuation τ sig (Elt Ideal)) (d : FVec Ideal S100000 .f32)
    (h0 : W (Proc.devRef .tc main_v98 : DevRef τ sig) = d) :
    after w12 W (Proc.devRef .tc main_v101 : DevRef τ sig) = Host.rsqrt d := by
  simp only [w12]
  after_results_simp
  try simp only [h0]
  all_goals rfl

end Cert.ReferenceIdeal.RefValue

end
-- ==== Proof.RefW13.lean ====
/- One window of the reference's operations read back: which buffers it writes, that every other buffer keeps its
   contents through it, and what it leaves in the buffers later windows read, as the named stages of the values
   it finds in the buffers it reads. -/
import proofs.«103981_j8873402434235_1_alg».proof.Proof.RefOps
import proofs.«103981_j8873402434235_1_alg».proof.Proof.RefAux

noncomputable section

namespace Cert.ReferenceIdeal.RefValue

open Cert.ReferenceIdeal Idealize.ShloMosaic Idealize.ShloMosaic.TcCoe Idealize.SL.Sem Idealize.ShloMosaic.StableHlo
open Cert.ReferenceIdeal.Facts₀ Cert.ReferenceIdeal.Facts

variable [Facts]

/-- The buffers the window's operations write. -/
abbrev w13_W : List (Ref sig .tc) := [main_cst_20, main_call5_v0, main_call5_v1, main_v102]

set_option maxRecDepth 8192 in
theorem w13_writes {F : FTy → Type} [FloatOps F] : (w13 : List (HloOp τ sig (Elt F))).Forall fun op =>
    op.writes ⊆ (w13_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer the window does not write keeps its contents through it. -/
theorem w13_keep {F : FTy → Type} [FloatOps F] (W : Valuation τ sig (Elt F)) (r : Ref sig .tc) (h : r ∉ w13_W) :
    after w13 W (Proc.devRef .tc r) = W (Proc.devRef .tc r) :=
  after_of_writes_sub w13 _ w13_writes h

attribute [local irreducible] Host.reduceAdd Host.gather Host.scatterAdd in
set_option maxRecDepth 8192 in
set_option maxHeartbeats 400000 in
theorem w13_main_v102 (W : Valuation τ sig (Elt Ideal)) (c : IVec S100000 1) (r : FVec Ideal S100000 .f32)
    (h0 : W (Proc.devRef .tc main_v100 : DevRef τ sig) = c)
    (h1 : W (Proc.devRef .tc main_v101 : DevRef τ sig) = r) :
    after w13 W (Proc.devRef .tc main_v102 : DevRef τ sig) = select c r (broadcastInDim S100000 ![] bcast_S_S100000 zeroS) := by
  simp only [w13]
  after_results_simp
  try simp only [h0, h1]
  all_goals rfl

end Cert.ReferenceIdeal.RefValue

end
-- ==== Proof.RefW14.lean ====
/- One window of the reference's operations read back: which buffers it writes, that every other buffer keeps its
   contents through it, and what it leaves in the buffers later windows read, as the named stages of the values
   it finds in the buffers it reads. -/
import proofs.«103981_j8873402434235_1_alg».proof.Proof.RefOps
import proofs.«103981_j8873402434235_1_alg».proof.Proof.RefAux

noncomputable section

namespace Cert.ReferenceIdeal.RefValue

open Cert.ReferenceIdeal Idealize.ShloMosaic Idealize.ShloMosaic.TcCoe Idealize.SL.Sem Idealize.ShloMosaic.StableHlo
open Cert.ReferenceIdeal.Facts₀ Cert.ReferenceIdeal.Facts

variable [Facts]

/-- The buffers the window's operations write. -/
abbrev w14_W : List (Ref sig .tc) := [main_c_21, main_v103, main_v104, main_c_22, main_v105, main_v106, main_v107, main_v108, main_v109, main_v110, main_c_23, main_v111, main_v112, main_c_24, main_v113, main_v114, main_v115, main_v116, main_v117, main_v118]

set_option maxRecDepth 8192 in
theorem w14_writes {F : FTy → Type} [FloatOps F] : (w14 : List (HloOp τ sig (Elt F))).Forall fun op =>
    op.writes ⊆ (w14_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer the window does not write keeps its contents through it. -/
theorem w14_keep {F : FTy → Type} [FloatOps F] (W : Valuation τ sig (Elt F)) (r : Ref sig .tc) (h : r ∉ w14_W) :
    after w14 W (Proc.devRef .tc r) = W (Proc.devRef .tc r) :=
  after_of_writes_sub w14 _ w14_writes h

attribute [local irreducible] Host.reduceAdd Host.gather Host.scatterAdd in
set_option maxRecDepth 8192 in
set_option maxHeartbeats 2000000 in
theorem w14_main_v118 (W : Valuation τ sig (Elt Ideal)) (e : IVec S2x1600000 32)
    (h0 : W (Proc.devRef .tc main_v93 : DevRef τ sig) = srcV e)
    (h1 : W (Proc.devRef .tc main_v94 : DevRef τ sig) = dstV e)
    (h2 : W (Proc.devRef .tc main_v95 : DevRef τ sig) = ones17)
    (h3 : W (Proc.devRef .tc main_v102 : DevRef τ sig) = dinvOf e) :
    after w14 W (Proc.devRef .tc main_v118 : DevRef τ sig) = normOf e := by
  simp only [w14]
  after_results_simp
  try simp only [h0, h1, h2, h3]
  all_goals rfl

end Cert.ReferenceIdeal.RefValue

end
-- ==== Proof.RefW15.lean ====
/- One window of the reference's operations read back: which buffers it writes, that every other buffer keeps its
   contents through it, and what it leaves in the buffers later windows read, as the named stages of the values
   it finds in the buffers it reads. -/
import proofs.«103981_j8873402434235_1_alg».proof.Proof.RefOps
import proofs.«103981_j8873402434235_1_alg».proof.Proof.RefAux

noncomputable section

namespace Cert.ReferenceIdeal.RefValue

open Cert.ReferenceIdeal Idealize.ShloMosaic Idealize.ShloMosaic.TcCoe Idealize.SL.Sem Idealize.ShloMosaic.StableHlo
open Cert.ReferenceIdeal.Facts₀ Cert.ReferenceIdeal.Facts

variable [Facts]

/-- The buffers the window's operations write. -/
abbrev w15_W : List (Ref sig .tc) := [main_v119, main_c_25, main_v120, main_v121, main_c_26, main_v122, main_v123, main_v124, main_v125, main_v126, main_v127, main_v128, main_v129, main_cst_27, main_v130, main_v131, main_v132, main_v133, main_v134, main_v135]

set_option maxRecDepth 8192 in
theorem w15_writes {F : FTy → Type} [FloatOps F] : (w15 : List (HloOp τ sig (Elt F))).Forall fun op =>
    op.writes ⊆ (w15_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer the window does not write keeps its contents through it. -/
theorem w15_keep {F : FTy → Type} [FloatOps F] (W : Valuation τ sig (Elt F)) (r : Ref sig .tc) (h : r ∉ w15_W) :
    after w15 W (Proc.devRef .tc r) = W (Proc.devRef .tc r) :=
  after_of_writes_sub w15 _ w15_writes h

attribute [local irreducible] Host.reduceAdd Host.gather Host.scatterAdd in
set_option maxRecDepth 8192 in
set_option maxHeartbeats 2000000 in
theorem w15_main_v135 (W : Valuation τ sig (Elt Ideal)) (e : IVec S2x1600000 32) (h : FVec Ideal S100000x64 .f32) (W2 : FVec Ideal S64x64 .f32) (b2 : FVec Ideal S64 .f32)
    (h0 : W (Proc.devRef .tc main_v91 : DevRef τ sig) = h)
    (h1 : W (Proc.devRef .tc main_v93 : DevRef τ sig) = srcV e)
    (h2 : W (Proc.devRef .tc main_v94 : DevRef τ sig) = dstV e)
    (h3 : W (Proc.devRef .tc main_v118 : DevRef τ sig) = normOf e)
    (h4 : W (Proc.devRef .tc main_arg10 : DevRef τ sig) = W2)
    (h5 : W (Proc.devRef .tc main_arg11 : DevRef τ sig) = b2) :
    after w15 W (Proc.devRef .tc main_v135 : DevRef τ sig) = bias64 (aggOf e (mm64 h W2)) b2 := by
  simp only [w15]
  after_results_simp
  try simp only [h0, h1, h2, h3, h4, h5]
  all_goals rfl

end Cert.ReferenceIdeal.RefValue

end
-- ==== Proof.RefW16.lean ====
/- One window of the reference's operations read back: which buffers it writes, that every other buffer keeps its
   contents through it, and what it leaves in the buffers later windows read, as the named stages of the values
   it finds in the buffers it reads. -/
import proofs.«103981_j8873402434235_1_alg».proof.Proof.RefOps
import proofs.«103981_j8873402434235_1_alg».proof.Proof.RefAux

noncomputable section

namespace Cert.ReferenceIdeal.RefValue

open Cert.ReferenceIdeal Idealize.ShloMosaic Idealize.ShloMosaic.TcCoe Idealize.SL.Sem Idealize.ShloMosaic.StableHlo
open Cert.ReferenceIdeal.Facts₀ Cert.ReferenceIdeal.Facts

variable [Facts]

/-- The buffers the window's operations write. -/
abbrev w16_W : List (Ref sig .tc) := [main_cst_28, main_v136, main_cst_29, main_v137, main_v138, main_c_30, main_call6_cst, main_call6_v0, main_call6_v1, main_call6_cst_0, main_call6_v2, main_call6_v3, main_call6_v4, main_call6_v5, main_call6_v6, main_call6_v7, main_call6_cst_1, main_call6_v8, main_call6_cst_2, main_call6_v9, main_call6_v10, main_call6_v11, main_call6_cst_3, main_call6_v12, main_call6_cst_4, main_call6_call0_v0, main_call6_call0_v1, main_v139]

set_option maxRecDepth 8192 in
theorem w16_writes {F : FTy → Type} [FloatOps F] : (w16 : List (HloOp τ sig (Elt F))).Forall fun op =>
    op.writes ⊆ (w16_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer the window does not write keeps its contents through it. -/
theorem w16_keep {F : FTy → Type} [FloatOps F] (W : Valuation τ sig (Elt F)) (r : Ref sig .tc) (h : r ∉ w16_W) :
    after w16 W (Proc.devRef .tc r) = W (Proc.devRef .tc r) :=
  after_of_writes_sub w16 _ w16_writes h

attribute [local irreducible] Host.reduceAdd Host.gather Host.scatterAdd in
set_option maxRecDepth 8192 in
set_option maxHeartbeats 2800000 in
theorem w16_main_v138 (W : Valuation τ sig (Elt Ideal)) (y : FVec Ideal S100000x64 .f32)
    (h0 : W (Proc.devRef .tc main_v135 : DevRef τ sig) = y) :
    after w16 W (Proc.devRef .tc main_v138 : DevRef τ sig) = mean64 y := by
  simp only [w16]
  after_results_simp
  try simp only [h0]
  all_goals rfl

attribute [local irreducible] Host.reduceAdd Host.gather Host.scatterAdd in
set_option maxRecDepth 8192 in
set_option maxHeartbeats 2800000 in
theorem w16_main_v139 (W : Valuation τ sig (Elt Ideal)) (y : FVec Ideal S100000x64 .f32)
    (h0 : W (Proc.devRef .tc main_v135 : DevRef τ sig) = y) :
    after w16 W (Proc.devRef .tc main_v139 : DevRef τ sig) = var64 y := by
  simp only [w16]
  after_results_simp
  try simp only [h0]
  all_goals rfl

end Cert.ReferenceIdeal.RefValue

end
-- ==== Proof.RefW17.lean ====
/- One window of the reference's operations read back: which buffers it writes, that every other buffer keeps its
   contents through it, and what it leaves in the buffers later windows read, as the named stages of the values
   it finds in the buffers it reads. -/
import proofs.«103981_j8873402434235_1_alg».proof.Proof.RefOps
import proofs.«103981_j8873402434235_1_alg».proof.Proof.RefAux

noncomputable section

namespace Cert.ReferenceIdeal.RefValue

open Cert.ReferenceIdeal Idealize.ShloMosaic Idealize.ShloMosaic.TcCoe Idealize.SL.Sem Idealize.ShloMosaic.StableHlo
open Cert.ReferenceIdeal.Facts₀ Cert.ReferenceIdeal.Facts

variable [Facts]

/-- The buffers the window's operations write. -/
abbrev w17_W : List (Ref sig .tc) := [main_v140, main_v141, main_v142, main_cst_31, main_v143, main_v144, main_v145]

set_option maxRecDepth 8192 in
theorem w17_writes {F : FTy → Type} [FloatOps F] : (w17 : List (HloOp τ sig (Elt F))).Forall fun op =>
    op.writes ⊆ (w17_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer the window does not write keeps its contents through it. -/
theorem w17_keep {F : FTy → Type} [FloatOps F] (W : Valuation τ sig (Elt F)) (r : Ref sig .tc) (h : r ∉ w17_W) :
    after w17 W (Proc.devRef .tc r) = W (Proc.devRef .tc r) :=
  after_of_writes_sub w17 _ w17_writes h

attribute [local irreducible] Host.reduceAdd Host.gather Host.scatterAdd in
set_option maxRecDepth 8192 in
set_option maxHeartbeats 700000 in
theorem w17_main_v142 (W : Valuation τ sig (Elt Ideal)) (y : FVec Ideal S100000x64 .f32)
    (h0 : W (Proc.devRef .tc main_v135 : DevRef τ sig) = y)
    (h1 : W (Proc.devRef .tc main_v138 : DevRef τ sig) = mean64 y)
    (h2 : W (Proc.devRef .tc main_v139 : DevRef τ sig) = var64 y) :
    after w17 W (Proc.devRef .tc main_v142 : DevRef τ sig) = cenOut y := by
  simp only [w17]
  after_results_simp
  try simp only [h0, h1, h2]
  all_goals rfl

attribute [local irreducible] Host.reduceAdd Host.gather Host.scatterAdd in
set_option maxRecDepth 8192 in
set_option maxHeartbeats 700000 in
theorem w17_main_v145 (W : Valuation τ sig (Elt Ideal)) (y : FVec Ideal S100000x64 .f32)
    (h0 : W (Proc.devRef .tc main_v135 : DevRef τ sig) = y)
    (h1 : W (Proc.devRef .tc main_v138 : DevRef τ sig) = mean64 y)
    (h2 : W (Proc.devRef .tc main_v139 : DevRef τ sig) = var64 y) :
    after w17 W (Proc.devRef .tc main_v145 : DevRef τ sig) = scaleOut y := by
  simp only [w17]
  after_results_simp
  try simp only [h0, h1, h2]
  all_goals rfl

end Cert.ReferenceIdeal.RefValue

end
-- ==== Proof.RefW18.lean ====
/- One window of the reference's operations read back: which buffers it writes, that every other buffer keeps its
   contents through it, and what it leaves in the buffers later windows read, as the named stages of the values
   it finds in the buffers it reads. -/
import proofs.«103981_j8873402434235_1_alg».proof.Proof.RefOps
import proofs.«103981_j8873402434235_1_alg».proof.Proof.RefAux

noncomputable section

namespace Cert.ReferenceIdeal.RefValue

open Cert.ReferenceIdeal Idealize.ShloMosaic Idealize.ShloMosaic.TcCoe Idealize.SL.Sem Idealize.ShloMosaic.StableHlo
open Cert.ReferenceIdeal.Facts₀ Cert.ReferenceIdeal.Facts

variable [Facts]

/-- The buffers the window's operations write. -/
abbrev w18_W : List (Ref sig .tc) := [main_v146, main_v147, main_v148, main_v149, main_v150, main_v151, main_v152, main_v153, main_v154]

set_option maxRecDepth 8192 in
theorem w18_writes {F : FTy → Type} [FloatOps F] : (w18 : List (HloOp τ sig (Elt F))).Forall fun op =>
    op.writes ⊆ (w18_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer the window does not write keeps its contents through it. -/
theorem w18_keep {F : FTy → Type} [FloatOps F] (W : Valuation τ sig (Elt F)) (r : Ref sig .tc) (h : r ∉ w18_W) :
    after w18 W (Proc.devRef .tc r) = W (Proc.devRef .tc r) :=
  after_of_writes_sub w18 _ w18_writes h

attribute [local irreducible] Host.reduceAdd Host.gather Host.scatterAdd in
set_option maxRecDepth 8192 in
set_option maxHeartbeats 900000 in
theorem w18_main_v154 (W : Valuation τ sig (Elt Ideal)) (y : FVec Ideal S100000x64 .f32) (g b : FVec Ideal S64 .f32)
    (h0 : W (Proc.devRef .tc main_v142 : DevRef τ sig) = cenOut y)
    (h1 : W (Proc.devRef .tc main_v145 : DevRef τ sig) = scaleOut y)
    (h2 : W (Proc.devRef .tc main_arg12 : DevRef τ sig) = g)
    (h3 : W (Proc.devRef .tc main_arg13 : DevRef τ sig) = b) :
    after w18 W (Proc.devRef .tc main_v154 : DevRef τ sig) = bn64 y g b := by
  simp only [w18]
  after_results_simp
  try simp only [h0, h1, h2, h3]
  all_goals rfl

end Cert.ReferenceIdeal.RefValue

end
-- ==== Proof.RefRun.lean ====
/- The reference's run read back: from any memory with zero counters every weakly fair execution of @main
   terminates with the result buffer at OUT of the arguments' launch contents and the arguments unchanged. The
   windows' read-backs are chained: each window's inputs are the stages the windows before it left. -/
import proofs.«103981_j8873402434235_1_alg».proof.Proof.RefOps
import proofs.«103981_j8873402434235_1_alg».proof.Proof.RefAux
import proofs.«103981_j8873402434235_1_alg».proof.Proof.RefW01
import proofs.«103981_j8873402434235_1_alg».proof.Proof.RefW02
import proofs.«103981_j8873402434235_1_alg».proof.Proof.RefW03
import proofs.«103981_j8873402434235_1_alg».proof.Proof.RefW04
import proofs.«103981_j8873402434235_1_alg».proof.Proof.RefW05
import proofs.«103981_j8873402434235_1_alg».proof.Proof.RefW06
import proofs.«103981_j8873402434235_1_alg».proof.Proof.RefW07
import proofs.«103981_j8873402434235_1_alg».proof.Proof.RefW08
import proofs.«103981_j8873402434235_1_alg».proof.Proof.RefW09
import proofs.«103981_j8873402434235_1_alg».proof.Proof.RefW10
import proofs.«103981_j8873402434235_1_alg».proof.Proof.RefW11
import proofs.«103981_j8873402434235_1_alg».proof.Proof.RefW12
import proofs.«103981_j8873402434235_1_alg».proof.Proof.RefW13
import proofs.«103981_j8873402434235_1_alg».proof.Proof.RefW14
import proofs.«103981_j8873402434235_1_alg».proof.Proof.RefW15
import proofs.«103981_j8873402434235_1_alg».proof.Proof.RefW16
import proofs.«103981_j8873402434235_1_alg».proof.Proof.RefW17
import proofs.«103981_j8873402434235_1_alg».proof.Proof.RefW18
import proofs.«103981_j8873402434235_1_alg».proof.Defs
import proofs.«103981_j8873402434235_1_alg».proof.Proof.Gen.ReferenceIdeal
import proofs.«103981_j8873402434235_1_alg».proof.Proof.Gen.Pre_finite_inputs

noncomputable section

namespace Cert.ReferenceIdeal.RefValue

open Cert.ReferenceIdeal Idealize.ShloMosaic Idealize.ShloMosaic.TcCoe Idealize.SL.Sem Idealize.ShloMosaic.StableHlo
open Cert.ReferenceIdeal.Facts₀ Cert.ReferenceIdeal.Facts

variable [Facts]

/-! ## A buffer no window writes keeps its contents -/

theorem keep1 {F : FTy → Type} [FloatOps F] (V0 : Valuation τ sig (Elt F)) (r : Ref sig .tc) (h1 : r ∉ w01_W) :
    val1 V0 (Proc.devRef .tc r) = V0 (Proc.devRef .tc r) :=
  (w01_keep (val0 V0) r h1).trans rfl
theorem keep2 {F : FTy → Type} [FloatOps F] (V0 : Valuation τ sig (Elt F)) (r : Ref sig .tc) (h1 : r ∉ w01_W) (h2 : r ∉ w02_W) :
    val2 V0 (Proc.devRef .tc r) = V0 (Proc.devRef .tc r) :=
  (w02_keep (val1 V0) r h2).trans (keep1 V0 r h1)
theorem keep3 {F : FTy → Type} [FloatOps F] (V0 : Valuation τ sig (Elt F)) (r : Ref sig .tc) (h1 : r ∉ w01_W) (h2 : r ∉ w02_W) (h3 : r ∉ w03_W) :
    val3 V0 (Proc.devRef .tc r) = V0 (Proc.devRef .tc r) :=
  (w03_keep (val2 V0) r h3).trans (keep2 V0 r h1 h2)
theorem keep4 {F : FTy → Type} [FloatOps F] (V0 : Valuation τ sig (Elt F)) (r : Ref sig .tc) (h1 : r ∉ w01_W) (h2 : r ∉ w02_W) (h3 : r ∉ w03_W) (h4 : r ∉ w04_W) :
    val4 V0 (Proc.devRef .tc r) = V0 (Proc.devRef .tc r) :=
  (w04_keep (val3 V0) r h4).trans (keep3 V0 r h1 h2 h3)
theorem keep5 {F : FTy → Type} [FloatOps F] (V0 : Valuation τ sig (Elt F)) (r : Ref sig .tc) (h1 : r ∉ w01_W) (h2 : r ∉ w02_W) (h3 : r ∉ w03_W) (h4 : r ∉ w04_W) (h5 : r ∉ w05_W) :
    val5 V0 (Proc.devRef .tc r) = V0 (Proc.devRef .tc r) :=
  (w05_keep (val4 V0) r h5).trans (keep4 V0 r h1 h2 h3 h4)
theorem keep6 {F : FTy → Type} [FloatOps F] (V0 : Valuation τ sig (Elt F)) (r : Ref sig .tc) (h1 : r ∉ w01_W) (h2 : r ∉ w02_W) (h3 : r ∉ w03_W) (h4 : r ∉ w04_W) (h5 : r ∉ w05_W) (h6 : r ∉ w06_W) :
    val6 V0 (Proc.devRef .tc r) = V0 (Proc.devRef .tc r) :=
  (w06_keep (val5 V0) r h6).trans (keep5 V0 r h1 h2 h3 h4 h5)
theorem keep7 {F : FTy → Type} [FloatOps F] (V0 : Valuation τ sig (Elt F)) (r : Ref sig .tc) (h1 : r ∉ w01_W) (h2 : r ∉ w02_W) (h3 : r ∉ w03_W) (h4 : r ∉ w04_W) (h5 : r ∉ w05_W) (h6 : r ∉ w06_W) (h7 : r ∉ w07_W) :
    val7 V0 (Proc.devRef .tc r) = V0 (Proc.devRef .tc r) :=
  (w07_keep (val6 V0) r h7).trans (keep6 V0 r h1 h2 h3 h4 h5 h6)
theorem keep8 {F : FTy → Type} [FloatOps F] (V0 : Valuation τ sig (Elt F)) (r : Ref sig .tc) (h1 : r ∉ w01_W) (h2 : r ∉ w02_W) (h3 : r ∉ w03_W) (h4 : r ∉ w04_W) (h5 : r ∉ w05_W) (h6 : r ∉ w06_W) (h7 : r ∉ w07_W) (h8 : r ∉ w08_W) :
    val8 V0 (Proc.devRef .tc r) = V0 (Proc.devRef .tc r) :=
  (w08_keep (val7 V0) r h8).trans (keep7 V0 r h1 h2 h3 h4 h5 h6 h7)
theorem keep9 {F : FTy → Type} [FloatOps F] (V0 : Valuation τ sig (Elt F)) (r : Ref sig .tc) (h1 : r ∉ w01_W) (h2 : r ∉ w02_W) (h3 : r ∉ w03_W) (h4 : r ∉ w04_W) (h5 : r ∉ w05_W) (h6 : r ∉ w06_W) (h7 : r ∉ w07_W) (h8 : r ∉ w08_W) (h9 : r ∉ w09_W) :
    val9 V0 (Proc.devRef .tc r) = V0 (Proc.devRef .tc r) :=
  (w09_keep (val8 V0) r h9).trans (keep8 V0 r h1 h2 h3 h4 h5 h6 h7 h8)
theorem keep10 {F : FTy → Type} [FloatOps F] (V0 : Valuation τ sig (Elt F)) (r : Ref sig .tc) (h1 : r ∉ w01_W) (h2 : r ∉ w02_W) (h3 : r ∉ w03_W) (h4 : r ∉ w04_W) (h5 : r ∉ w05_W) (h6 : r ∉ w06_W) (h7 : r ∉ w07_W) (h8 : r ∉ w08_W) (h9 : r ∉ w09_W) (h10 : r ∉ w10_W) :
    val10 V0 (Proc.devRef .tc r) = V0 (Proc.devRef .tc r) :=
  (w10_keep (val9 V0) r h10).trans (keep9 V0 r h1 h2 h3 h4 h5 h6 h7 h8 h9)
theorem keep11 {F : FTy → Type} [FloatOps F] (V0 : Valuation τ sig (Elt F)) (r : Ref sig .tc) (h1 : r ∉ w01_W) (h2 : r ∉ w02_W) (h3 : r ∉ w03_W) (h4 : r ∉ w04_W) (h5 : r ∉ w05_W) (h6 : r ∉ w06_W) (h7 : r ∉ w07_W) (h8 : r ∉ w08_W) (h9 : r ∉ w09_W) (h10 : r ∉ w10_W) (h11 : r ∉ w11_W) :
    val11 V0 (Proc.devRef .tc r) = V0 (Proc.devRef .tc r) :=
  (w11_keep (val10 V0) r h11).trans (keep10 V0 r h1 h2 h3 h4 h5 h6 h7 h8 h9 h10)
theorem keep12 {F : FTy → Type} [FloatOps F] (V0 : Valuation τ sig (Elt F)) (r : Ref sig .tc) (h1 : r ∉ w01_W) (h2 : r ∉ w02_W) (h3 : r ∉ w03_W) (h4 : r ∉ w04_W) (h5 : r ∉ w05_W) (h6 : r ∉ w06_W) (h7 : r ∉ w07_W) (h8 : r ∉ w08_W) (h9 : r ∉ w09_W) (h10 : r ∉ w10_W) (h11 : r ∉ w11_W) (h12 : r ∉ w12_W) :
    val12 V0 (Proc.devRef .tc r) = V0 (Proc.devRef .tc r) :=
  (w12_keep (val11 V0) r h12).trans (keep11 V0 r h1 h2 h3 h4 h5 h6 h7 h8 h9 h10 h11)
theorem keep13 {F : FTy → Type} [FloatOps F] (V0 : Valuation τ sig (Elt F)) (r : Ref sig .tc) (h1 : r ∉ w01_W) (h2 : r ∉ w02_W) (h3 : r ∉ w03_W) (h4 : r ∉ w04_W) (h5 : r ∉ w05_W) (h6 : r ∉ w06_W) (h7 : r ∉ w07_W) (h8 : r ∉ w08_W) (h9 : r ∉ w09_W) (h10 : r ∉ w10_W) (h11 : r ∉ w11_W) (h12 : r ∉ w12_W) (h13 : r ∉ w13_W) :
    val13 V0 (Proc.devRef .tc r) = V0 (Proc.devRef .tc r) :=
  (w13_keep (val12 V0) r h13).trans (keep12 V0 r h1 h2 h3 h4 h5 h6 h7 h8 h9 h10 h11 h12)
theorem keep14 {F : FTy → Type} [FloatOps F] (V0 : Valuation τ sig (Elt F)) (r : Ref sig .tc) (h1 : r ∉ w01_W) (h2 : r ∉ w02_W) (h3 : r ∉ w03_W) (h4 : r ∉ w04_W) (h5 : r ∉ w05_W) (h6 : r ∉ w06_W) (h7 : r ∉ w07_W) (h8 : r ∉ w08_W) (h9 : r ∉ w09_W) (h10 : r ∉ w10_W) (h11 : r ∉ w11_W) (h12 : r ∉ w12_W) (h13 : r ∉ w13_W) (h14 : r ∉ w14_W) :
    val14 V0 (Proc.devRef .tc r) = V0 (Proc.devRef .tc r) :=
  (w14_keep (val13 V0) r h14).trans (keep13 V0 r h1 h2 h3 h4 h5 h6 h7 h8 h9 h10 h11 h12 h13)
theorem keep15 {F : FTy → Type} [FloatOps F] (V0 : Valuation τ sig (Elt F)) (r : Ref sig .tc) (h1 : r ∉ w01_W) (h2 : r ∉ w02_W) (h3 : r ∉ w03_W) (h4 : r ∉ w04_W) (h5 : r ∉ w05_W) (h6 : r ∉ w06_W) (h7 : r ∉ w07_W) (h8 : r ∉ w08_W) (h9 : r ∉ w09_W) (h10 : r ∉ w10_W) (h11 : r ∉ w11_W) (h12 : r ∉ w12_W) (h13 : r ∉ w13_W) (h14 : r ∉ w14_W) (h15 : r ∉ w15_W) :
    val15 V0 (Proc.devRef .tc r) = V0 (Proc.devRef .tc r) :=
  (w15_keep (val14 V0) r h15).trans (keep14 V0 r h1 h2 h3 h4 h5 h6 h7 h8 h9 h10 h11 h12 h13 h14)
theorem keep16 {F : FTy → Type} [FloatOps F] (V0 : Valuation τ sig (Elt F)) (r : Ref sig .tc) (h1 : r ∉ w01_W) (h2 : r ∉ w02_W) (h3 : r ∉ w03_W) (h4 : r ∉ w04_W) (h5 : r ∉ w05_W) (h6 : r ∉ w06_W) (h7 : r ∉ w07_W) (h8 : r ∉ w08_W) (h9 : r ∉ w09_W) (h10 : r ∉ w10_W) (h11 : r ∉ w11_W) (h12 : r ∉ w12_W) (h13 : r ∉ w13_W) (h14 : r ∉ w14_W) (h15 : r ∉ w15_W) (h16 : r ∉ w16_W) :
    val16 V0 (Proc.devRef .tc r) = V0 (Proc.devRef .tc r) :=
  (w16_keep (val15 V0) r h16).trans (keep15 V0 r h1 h2 h3 h4 h5 h6 h7 h8 h9 h10 h11 h12 h13 h14 h15)
theorem keep17 {F : FTy → Type} [FloatOps F] (V0 : Valuation τ sig (Elt F)) (r : Ref sig .tc) (h1 : r ∉ w01_W) (h2 : r ∉ w02_W) (h3 : r ∉ w03_W) (h4 : r ∉ w04_W) (h5 : r ∉ w05_W) (h6 : r ∉ w06_W) (h7 : r ∉ w07_W) (h8 : r ∉ w08_W) (h9 : r ∉ w09_W) (h10 : r ∉ w10_W) (h11 : r ∉ w11_W) (h12 : r ∉ w12_W) (h13 : r ∉ w13_W) (h14 : r ∉ w14_W) (h15 : r ∉ w15_W) (h16 : r ∉ w16_W) (h17 : r ∉ w17_W) :
    val17 V0 (Proc.devRef .tc r) = V0 (Proc.devRef .tc r) :=
  (w17_keep (val16 V0) r h17).trans (keep16 V0 r h1 h2 h3 h4 h5 h6 h7 h8 h9 h10 h11 h12 h13 h14 h15 h16)
theorem keep18 {F : FTy → Type} [FloatOps F] (V0 : Valuation τ sig (Elt F)) (r : Ref sig .tc) (h1 : r ∉ w01_W) (h2 : r ∉ w02_W) (h3 : r ∉ w03_W) (h4 : r ∉ w04_W) (h5 : r ∉ w05_W) (h6 : r ∉ w06_W) (h7 : r ∉ w07_W) (h8 : r ∉ w08_W) (h9 : r ∉ w09_W) (h10 : r ∉ w10_W) (h11 : r ∉ w11_W) (h12 : r ∉ w12_W) (h13 : r ∉ w13_W) (h14 : r ∉ w14_W) (h15 : r ∉ w15_W) (h16 : r ∉ w16_W) (h17 : r ∉ w17_W) (h18 : r ∉ w18_W) :
    val18 V0 (Proc.devRef .tc r) = V0 (Proc.devRef .tc r) :=
  (w18_keep (val17 V0) r h18).trans (keep17 V0 r h1 h2 h3 h4 h5 h6 h7 h8 h9 h10 h11 h12 h13 h14 h15 h16 h17)

/-! ## The stages, as functions of the contents the run starts from -/

/-- The projected input features. -/
def H1 (V0 : Valuation τ sig (Elt Ideal)) : FVec Ideal S100000x64 .f32 :=
  proj (bn128 (V0 (Proc.devRef .tc main_arg0 : DevRef τ sig)) (V0 (Proc.devRef .tc main_arg2 : DevRef τ sig)) (V0 (Proc.devRef .tc main_arg3 : DevRef τ sig))) (V0 (Proc.devRef .tc main_arg4 : DevRef τ sig)) (V0 (Proc.devRef .tc main_arg5 : DevRef τ sig))
/-- The first layer's aggregation plus bias. -/
def Y1 (V0 : Valuation τ sig (Elt Ideal)) : FVec Ideal S100000x64 .f32 :=
  bias64 (aggOf (V0 (Proc.devRef .tc main_arg1 : DevRef τ sig)) (mm64 (H1 V0) (V0 (Proc.devRef .tc main_arg6 : DevRef τ sig)))) (V0 (Proc.devRef .tc main_arg7 : DevRef τ sig))
/-- The first layer's output. -/
def H2 (V0 : Valuation τ sig (Elt Ideal)) : FVec Ideal S100000x64 .f32 :=
  relu64 (bn64 (Y1 V0) (V0 (Proc.devRef .tc main_arg8 : DevRef τ sig)) (V0 (Proc.devRef .tc main_arg9 : DevRef τ sig)))
/-- The second layer's aggregation plus bias. -/
def Y2 (V0 : Valuation τ sig (Elt Ideal)) : FVec Ideal S100000x64 .f32 :=
  bias64 (aggOf (V0 (Proc.devRef .tc main_arg1 : DevRef τ sig)) (mm64 (H2 V0) (V0 (Proc.devRef .tc main_arg10 : DevRef τ sig)))) (V0 (Proc.devRef .tc main_arg11 : DevRef τ sig))

/-! ## The windows chained -/

theorem s1_main_v1 (V0 : Valuation τ sig (Elt Ideal)) : val1 V0 (Proc.devRef .tc main_v1 : DevRef τ sig) = edge0 (V0 (Proc.devRef .tc main_arg1 : DevRef τ sig)) :=
  w01_main_v1 (val0 V0) (V0 (Proc.devRef .tc main_arg0 : DevRef τ sig)) (V0 (Proc.devRef .tc main_arg1 : DevRef τ sig))
    rfl rfl
theorem s1_main_v3 (V0 : Valuation τ sig (Elt Ideal)) : val1 V0 (Proc.devRef .tc main_v3 : DevRef τ sig) = edge1 (V0 (Proc.devRef .tc main_arg1 : DevRef τ sig)) :=
  w01_main_v3 (val0 V0) (V0 (Proc.devRef .tc main_arg0 : DevRef τ sig)) (V0 (Proc.devRef .tc main_arg1 : DevRef τ sig))
    rfl rfl
theorem s1_main_v6 (V0 : Valuation τ sig (Elt Ideal)) : val1 V0 (Proc.devRef .tc main_v6 : DevRef τ sig) = mean128 (V0 (Proc.devRef .tc main_arg0 : DevRef τ sig)) :=
  w01_main_v6 (val0 V0) (V0 (Proc.devRef .tc main_arg0 : DevRef τ sig)) (V0 (Proc.devRef .tc main_arg1 : DevRef τ sig))
    rfl rfl
theorem s1_main_v7 (V0 : Valuation τ sig (Elt Ideal)) : val1 V0 (Proc.devRef .tc main_v7 : DevRef τ sig) = var128 (V0 (Proc.devRef .tc main_arg0 : DevRef τ sig)) :=
  w01_main_v7 (val0 V0) (V0 (Proc.devRef .tc main_arg0 : DevRef τ sig)) (V0 (Proc.devRef .tc main_arg1 : DevRef τ sig))
    rfl rfl
theorem s2_main_v1 (V0 : Valuation τ sig (Elt Ideal)) : val2 V0 (Proc.devRef .tc main_v1 : DevRef τ sig) = edge0 (V0 (Proc.devRef .tc main_arg1 : DevRef τ sig)) :=
  (w02_keep (val1 V0) main_v1 (by decide)).trans (s1_main_v1 V0)
theorem s2_main_v3 (V0 : Valuation τ sig (Elt Ideal)) : val2 V0 (Proc.devRef .tc main_v3 : DevRef τ sig) = edge1 (V0 (Proc.devRef .tc main_arg1 : DevRef τ sig)) :=
  (w02_keep (val1 V0) main_v3 (by decide)).trans (s1_main_v3 V0)
theorem s2_main_v27 (V0 : Valuation τ sig (Elt Ideal)) : val2 V0 (Proc.devRef .tc main_v27 : DevRef τ sig) = H1 V0 :=
  w02_main_v27 (val1 V0) (V0 (Proc.devRef .tc main_arg0 : DevRef τ sig)) (V0 (Proc.devRef .tc main_arg2 : DevRef τ sig)) (V0 (Proc.devRef .tc main_arg3 : DevRef τ sig)) (V0 (Proc.devRef .tc main_arg4 : DevRef τ sig)) (V0 (Proc.devRef .tc main_arg5 : DevRef τ sig))
    (keep1 V0 main_arg0 (by decide)) (keep1 V0 main_arg2 (by decide)) (keep1 V0 main_arg3 (by decide)) (keep1 V0 main_arg4 (by decide)) (keep1 V0 main_arg5 (by decide)) (s1_main_v6 V0) (s1_main_v7 V0)
theorem s3_main_v1 (V0 : Valuation τ sig (Elt Ideal)) : val3 V0 (Proc.devRef .tc main_v1 : DevRef τ sig) = edge0 (V0 (Proc.devRef .tc main_arg1 : DevRef τ sig)) :=
  (w03_keep (val2 V0) main_v1 (by decide)).trans (s2_main_v1 V0)
theorem s3_main_v3 (V0 : Valuation τ sig (Elt Ideal)) : val3 V0 (Proc.devRef .tc main_v3 : DevRef τ sig) = edge1 (V0 (Proc.devRef .tc main_arg1 : DevRef τ sig)) :=
  (w03_keep (val2 V0) main_v3 (by decide)).trans (s2_main_v3 V0)
theorem s3_main_v27 (V0 : Valuation τ sig (Elt Ideal)) : val3 V0 (Proc.devRef .tc main_v27 : DevRef τ sig) = H1 V0 :=
  (w03_keep (val2 V0) main_v27 (by decide)).trans (s2_main_v27 V0)
theorem s3_main_v29 (V0 : Valuation τ sig (Elt Ideal)) : val3 V0 (Proc.devRef .tc main_v29 : DevRef τ sig) = srcV (V0 (Proc.devRef .tc main_arg1 : DevRef τ sig)) :=
  w03_main_v29 (val2 V0) (V0 (Proc.devRef .tc main_arg1 : DevRef τ sig))
    (s2_main_v1 V0) (s2_main_v3 V0)
theorem s3_main_v30 (V0 : Valuation τ sig (Elt Ideal)) : val3 V0 (Proc.devRef .tc main_v30 : DevRef τ sig) = dstV (V0 (Proc.devRef .tc main_arg1 : DevRef τ sig)) :=
  w03_main_v30 (val2 V0) (V0 (Proc.devRef .tc main_arg1 : DevRef τ sig))
    (s2_main_v1 V0) (s2_main_v3 V0)
theorem s3_main_v31 (V0 : Valuation τ sig (Elt Ideal)) : val3 V0 (Proc.devRef .tc main_v31 : DevRef τ sig) = ones17 :=
  w03_main_v31 (val2 V0) (V0 (Proc.devRef .tc main_arg1 : DevRef τ sig))
    (s2_main_v1 V0) (s2_main_v3 V0)
theorem s3_main_v34 (V0 : Valuation τ sig (Elt Ideal)) : val3 V0 (Proc.devRef .tc main_v34 : DevRef τ sig) = degOf (V0 (Proc.devRef .tc main_arg1 : DevRef τ sig)) :=
  w03_main_v34 (val2 V0) (V0 (Proc.devRef .tc main_arg1 : DevRef τ sig))
    (s2_main_v1 V0) (s2_main_v3 V0)
theorem s4_main_v1 (V0 : Valuation τ sig (Elt Ideal)) : val4 V0 (Proc.devRef .tc main_v1 : DevRef τ sig) = edge0 (V0 (Proc.devRef .tc main_arg1 : DevRef τ sig)) :=
  (w04_keep (val3 V0) main_v1 (by decide)).trans (s3_main_v1 V0)
theorem s4_main_v3 (V0 : Valuation τ sig (Elt Ideal)) : val4 V0 (Proc.devRef .tc main_v3 : DevRef τ sig) = edge1 (V0 (Proc.devRef .tc main_arg1 : DevRef τ sig)) :=
  (w04_keep (val3 V0) main_v3 (by decide)).trans (s3_main_v3 V0)
theorem s4_main_v27 (V0 : Valuation τ sig (Elt Ideal)) : val4 V0 (Proc.devRef .tc main_v27 : DevRef τ sig) = H1 V0 :=
  (w04_keep (val3 V0) main_v27 (by decide)).trans (s3_main_v27 V0)
theorem s4_main_v29 (V0 : Valuation τ sig (Elt Ideal)) : val4 V0 (Proc.devRef .tc main_v29 : DevRef τ sig) = srcV (V0 (Proc.devRef .tc main_arg1 : DevRef τ sig)) :=
  (w04_keep (val3 V0) main_v29 (by decide)).trans (s3_main_v29 V0)
theorem s4_main_v30 (V0 : Valuation τ sig (Elt Ideal)) : val4 V0 (Proc.devRef .tc main_v30 : DevRef τ sig) = dstV (V0 (Proc.devRef .tc main_arg1 : DevRef τ sig)) :=
  (w04_keep (val3 V0) main_v30 (by decide)).trans (s3_main_v30 V0)
theorem s4_main_v31 (V0 : Valuation τ sig (Elt Ideal)) : val4 V0 (Proc.devRef .tc main_v31 : DevRef τ sig) = ones17 :=
  (w04_keep (val3 V0) main_v31 (by decide)).trans (s3_main_v31 V0)
theorem s4_main_v36 (V0 : Valuation τ sig (Elt Ideal)) : val4 V0 (Proc.devRef .tc main_v36 : DevRef τ sig) = cmpf .ogt (degOf (V0 (Proc.devRef .tc main_arg1 : DevRef τ sig))) (broadcastInDim S100000 ![] bcast_S_S100000 zeroS) :=
  w04_main_v36 (val3 V0) (degOf (V0 (Proc.devRef .tc main_arg1 : DevRef τ sig)))
    (s3_main_v34 V0)
theorem s4_main_v37 (V0 : Valuation τ sig (Elt Ideal)) : val4 V0 (Proc.devRef .tc main_v37 : DevRef τ sig) = Host.rsqrt (degOf (V0 (Proc.devRef .tc main_arg1 : DevRef τ sig))) :=
  w04_main_v37 (val3 V0) (degOf (V0 (Proc.devRef .tc main_arg1 : DevRef τ sig)))
    (s3_main_v34 V0)
theorem s5_main_v1 (V0 : Valuation τ sig (Elt Ideal)) : val5 V0 (Proc.devRef .tc main_v1 : DevRef τ sig) = edge0 (V0 (Proc.devRef .tc main_arg1 : DevRef τ sig)) :=
  (w05_keep (val4 V0) main_v1 (by decide)).trans (s4_main_v1 V0)
theorem s5_main_v3 (V0 : Valuation τ sig (Elt Ideal)) : val5 V0 (Proc.devRef .tc main_v3 : DevRef τ sig) = edge1 (V0 (Proc.devRef .tc main_arg1 : DevRef τ sig)) :=
  (w05_keep (val4 V0) main_v3 (by decide)).trans (s4_main_v3 V0)
theorem s5_main_v27 (V0 : Valuation τ sig (Elt Ideal)) : val5 V0 (Proc.devRef .tc main_v27 : DevRef τ sig) = H1 V0 :=
  (w05_keep (val4 V0) main_v27 (by decide)).trans (s4_main_v27 V0)
theorem s5_main_v29 (V0 : Valuation τ sig (Elt Ideal)) : val5 V0 (Proc.devRef .tc main_v29 : DevRef τ sig) = srcV (V0 (Proc.devRef .tc main_arg1 : DevRef τ sig)) :=
  (w05_keep (val4 V0) main_v29 (by decide)).trans (s4_main_v29 V0)
theorem s5_main_v30 (V0 : Valuation τ sig (Elt Ideal)) : val5 V0 (Proc.devRef .tc main_v30 : DevRef τ sig) = dstV (V0 (Proc.devRef .tc main_arg1 : DevRef τ sig)) :=
  (w05_keep (val4 V0) main_v30 (by decide)).trans (s4_main_v30 V0)
theorem s5_main_v31 (V0 : Valuation τ sig (Elt Ideal)) : val5 V0 (Proc.devRef .tc main_v31 : DevRef τ sig) = ones17 :=
  (w05_keep (val4 V0) main_v31 (by decide)).trans (s4_main_v31 V0)
theorem s5_main_v38 (V0 : Valuation τ sig (Elt Ideal)) : val5 V0 (Proc.devRef .tc main_v38 : DevRef τ sig) = dinvOf (V0 (Proc.devRef .tc main_arg1 : DevRef τ sig)) :=
  w05_main_v38 (val4 V0) (cmpf .ogt (degOf (V0 (Proc.devRef .tc main_arg1 : DevRef τ sig))) (broadcastInDim S100000 ![] bcast_S_S100000 zeroS)) (Host.rsqrt (degOf (V0 (Proc.devRef .tc main_arg1 : DevRef τ sig))))
    (s4_main_v36 V0) (s4_main_v37 V0)
theorem s6_main_v1 (V0 : Valuation τ sig (Elt Ideal)) : val6 V0 (Proc.devRef .tc main_v1 : DevRef τ sig) = edge0 (V0 (Proc.devRef .tc main_arg1 : DevRef τ sig)) :=
  (w06_keep (val5 V0) main_v1 (by decide)).trans (s5_main_v1 V0)
theorem s6_main_v3 (V0 : Valuation τ sig (Elt Ideal)) : val6 V0 (Proc.devRef .tc main_v3 : DevRef τ sig) = edge1 (V0 (Proc.devRef .tc main_arg1 : DevRef τ sig)) :=
  (w06_keep (val5 V0) main_v3 (by decide)).trans (s5_main_v3 V0)
theorem s6_main_v27 (V0 : Valuation τ sig (Elt Ideal)) : val6 V0 (Proc.devRef .tc main_v27 : DevRef τ sig) = H1 V0 :=
  (w06_keep (val5 V0) main_v27 (by decide)).trans (s5_main_v27 V0)
theorem s6_main_v29 (V0 : Valuation τ sig (Elt Ideal)) : val6 V0 (Proc.devRef .tc main_v29 : DevRef τ sig) = srcV (V0 (Proc.devRef .tc main_arg1 : DevRef τ sig)) :=
  (w06_keep (val5 V0) main_v29 (by decide)).trans (s5_main_v29 V0)
theorem s6_main_v30 (V0 : Valuation τ sig (Elt Ideal)) : val6 V0 (Proc.devRef .tc main_v30 : DevRef τ sig) = dstV (V0 (Proc.devRef .tc main_arg1 : DevRef τ sig)) :=
  (w06_keep (val5 V0) main_v30 (by decide)).trans (s5_main_v30 V0)
theorem s6_main_v38 (V0 : Valuation τ sig (Elt Ideal)) : val6 V0 (Proc.devRef .tc main_v38 : DevRef τ sig) = dinvOf (V0 (Proc.devRef .tc main_arg1 : DevRef τ sig)) :=
  (w06_keep (val5 V0) main_v38 (by decide)).trans (s5_main_v38 V0)
theorem s6_main_v46 (V0 : Valuation τ sig (Elt Ideal)) : val6 V0 (Proc.devRef .tc main_v46 : DevRef τ sig) = half1 (V0 (Proc.devRef .tc main_arg1 : DevRef τ sig)) :=
  w06_main_v46 (val5 V0) (V0 (Proc.devRef .tc main_arg1 : DevRef τ sig))
    (s5_main_v29 V0) (s5_main_v30 V0) (s5_main_v31 V0) (s5_main_v38 V0)
theorem s6_main_v48 (V0 : Valuation τ sig (Elt Ideal)) : val6 V0 (Proc.devRef .tc main_v48 : DevRef τ sig) = neg1 (V0 (Proc.devRef .tc main_arg1 : DevRef τ sig)) :=
  w06_main_v48 (val5 V0) (V0 (Proc.devRef .tc main_arg1 : DevRef τ sig))
    (s5_main_v29 V0) (s5_main_v30 V0) (s5_main_v31 V0) (s5_main_v38 V0)
theorem s7_main_v1 (V0 : Valuation τ sig (Elt Ideal)) : val7 V0 (Proc.devRef .tc main_v1 : DevRef τ sig) = edge0 (V0 (Proc.devRef .tc main_arg1 : DevRef τ sig)) :=
  (w07_keep (val6 V0) main_v1 (by decide)).trans (s6_main_v1 V0)
theorem s7_main_v3 (V0 : Valuation τ sig (Elt Ideal)) : val7 V0 (Proc.devRef .tc main_v3 : DevRef τ sig) = edge1 (V0 (Proc.devRef .tc main_arg1 : DevRef τ sig)) :=
  (w07_keep (val6 V0) main_v3 (by decide)).trans (s6_main_v3 V0)
theorem s7_main_v27 (V0 : Valuation τ sig (Elt Ideal)) : val7 V0 (Proc.devRef .tc main_v27 : DevRef τ sig) = H1 V0 :=
  (w07_keep (val6 V0) main_v27 (by decide)).trans (s6_main_v27 V0)
theorem s7_main_v29 (V0 : Valuation τ sig (Elt Ideal)) : val7 V0 (Proc.devRef .tc main_v29 : DevRef τ sig) = srcV (V0 (Proc.devRef .tc main_arg1 : DevRef τ sig)) :=
  (w07_keep (val6 V0) main_v29 (by decide)).trans (s6_main_v29 V0)
theorem s7_main_v30 (V0 : Valuation τ sig (Elt Ideal)) : val7 V0 (Proc.devRef .tc main_v30 : DevRef τ sig) = dstV (V0 (Proc.devRef .tc main_arg1 : DevRef τ sig)) :=
  (w07_keep (val6 V0) main_v30 (by decide)).trans (s6_main_v30 V0)
theorem s7_main_v54 (V0 : Valuation τ sig (Elt Ideal)) : val7 V0 (Proc.devRef .tc main_v54 : DevRef τ sig) = normOf (V0 (Proc.devRef .tc main_arg1 : DevRef τ sig)) :=
  w07_main_v54 (val6 V0) (V0 (Proc.devRef .tc main_arg1 : DevRef τ sig))
    (s6_main_v30 V0) (s6_main_v38 V0) (s6_main_v46 V0) (s6_main_v48 V0)
theorem s8_main_v1 (V0 : Valuation τ sig (Elt Ideal)) : val8 V0 (Proc.devRef .tc main_v1 : DevRef τ sig) = edge0 (V0 (Proc.devRef .tc main_arg1 : DevRef τ sig)) :=
  (w08_keep (val7 V0) main_v1 (by decide)).trans (s7_main_v1 V0)
theorem s8_main_v3 (V0 : Valuation τ sig (Elt Ideal)) : val8 V0 (Proc.devRef .tc main_v3 : DevRef τ sig) = edge1 (V0 (Proc.devRef .tc main_arg1 : DevRef τ sig)) :=
  (w08_keep (val7 V0) main_v3 (by decide)).trans (s7_main_v3 V0)
theorem s8_main_v71 (V0 : Valuation τ sig (Elt Ideal)) : val8 V0 (Proc.devRef .tc main_v71 : DevRef τ sig) = Y1 V0 :=
  w08_main_v71 (val7 V0) (V0 (Proc.devRef .tc main_arg1 : DevRef τ sig)) (H1 V0) (V0 (Proc.devRef .tc main_arg6 : DevRef τ sig)) (V0 (Proc.devRef .tc main_arg7 : DevRef τ sig))
    (s7_main_v27 V0) (s7_main_v29 V0) (s7_main_v30 V0) (s7_main_v54 V0) (keep7 V0 main_arg6 (by decide) (by decide) (by decide) (by decide) (by decide) (by decide) (by decide)) (keep7 V0 main_arg7 (by decide) (by decide) (by decide) (by decide) (by decide) (by decide) (by decide))
theorem s9_main_v1 (V0 : Valuation τ sig (Elt Ideal)) : val9 V0 (Proc.devRef .tc main_v1 : DevRef τ sig) = edge0 (V0 (Proc.devRef .tc main_arg1 : DevRef τ sig)) :=
  (w09_keep (val8 V0) main_v1 (by decide)).trans (s8_main_v1 V0)
theorem s9_main_v3 (V0 : Valuation τ sig (Elt Ideal)) : val9 V0 (Proc.devRef .tc main_v3 : DevRef τ sig) = edge1 (V0 (Proc.devRef .tc main_arg1 : DevRef τ sig)) :=
  (w09_keep (val8 V0) main_v3 (by decide)).trans (s8_main_v3 V0)
theorem s9_main_v71 (V0 : Valuation τ sig (Elt Ideal)) : val9 V0 (Proc.devRef .tc main_v71 : DevRef τ sig) = Y1 V0 :=
  (w09_keep (val8 V0) main_v71 (by decide)).trans (s8_main_v71 V0)
theorem s9_main_v74 (V0 : Valuation τ sig (Elt Ideal)) : val9 V0 (Proc.devRef .tc main_v74 : DevRef τ sig) = mean64 (Y1 V0) :=
  w09_main_v74 (val8 V0) (Y1 V0)
    (s8_main_v71 V0)
theorem s9_main_v75 (V0 : Valuation τ sig (Elt Ideal)) : val9 V0 (Proc.devRef .tc main_v75 : DevRef τ sig) = var64 (Y1 V0) :=
  w09_main_v75 (val8 V0) (Y1 V0)
    (s8_main_v71 V0)
theorem s10_main_v1 (V0 : Valuation τ sig (Elt Ideal)) : val10 V0 (Proc.devRef .tc main_v1 : DevRef τ sig) = edge0 (V0 (Proc.devRef .tc main_arg1 : DevRef τ sig)) :=
  (w10_keep (val9 V0) main_v1 (by decide)).trans (s9_main_v1 V0)
theorem s10_main_v3 (V0 : Valuation τ sig (Elt Ideal)) : val10 V0 (Proc.devRef .tc main_v3 : DevRef τ sig) = edge1 (V0 (Proc.devRef .tc main_arg1 : DevRef τ sig)) :=
  (w10_keep (val9 V0) main_v3 (by decide)).trans (s9_main_v3 V0)
theorem s10_main_v91 (V0 : Valuation τ sig (Elt Ideal)) : val10 V0 (Proc.devRef .tc main_v91 : DevRef τ sig) = H2 V0 :=
  w10_main_v91 (val9 V0) (Y1 V0) (V0 (Proc.devRef .tc main_arg8 : DevRef τ sig)) (V0 (Proc.devRef .tc main_arg9 : DevRef τ sig))
    (s9_main_v71 V0) (s9_main_v74 V0) (s9_main_v75 V0) (keep9 V0 main_arg8 (by decide) (by decide) (by decide) (by decide) (by decide) (by decide) (by decide) (by decide) (by decide)) (keep9 V0 main_arg9 (by decide) (by decide) (by decide) (by decide) (by decide) (by decide) (by decide) (by decide) (by decide))
theorem s11_main_v91 (V0 : Valuation τ sig (Elt Ideal)) : val11 V0 (Proc.devRef .tc main_v91 : DevRef τ sig) = H2 V0 :=
  (w11_keep (val10 V0) main_v91 (by decide)).trans (s10_main_v91 V0)
theorem s11_main_v93 (V0 : Valuation τ sig (Elt Ideal)) : val11 V0 (Proc.devRef .tc main_v93 : DevRef τ sig) = srcV (V0 (Proc.devRef .tc main_arg1 : DevRef τ sig)) :=
  w11_main_v93 (val10 V0) (V0 (Proc.devRef .tc main_arg1 : DevRef τ sig))
    (s10_main_v1 V0) (s10_main_v3 V0)
theorem s11_main_v94 (V0 : Valuation τ sig (Elt Ideal)) : val11 V0 (Proc.devRef .tc main_v94 : DevRef τ sig) = dstV (V0 (Proc.devRef .tc main_arg1 : DevRef τ sig)) :=
  w11_main_v94 (val10 V0) (V0 (Proc.devRef .tc main_arg1 : DevRef τ sig))
    (s10_main_v1 V0) (s10_main_v3 V0)
theorem s11_main_v95 (V0 : Valuation τ sig (Elt Ideal)) : val11 V0 (Proc.devRef .tc main_v95 : DevRef τ sig) = ones17 :=
  w11_main_v95 (val10 V0) (V0 (Proc.devRef .tc main_arg1 : DevRef τ sig))
    (s10_main_v1 V0) (s10_main_v3 V0)
theorem s11_main_v98 (V0 : Valuation τ sig (Elt Ideal)) : val11 V0 (Proc.devRef .tc main_v98 : DevRef τ sig) = degOf (V0 (Proc.devRef .tc main_arg1 : DevRef τ sig)) :=
  w11_main_v98 (val10 V0) (V0 (Proc.devRef .tc main_arg1 : DevRef τ sig))
    (s10_main_v1 V0) (s10_main_v3 V0)
theorem s12_main_v91 (V0 : Valuation τ sig (Elt Ideal)) : val12 V0 (Proc.devRef .tc main_v91 : DevRef τ sig) = H2 V0 :=
  (w12_keep (val11 V0) main_v91 (by decide)).trans (s11_main_v91 V0)
theorem s12_main_v93 (V0 : Valuation τ sig (Elt Ideal)) : val12 V0 (Proc.devRef .tc main_v93 : DevRef τ sig) = srcV (V0 (Proc.devRef .tc main_arg1 : DevRef τ sig)) :=
  (w12_keep (val11 V0) main_v93 (by decide)).trans (s11_main_v93 V0)
theorem s12_main_v94 (V0 : Valuation τ sig (Elt Ideal)) : val12 V0 (Proc.devRef .tc main_v94 : DevRef τ sig) = dstV (V0 (Proc.devRef .tc main_arg1 : DevRef τ sig)) :=
  (w12_keep (val11 V0) main_v94 (by decide)).trans (s11_main_v94 V0)
theorem s12_main_v95 (V0 : Valuation τ sig (Elt Ideal)) : val12 V0 (Proc.devRef .tc main_v95 : DevRef τ sig) = ones17 :=
  (w12_keep (val11 V0) main_v95 (by decide)).trans (s11_main_v95 V0)
theorem s12_main_v100 (V0 : Valuation τ sig (Elt Ideal)) : val12 V0 (Proc.devRef .tc main_v100 : DevRef τ sig) = cmpf .ogt (degOf (V0 (Proc.devRef .tc main_arg1 : DevRef τ sig))) (broadcastInDim S100000 ![] bcast_S_S100000 zeroS) :=
  w12_main_v100 (val11 V0) (degOf (V0 (Proc.devRef .tc main_arg1 : DevRef τ sig)))
    (s11_main_v98 V0)
theorem s12_main_v101 (V0 : Valuation τ sig (Elt Ideal)) : val12 V0 (Proc.devRef .tc main_v101 : DevRef τ sig) = Host.rsqrt (degOf (V0 (Proc.devRef .tc main_arg1 : DevRef τ sig))) :=
  w12_main_v101 (val11 V0) (degOf (V0 (Proc.devRef .tc main_arg1 : DevRef τ sig)))
    (s11_main_v98 V0)
theorem s13_main_v91 (V0 : Valuation τ sig (Elt Ideal)) : val13 V0 (Proc.devRef .tc main_v91 : DevRef τ sig) = H2 V0 :=
  (w13_keep (val12 V0) main_v91 (by decide)).trans (s12_main_v91 V0)
theorem s13_main_v93 (V0 : Valuation τ sig (Elt Ideal)) : val13 V0 (Proc.devRef .tc main_v93 : DevRef τ sig) = srcV (V0 (Proc.devRef .tc main_arg1 : DevRef τ sig)) :=
  (w13_keep (val12 V0) main_v93 (by decide)).trans (s12_main_v93 V0)
theorem s13_main_v94 (V0 : Valuation τ sig (Elt Ideal)) : val13 V0 (Proc.devRef .tc main_v94 : DevRef τ sig) = dstV (V0 (Proc.devRef .tc main_arg1 : DevRef τ sig)) :=
  (w13_keep (val12 V0) main_v94 (by decide)).trans (s12_main_v94 V0)
theorem s13_main_v95 (V0 : Valuation τ sig (Elt Ideal)) : val13 V0 (Proc.devRef .tc main_v95 : DevRef τ sig) = ones17 :=
  (w13_keep (val12 V0) main_v95 (by decide)).trans (s12_main_v95 V0)
theorem s13_main_v102 (V0 : Valuation τ sig (Elt Ideal)) : val13 V0 (Proc.devRef .tc main_v102 : DevRef τ sig) = dinvOf (V0 (Proc.devRef .tc main_arg1 : DevRef τ sig)) :=
  w13_main_v102 (val12 V0) (cmpf .ogt (degOf (V0 (Proc.devRef .tc main_arg1 : DevRef τ sig))) (broadcastInDim S100000 ![] bcast_S_S100000 zeroS)) (Host.rsqrt (degOf (V0 (Proc.devRef .tc main_arg1 : DevRef τ sig))))
    (s12_main_v100 V0) (s12_main_v101 V0)
theorem s14_main_v91 (V0 : Valuation τ sig (Elt Ideal)) : val14 V0 (Proc.devRef .tc main_v91 : DevRef τ sig) = H2 V0 :=
  (w14_keep (val13 V0) main_v91 (by decide)).trans (s13_main_v91 V0)
theorem s14_main_v93 (V0 : Valuation τ sig (Elt Ideal)) : val14 V0 (Proc.devRef .tc main_v93 : DevRef τ sig) = srcV (V0 (Proc.devRef .tc main_arg1 : DevRef τ sig)) :=
  (w14_keep (val13 V0) main_v93 (by decide)).trans (s13_main_v93 V0)
theorem s14_main_v94 (V0 : Valuation τ sig (Elt Ideal)) : val14 V0 (Proc.devRef .tc main_v94 : DevRef τ sig) = dstV (V0 (Proc.devRef .tc main_arg1 : DevRef τ sig)) :=
  (w14_keep (val13 V0) main_v94 (by decide)).trans (s13_main_v94 V0)
theorem s14_main_v118 (V0 : Valuation τ sig (Elt Ideal)) : val14 V0 (Proc.devRef .tc main_v118 : DevRef τ sig) = normOf (V0 (Proc.devRef .tc main_arg1 : DevRef τ sig)) :=
  w14_main_v118 (val13 V0) (V0 (Proc.devRef .tc main_arg1 : DevRef τ sig))
    (s13_main_v93 V0) (s13_main_v94 V0) (s13_main_v95 V0) (s13_main_v102 V0)
theorem s15_main_v135 (V0 : Valuation τ sig (Elt Ideal)) : val15 V0 (Proc.devRef .tc main_v135 : DevRef τ sig) = Y2 V0 :=
  w15_main_v135 (val14 V0) (V0 (Proc.devRef .tc main_arg1 : DevRef τ sig)) (H2 V0) (V0 (Proc.devRef .tc main_arg10 : DevRef τ sig)) (V0 (Proc.devRef .tc main_arg11 : DevRef τ sig))
    (s14_main_v91 V0) (s14_main_v93 V0) (s14_main_v94 V0) (s14_main_v118 V0) (keep14 V0 main_arg10 (by decide) (by decide) (by decide) (by decide) (by decide) (by decide) (by decide) (by decide) (by decide) (by decide) (by decide) (by decide) (by decide) (by decide)) (keep14 V0 main_arg11 (by decide) (by decide) (by decide) (by decide) (by decide) (by decide) (by decide) (by decide) (by decide) (by decide) (by decide) (by decide) (by decide) (by decide))
theorem s16_main_v135 (V0 : Valuation τ sig (Elt Ideal)) : val16 V0 (Proc.devRef .tc main_v135 : DevRef τ sig) = Y2 V0 :=
  (w16_keep (val15 V0) main_v135 (by decide)).trans (s15_main_v135 V0)
theorem s16_main_v138 (V0 : Valuation τ sig (Elt Ideal)) : val16 V0 (Proc.devRef .tc main_v138 : DevRef τ sig) = mean64 (Y2 V0) :=
  w16_main_v138 (val15 V0) (Y2 V0)
    (s15_main_v135 V0)
theorem s16_main_v139 (V0 : Valuation τ sig (Elt Ideal)) : val16 V0 (Proc.devRef .tc main_v139 : DevRef τ sig) = var64 (Y2 V0) :=
  w16_main_v139 (val15 V0) (Y2 V0)
    (s15_main_v135 V0)
theorem s17_main_v142 (V0 : Valuation τ sig (Elt Ideal)) : val17 V0 (Proc.devRef .tc main_v142 : DevRef τ sig) = cenOut (Y2 V0) :=
  w17_main_v142 (val16 V0) (Y2 V0)
    (s16_main_v135 V0) (s16_main_v138 V0) (s16_main_v139 V0)
theorem s17_main_v145 (V0 : Valuation τ sig (Elt Ideal)) : val17 V0 (Proc.devRef .tc main_v145 : DevRef τ sig) = scaleOut (Y2 V0) :=
  w17_main_v145 (val16 V0) (Y2 V0)
    (s16_main_v135 V0) (s16_main_v138 V0) (s16_main_v139 V0)
theorem s18_main_v154 (V0 : Valuation τ sig (Elt Ideal)) : val18 V0 (Proc.devRef .tc main_v154 : DevRef τ sig) = bn64 (Y2 V0) (V0 (Proc.devRef .tc main_arg12 : DevRef τ sig)) (V0 (Proc.devRef .tc main_arg13 : DevRef τ sig)) :=
  w18_main_v154 (val17 V0) (Y2 V0) (V0 (Proc.devRef .tc main_arg12 : DevRef τ sig)) (V0 (Proc.devRef .tc main_arg13 : DevRef τ sig))
    (s17_main_v142 V0) (s17_main_v145 V0) (keep17 V0 main_arg12 (by decide) (by decide) (by decide) (by decide) (by decide) (by decide) (by decide) (by decide) (by decide) (by decide) (by decide) (by decide) (by decide) (by decide) (by decide) (by decide) (by decide)) (keep17 V0 main_arg13 (by decide) (by decide) (by decide) (by decide) (by decide) (by decide) (by decide) (by decide) (by decide) (by decide) (by decide) (by decide) (by decide) (by decide) (by decide) (by decide) (by decide))

theorem out_eq (V0 : Valuation τ sig (Elt Ideal)) :
    val18 V0 (Proc.devRef .tc main_v154 : DevRef τ sig) = OUT (V0 (Proc.devRef .tc main_arg0 : DevRef τ sig)) (V0 (Proc.devRef .tc main_arg1 : DevRef τ sig)) (V0 (Proc.devRef .tc main_arg2 : DevRef τ sig)) (V0 (Proc.devRef .tc main_arg3 : DevRef τ sig)) (V0 (Proc.devRef .tc main_arg4 : DevRef τ sig)) (V0 (Proc.devRef .tc main_arg5 : DevRef τ sig)) (V0 (Proc.devRef .tc main_arg6 : DevRef τ sig)) (V0 (Proc.devRef .tc main_arg7 : DevRef τ sig)) (V0 (Proc.devRef .tc main_arg8 : DevRef τ sig)) (V0 (Proc.devRef .tc main_arg9 : DevRef τ sig)) (V0 (Proc.devRef .tc main_arg10 : DevRef τ sig)) (V0 (Proc.devRef .tc main_arg11 : DevRef τ sig)) (V0 (Proc.devRef .tc main_arg12 : DevRef τ sig)) (V0 (Proc.devRef .tc main_arg13 : DevRef τ sig)) :=
  s18_main_v154 V0

/-- On every device, from any memory with zero counters: every weakly fair execution of @main terminates with the
    result at OUT of the arguments and the arguments unchanged. -/
theorem run (m : (ℓ : Loc nD τ sig) → Buf (Elt Ideal) ℓ) (ρ : Dev nD → PrngReg) :
    θ_run (Cert.ReferenceIdeal.defs (F := Ideal)) (onTc (τ := τ) (main (F := Ideal))) ⟨m, fun _ => 0, ρ⟩ (fun r => ∀ c : Dev nD,
      r.2.mem ((c.tc : Thread nD τ).loc main_v154) = OUT (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c => ⟨(h c main_v154).trans (out_eq (launchContents m c)),
      (h c main_arg0).trans (keep18 (launchContents m c) main_arg0 (by decide) (by decide) (by decide) (by decide) (by decide) (by decide) (by decide) (by decide) (by decide) (by decide) (by decide) (by decide) (by decide) (by decide) (by decide) (by decide) (by decide) (by decide)),
      (h c main_arg1).trans (keep18 (launchContents m c) main_arg1 (by decide) (by decide) (by decide) (by decide) (by decide) (by decide) (by decide) (by decide) (by decide) (by decide) (by decide) (by decide) (by decide) (by decide) (by decide) (by decide) (by decide) (by decide)),
      (h c main_arg2).trans (keep18 (launchContents m c) main_arg2 (by decide) (by decide) (by decide) (by decide) (by decide) (by decide) (by decide) (by decide) (by decide) (by decide) (by decide) (by decide) (by decide) (by decide) (by decide) (by decide) (by decide) (by decide)),
      (h c main_arg3).trans (keep18 (launchContents m c) main_arg3 (by decide) (by decide) (by decide) (by decide) (by decide) (by decide) (by decide) (by decide) (by decide) (by decide) (by decide) (by decide) (by decide) (by decide) (by decide) (by decide) (by decide) (by decide)),
      (h c main_arg4).trans (keep18 (launchContents m c) main_arg4 (by decide) (by decide) (by decide) (by decide) (by decide) (by decide) (by decide) (by decide) (by decide) (by decide) (by decide) (by decide) (by decide) (by decide) (by decide) (by decide) (by decide) (by decide)),
      (h c main_arg5).trans (keep18 (launchContents m c) main_arg5 (by decide) (by decide) (by decide) (by decide) (by decide) (by decide) (by decide) (by decide) (by decide) (by decide) (by decide) (by decide) (by decide) (by decide) (by decide) (by decide) (by decide) (by decide)),
      (h c main_arg6).trans (keep18 (launchContents m c) main_arg6 (by decide) (by decide) (by decide) (by decide) (by decide) (by decide) (by decide) (by decide) (by decide) (by decide) (by decide) (by decide) (by decide) (by decide) (by decide) (by decide) (by decide) (by decide)),
      (h c main_arg7).trans (keep18 (launchContents m c) main_arg7 (by decide) (by decide) (by decide) (by decide) (by decide) (by decide) (by decide) (by decide) (by decide) (by decide) (by decide) (by decide) (by decide) (by decide) (by decide) (by decide) (by decide) (by decide)),
      (h c main_arg8).trans (keep18 (launchContents m c) main_arg8 (by decide) (by decide) (by decide) (by decide) (by decide) (by decide) (by decide) (by decide) (by decide) (by decide) (by decide) (by decide) (by decide) (by decide) (by decide) (by decide) (by decide) (by decide)),
      (h c main_arg9).trans (keep18 (launchContents m c) main_arg9 (by decide) (by decide) (by decide) (by decide) (by decide) (by decide) (by decide) (by decide) (by decide) (by decide) (by decide) (by decide) (by decide) (by decide) (by decide) (by decide) (by decide) (by decide)),
      (h c main_arg10).trans (keep18 (launchContents m c) main_arg10 (by decide) (by decide) (by decide) (by decide) (by decide) (by decide) (by decide) (by decide) (by decide) (by decide) (by decide) (by decide) (by decide) (by decide) (by decide) (by decide) (by decide) (by decide)),
      (h c main_arg11).trans (keep18 (launchContents m c) main_arg11 (by decide) (by decide) (by decide) (by decide) (by decide) (by decide) (by decide) (by decide) (by decide) (by decide) (by decide) (by decide) (by decide) (by decide) (by decide) (by decide) (by decide) (by decide)),
      (h c main_arg12).trans (keep18 (launchContents m c) main_arg12 (by decide) (by decide) (by decide) (by decide) (by decide) (by decide) (by decide) (by decide) (by decide) (by decide) (by decide) (by decide) (by decide) (by decide) (by decide) (by decide) (by decide) (by decide)),
      (h c main_arg13).trans (keep18 (launchContents m c) main_arg13 (by decide) (by decide) (by decide) (by decide) (by decide) (by decide) (by decide) (by decide) (by decide) (by decide) (by decide) (by decide) (by decide) (by decide) (by decide) (by decide) (by decide) (by decide))⟩)
    (run_after m ρ)

end Cert.ReferenceIdeal.RefValue

namespace Cert.ReferenceIdeal.RefValue

open Cert.ReferenceIdeal Idealize.ShloMosaic Idealize.SL.Sem

/-- The reference runs and its argument arrays end unchanged: the run's post without its first component. -/
theorem frame_ri : Cert.frame_ReferenceIdeal (hReferenceIdeal := Cert.ReferenceIdeal.Gen.facts) (hPre_finite_inputs := Cert.Pre_finite_inputs.Gen.facts) :=
  fun m ρ _ => (θ_run _ _ _).mono (fun _ h c => (h c).2) (@run Cert.ReferenceIdeal.Gen.facts m ρ)

end Cert.ReferenceIdeal.RefValue

end
-- ==== Proof.KHostStat.lean ====
import proofs.«103981_j8873402434235_1_alg».proof.Proof.Gen.KernelIdeal.Launch
import Idealize.ShloMosaic.Lib.StableHlo.Run
import Idealize.ShloMosaic.PureOps.Ideal

set_option maxRecDepth 16384

noncomputable section

namespace Cert.KernelIdeal.KVal

open Idealize.ShloMosaic Idealize.ShloMosaic.TcCoe
open Cert.KernelIdeal.Gen

/-! # The host operations between the regions, as named functions of what they read (extended reals)

Between two tiled stages the program reshapes a row of column sums to a vector, divides it by the number of rows
(100000), forms the variance row as the mean of squares minus the squared mean, and reshapes parameter vectors to
one-row arrays. Each such stretch is named here as ONE function whose body is the operations' composed term, and each
stretch is read, from ANY contents `W` of the buffers before it, at the buffers the next stage takes. -/

/-- The contents of a buffer of shape `S` and element type `e`, over the extended reals. -/
abbrev C (S : Shape) (e : EltTy) : Type := (⟨S, e⟩ : BufTy).Contents (Elt Ideal)

/-- A `1 × 128` row of sums, as a vector, divided entry by entry by 100000. -/
def mean128v (s : C S1x128 .f32) : C S128 .f32 :=
  (Host.divf (F := Ideal) (φ := .f32) : C S128 .f32 → C S128 .f32 → C S128 .f32)
    (fun i => shapeCast S128 s shapeCasts_S1x128_S128 i)
    ((broadcastInDim S128 ![] bcast_S_S128 : C S_ .f32 → C S128 .f32) (constant (F := Ideal) S_ .f32 0x47C35000#32))
/-- The mean row: the row of sums over 100000, as a `1 × 128` array again. -/
def meanRow128 (s : C S1x128 .f32) : C S1x128 .f32 :=
  fun i => shapeCast S1x128 (mean128v s) shapeCasts_S128_S1x128 i
/-- The variance row from the row of sums `s` and the row of sums of squares `q`: `q / 100000 − (s / 100000)²`. -/
def varRow128 (s q : C S1x128 .f32) : C S1x128 .f32 :=
  fun i => shapeCast S1x128
    ((subf (F := Ideal) (φ := .f32) : C S128 .f32 → C S128 .f32 → C S128 .f32) (mean128v q)
      ((mulf (F := Ideal) (φ := .f32) : C S128 .f32 → C S128 .f32 → C S128 .f32) (mean128v s) (mean128v s)))
    shapeCasts_S128_S1x128 i
/-- A vector of 128 entries as a one-row array. -/
def row128 (a : C S128 .f32) : C S1x128 .f32 := fun i => shapeCast S1x128 a shapeCasts_S128_S1x128 i

/-- A `1 × 64` row of sums, as a vector, divided entry by entry by 100000. -/
def mean64v (s : C S1x64 .f32) : C S64 .f32 :=
  (Host.divf (F := Ideal) (φ := .f32) : C S64 .f32 → C S64 .f32 → C S64 .f32)
    (fun i => shapeCast S64 s shapeCasts_S1x64_S64 i)
    ((broadcastInDim S64 ![] bcast_S_S64 : C S_ .f32 → C S64 .f32) (constant (F := Ideal) S_ .f32 0x47C35000#32))
/-- The mean row: the row of sums over 100000, as a `1 × 64` array again. -/
def meanRow64 (s : C S1x64 .f32) : C S1x64 .f32 :=
  fun i => shapeCast S1x64 (mean64v s) shapeCasts_S64_S1x64 i
/-- The variance row from the row of sums `s` and the row of sums of squares `q`: `q / 100000 − (s / 100000)²`. -/
def varRow64 (s q : C S1x64 .f32) : C S1x64 .f32 :=
  fun i => shapeCast S1x64
    ((subf (F := Ideal) (φ := .f32) : C S64 .f32 → C S64 .f32 → C S64 .f32) (mean64v q)
      ((mulf (F := Ideal) (φ := .f32) : C S64 .f32 → C S64 .f32 → C S64 .f32) (mean64v s) (mean64v s)))
    shapeCasts_S64_S1x64 i
/-- A vector of 64 entries as a one-row array. -/
def row64 (a : C S64 .f32) : C S1x64 .f32 := fun i => shapeCast S1x64 a shapeCasts_S64_S1x64 i

/-- Row `0` of the `2 × 1600000` edge list, as a vector. -/
def edgeRow0 (e : C S2x1600000 .i32) : C S1600000 .i32 :=
  fun i => shapeCast S1600000 (extractStridedSlice S1x1600000 ![0, 0] e slices_S2x1600000_S1x1600000_0_0 : C S1x1600000 .i32)
    shapeCasts_S1x1600000_S1600000 i
/-- Row `1` of the `2 × 1600000` edge list, as a vector. -/
def edgeRow1 (e : C S2x1600000 .i32) : C S1600000 .i32 :=
  fun i => shapeCast S1600000 (extractStridedSlice S1x1600000 ![1, 0] e slices_S2x1600000_S1x1600000_1_0 : C S1x1600000 .i32)
    shapeCasts_S1x1600000_S1600000 i

/-! ## What each stretch leaves at the buffers the next stage takes, from any contents `W` before it -/

/-- The first stretch leaves row `0` of the edge list as a vector. -/
theorem h0_v1 (W : Valuation τ sig (Elt Ideal)) :
    StableHlo.after hostOps0 W (Proc.devRef .tc main_v1) = edgeRow0 (W (Proc.devRef .tc main_arg1)) := by
  after_results_simp
  try rfl

/-- The first stretch leaves row `1` of the edge list as a vector. -/
theorem h0_v3 (W : Valuation τ sig (Elt Ideal)) :
    StableHlo.after hostOps0 W (Proc.devRef .tc main_v3) = edgeRow1 (W (Proc.devRef .tc main_arg1)) := by
  after_results_simp
  try rfl

/-- After the first statistics stage: the mean row. -/
theorem h1_v13 (W : Valuation τ sig (Elt Ideal)) :
    StableHlo.after hostOps1 W (Proc.devRef .tc main_v13) = meanRow128 (W (Proc.devRef .tc main_v4_0)) := by
  after_results_simp
  try rfl

/-- After the first statistics stage: the variance row. -/
theorem h1_v14 (W : Valuation τ sig (Elt Ideal)) :
    StableHlo.after hostOps1 W (Proc.devRef .tc main_v14) = varRow128 (W (Proc.devRef .tc main_v4_0)) (W (Proc.devRef .tc main_v4_1)) := by
  after_results_simp
  try rfl

/-- The scale vector as a row. -/
theorem h1_v15 (W : Valuation τ sig (Elt Ideal)) :
    StableHlo.after hostOps1 W (Proc.devRef .tc main_v15) = row128 (W (Proc.devRef .tc main_arg2)) := by
  after_results_simp
  try rfl

/-- The shift vector as a row. -/
theorem h1_v16 (W : Valuation τ sig (Elt Ideal)) :
    StableHlo.after hostOps1 W (Proc.devRef .tc main_v16) = row128 (W (Proc.devRef .tc main_arg3)) := by
  after_results_simp
  try rfl

/-- The bias vector as a row. -/
theorem h1_v17 (W : Valuation τ sig (Elt Ideal)) :
    StableHlo.after hostOps1 W (Proc.devRef .tc main_v17) = row64 (W (Proc.devRef .tc main_arg5)) := by
  after_results_simp
  try rfl

/-- The bias vector as a row. -/
theorem h4_v69 (W : Valuation τ sig (Elt Ideal)) :
    StableHlo.after hostOps4 W (Proc.devRef .tc main_v69) = row64 (W (Proc.devRef .tc main_arg7)) := by
  after_results_simp
  try rfl

/-- After the second statistics stage: the mean row. -/
theorem h4_v70 (W : Valuation τ sig (Elt Ideal)) :
    StableHlo.after hostOps4 W (Proc.devRef .tc main_v70) = meanRow64 (W (Proc.devRef .tc main_v60_0)) := by
  after_results_simp
  try rfl

/-- After the second statistics stage: the variance row. -/
theorem h4_v71 (W : Valuation τ sig (Elt Ideal)) :
    StableHlo.after hostOps4 W (Proc.devRef .tc main_v71) = varRow64 (W (Proc.devRef .tc main_v60_0)) (W (Proc.devRef .tc main_v60_1)) := by
  after_results_simp
  try rfl

/-- The scale vector as a row. -/
theorem h4_v72 (W : Valuation τ sig (Elt Ideal)) :
    StableHlo.after hostOps4 W (Proc.devRef .tc main_v72) = row64 (W (Proc.devRef .tc main_arg8)) := by
  after_results_simp
  try rfl

/-- The shift vector as a row. -/
theorem h4_v73 (W : Valuation τ sig (Elt Ideal)) :
    StableHlo.after hostOps4 W (Proc.devRef .tc main_v73) = row64 (W (Proc.devRef .tc main_arg9)) := by
  after_results_simp
  try rfl

/-- The bias vector as a row. -/
theorem h7_v125 (W : Valuation τ sig (Elt Ideal)) :
    StableHlo.after hostOps7 W (Proc.devRef .tc main_v125) = row64 (W (Proc.devRef .tc main_arg11)) := by
  after_results_simp
  try rfl

/-- After the third statistics stage: the mean row. -/
theorem h7_v126 (W : Valuation τ sig (Elt Ideal)) :
    StableHlo.after hostOps7 W (Proc.devRef .tc main_v126) = meanRow64 (W (Proc.devRef .tc main_v116_0)) := by
  after_results_simp
  try rfl

/-- After the third statistics stage: the variance row. -/
theorem h7_v127 (W : Valuation τ sig (Elt Ideal)) :
    StableHlo.after hostOps7 W (Proc.devRef .tc main_v127) = varRow64 (W (Proc.devRef .tc main_v116_0)) (W (Proc.devRef .tc main_v116_1)) := by
  after_results_simp
  try rfl

/-- The scale vector as a row. -/
theorem h7_v128 (W : Valuation τ sig (Elt Ideal)) :
    StableHlo.after hostOps7 W (Proc.devRef .tc main_v128) = row64 (W (Proc.devRef .tc main_arg12)) := by
  after_results_simp
  try rfl

/-- The shift vector as a row. -/
theorem h7_v129 (W : Valuation τ sig (Elt Ideal)) :
    StableHlo.after hostOps7 W (Proc.devRef .tc main_v129) = row64 (W (Proc.devRef .tc main_arg13)) := by
  after_results_simp
  try rfl

/-! ## Buffers a stretch does not write -/

/-- The buffers the operations of `hostOps0` write, in order. -/
abbrev wr0 : List (Ref sig .tc) := [main_v0, main_v1, main_v2, main_v3]
/-- A buffer none of them writes holds after the stretch what it held before. -/
theorem keep0 {F : FTy → Type} [FloatOps F] (W : Valuation τ sig (Elt F)) {r : Ref sig .tc} (hr : r ∉ wr0) :
    StableHlo.after (hostOps0 : List (HloOp τ sig (Elt F))) W (Proc.devRef .tc r) = W (Proc.devRef .tc r) :=
  StableHlo.after_of_writes_sub hostOps0 W (by
    simp only [hostOps0, List.Forall, StableHlo.nullary_writes, StableHlo.unary_writes, StableHlo.binary_writes,
      StableHlo.ternary_writes, StableHlo.reshape_writes, Finset.singleton_subset_iff, List.mem_toFinset]
    repeat' apply And.intro
    all_goals exact List.mem_map_of_mem (by decide)) hr

/-- The buffers the operations of `hostOps1` write, in order. -/
abbrev wr1 : List (Ref sig .tc) := [main_v5, main_cst, main_v6, main_v7, main_v8, main_cst_0, main_v9, main_v10, main_v11, main_v12, main_v13, main_v14, main_v15, main_v16, main_v17]
/-- A buffer none of them writes holds after the stretch what it held before. -/
theorem keep1 {F : FTy → Type} [FloatOps F] (W : Valuation τ sig (Elt F)) {r : Ref sig .tc} (hr : r ∉ wr1) :
    StableHlo.after (hostOps1 : List (HloOp τ sig (Elt F))) W (Proc.devRef .tc r) = W (Proc.devRef .tc r) :=
  StableHlo.after_of_writes_sub hostOps1 W (by
    simp only [hostOps1, List.Forall, StableHlo.nullary_writes, StableHlo.unary_writes, StableHlo.binary_writes,
      StableHlo.ternary_writes, StableHlo.reshape_writes, Finset.singleton_subset_iff, List.mem_toFinset]
    repeat' apply And.intro
    all_goals exact List.mem_map_of_mem (by decide)) hr

/-- The buffers the operations of `hostOps4` write, in order. -/
abbrev wr4 : List (Ref sig .tc) := [main_v61, main_cst_11, main_v62, main_v63, main_v64, main_cst_12, main_v65, main_v66, main_v67, main_v68, main_v69, main_v70, main_v71, main_v72, main_v73]
/-- A buffer none of them writes holds after the stretch what it held before. -/
theorem keep4 {F : FTy → Type} [FloatOps F] (W : Valuation τ sig (Elt F)) {r : Ref sig .tc} (hr : r ∉ wr4) :
    StableHlo.after (hostOps4 : List (HloOp τ sig (Elt F))) W (Proc.devRef .tc r) = W (Proc.devRef .tc r) :=
  StableHlo.after_of_writes_sub hostOps4 W (by
    simp only [hostOps4, List.Forall, StableHlo.nullary_writes, StableHlo.unary_writes, StableHlo.binary_writes,
      StableHlo.ternary_writes, StableHlo.reshape_writes, Finset.singleton_subset_iff, List.mem_toFinset]
    repeat' apply And.intro
    all_goals exact List.mem_map_of_mem (by decide)) hr

/-- The buffers the operations of `hostOps7` write, in order. -/
abbrev wr7 : List (Ref sig .tc) := [main_v117, main_cst_24, main_v118, main_v119, main_v120, main_cst_25, main_v121, main_v122, main_v123, main_v124, main_v125, main_v126, main_v127, main_v128, main_v129]
/-- A buffer none of them writes holds after the stretch what it held before. -/
theorem keep7 {F : FTy → Type} [FloatOps F] (W : Valuation τ sig (Elt F)) {r : Ref sig .tc} (hr : r ∉ wr7) :
    StableHlo.after (hostOps7 : List (HloOp τ sig (Elt F))) W (Proc.devRef .tc r) = W (Proc.devRef .tc r) :=
  StableHlo.after_of_writes_sub hostOps7 W (by
    simp only [hostOps7, List.Forall, StableHlo.nullary_writes, StableHlo.unary_writes, StableHlo.binary_writes,
      StableHlo.ternary_writes, StableHlo.reshape_writes, Finset.singleton_subset_iff, List.mem_toFinset]
    repeat' apply And.intro
    all_goals exact List.mem_map_of_mem (by decide)) hr

end Cert.KernelIdeal.KVal

end
-- ==== Proof.KChainA.lean ====
import proofs.«103981_j8873402434235_1_alg».proof.Proof.Gen.KernelIdeal.Frame
import proofs.«103981_j8873402434235_1_alg».proof.Proof.KHostStat

set_option maxRecDepth 16384

noncomputable section

namespace Cert.KernelIdeal.KVal

open Idealize.ShloMosaic Idealize.ShloMosaic.TcCoe
open Idealize.ShloMosaic.Pipeline (Dat Cfg Window)
open Cert.KernelIdeal.Gen

variable (m : (ℓ : Loc nD τ sig) → Buf (Elt Ideal) ℓ) (ρ : Dev nD → PrngReg) (c : Dev nD)

/-! # The input arrays of regions 0, 1 and 2, through the fold of buffer contents

Each window's array at its region's entry is read back through the boundaries before it: a stretch of host operations
by what it computes or keeps, a region's exit by the array the region leaves (an output) or by what it found (an input or
an untouched buffer). -/

/-! ## Buffers carried unchanged from the launch -/

/-- Nothing up to boundary 1 writes `main_arg0`: it holds what it held at launch. -/
theorem W1_arg0 : W1 m ρ c (Proc.devRef .tc main_arg0) = m ((c : Thread nD τ).loc main_arg0) :=
  calc W1 m ρ c (Proc.devRef .tc main_arg0)
    _ = W0 m ρ c (Proc.devRef .tc main_arg0) := keep0 (W0 m ρ c) (by decide)
    _ = m ((c : Thread nD τ).loc main_arg0) := rfl
/-- Nothing up to boundary 3 writes `main_arg0`: it holds what it held at launch. -/
theorem W3_arg0 : W3 m ρ c (Proc.devRef .tc main_arg0) = m ((c : Thread nD τ).loc main_arg0) :=
  calc W3 m ρ c (Proc.devRef .tc main_arg0)
    _ = W2 m ρ c (Proc.devRef .tc main_arg0) := keep1 (W2 m ρ c) (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := keep0 (W0 m ρ c) (by decide)
    _ = m ((c : Thread nD τ).loc main_arg0) := rfl
/-- Nothing up to boundary 2 writes `main_arg2`: it holds what it held at launch. -/
theorem W2_arg2 : W2 m ρ c (Proc.devRef .tc main_arg2) = m ((c : Thread nD τ).loc main_arg2) :=
  calc W2 m ρ c (Proc.devRef .tc main_arg2)
    _ = W1 m ρ c (Proc.devRef .tc main_arg2) := W2_of_ne m ρ c main_arg2 (by decide)
    _ = W0 m ρ c (Proc.devRef .tc main_arg2) := keep0 (W0 m ρ c) (by decide)
    _ = m ((c : Thread nD τ).loc main_arg2) := rfl
/-- Nothing up to boundary 2 writes `main_arg3`: it holds what it held at launch. -/
theorem W2_arg3 : W2 m ρ c (Proc.devRef .tc main_arg3) = m ((c : Thread nD τ).loc main_arg3) :=
  calc W2 m ρ c (Proc.devRef .tc main_arg3)
    _ = W1 m ρ c (Proc.devRef .tc main_arg3) := W2_of_ne m ρ c main_arg3 (by decide)
    _ = W0 m ρ c (Proc.devRef .tc main_arg3) := keep0 (W0 m ρ c) (by decide)
    _ = m ((c : Thread nD τ).loc main_arg3) := rfl
/-- Nothing up to boundary 2 writes `main_arg5`: it holds what it held at launch. -/
theorem W2_arg5 : W2 m ρ c (Proc.devRef .tc main_arg5) = m ((c : Thread nD τ).loc main_arg5) :=
  calc W2 m ρ c (Proc.devRef .tc main_arg5)
    _ = W1 m ρ c (Proc.devRef .tc main_arg5) := W2_of_ne m ρ c main_arg5 (by decide)
    _ = W0 m ρ c (Proc.devRef .tc main_arg5) := keep0 (W0 m ρ c) (by decide)
    _ = m ((c : Thread nD τ).loc main_arg5) := rfl
/-- Nothing up to boundary 3 writes `main_arg4`: it holds what it held at launch. -/
theorem W3_arg4 : W3 m ρ c (Proc.devRef .tc main_arg4) = m ((c : Thread nD τ).loc main_arg4) :=
  calc W3 m ρ c (Proc.devRef .tc main_arg4)
    _ = W2 m ρ c (Proc.devRef .tc main_arg4) := keep1 (W2 m ρ c) (by decide)
    _ = W1 m ρ c (Proc.devRef .tc main_arg4) := W2_of_ne m ρ c main_arg4 (by decide)
    _ = W0 m ρ c (Proc.devRef .tc main_arg4) := keep0 (W0 m ρ c) (by decide)
    _ = m ((c : Thread nD τ).loc main_arg4) := rfl
/-- Nothing up to boundary 4 writes `main_arg6`: it holds what it held at launch. -/
theorem W4_arg6 : W4 m ρ c (Proc.devRef .tc main_arg6) = m ((c : Thread nD τ).loc main_arg6) :=
  calc W4 m ρ c (Proc.devRef .tc main_arg6)
    _ = W3 m ρ c (Proc.devRef .tc main_arg6) := W4_of_ne m ρ c main_arg6 (by decide)
    _ = W2 m ρ c (Proc.devRef .tc main_arg6) := keep1 (W2 m ρ c) (by decide)
    _ = W1 m ρ c (Proc.devRef .tc main_arg6) := W2_of_ne m ρ c main_arg6 (by decide)
    _ = W0 m ρ c (Proc.devRef .tc main_arg6) := keep0 (W0 m ρ c) (by decide)
    _ = m ((c : Thread nD τ).loc main_arg6) := rfl

/-! ## Region 0 -/

/-- Window 0: argument 0 as launched. -/
theorem in0_0 : (V1 m ρ c (Pipeline.arrRef spec0 0) : C S100000x128 .f32) = m ((c : Thread nD τ).loc main_arg0) :=
  W1_arg0 m ρ c

/-! ## Region 1 -/

/-- Window 0: argument 0 as launched. -/
theorem in1_0 : (V3 m ρ c (Pipeline.arrRef spec1 0) : C S100000x128 .f32) = m ((c : Thread nD τ).loc main_arg0) :=
  W3_arg0 m ρ c
/-- Window 1: the mean row of region 0's first output array. -/
theorem in1_1 : (V3 m ρ c (Pipeline.arrRef spec1 1) : C S1x128 .f32) = meanRow128 ((dat0 (V1 m ρ) c).arrAt 1 cfg0.N) :=
  (h1_v13 (W2 m ρ c)).trans (congrArg meanRow128 (W2_arr m ρ c 1))
/-- Window 2: the variance row of region 0's two output arrays. -/
theorem in1_2 : (V3 m ρ c (Pipeline.arrRef spec1 2) : C S1x128 .f32)
    = varRow128 ((dat0 (V1 m ρ) c).arrAt 1 cfg0.N) ((dat0 (V1 m ρ) c).arrAt 2 cfg0.N) :=
  (h1_v14 (W2 m ρ c)).trans (congrArg₂ varRow128 (W2_arr m ρ c 1) (W2_arr m ρ c 2))
/-- Window 3: argument 2 as a row. -/
theorem in1_3 : (V3 m ρ c (Pipeline.arrRef spec1 3) : C S1x128 .f32) = row128 (m ((c : Thread nD τ).loc main_arg2)) :=
  (h1_v15 (W2 m ρ c)).trans (congrArg row128 (W2_arg2 m ρ c))
/-- Window 4: argument 3 as a row. -/
theorem in1_4 : (V3 m ρ c (Pipeline.arrRef spec1 4) : C S1x128 .f32) = row128 (m ((c : Thread nD τ).loc main_arg3)) :=
  (h1_v16 (W2 m ρ c)).trans (congrArg row128 (W2_arg3 m ρ c))
/-- Window 5: argument 4 as launched. -/
theorem in1_5 : (V3 m ρ c (Pipeline.arrRef spec1 5) : C S128x64 .f32) = m ((c : Thread nD τ).loc main_arg4) :=
  W3_arg4 m ρ c
/-- Window 6: argument 5 as a row. -/
theorem in1_6 : (V3 m ρ c (Pipeline.arrRef spec1 6) : C S1x64 .f32) = row64 (m ((c : Thread nD τ).loc main_arg5)) :=
  (h1_v17 (W2 m ρ c)).trans (congrArg row64 (W2_arg5 m ρ c))

/-! ## Region 2 -/

/-- Window 0: region 1's output array. -/
theorem in2_0 : (V4 m ρ c (Pipeline.arrRef spec2 0) : C S100000x64 .f32) = (dat1 (V3 m ρ) c).arrAt 7 cfg1.N :=
  W4_arr m ρ c 7
/-- Window 1: argument 6 as launched. -/
theorem in2_1 : (V4 m ρ c (Pipeline.arrRef spec2 1) : C S64x64 .f32) = m ((c : Thread nD τ).loc main_arg6) :=
  W4_arg6 m ρ c

end Cert.KernelIdeal.KVal

end
-- ==== Proof.KAggDefs.lean ====
import proofs.«103981_j8873402434235_1_alg».proof.Proof.Gen.KernelIdeal.Launch
import Idealize.ShloMosaic.Lib.StableHlo.Run
import Idealize.ShloMosaic.PureOps.Ideal
import proofs.«103981_j8873402434235_1_alg».proof.Proof.KHostStat
set_option maxRecDepth 16384

noncomputable section

namespace Cert.KernelIdeal.KVal

open Idealize.ShloMosaic Idealize.ShloMosaic.TcCoe
open Cert.KernelIdeal.Gen

/-! # The graph aggregation between two tiled stages, as ONE function of the edge list's rows and the feature array

The stretch appends the self-loops `0 … 99999` to the sources and to the targets, counts each node's incoming edges by
a scatter-add of ones, takes the inverse square root of the count where it is positive (zero elsewhere), weighs each
edge by the product of its two endpoints' factors, gathers the source rows of the feature array, scales them by the
edge weights and scatter-adds them into their target rows. Both layers run the same operations, so both are the same
function `aggCore` of what they read. -/

/-- A vector of 1600000 node numbers with the self-loop numbers `0 … 99999` appended. -/
def withLoops (x : C S1600000 .i32) : C S1700000 .i32 :=
  ((fun a b => concatenate S1700000 0 [⟨S1600000, a⟩, ⟨S100000, b⟩] concatenates_S1600000_S100000_S1700000_d0) :
      C S1600000 .i32 → C S100000 .i32 → C S1700000 .i32)
    x (iotaInDim S100000 32 0)
/-- A vector of integers as a one-column array. -/
def colI (x : C S1700000 .i32) : C S1700000x1 .i32 :=
  (broadcastInDim S1700000x1 ![0] bcast_S1700000_S1700000x1_0 : C S1700000 .i32 → C S1700000x1 .i32) x
/-- A node number with `100000` added when it is negative (the wrap-around of a negative index). -/
def normIdx (x : C S1700000 .i32) : C S1700000 .i32 :=
  (select : C S1700000 .i1 → C S1700000 .i32 → C S1700000 .i32 → C S1700000 .i32)
    ((cmpi .slt : C S1700000 .i32 → C S1700000 .i32 → C S1700000 .i1) x
      ((broadcastInDim S1700000 ![] bcast_S_S1700000 : C S_ .i32 → C S1700000 .i32) (constantI S_ 32 0#32)))
    ((addi : C S1700000 .i32 → C S1700000 .i32 → C S1700000 .i32) x
      ((broadcastInDim S1700000 ![] bcast_S_S1700000 : C S_ .i32 → C S1700000 .i32) (constantI S_ 32 100000#32)))
    x
/-- Each node's number of incoming edges (self-loop included): ones scatter-added at the targets into zeros. -/
def degree (d : C S1700000 .i32) : C S100000 .f32 :=
  ((fun x i u => Host.scatterAdd (F := Ideal) (φ := .f32) scatter_S100000_S1700000x1_S1700000_n_0_0_1 x i u) :
      C S100000 .f32 → C S1700000x1 .i32 → C S1700000 .f32 → C S100000 .f32)
    ((broadcastInDim S100000 ![] bcast_S_S100000 : C S_ .f32 → C S100000 .f32) (constant (F := Ideal) S_ .f32 0x00000000#32))
    (colI d)
    ((broadcastInDim S1700000 ![] bcast_S_S1700000 : C S_ .f32 → C S1700000 .f32) (constant (F := Ideal) S_ .f32 0x3F800000#32))
/-- The inverse square root of the count where the count is positive, zero elsewhere. -/
def degInv (d : C S1700000 .i32) : C S100000 .f32 :=
  (select : C S100000 .i1 → C S100000 .f32 → C S100000 .f32 → C S100000 .f32)
    ((cmpf (F := Ideal) (φ := .f32) .ogt : C S100000 .f32 → C S100000 .f32 → C S100000 .i1) (degree d)
      ((broadcastInDim S100000 ![] bcast_S_S100000 : C S_ .f32 → C S100000 .f32) (constant (F := Ideal) S_ .f32 0x00000000#32)))
    ((Host.rsqrt (F := Ideal) (φ := .f32) : C S100000 .f32 → C S100000 .f32) (degree d))
    ((broadcastInDim S100000 ![] bcast_S_S100000 : C S_ .f32 → C S100000 .f32) (id (constant (F := Ideal) S_ .f32 0x00000000#32 : C S_ .f32)))
/-- A node factor read at each edge's endpoint. -/
def atEdges (f : C S100000 .f32) (i : C S1700000x1 .i32) : C S1700000 .f32 :=
  ((fun x i => Host.gather gather_S100000_S1700000x1_S1700000_n_0_n_n_0_1_1 x i) :
      C S100000 .f32 → C S1700000x1 .i32 → C S1700000 .f32) f i
/-- Each edge's weight: the product of its source's and its target's factors. -/
def edgeW (src dst : C S1600000 .i32) : C S1700000 .f32 :=
  (mulf (F := Ideal) (φ := .f32) : C S1700000 .f32 → C S1700000 .f32 → C S1700000 .f32)
    (atEdges (degInv (withLoops dst)) (colI (normIdx (withLoops src))))
    (atEdges (degInv (withLoops dst)) (colI (normIdx (withLoops dst))))
/-- The aggregation of the feature array `p` along the edges `src → dst`: each target row is the sum, over its
    incoming edges, of the edge's weight times the source's row. -/
def aggCore (src dst : C S1600000 .i32) (p : C S100000x64 .f32) : C S100000x64 .f32 :=
  ((fun x i u => Host.scatterAdd (F := Ideal) (φ := .f32) scatter_S100000x64_S1700000x1_S1700000x64_1_0_0_1 x i u) :
      C S100000x64 .f32 → C S1700000x1 .i32 → C S1700000x64 .f32 → C S100000x64 .f32)
    ((broadcastInDim S100000x64 ![] bcast_S_S100000x64 : C S_ .f32 → C S100000x64 .f32) (constant (F := Ideal) S_ .f32 0x00000000#32))
    (colI (withLoops dst))
    ((mulf (F := Ideal) (φ := .f32) : C S1700000x64 .f32 → C S1700000x64 .f32 → C S1700000x64 .f32)
      (((fun x i => Host.gather gather_S100000x64_S1700000x1_S1700000x64_1_0_n_n_0_1_164 x i) :
          C S100000x64 .f32 → C S1700000x1 .i32 → C S1700000x64 .f32) p (colI (normIdx (withLoops src))))
      ((broadcastInDim S1700000x64 ![0, 1] bcast_S1700000x1_S1700000x64_0_1 : C S1700000x1 .f32 → C S1700000x64 .f32)
        ((broadcastInDim S1700000x1 ![0] bcast_S1700000_S1700000x1_0 : C S1700000 .f32 → C S1700000x1 .f32) (edgeW src dst))))
/-- The aggregation from the `2 × 1600000` edge list itself: row `0` the sources, row `1` the targets. -/
def aggK (e : C S2x1600000 .i32) (p : C S100000x64 .f32) : C S100000x64 .f32 :=
  aggCore (edgeRow0 e) (edgeRow1 e) p

end Cert.KernelIdeal.KVal

end
-- ==== Proof.KHostAgg.lean ====
import proofs.«103981_j8873402434235_1_alg».proof.Proof.Gen.KernelIdeal.Launch
import Idealize.ShloMosaic.Lib.StableHlo.Run
import Idealize.ShloMosaic.PureOps.Ideal
import proofs.«103981_j8873402434235_1_alg».proof.Proof.KAggDefs
set_option maxRecDepth 16384

noncomputable section

namespace Cert.KernelIdeal.KVal

open Idealize.ShloMosaic Idealize.ShloMosaic.TcCoe
open Cert.KernelIdeal.Gen

/-! # The layers' host stretches read at the buffers the next region takes -/

/-- The last stretch of a layer as a function of what it reads: the sources and the targets with the self-loops
    appended, the node factors and the feature array. -/
def aggTail (s d : C S1700000 .i32) (f : C S100000 .f32) (p : C S100000x64 .f32) : C S100000x64 .f32 :=
  ((fun x i u => Host.scatterAdd (F := Ideal) (φ := .f32) scatter_S100000x64_S1700000x1_S1700000x64_1_0_0_1 x i u) :
      C S100000x64 .f32 → C S1700000x1 .i32 → C S1700000x64 .f32 → C S100000x64 .f32)
    ((broadcastInDim S100000x64 ![] bcast_S_S100000x64 : C S_ .f32 → C S100000x64 .f32) (constant (F := Ideal) S_ .f32 0x00000000#32))
    (colI d)
    ((mulf (F := Ideal) (φ := .f32) : C S1700000x64 .f32 → C S1700000x64 .f32 → C S1700000x64 .f32)
      (((fun x i => Host.gather gather_S100000x64_S1700000x1_S1700000x64_1_0_n_n_0_1_164 x i) :
          C S100000x64 .f32 → C S1700000x1 .i32 → C S1700000x64 .f32) p (colI (normIdx s)))
      ((broadcastInDim S1700000x64 ![0, 1] bcast_S1700000x1_S1700000x64_0_1 : C S1700000x1 .f32 → C S1700000x64 .f32)
        ((broadcastInDim S1700000x1 ![0] bcast_S1700000_S1700000x1_0 : C S1700000 .f32 → C S1700000x1 .f32)
          ((mulf (F := Ideal) (φ := .f32) : C S1700000 .f32 → C S1700000 .f32 → C S1700000 .f32)
            (atEdges f (colI (normIdx s))) (atEdges f (colI (normIdx d)))))))

/-- The whole aggregation is the last stretch applied to what the first two leave. -/
theorem aggCore_eq (src dst : C S1600000 .i32) (p : C S100000x64 .f32) :
    aggCore src dst p = aggTail (withLoops src) (withLoops dst)
      ((select : C S100000 .i1 → C S100000 .f32 → C S100000 .f32 → C S100000 .f32)
        ((cmpf (F := Ideal) (φ := .f32) .ogt : C S100000 .f32 → C S100000 .f32 → C S100000 .i1) (degree (withLoops dst)) ((broadcastInDim S100000 ![] bcast_S_S100000 : C S_ .f32 → C S100000 .f32) (constant (F := Ideal) S_ .f32 0x00000000#32)))
        ((Host.rsqrt (F := Ideal) (φ := .f32) : C S100000 .f32 → C S100000 .f32) (degree (withLoops dst)))
        ((broadcastInDim S100000 ![] bcast_S_S100000 : C S_ .f32 → C S100000 .f32) (id (constant (F := Ideal) S_ .f32 0x00000000#32 : C S_ .f32)))) p := by
  unfold aggCore aggTail edgeW degInv
  exact rfl

/-! ## Buffers a stretch does not write -/

/-- The buffers the operations of `hostOps3` write, in order. -/
abbrev wr3 : List (Ref sig .tc) := [main_v20, main_v21, main_v22, main_cst_1, main_v23, main_cst_2, main_v24, main_v25, main_v26, main_cst_3, main_v27, main_v28, main_v29, main_cst_4]
/-- A buffer none of them writes holds after the stretch what it held before. -/
theorem keep3 {F : FTy → Type} [FloatOps F] (W : Valuation τ sig (Elt F)) {r : Ref sig .tc} (hr : r ∉ wr3) :
    StableHlo.after (hostOps3 : List (HloOp τ sig (Elt F))) W (Proc.devRef .tc r) = W (Proc.devRef .tc r) :=
  StableHlo.after_of_writes_sub hostOps3 W (by
    simp only [hostOps3, List.Forall, StableHlo.nullary_writes, StableHlo.unary_writes, StableHlo.binary_writes,
      StableHlo.ternary_writes, StableHlo.reshape_writes, Finset.singleton_subset_iff, List.mem_toFinset]
    repeat' apply And.intro
    all_goals exact List.mem_map_of_mem (by decide)) hr

/-- The buffers the operations of `hostOps3_1` write, in order. -/
abbrev wr3_1 : List (Ref sig .tc) := [main_call0_v0, main_call0_v1, main_v30]
/-- A buffer none of them writes holds after the stretch what it held before. -/
theorem keep3_1 {F : FTy → Type} [FloatOps F] (W : Valuation τ sig (Elt F)) {r : Ref sig .tc} (hr : r ∉ wr3_1) :
    StableHlo.after (hostOps3_1 : List (HloOp τ sig (Elt F))) W (Proc.devRef .tc r) = W (Proc.devRef .tc r) :=
  StableHlo.after_of_writes_sub hostOps3_1 W (by
    simp only [hostOps3_1, List.Forall, StableHlo.nullary_writes, StableHlo.unary_writes, StableHlo.binary_writes,
      StableHlo.ternary_writes, StableHlo.reshape_writes, Finset.singleton_subset_iff, List.mem_toFinset]
    repeat' apply And.intro
    all_goals exact List.mem_map_of_mem (by decide)) hr

/-- The buffers the operations of `hostOps3_2` write, in order. -/
abbrev wr3_2 : List (Ref sig .tc) := [main_c, main_v31, main_v32, main_c_5, main_v33, main_v34, main_v35, main_v36, main_v37, main_c_6, main_v38, main_v39, main_c_7, main_v40, main_v41, main_v42, main_v43, main_v44, main_v45, main_c_8, main_v46, main_v47, main_c_9, main_v48, main_v49, main_v50, main_v51, main_v52, main_v53, main_v54, main_v55, main_cst_10, main_v56, main_v57, main_v58, main_v59]
/-- A buffer none of them writes holds after the stretch what it held before. -/
theorem keep3_2 {F : FTy → Type} [FloatOps F] (W : Valuation τ sig (Elt F)) {r : Ref sig .tc} (hr : r ∉ wr3_2) :
    StableHlo.after (hostOps3_2 : List (HloOp τ sig (Elt F))) W (Proc.devRef .tc r) = W (Proc.devRef .tc r) :=
  StableHlo.after_of_writes_sub hostOps3_2 W (by
    simp only [hostOps3_2, List.Forall, StableHlo.nullary_writes, StableHlo.unary_writes, StableHlo.binary_writes,
      StableHlo.ternary_writes, StableHlo.reshape_writes, Finset.singleton_subset_iff, List.mem_toFinset]
    repeat' apply And.intro
    all_goals exact List.mem_map_of_mem (by decide)) hr

/-- The buffers the operations of `hostOps6` write, in order. -/
abbrev wr6 : List (Ref sig .tc) := [main_v76, main_v77, main_v78, main_cst_13, main_v79, main_cst_14, main_v80, main_v81, main_v82, main_cst_15, main_v83, main_v84, main_v85, main_cst_16]
/-- A buffer none of them writes holds after the stretch what it held before. -/
theorem keep6 {F : FTy → Type} [FloatOps F] (W : Valuation τ sig (Elt F)) {r : Ref sig .tc} (hr : r ∉ wr6) :
    StableHlo.after (hostOps6 : List (HloOp τ sig (Elt F))) W (Proc.devRef .tc r) = W (Proc.devRef .tc r) :=
  StableHlo.after_of_writes_sub hostOps6 W (by
    simp only [hostOps6, List.Forall, StableHlo.nullary_writes, StableHlo.unary_writes, StableHlo.binary_writes,
      StableHlo.ternary_writes, StableHlo.reshape_writes, Finset.singleton_subset_iff, List.mem_toFinset]
    repeat' apply And.intro
    all_goals exact List.mem_map_of_mem (by decide)) hr

/-- The buffers the operations of `hostOps6_1` write, in order. -/
abbrev wr6_1 : List (Ref sig .tc) := [main_call1_v0, main_call1_v1, main_v86]
/-- A buffer none of them writes holds after the stretch what it held before. -/
theorem keep6_1 {F : FTy → Type} [FloatOps F] (W : Valuation τ sig (Elt F)) {r : Ref sig .tc} (hr : r ∉ wr6_1) :
    StableHlo.after (hostOps6_1 : List (HloOp τ sig (Elt F))) W (Proc.devRef .tc r) = W (Proc.devRef .tc r) :=
  StableHlo.after_of_writes_sub hostOps6_1 W (by
    simp only [hostOps6_1, List.Forall, StableHlo.nullary_writes, StableHlo.unary_writes, StableHlo.binary_writes,
      StableHlo.ternary_writes, StableHlo.reshape_writes, Finset.singleton_subset_iff, List.mem_toFinset]
    repeat' apply And.intro
    all_goals exact List.mem_map_of_mem (by decide)) hr

/-- The buffers the operations of `hostOps6_2` write, in order. -/
abbrev wr6_2 : List (Ref sig .tc) := [main_c_17, main_v87, main_v88, main_c_18, main_v89, main_v90, main_v91, main_v92, main_v93, main_c_19, main_v94, main_v95, main_c_20, main_v96, main_v97, main_v98, main_v99, main_v100, main_v101, main_c_21, main_v102, main_v103, main_c_22, main_v104, main_v105, main_v106, main_v107, main_v108, main_v109, main_v110, main_v111, main_cst_23, main_v112, main_v113, main_v114, main_v115]
/-- A buffer none of them writes holds after the stretch what it held before. -/
theorem keep6_2 {F : FTy → Type} [FloatOps F] (W : Valuation τ sig (Elt F)) {r : Ref sig .tc} (hr : r ∉ wr6_2) :
    StableHlo.after (hostOps6_2 : List (HloOp τ sig (Elt F))) W (Proc.devRef .tc r) = W (Proc.devRef .tc r) :=
  StableHlo.after_of_writes_sub hostOps6_2 W (by
    simp only [hostOps6_2, List.Forall, StableHlo.nullary_writes, StableHlo.unary_writes, StableHlo.binary_writes,
      StableHlo.ternary_writes, StableHlo.reshape_writes, Finset.singleton_subset_iff, List.mem_toFinset]
    repeat' apply And.intro
    all_goals exact List.mem_map_of_mem (by decide)) hr

/-! ## Layer 1: the three stretches one by one, then composed -/

/-- The first stretch leaves the sources vector with the self-loop numbers appended. -/
theorem h3a_src (W : Valuation τ sig (Elt Ideal)) :
    StableHlo.after hostOps3 W (Proc.devRef .tc main_v21) = withLoops (W (Proc.devRef .tc main_v1)) := by
  after_results_simp
  repeat (first
    | rw [StableHlo.nullary_result] | rw [StableHlo.binary_result]
    | (rw [StableHlo.nullary_result_ne]; rotate_left; decide)
    | (rw [StableHlo.binary_result_ne]; rotate_left; decide))
  exact rfl

/-- The first stretch leaves the targets vector with the self-loop numbers appended. -/
theorem h3a_dst (W : Valuation τ sig (Elt Ideal)) :
    StableHlo.after hostOps3 W (Proc.devRef .tc main_v22) = withLoops (W (Proc.devRef .tc main_v3)) := by
  after_results_simp
  repeat (first
    | rw [StableHlo.nullary_result] | rw [StableHlo.binary_result]
    | (rw [StableHlo.nullary_result_ne]; rotate_left; decide)
    | (rw [StableHlo.binary_result_ne]; rotate_left; decide))
  exact rfl

/-- The first stretch leaves the mask of the nodes whose count of incoming edges is positive. -/
theorem h3a_pos (W : Valuation τ sig (Elt Ideal)) :
    StableHlo.after hostOps3 W (Proc.devRef .tc main_v28) = (cmpf (F := Ideal) (φ := .f32) .ogt : C S100000 .f32 → C S100000 .f32 → C S100000 .i1) (degree (withLoops (W (Proc.devRef .tc main_v3)))) ((broadcastInDim S100000 ![] bcast_S_S100000 : C S_ .f32 → C S100000 .f32) (constant (F := Ideal) S_ .f32 0x00000000#32)) := by
  after_results_simp
  repeat (first
    | rw [StableHlo.nullary_result] | rw [StableHlo.binary_result]
    | (rw [StableHlo.nullary_result_ne]; rotate_left; decide)
    | (rw [StableHlo.binary_result_ne]; rotate_left; decide))
  exact rfl

/-- The first stretch leaves the inverse square root of each node's count of incoming edges. -/
theorem h3a_rs (W : Valuation τ sig (Elt Ideal)) :
    StableHlo.after hostOps3 W (Proc.devRef .tc main_v29) = (Host.rsqrt (F := Ideal) (φ := .f32) : C S100000 .f32 → C S100000 .f32) (degree (withLoops (W (Proc.devRef .tc main_v3)))) := by
  after_results_simp
  repeat (first
    | rw [StableHlo.nullary_result] | rw [StableHlo.binary_result]
    | (rw [StableHlo.nullary_result_ne]; rotate_left; decide)
    | (rw [StableHlo.binary_result_ne]; rotate_left; decide))
  exact rfl

/-- The first stretch leaves a scalar zero. -/
theorem h3a_zero (W : Valuation τ sig (Elt Ideal)) :
    StableHlo.after hostOps3 W (Proc.devRef .tc main_cst_4) = (constant (F := Ideal) S_ .f32 0x00000000#32 : C S_ .f32) := by
  after_results_simp

/-- The second stretch selects, by the mask, between the inverse square roots and zero. -/
theorem h3b_sel (W : Valuation τ sig (Elt Ideal)) :
    StableHlo.after hostOps3_1 W (Proc.devRef .tc main_v30) = (select : C S100000 .i1 → C S100000 .f32 → C S100000 .f32 → C S100000 .f32) (W (Proc.devRef .tc main_v28)) (W (Proc.devRef .tc main_v29))
      ((broadcastInDim S100000 ![] bcast_S_S100000 : C S_ .f32 → C S100000 .f32) (id (W (Proc.devRef .tc main_cst_4)))) := by
  after_results_simp
  exact rfl

/-- The third stretch leaves `aggTail` of the two index vectors, the node factors and the feature array it finds. -/
theorem h3c_out (W : Valuation τ sig (Elt Ideal)) :
    StableHlo.after hostOps3_2 W (Proc.devRef .tc main_v58) = aggTail (W (Proc.devRef .tc main_v21)) (W (Proc.devRef .tc main_v22)) (W (Proc.devRef .tc main_v30)) (W (Proc.devRef .tc main_v19)) := by
  after_results_simp
  exact rfl

/-- The third stretch also leaves a parameter vector reshaped to a row. -/
theorem h3c_row (W : Valuation τ sig (Elt Ideal)) :
    StableHlo.after hostOps3_2 W (Proc.devRef .tc main_v59) = row64 (W (Proc.devRef .tc main_arg7)) := by
  after_results_simp
  exact rfl

/-- The three stretches of layer 1 leave the aggregation of the product array they find. -/
theorem h3_v58 (W : Valuation τ sig (Elt Ideal)) :
    StableHlo.after hostOps3_2 (StableHlo.after hostOps3_1 (StableHlo.after hostOps3 W)) (Proc.devRef .tc main_v58)
      = aggCore (W (Proc.devRef .tc main_v1)) (W (Proc.devRef .tc main_v3)) (W (Proc.devRef .tc main_v19)) := by
  rw [h3c_out, keep3_1 _ (r := main_v21) (by decide), keep3_1 _ (r := main_v22) (by decide), keep3_1 _ (r := main_v19) (by decide),
    h3b_sel, h3a_src, h3a_dst, h3a_pos, h3a_rs, h3a_zero, keep3 _ (r := main_v19) (by decide)]
  exact (aggCore_eq _ _ _).symm
/-- The three stretches leave the parameter vector they find, reshaped to a row. -/
theorem h3_v59 (W : Valuation τ sig (Elt Ideal)) :
    StableHlo.after hostOps3_2 (StableHlo.after hostOps3_1 (StableHlo.after hostOps3 W)) (Proc.devRef .tc main_v59)
      = row64 (W (Proc.devRef .tc main_arg7)) := by
  rw [h3c_row, keep3_1 _ (r := main_arg7) (by decide), keep3 _ (r := main_arg7) (by decide)]

/-! ## Layer 2: the three stretches one by one, then composed -/

/-- The first stretch leaves the sources vector with the self-loop numbers appended. -/
theorem h6a_src (W : Valuation τ sig (Elt Ideal)) :
    StableHlo.after hostOps6 W (Proc.devRef .tc main_v77) = withLoops (W (Proc.devRef .tc main_v1)) := by
  after_results_simp
  repeat (first
    | rw [StableHlo.nullary_result] | rw [StableHlo.binary_result]
    | (rw [StableHlo.nullary_result_ne]; rotate_left; decide)
    | (rw [StableHlo.binary_result_ne]; rotate_left; decide))
  exact rfl

/-- The first stretch leaves the targets vector with the self-loop numbers appended. -/
theorem h6a_dst (W : Valuation τ sig (Elt Ideal)) :
    StableHlo.after hostOps6 W (Proc.devRef .tc main_v78) = withLoops (W (Proc.devRef .tc main_v3)) := by
  after_results_simp
  repeat (first
    | rw [StableHlo.nullary_result] | rw [StableHlo.binary_result]
    | (rw [StableHlo.nullary_result_ne]; rotate_left; decide)
    | (rw [StableHlo.binary_result_ne]; rotate_left; decide))
  exact rfl

/-- The first stretch leaves the mask of the nodes whose count of incoming edges is positive. -/
theorem h6a_pos (W : Valuation τ sig (Elt Ideal)) :
    StableHlo.after hostOps6 W (Proc.devRef .tc main_v84) = (cmpf (F := Ideal) (φ := .f32) .ogt : C S100000 .f32 → C S100000 .f32 → C S100000 .i1) (degree (withLoops (W (Proc.devRef .tc main_v3)))) ((broadcastInDim S100000 ![] bcast_S_S100000 : C S_ .f32 → C S100000 .f32) (constant (F := Ideal) S_ .f32 0x00000000#32)) := by
  after_results_simp
  repeat (first
    | rw [StableHlo.nullary_result] | rw [StableHlo.binary_result]
    | (rw [StableHlo.nullary_result_ne]; rotate_left; decide)
    | (rw [StableHlo.binary_result_ne]; rotate_left; decide))
  exact rfl

/-- The first stretch leaves the inverse square root of each node's count of incoming edges. -/
theorem h6a_rs (W : Valuation τ sig (Elt Ideal)) :
    StableHlo.after hostOps6 W (Proc.devRef .tc main_v85) = (Host.rsqrt (F := Ideal) (φ := .f32) : C S100000 .f32 → C S100000 .f32) (degree (withLoops (W (Proc.devRef .tc main_v3)))) := by
  after_results_simp
  repeat (first
    | rw [StableHlo.nullary_result] | rw [StableHlo.binary_result]
    | (rw [StableHlo.nullary_result_ne]; rotate_left; decide)
    | (rw [StableHlo.binary_result_ne]; rotate_left; decide))
  exact rfl

/-- The first stretch leaves a scalar zero. -/
theorem h6a_zero (W : Valuation τ sig (Elt Ideal)) :
    StableHlo.after hostOps6 W (Proc.devRef .tc main_cst_16) = (constant (F := Ideal) S_ .f32 0x00000000#32 : C S_ .f32) := by
  after_results_simp

/-- The second stretch selects, by the mask, between the inverse square roots and zero. -/
theorem h6b_sel (W : Valuation τ sig (Elt Ideal)) :
    StableHlo.after hostOps6_1 W (Proc.devRef .tc main_v86) = (select : C S100000 .i1 → C S100000 .f32 → C S100000 .f32 → C S100000 .f32) (W (Proc.devRef .tc main_v84)) (W (Proc.devRef .tc main_v85))
      ((broadcastInDim S100000 ![] bcast_S_S100000 : C S_ .f32 → C S100000 .f32) (id (W (Proc.devRef .tc main_cst_16)))) := by
  after_results_simp
  exact rfl

/-- The third stretch leaves `aggTail` of the two index vectors, the node factors and the feature array it finds. -/
theorem h6c_out (W : Valuation τ sig (Elt Ideal)) :
    StableHlo.after hostOps6_2 W (Proc.devRef .tc main_v114) = aggTail (W (Proc.devRef .tc main_v77)) (W (Proc.devRef .tc main_v78)) (W (Proc.devRef .tc main_v86)) (W (Proc.devRef .tc main_v75)) := by
  after_results_simp
  exact rfl

/-- The third stretch also leaves a parameter vector reshaped to a row. -/
theorem h6c_row (W : Valuation τ sig (Elt Ideal)) :
    StableHlo.after hostOps6_2 W (Proc.devRef .tc main_v115) = row64 (W (Proc.devRef .tc main_arg11)) := by
  after_results_simp
  exact rfl

/-- The three stretches of layer 2 leave the aggregation of the product array they find. -/
theorem h6_v114 (W : Valuation τ sig (Elt Ideal)) :
    StableHlo.after hostOps6_2 (StableHlo.after hostOps6_1 (StableHlo.after hostOps6 W)) (Proc.devRef .tc main_v114)
      = aggCore (W (Proc.devRef .tc main_v1)) (W (Proc.devRef .tc main_v3)) (W (Proc.devRef .tc main_v75)) := by
  rw [h6c_out, keep6_1 _ (r := main_v77) (by decide), keep6_1 _ (r := main_v78) (by decide), keep6_1 _ (r := main_v75) (by decide),
    h6b_sel, h6a_src, h6a_dst, h6a_pos, h6a_rs, h6a_zero, keep6 _ (r := main_v75) (by decide)]
  exact (aggCore_eq _ _ _).symm
/-- The three stretches leave the parameter vector they find, reshaped to a row. -/
theorem h6_v115 (W : Valuation τ sig (Elt Ideal)) :
    StableHlo.after hostOps6_2 (StableHlo.after hostOps6_1 (StableHlo.after hostOps6 W)) (Proc.devRef .tc main_v115)
      = row64 (W (Proc.devRef .tc main_arg11)) := by
  rw [h6c_row, keep6_1 _ (r := main_arg11) (by decide), keep6 _ (r := main_arg11) (by decide)]

end Cert.KernelIdeal.KVal

end
-- ==== Proof.KChainB.lean ====
import proofs.«103981_j8873402434235_1_alg».proof.Proof.Gen.KernelIdeal.Frame
import proofs.«103981_j8873402434235_1_alg».proof.Proof.KHostStat
import proofs.«103981_j8873402434235_1_alg».proof.Proof.KHostAgg

set_option maxRecDepth 16384

noncomputable section

namespace Cert.KernelIdeal.KVal

open Idealize.ShloMosaic Idealize.ShloMosaic.TcCoe
open Idealize.ShloMosaic.Pipeline (Dat Cfg Window)
open Cert.KernelIdeal.Gen

variable (m : (ℓ : Loc nD τ sig) → Buf (Elt Ideal) ℓ) (ρ : Dev nD → PrngReg) (c : Dev nD)

/-! # The input arrays of regions 3, 4 and 5, through the fold of buffer contents -/

/-! ## Buffers carried unchanged -/

/-- The sources vector is written by nothing between boundaries 1 and 5. -/
theorem W5_v1_carry : W5 m ρ c (Proc.devRef .tc main_v1) = W1 m ρ c (Proc.devRef .tc main_v1) :=
  calc W5 m ρ c (Proc.devRef .tc main_v1)
    _ = W4 m ρ c (Proc.devRef .tc main_v1) := W5_of_ne m ρ c main_v1 (by decide)
    _ = W3 m ρ c (Proc.devRef .tc main_v1) := W4_of_ne m ρ c main_v1 (by decide)
    _ = W2 m ρ c (Proc.devRef .tc main_v1) := keep1 (W2 m ρ c) (by decide)
    _ = W1 m ρ c (Proc.devRef .tc main_v1) := W2_of_ne m ρ c main_v1 (by decide)
/-- The targets vector is written by nothing between boundaries 1 and 5. -/
theorem W5_v3_carry : W5 m ρ c (Proc.devRef .tc main_v3) = W1 m ρ c (Proc.devRef .tc main_v3) :=
  calc W5 m ρ c (Proc.devRef .tc main_v3)
    _ = W4 m ρ c (Proc.devRef .tc main_v3) := W5_of_ne m ρ c main_v3 (by decide)
    _ = W3 m ρ c (Proc.devRef .tc main_v3) := W4_of_ne m ρ c main_v3 (by decide)
    _ = W2 m ρ c (Proc.devRef .tc main_v3) := keep1 (W2 m ρ c) (by decide)
    _ = W1 m ρ c (Proc.devRef .tc main_v3) := W2_of_ne m ρ c main_v3 (by decide)

/-- The sources vector, computed by the first stretch and written by nothing after it. -/
theorem W5_v1 : W5 m ρ c (Proc.devRef .tc main_v1) = edgeRow0 (m ((c : Thread nD τ).loc main_arg1)) :=
  (W5_v1_carry m ρ c).trans (h0_v1 (W0 m ρ c))
/-- The targets vector, likewise. -/
theorem W5_v3 : W5 m ρ c (Proc.devRef .tc main_v3) = edgeRow1 (m ((c : Thread nD τ).loc main_arg1)) :=
  (W5_v3_carry m ρ c).trans (h0_v3 (W0 m ρ c))
/-- Nothing up to boundary 5 writes `main_arg7`: it holds what it held at launch. -/
theorem W5_arg7 : W5 m ρ c (Proc.devRef .tc main_arg7) = m ((c : Thread nD τ).loc main_arg7) :=
  calc W5 m ρ c (Proc.devRef .tc main_arg7)
    _ = W4 m ρ c (Proc.devRef .tc main_arg7) := W5_of_ne m ρ c main_arg7 (by decide)
    _ = W3 m ρ c (Proc.devRef .tc main_arg7) := W4_of_ne m ρ c main_arg7 (by decide)
    _ = W2 m ρ c (Proc.devRef .tc main_arg7) := keep1 (W2 m ρ c) (by decide)
    _ = W1 m ρ c (Proc.devRef .tc main_arg7) := W2_of_ne m ρ c main_arg7 (by decide)
    _ = W0 m ρ c (Proc.devRef .tc main_arg7) := keep0 (W0 m ρ c) (by decide)
    _ = m ((c : Thread nD τ).loc main_arg7) := rfl
/-- Nothing up to boundary 9 writes `main_arg7`: it holds what it held at launch. -/
theorem W9_arg7 : W9 m ρ c (Proc.devRef .tc main_arg7) = m ((c : Thread nD τ).loc main_arg7) :=
  calc W9 m ρ c (Proc.devRef .tc main_arg7)
    _ = W8 m ρ c (Proc.devRef .tc main_arg7) := W9_of_ne m ρ c main_arg7 (by decide)
    _ = W7 m ρ c (Proc.devRef .tc main_arg7) := keep3_2 (W7 m ρ c) (by decide)
    _ = W6 m ρ c (Proc.devRef .tc main_arg7) := keep3_1 (W6 m ρ c) (by decide)
    _ = W5 m ρ c (Proc.devRef .tc main_arg7) := keep3 (W5 m ρ c) (by decide)
    _ = W4 m ρ c (Proc.devRef .tc main_arg7) := W5_of_ne m ρ c main_arg7 (by decide)
    _ = W3 m ρ c (Proc.devRef .tc main_arg7) := W4_of_ne m ρ c main_arg7 (by decide)
    _ = W2 m ρ c (Proc.devRef .tc main_arg7) := keep1 (W2 m ρ c) (by decide)
    _ = W1 m ρ c (Proc.devRef .tc main_arg7) := W2_of_ne m ρ c main_arg7 (by decide)
    _ = W0 m ρ c (Proc.devRef .tc main_arg7) := keep0 (W0 m ρ c) (by decide)
    _ = m ((c : Thread nD τ).loc main_arg7) := rfl
/-- Nothing up to boundary 9 writes `main_arg8`: it holds what it held at launch. -/
theorem W9_arg8 : W9 m ρ c (Proc.devRef .tc main_arg8) = m ((c : Thread nD τ).loc main_arg8) :=
  calc W9 m ρ c (Proc.devRef .tc main_arg8)
    _ = W8 m ρ c (Proc.devRef .tc main_arg8) := W9_of_ne m ρ c main_arg8 (by decide)
    _ = W7 m ρ c (Proc.devRef .tc main_arg8) := keep3_2 (W7 m ρ c) (by decide)
    _ = W6 m ρ c (Proc.devRef .tc main_arg8) := keep3_1 (W6 m ρ c) (by decide)
    _ = W5 m ρ c (Proc.devRef .tc main_arg8) := keep3 (W5 m ρ c) (by decide)
    _ = W4 m ρ c (Proc.devRef .tc main_arg8) := W5_of_ne m ρ c main_arg8 (by decide)
    _ = W3 m ρ c (Proc.devRef .tc main_arg8) := W4_of_ne m ρ c main_arg8 (by decide)
    _ = W2 m ρ c (Proc.devRef .tc main_arg8) := keep1 (W2 m ρ c) (by decide)
    _ = W1 m ρ c (Proc.devRef .tc main_arg8) := W2_of_ne m ρ c main_arg8 (by decide)
    _ = W0 m ρ c (Proc.devRef .tc main_arg8) := keep0 (W0 m ρ c) (by decide)
    _ = m ((c : Thread nD τ).loc main_arg8) := rfl
/-- Nothing up to boundary 9 writes `main_arg9`: it holds what it held at launch. -/
theorem W9_arg9 : W9 m ρ c (Proc.devRef .tc main_arg9) = m ((c : Thread nD τ).loc main_arg9) :=
  calc W9 m ρ c (Proc.devRef .tc main_arg9)
    _ = W8 m ρ c (Proc.devRef .tc main_arg9) := W9_of_ne m ρ c main_arg9 (by decide)
    _ = W7 m ρ c (Proc.devRef .tc main_arg9) := keep3_2 (W7 m ρ c) (by decide)
    _ = W6 m ρ c (Proc.devRef .tc main_arg9) := keep3_1 (W6 m ρ c) (by decide)
    _ = W5 m ρ c (Proc.devRef .tc main_arg9) := keep3 (W5 m ρ c) (by decide)
    _ = W4 m ρ c (Proc.devRef .tc main_arg9) := W5_of_ne m ρ c main_arg9 (by decide)
    _ = W3 m ρ c (Proc.devRef .tc main_arg9) := W4_of_ne m ρ c main_arg9 (by decide)
    _ = W2 m ρ c (Proc.devRef .tc main_arg9) := keep1 (W2 m ρ c) (by decide)
    _ = W1 m ρ c (Proc.devRef .tc main_arg9) := W2_of_ne m ρ c main_arg9 (by decide)
    _ = W0 m ρ c (Proc.devRef .tc main_arg9) := keep0 (W0 m ρ c) (by decide)
    _ = m ((c : Thread nD τ).loc main_arg9) := rfl
/-- Nothing up to boundary 11 writes `main_arg10`: it holds what it held at launch. -/
theorem W11_arg10 : W11 m ρ c (Proc.devRef .tc main_arg10) = m ((c : Thread nD τ).loc main_arg10) :=
  calc W11 m ρ c (Proc.devRef .tc main_arg10)
    _ = W10 m ρ c (Proc.devRef .tc main_arg10) := W11_of_ne m ρ c main_arg10 (by decide)
    _ = W9 m ρ c (Proc.devRef .tc main_arg10) := keep4 (W9 m ρ c) (by decide)
    _ = W8 m ρ c (Proc.devRef .tc main_arg10) := W9_of_ne m ρ c main_arg10 (by decide)
    _ = W7 m ρ c (Proc.devRef .tc main_arg10) := keep3_2 (W7 m ρ c) (by decide)
    _ = W6 m ρ c (Proc.devRef .tc main_arg10) := keep3_1 (W6 m ρ c) (by decide)
    _ = W5 m ρ c (Proc.devRef .tc main_arg10) := keep3 (W5 m ρ c) (by decide)
    _ = W4 m ρ c (Proc.devRef .tc main_arg10) := W5_of_ne m ρ c main_arg10 (by decide)
    _ = W3 m ρ c (Proc.devRef .tc main_arg10) := W4_of_ne m ρ c main_arg10 (by decide)
    _ = W2 m ρ c (Proc.devRef .tc main_arg10) := keep1 (W2 m ρ c) (by decide)
    _ = W1 m ρ c (Proc.devRef .tc main_arg10) := W2_of_ne m ρ c main_arg10 (by decide)
    _ = W0 m ρ c (Proc.devRef .tc main_arg10) := keep0 (W0 m ρ c) (by decide)
    _ = m ((c : Thread nD τ).loc main_arg10) := rfl
/-- The aggregated array is an input of region 3 and is not written by the stretch after it. -/
theorem W10_v58 : W10 m ρ c (Proc.devRef .tc main_v58) = W8 m ρ c (Proc.devRef .tc main_v58) :=
  calc W10 m ρ c (Proc.devRef .tc main_v58)
    _ = W9 m ρ c (Proc.devRef .tc main_v58) := keep4 (W9 m ρ c) (by decide)
    _ = W8 m ρ c (Proc.devRef .tc main_v58) := (W9_arr m ρ c 0).trans (((dat3 (V8 m ρ) c).arrAt_in 0 rfl _).trans (A_eq3 (V8 m ρ) c 0))

/-! ## Region 3 -/

/-- Window 0: the aggregation, along the edge list (argument 1), of region 2's output array. -/
theorem in3_0 : (V8 m ρ c (Pipeline.arrRef spec3 0) : C S100000x64 .f32)
    = aggK (m ((c : Thread nD τ).loc main_arg1)) ((dat2 (V4 m ρ) c).arrAt 2 cfg2.N) :=
  (h3_v58 (W5 m ρ c)).trans
    (congr (congr (congrArg aggCore (W5_v1 m ρ c)) (W5_v3 m ρ c)) (W5_arr m ρ c 2))
/-- Window 1: argument 7 as a row. -/
theorem in3_1 : (V8 m ρ c (Pipeline.arrRef spec3 1) : C S1x64 .f32) = row64 (m ((c : Thread nD τ).loc main_arg7)) :=
  (h3_v59 (W5 m ρ c)).trans (congrArg row64 (W5_arg7 m ρ c))

/-! ## Region 4 -/

/-- Window 0: the same aggregated array. -/
theorem in4_0 : (V10 m ρ c (Pipeline.arrRef spec4 0) : C S100000x64 .f32)
    = aggK (m ((c : Thread nD τ).loc main_arg1)) ((dat2 (V4 m ρ) c).arrAt 2 cfg2.N) :=
  (W10_v58 m ρ c).trans (in3_0 m ρ c)
/-- Window 1: argument 7 as a row. -/
theorem in4_1 : (V10 m ρ c (Pipeline.arrRef spec4 1) : C S1x64 .f32) = row64 (m ((c : Thread nD τ).loc main_arg7)) :=
  (h4_v69 (W9 m ρ c)).trans (congrArg row64 (W9_arg7 m ρ c))
/-- Window 2: the mean row of region 3's first output array. -/
theorem in4_2 : (V10 m ρ c (Pipeline.arrRef spec4 2) : C S1x64 .f32) = meanRow64 ((dat3 (V8 m ρ) c).arrAt 2 cfg3.N) :=
  (h4_v70 (W9 m ρ c)).trans (congrArg meanRow64 (W9_arr m ρ c 2))
/-- Window 3: the variance row of region 3's two output arrays. -/
theorem in4_3 : (V10 m ρ c (Pipeline.arrRef spec4 3) : C S1x64 .f32)
    = varRow64 ((dat3 (V8 m ρ) c).arrAt 2 cfg3.N) ((dat3 (V8 m ρ) c).arrAt 3 cfg3.N) :=
  (h4_v71 (W9 m ρ c)).trans (congrArg₂ varRow64 (W9_arr m ρ c 2) (W9_arr m ρ c 3))
/-- Window 4: argument 8 as a row. -/
theorem in4_4 : (V10 m ρ c (Pipeline.arrRef spec4 4) : C S1x64 .f32) = row64 (m ((c : Thread nD τ).loc main_arg8)) :=
  (h4_v72 (W9 m ρ c)).trans (congrArg row64 (W9_arg8 m ρ c))
/-- Window 5: argument 9 as a row. -/
theorem in4_5 : (V10 m ρ c (Pipeline.arrRef spec4 5) : C S1x64 .f32) = row64 (m ((c : Thread nD τ).loc main_arg9)) :=
  (h4_v73 (W9 m ρ c)).trans (congrArg row64 (W9_arg9 m ρ c))

/-! ## Region 5 -/

/-- Window 0: region 4's output array. -/
theorem in5_0 : (V11 m ρ c (Pipeline.arrRef spec5 0) : C S100000x64 .f32) = (dat4 (V10 m ρ) c).arrAt 6 cfg4.N :=
  W11_arr m ρ c 6
/-- Window 1: argument 10 as launched. -/
theorem in5_1 : (V11 m ρ c (Pipeline.arrRef spec5 1) : C S64x64 .f32) = m ((c : Thread nD τ).loc main_arg10) :=
  W11_arg10 m ρ c

end Cert.KernelIdeal.KVal

end
-- ==== Proof.KChainC.lean ====
import proofs.«103981_j8873402434235_1_alg».proof.Proof.Gen.KernelIdeal.Frame
import proofs.«103981_j8873402434235_1_alg».proof.Proof.KHostStat
import proofs.«103981_j8873402434235_1_alg».proof.Proof.KHostAgg

set_option maxRecDepth 16384

noncomputable section

namespace Cert.KernelIdeal.KVal

open Idealize.ShloMosaic Idealize.ShloMosaic.TcCoe
open Idealize.ShloMosaic.Pipeline (Dat Cfg Window)
open Cert.KernelIdeal.Gen

variable (m : (ℓ : Loc nD τ sig) → Buf (Elt Ideal) ℓ) (ρ : Dev nD → PrngReg) (c : Dev nD)

/-! # The input arrays of regions 6 and 7, and the result, through the fold of buffer contents -/

/-! ## Buffers carried unchanged -/

/-- The sources vector is written by nothing between boundaries 1 and 12. -/
theorem W12_v1_carry : W12 m ρ c (Proc.devRef .tc main_v1) = W1 m ρ c (Proc.devRef .tc main_v1) :=
  calc W12 m ρ c (Proc.devRef .tc main_v1)
    _ = W11 m ρ c (Proc.devRef .tc main_v1) := W12_of_ne m ρ c main_v1 (by decide)
    _ = W10 m ρ c (Proc.devRef .tc main_v1) := W11_of_ne m ρ c main_v1 (by decide)
    _ = W9 m ρ c (Proc.devRef .tc main_v1) := keep4 (W9 m ρ c) (by decide)
    _ = W8 m ρ c (Proc.devRef .tc main_v1) := W9_of_ne m ρ c main_v1 (by decide)
    _ = W7 m ρ c (Proc.devRef .tc main_v1) := keep3_2 (W7 m ρ c) (by decide)
    _ = W6 m ρ c (Proc.devRef .tc main_v1) := keep3_1 (W6 m ρ c) (by decide)
    _ = W5 m ρ c (Proc.devRef .tc main_v1) := keep3 (W5 m ρ c) (by decide)
    _ = W4 m ρ c (Proc.devRef .tc main_v1) := W5_of_ne m ρ c main_v1 (by decide)
    _ = W3 m ρ c (Proc.devRef .tc main_v1) := W4_of_ne m ρ c main_v1 (by decide)
    _ = W2 m ρ c (Proc.devRef .tc main_v1) := keep1 (W2 m ρ c) (by decide)
    _ = W1 m ρ c (Proc.devRef .tc main_v1) := W2_of_ne m ρ c main_v1 (by decide)
/-- The targets vector is written by nothing between boundaries 1 and 12. -/
theorem W12_v3_carry : W12 m ρ c (Proc.devRef .tc main_v3) = W1 m ρ c (Proc.devRef .tc main_v3) :=
  calc W12 m ρ c (Proc.devRef .tc main_v3)
    _ = W11 m ρ c (Proc.devRef .tc main_v3) := W12_of_ne m ρ c main_v3 (by decide)
    _ = W10 m ρ c (Proc.devRef .tc main_v3) := W11_of_ne m ρ c main_v3 (by decide)
    _ = W9 m ρ c (Proc.devRef .tc main_v3) := keep4 (W9 m ρ c) (by decide)
    _ = W8 m ρ c (Proc.devRef .tc main_v3) := W9_of_ne m ρ c main_v3 (by decide)
    _ = W7 m ρ c (Proc.devRef .tc main_v3) := keep3_2 (W7 m ρ c) (by decide)
    _ = W6 m ρ c (Proc.devRef .tc main_v3) := keep3_1 (W6 m ρ c) (by decide)
    _ = W5 m ρ c (Proc.devRef .tc main_v3) := keep3 (W5 m ρ c) (by decide)
    _ = W4 m ρ c (Proc.devRef .tc main_v3) := W5_of_ne m ρ c main_v3 (by decide)
    _ = W3 m ρ c (Proc.devRef .tc main_v3) := W4_of_ne m ρ c main_v3 (by decide)
    _ = W2 m ρ c (Proc.devRef .tc main_v3) := keep1 (W2 m ρ c) (by decide)
    _ = W1 m ρ c (Proc.devRef .tc main_v3) := W2_of_ne m ρ c main_v3 (by decide)

/-- The sources vector, computed by the first stretch and written by nothing after it. -/
theorem W12_v1 : W12 m ρ c (Proc.devRef .tc main_v1) = edgeRow0 (m ((c : Thread nD τ).loc main_arg1)) :=
  (W12_v1_carry m ρ c).trans (h0_v1 (W0 m ρ c))
/-- The targets vector, likewise. -/
theorem W12_v3 : W12 m ρ c (Proc.devRef .tc main_v3) = edgeRow1 (m ((c : Thread nD τ).loc main_arg1)) :=
  (W12_v3_carry m ρ c).trans (h0_v3 (W0 m ρ c))
/-- Nothing up to boundary 12 writes `main_arg11`: it holds what it held at launch. -/
theorem W12_arg11 : W12 m ρ c (Proc.devRef .tc main_arg11) = m ((c : Thread nD τ).loc main_arg11) :=
  calc W12 m ρ c (Proc.devRef .tc main_arg11)
    _ = W11 m ρ c (Proc.devRef .tc main_arg11) := W12_of_ne m ρ c main_arg11 (by decide)
    _ = W10 m ρ c (Proc.devRef .tc main_arg11) := W11_of_ne m ρ c main_arg11 (by decide)
    _ = W9 m ρ c (Proc.devRef .tc main_arg11) := keep4 (W9 m ρ c) (by decide)
    _ = W8 m ρ c (Proc.devRef .tc main_arg11) := W9_of_ne m ρ c main_arg11 (by decide)
    _ = W7 m ρ c (Proc.devRef .tc main_arg11) := keep3_2 (W7 m ρ c) (by decide)
    _ = W6 m ρ c (Proc.devRef .tc main_arg11) := keep3_1 (W6 m ρ c) (by decide)
    _ = W5 m ρ c (Proc.devRef .tc main_arg11) := keep3 (W5 m ρ c) (by decide)
    _ = W4 m ρ c (Proc.devRef .tc main_arg11) := W5_of_ne m ρ c main_arg11 (by decide)
    _ = W3 m ρ c (Proc.devRef .tc main_arg11) := W4_of_ne m ρ c main_arg11 (by decide)
    _ = W2 m ρ c (Proc.devRef .tc main_arg11) := keep1 (W2 m ρ c) (by decide)
    _ = W1 m ρ c (Proc.devRef .tc main_arg11) := W2_of_ne m ρ c main_arg11 (by decide)
    _ = W0 m ρ c (Proc.devRef .tc main_arg11) := keep0 (W0 m ρ c) (by decide)
    _ = m ((c : Thread nD τ).loc main_arg11) := rfl
/-- Nothing up to boundary 16 writes `main_arg11`: it holds what it held at launch. -/
theorem W16_arg11 : W16 m ρ c (Proc.devRef .tc main_arg11) = m ((c : Thread nD τ).loc main_arg11) :=
  calc W16 m ρ c (Proc.devRef .tc main_arg11)
    _ = W15 m ρ c (Proc.devRef .tc main_arg11) := W16_of_ne m ρ c main_arg11 (by decide)
    _ = W14 m ρ c (Proc.devRef .tc main_arg11) := keep6_2 (W14 m ρ c) (by decide)
    _ = W13 m ρ c (Proc.devRef .tc main_arg11) := keep6_1 (W13 m ρ c) (by decide)
    _ = W12 m ρ c (Proc.devRef .tc main_arg11) := keep6 (W12 m ρ c) (by decide)
    _ = W11 m ρ c (Proc.devRef .tc main_arg11) := W12_of_ne m ρ c main_arg11 (by decide)
    _ = W10 m ρ c (Proc.devRef .tc main_arg11) := W11_of_ne m ρ c main_arg11 (by decide)
    _ = W9 m ρ c (Proc.devRef .tc main_arg11) := keep4 (W9 m ρ c) (by decide)
    _ = W8 m ρ c (Proc.devRef .tc main_arg11) := W9_of_ne m ρ c main_arg11 (by decide)
    _ = W7 m ρ c (Proc.devRef .tc main_arg11) := keep3_2 (W7 m ρ c) (by decide)
    _ = W6 m ρ c (Proc.devRef .tc main_arg11) := keep3_1 (W6 m ρ c) (by decide)
    _ = W5 m ρ c (Proc.devRef .tc main_arg11) := keep3 (W5 m ρ c) (by decide)
    _ = W4 m ρ c (Proc.devRef .tc main_arg11) := W5_of_ne m ρ c main_arg11 (by decide)
    _ = W3 m ρ c (Proc.devRef .tc main_arg11) := W4_of_ne m ρ c main_arg11 (by decide)
    _ = W2 m ρ c (Proc.devRef .tc main_arg11) := keep1 (W2 m ρ c) (by decide)
    _ = W1 m ρ c (Proc.devRef .tc main_arg11) := W2_of_ne m ρ c main_arg11 (by decide)
    _ = W0 m ρ c (Proc.devRef .tc main_arg11) := keep0 (W0 m ρ c) (by decide)
    _ = m ((c : Thread nD τ).loc main_arg11) := rfl
/-- Nothing up to boundary 16 writes `main_arg12`: it holds what it held at launch. -/
theorem W16_arg12 : W16 m ρ c (Proc.devRef .tc main_arg12) = m ((c : Thread nD τ).loc main_arg12) :=
  calc W16 m ρ c (Proc.devRef .tc main_arg12)
    _ = W15 m ρ c (Proc.devRef .tc main_arg12) := W16_of_ne m ρ c main_arg12 (by decide)
    _ = W14 m ρ c (Proc.devRef .tc main_arg12) := keep6_2 (W14 m ρ c) (by decide)
    _ = W13 m ρ c (Proc.devRef .tc main_arg12) := keep6_1 (W13 m ρ c) (by decide)
    _ = W12 m ρ c (Proc.devRef .tc main_arg12) := keep6 (W12 m ρ c) (by decide)
    _ = W11 m ρ c (Proc.devRef .tc main_arg12) := W12_of_ne m ρ c main_arg12 (by decide)
    _ = W10 m ρ c (Proc.devRef .tc main_arg12) := W11_of_ne m ρ c main_arg12 (by decide)
    _ = W9 m ρ c (Proc.devRef .tc main_arg12) := keep4 (W9 m ρ c) (by decide)
    _ = W8 m ρ c (Proc.devRef .tc main_arg12) := W9_of_ne m ρ c main_arg12 (by decide)
    _ = W7 m ρ c (Proc.devRef .tc main_arg12) := keep3_2 (W7 m ρ c) (by decide)
    _ = W6 m ρ c (Proc.devRef .tc main_arg12) := keep3_1 (W6 m ρ c) (by decide)
    _ = W5 m ρ c (Proc.devRef .tc main_arg12) := keep3 (W5 m ρ c) (by decide)
    _ = W4 m ρ c (Proc.devRef .tc main_arg12) := W5_of_ne m ρ c main_arg12 (by decide)
    _ = W3 m ρ c (Proc.devRef .tc main_arg12) := W4_of_ne m ρ c main_arg12 (by decide)
    _ = W2 m ρ c (Proc.devRef .tc main_arg12) := keep1 (W2 m ρ c) (by decide)
    _ = W1 m ρ c (Proc.devRef .tc main_arg12) := W2_of_ne m ρ c main_arg12 (by decide)
    _ = W0 m ρ c (Proc.devRef .tc main_arg12) := keep0 (W0 m ρ c) (by decide)
    _ = m ((c : Thread nD τ).loc main_arg12) := rfl
/-- Nothing up to boundary 16 writes `main_arg13`: it holds what it held at launch. -/
theorem W16_arg13 : W16 m ρ c (Proc.devRef .tc main_arg13) = m ((c : Thread nD τ).loc main_arg13) :=
  calc W16 m ρ c (Proc.devRef .tc main_arg13)
    _ = W15 m ρ c (Proc.devRef .tc main_arg13) := W16_of_ne m ρ c main_arg13 (by decide)
    _ = W14 m ρ c (Proc.devRef .tc main_arg13) := keep6_2 (W14 m ρ c) (by decide)
    _ = W13 m ρ c (Proc.devRef .tc main_arg13) := keep6_1 (W13 m ρ c) (by decide)
    _ = W12 m ρ c (Proc.devRef .tc main_arg13) := keep6 (W12 m ρ c) (by decide)
    _ = W11 m ρ c (Proc.devRef .tc main_arg13) := W12_of_ne m ρ c main_arg13 (by decide)
    _ = W10 m ρ c (Proc.devRef .tc main_arg13) := W11_of_ne m ρ c main_arg13 (by decide)
    _ = W9 m ρ c (Proc.devRef .tc main_arg13) := keep4 (W9 m ρ c) (by decide)
    _ = W8 m ρ c (Proc.devRef .tc main_arg13) := W9_of_ne m ρ c main_arg13 (by decide)
    _ = W7 m ρ c (Proc.devRef .tc main_arg13) := keep3_2 (W7 m ρ c) (by decide)
    _ = W6 m ρ c (Proc.devRef .tc main_arg13) := keep3_1 (W6 m ρ c) (by decide)
    _ = W5 m ρ c (Proc.devRef .tc main_arg13) := keep3 (W5 m ρ c) (by decide)
    _ = W4 m ρ c (Proc.devRef .tc main_arg13) := W5_of_ne m ρ c main_arg13 (by decide)
    _ = W3 m ρ c (Proc.devRef .tc main_arg13) := W4_of_ne m ρ c main_arg13 (by decide)
    _ = W2 m ρ c (Proc.devRef .tc main_arg13) := keep1 (W2 m ρ c) (by decide)
    _ = W1 m ρ c (Proc.devRef .tc main_arg13) := W2_of_ne m ρ c main_arg13 (by decide)
    _ = W0 m ρ c (Proc.devRef .tc main_arg13) := keep0 (W0 m ρ c) (by decide)
    _ = m ((c : Thread nD τ).loc main_arg13) := rfl
/-- The aggregated array is an input of region 6 and is not written by the stretch after it. -/
theorem W17_v114 : W17 m ρ c (Proc.devRef .tc main_v114) = W15 m ρ c (Proc.devRef .tc main_v114) :=
  calc W17 m ρ c (Proc.devRef .tc main_v114)
    _ = W16 m ρ c (Proc.devRef .tc main_v114) := keep7 (W16 m ρ c) (by decide)
    _ = W15 m ρ c (Proc.devRef .tc main_v114) := (W16_arr m ρ c 0).trans (((dat6 (V15 m ρ) c).arrAt_in 0 rfl _).trans (A_eq6 (V15 m ρ) c 0))

/-! ## Region 6 -/

/-- Window 0: the aggregation, along the edge list (argument 1), of region 5's output array. -/
theorem in6_0 : (V15 m ρ c (Pipeline.arrRef spec6 0) : C S100000x64 .f32)
    = aggK (m ((c : Thread nD τ).loc main_arg1)) ((dat5 (V11 m ρ) c).arrAt 2 cfg5.N) :=
  (h6_v114 (W12 m ρ c)).trans
    (congr (congr (congrArg aggCore (W12_v1 m ρ c)) (W12_v3 m ρ c)) (W12_arr m ρ c 2))
/-- Window 1: argument 11 as a row. -/
theorem in6_1 : (V15 m ρ c (Pipeline.arrRef spec6 1) : C S1x64 .f32) = row64 (m ((c : Thread nD τ).loc main_arg11)) :=
  (h6_v115 (W12 m ρ c)).trans (congrArg row64 (W12_arg11 m ρ c))

/-! ## Region 7 -/

/-- Window 0: the same aggregated array. -/
theorem in7_0 : (V17 m ρ c (Pipeline.arrRef spec7 0) : C S100000x64 .f32)
    = aggK (m ((c : Thread nD τ).loc main_arg1)) ((dat5 (V11 m ρ) c).arrAt 2 cfg5.N) :=
  (W17_v114 m ρ c).trans (in6_0 m ρ c)
/-- Window 1: argument 11 as a row. -/
theorem in7_1 : (V17 m ρ c (Pipeline.arrRef spec7 1) : C S1x64 .f32) = row64 (m ((c : Thread nD τ).loc main_arg11)) :=
  (h7_v125 (W16 m ρ c)).trans (congrArg row64 (W16_arg11 m ρ c))
/-- Window 2: the mean row of region 6's first output array. -/
theorem in7_2 : (V17 m ρ c (Pipeline.arrRef spec7 2) : C S1x64 .f32) = meanRow64 ((dat6 (V15 m ρ) c).arrAt 2 cfg6.N) :=
  (h7_v126 (W16 m ρ c)).trans (congrArg meanRow64 (W16_arr m ρ c 2))
/-- Window 3: the variance row of region 6's two output arrays. -/
theorem in7_3 : (V17 m ρ c (Pipeline.arrRef spec7 3) : C S1x64 .f32)
    = varRow64 ((dat6 (V15 m ρ) c).arrAt 2 cfg6.N) ((dat6 (V15 m ρ) c).arrAt 3 cfg6.N) :=
  (h7_v127 (W16 m ρ c)).trans (congrArg₂ varRow64 (W16_arr m ρ c 2) (W16_arr m ρ c 3))
/-- Window 4: argument 12 as a row. -/
theorem in7_4 : (V17 m ρ c (Pipeline.arrRef spec7 4) : C S1x64 .f32) = row64 (m ((c : Thread nD τ).loc main_arg12)) :=
  (h7_v128 (W16 m ρ c)).trans (congrArg row64 (W16_arg12 m ρ c))
/-- Window 5: argument 13 as a row. -/
theorem in7_5 : (V17 m ρ c (Pipeline.arrRef spec7 5) : C S1x64 .f32) = row64 (m ((c : Thread nD τ).loc main_arg13)) :=
  (h7_v129 (W16 m ρ c)).trans (congrArg row64 (W16_arg13 m ρ c))

/-! ## The result -/

/-- The result buffer at the last boundary is the array region 7 leaves in its output window. -/
theorem result_eq : (W18 m ρ c (Proc.devRef .tc main_v130) : C S100000x64 .f32) = (dat7 (V17 m ρ) c).arrAt 6 cfg7.N :=
  W18_arr m ρ c 6

end Cert.KernelIdeal.KVal

end
-- ==== Proof.KChain.lean ====
import proofs.«103981_j8873402434235_1_alg».proof.Proof.KChainA
import proofs.«103981_j8873402434235_1_alg».proof.Proof.KChainB
import proofs.«103981_j8873402434235_1_alg».proof.Proof.KChainC

/-! The input arrays of the eight regions and the result, through the fold of buffer contents: regions 0 to 2, 3 to 5,
    and 6, 7 with the result, gathered under one module. -/
-- ==== Proof.GSpec.lean ====
/-
  The mathematics of the eight tiled stages, index by index, over the extended reals: column sums and sums of
  squares of an array's rows, a row added to every row, the normalise-and-affine map with GIVEN mean and variance
  rows, a matrix product, and the positive part. Arrays are functions of the library's rank-2 indices; a row
  vector is a 1 × c array. Nothing here mentions a program.
-/
import Idealize.ShloMosaic.PureOps.Ideal
import Idealize.ShloMosaic.Lib.ValueIdx

noncomputable section

open scoped BigOperators
open Idealize.ShloMosaic Idealize.ShloMosaic.ValueIdx

namespace Cert.GSpec

/-- An `n × c` array of extended reals. -/
abbrev Arr (n c : Nat) := (⟨2, ![n, c]⟩ : Shape).Idx → EReal

/-- The row coordinate of an index, as an element of `Fin n`. -/
def row {n c : Nat} (i : (⟨2, ![n, c]⟩ : Shape).Idx) : Fin n := ⟨(i 0).val, idx2_lt0 i⟩
/-- The column coordinate of an index, as an element of `Fin c`. -/
def col {n c : Nat} (i : (⟨2, ![n, c]⟩ : Shape).Idx) : Fin c := ⟨(i 1).val, idx2_lt1 i⟩

theorem row_ix2 {n c : Nat} (r : Fin n) (j : Fin c) : row (ix2 r j) = r := rfl
theorem col_ix2 {n c : Nat} (r : Fin n) (j : Fin c) : col (ix2 r j) = j := rfl

/-- The stabiliser added to a variance before the inverse square root: the binary32 value nearest 1e-5. -/
def eps : EReal := Ideal.ofBits .f32 0x3727C5AC#32

/-- Column sums, kept as one row: entry `j` is the sum over all rows `r` of `y r j`. -/
def colSum {n c : Nat} (y : Arr n c) : Arr 1 c := fun j => ∑ r : Fin n, y (ix2 r (col j))

/-- Column sums of squares, kept as one row. -/
def colSumSq {n c : Nat} (y : Arr n c) : Arr 1 c := fun j => ∑ r : Fin n, y (ix2 r (col j)) * y (ix2 r (col j))

/-- A row vector added to every row of an array. -/
def addRow {n c : Nat} (y : Arr n c) (b : Arr 1 c) : Arr n c := fun i => y i + b (ix2 0 (col i))

/-- Normalise by a GIVEN mean row and variance row, then scale and shift:
    `(y − μ) · (σ² + ε)^(-1/2) · γ + β`, column by column. -/
def normAffine {n c : Nat} (y : Arr n c) (mu var g b : Arr 1 c) : Arr n c := fun i =>
  (y i - mu (ix2 0 (col i))) * Ideal.rsqrt (var (ix2 0 (col i)) + eps) * g (ix2 0 (col i)) + b (ix2 0 (col i))

/-- The matrix product `y · W`. -/
def matMul {n k c : Nat} (y : Arr n k) (W : Arr k c) : Arr n c := fun i => ∑ q : Fin k, y (ix2 (row i) q) * W (ix2 q (col i))

/-- The positive part, entry by entry. -/
def relu {n c : Nat} (y : Arr n c) : Arr n c := fun i => max (y i) 0

end Cert.GSpec

end
-- ==== Proof.BNMath.lean ====
/-
  The algebra behind batch normalisation over the extended reals. A column of REAL entries has the same variance
  whether it is computed as the mean of squares minus the squared mean or as the mean of the squared deviations
  from the mean — the identity is false once an entry is infinite (⊤ − ⊤ = ⊥ on one side, a square on the other),
  which is why realness is carried along. Also here: the float words the programs spell, as the reals they denote.
-/
import Idealize.ShloMosaic.PureOps.Ideal
import Mathlib.Tactic.Ring
import Mathlib.Tactic.FieldSimp
import Mathlib.Tactic.Linarith
import Mathlib.Tactic.NormNum

noncomputable section

open scoped BigOperators
open Idealize.ShloMosaic

namespace Cert.BNMath

/-! ## The words -/

/-- The word of `100000.0` denotes the real 100000. -/
theorem ofBits_cnt : Ideal.ofBits .f32 0x47C35000#32 = ((100000 : ℝ) : EReal) := by
  simp [Ideal.ofBits, Ideal.ieee, -EReal.coe_mul] <;> norm_num

/-- The word of `+0.0` denotes 0. -/
theorem ofBits_zero : Ideal.ofBits .f32 0x00000000#32 = 0 := by
  simp [Ideal.ofBits, Ideal.ieee]

/-- The word of `1.0` denotes 1. -/
theorem ofBits_one : Ideal.ofBits .f32 0x3F800000#32 = 1 := by
  simp [Ideal.ofBits, Ideal.ieee, -EReal.coe_mul] <;> norm_num

/-- The stabiliser's word denotes a positive real. -/
theorem ofBits_eps : ∃ e : ℝ, 0 < e ∧ Ideal.ofBits .f32 0x3727C5AC#32 = (e : EReal) := by
  refine ⟨(10995116 : ℝ) * (2 : ℝ)^(-(40 : ℤ)), by positivity, ?_⟩
  simp [Ideal.ofBits, Ideal.ieee, -EReal.coe_mul] <;> norm_num

/-! ## Real families -/

/-- Every member of the family is a real number. -/
def IsReal {α : Type*} (v : α → EReal) : Prop := ∀ i, ∃ r : ℝ, v i = (r : EReal)

theorem isReal_iff {α : Type*} (v : α → EReal) : IsReal v ↔ ∃ f : α → ℝ, v = fun i => (f i : EReal) :=
  ⟨fun h => ⟨fun i => (h i).choose, funext fun i => (h i).choose_spec⟩, fun ⟨f, hf⟩ i => ⟨f i, congrFun hf i⟩⟩

/-- The coercion commutes with finite sums. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of reals is real. -/
theorem sum_real {ι : Type*} (s : Finset ι) (v : ι → EReal) (h : ∀ i ∈ s, ∃ r : ℝ, v i = (r : EReal)) :
    ∃ r : ℝ, ∑ i ∈ s, v i = (r : EReal) := by
  classical
  induction s using Finset.induction_on with
  | empty => exact ⟨0, by simp⟩
  | insert a s ha ih =>
    obtain ⟨r, hr⟩ := ih fun i hi => h i (Finset.mem_insert_of_mem hi)
    obtain ⟨q, hq⟩ := h a (Finset.mem_insert_self a s)
    exact ⟨q + r, by rw [Finset.sum_insert ha, hr, hq, EReal.coe_add]⟩

/-! ## The variance identity -/

/-- Over the reals: mean of squares minus squared mean is the mean squared deviation, when the divisor is the
    number of entries. -/
theorem var_real {ι : Type*} [Fintype ι] (y : ι → ℝ) (n : ℝ) (hn : (Fintype.card ι : ℝ) = n) (h0 : n ≠ 0) :
    (∑ i, y i * y i) * (1 / n) - ((∑ i, y i) * (1 / n)) * ((∑ i, y i) * (1 / n))
      = (∑ i, (y i - (∑ i, y i) * (1 / n)) * (y i - (∑ i, y i) * (1 / n))) * (1 / n) := by
  set S := ∑ i, y i with hS
  set μ := S * (1 / n) with hμ
  have h : ∀ i, (y i - μ) * (y i - μ) = y i * y i - 2 * μ * y i + μ * μ := fun i => by ring
  simp only [h, Finset.sum_add_distrib, Finset.sum_sub_distrib, ← Finset.mul_sum, Finset.sum_const, Finset.card_univ,
    nsmul_eq_mul, hn]
  rw [← hS, hμ]
  field_simp
  ring

/-- Over the extended reals, for a column of real entries, with the quotients taken by the real `n` = the
    number of entries. -/
theorem var_ereal {ι : Type*} [Fintype ι] (Y : ι → EReal) (hY : IsReal Y) (n : ℝ) (hn : (Fintype.card ι : ℝ) = n) (h0 : n ≠ 0) :
    Ideal.div (∑ i, Y i * Y i) (n : EReal) - Ideal.div (∑ i, Y i) (n : EReal) * Ideal.div (∑ i, Y i) (n : EReal)
      = Ideal.div (∑ i, (Y i - Ideal.div (∑ i, Y i) (n : EReal)) * (Y i - Ideal.div (∑ i, Y i) (n : EReal))) (n : EReal) := by
  obtain ⟨f, rfl⟩ := (isReal_iff Y).mp hY
  simp only [Ideal.div_coe h0, ← EReal.coe_mul, ← coe_sum, ← EReal.coe_sub]
  exact congrArg _ (var_real f n hn h0)

/-- The common value is a nonnegative real. -/
theorem var_nonneg {ι : Type*} [Fintype ι] (Y : ι → EReal) (hY : IsReal Y) (n : ℝ) (h0 : 0 < n) :
    ∃ v : ℝ, 0 ≤ v ∧ Ideal.div (∑ i, (Y i - Ideal.div (∑ i, Y i) (n : EReal)) * (Y i - Ideal.div (∑ i, Y i) (n : EReal))) (n : EReal) = (v : EReal) := by
  obtain ⟨f, rfl⟩ := (isReal_iff Y).mp hY
  refine ⟨(∑ i, (f i - (∑ i, f i) * (1 / n)) * (f i - (∑ i, f i) * (1 / n))) * (1 / n), ?_, ?_⟩
  · exact mul_nonneg (Finset.sum_nonneg fun i _ => mul_self_nonneg _) (by positivity)
  · simp only [Ideal.div_coe h0.ne', ← EReal.coe_mul, ← coe_sum, ← EReal.coe_sub]

/-- The inverse square root of a positive real is a real. -/
theorem rsqrt_pos_real (r : ℝ) (hr : 0 < r) : ∃ q : ℝ, Ideal.rsqrt (r : EReal) = (q : EReal) := by
  refine ⟨(Real.sqrt r)⁻¹, ?_⟩
  rw [Ideal.rsqrt_coe, if_neg (not_lt.mpr hr.le), if_neg hr.ne']

end Cert.BNMath

end
-- ==== Proof.GStages.lean ====
/-
  Batch normalisation of the columns of a 100000-row array, written with the stage functions: the mean row is the
  column sums over 100000; the variance row is either the column sums of squares over 100000 minus the squared mean
  (the tiled program's way) or the column sums of squared deviations over 100000 (the reference's way). On arrays of
  real entries the two agree, the variance is a nonnegative real, and every stage function keeps entries real.
-/
import proofs.«103981_j8873402434235_1_alg».proof.Proof.GSpec
import proofs.«103981_j8873402434235_1_alg».proof.Proof.BNMath

noncomputable section

open scoped BigOperators
open Idealize.ShloMosaic Idealize.ShloMosaic.ValueIdx
open Cert.BNMath

namespace Cert.GSpec

/-- The row count, as the word both programs spell. -/
def cntW : EReal := Ideal.ofBits .f32 0x47C35000#32
theorem cntW_eq : cntW = ((100000 : ℝ) : EReal) := ofBits_cnt

/-- A vector as a one-row array. -/
def rowOf {c : Nat} (v : (⟨1, ![c]⟩ : Shape).Idx → EReal) : Arr 1 c := fun i => v (ix1 (col i))

/-- The mean row from the column sums. -/
def meanRow {c : Nat} (s : Arr 1 c) : Arr 1 c := fun i => Ideal.div (s i) cntW

/-- The variance row from the column sums and the column sums of squares. -/
def varRowK {c : Nat} (s q : Arr 1 c) : Arr 1 c := fun i => Ideal.div (q i) cntW - meanRow s i * meanRow s i

/-- The variance row as the mean squared deviation from the column mean. -/
def varRowR {c : Nat} (y : Arr 100000 c) : Arr 1 c := fun i =>
  Ideal.div (∑ r : Fin 100000, (y (ix2 r (col i)) - Ideal.div (∑ r' : Fin 100000, y (ix2 r' (col i))) cntW)
    * (y (ix2 r (col i)) - Ideal.div (∑ r' : Fin 100000, y (ix2 r' (col i))) cntW)) cntW

/-- Batch normalisation with the variance the tiled program's way, and the reference's way. -/
def bnK {c : Nat} (y : Arr 100000 c) (g b : Arr 1 c) : Arr 100000 c :=
  normAffine y (meanRow (colSum y)) (varRowK (colSum y) (colSumSq y)) g b
def bnR {c : Nat} (y : Arr 100000 c) (g b : Arr 1 c) : Arr 100000 c :=
  normAffine y (meanRow (colSum y)) (varRowR y) g b

theorem varRowK_eq_varRowR {c : Nat} (y : Arr 100000 c) (hy : IsReal y) :
    varRowK (colSum y) (colSumSq y) = varRowR y := by
  funext i
  unfold varRowK varRowR meanRow colSum colSumSq
  rw [cntW_eq]
  exact var_ereal (fun r => y (ix2 r (col i))) (fun r => hy _) 100000 (by simp) (by norm_num)

/-- On real entries the two batch normalisations are one function. -/
theorem bnK_eq_bnR {c : Nat} (y : Arr 100000 c) (g b : Arr 1 c) (hy : IsReal y) : bnK y g b = bnR y g b := by
  unfold bnK bnR
  rw [varRowK_eq_varRowR y hy]

/-! ## Realness -/

/-- One extended real is a real number. -/
def R (x : EReal) : Prop := ∃ r : ℝ, x = (r : EReal)

theorem R_zero : R 0 := ⟨0, rfl⟩
theorem R_add {x y : EReal} (hx : R x) (hy : R y) : R (x + y) := by
  obtain ⟨a, rfl⟩ := hx; obtain ⟨b, rfl⟩ := hy; exact ⟨a + b, (EReal.coe_add a b).symm⟩
theorem R_sub {x y : EReal} (hx : R x) (hy : R y) : R (x - y) := by
  obtain ⟨a, rfl⟩ := hx; obtain ⟨b, rfl⟩ := hy; exact ⟨a - b, (EReal.coe_sub a b).symm⟩
theorem R_mul {x y : EReal} (hx : R x) (hy : R y) : R (x * y) := by
  obtain ⟨a, rfl⟩ := hx; obtain ⟨b, rfl⟩ := hy; exact ⟨a * b, (EReal.coe_mul a b).symm⟩
theorem R_max {x y : EReal} (hx : R x) (hy : R y) : R (max x y) := by
  obtain ⟨a, rfl⟩ := hx; obtain ⟨b, rfl⟩ := hy
  rcases le_total a b with h | h
  · exact ⟨b, max_eq_right (EReal.coe_le_coe_iff.mpr h)⟩
  · exact ⟨a, max_eq_left (EReal.coe_le_coe_iff.mpr h)⟩
theorem R_sum {ι : Type*} (s : Finset ι) (v : ι → EReal) (h : ∀ i ∈ s, R (v i)) : R (∑ i ∈ s, v i) := sum_real s v h
theorem R_div_cnt {x : EReal} (hx : R x) : R (Ideal.div x cntW) := by
  obtain ⟨a, rfl⟩ := hx
  rw [cntW_eq, Ideal.div_coe (by norm_num : (100000 : ℝ) ≠ 0)]
  exact ⟨a * (1 / 100000), (EReal.coe_mul _ _).symm⟩
theorem R_eps : R eps := by obtain ⟨e, -, he⟩ := ofBits_eps; exact ⟨e, he⟩

theorem isReal_colSum {n c : Nat} (y : Arr n c) (hy : IsReal y) : IsReal (colSum y) :=
  fun _ => R_sum _ _ fun r _ => hy _
theorem isReal_colSumSq {n c : Nat} (y : Arr n c) (hy : IsReal y) : IsReal (colSumSq y) :=
  fun _ => R_sum _ _ fun r _ => R_mul (hy _) (hy _)
theorem isReal_addRow {n c : Nat} (y : Arr n c) (b : Arr 1 c) (hy : IsReal y) (hb : IsReal b) : IsReal (addRow y b) :=
  fun _ => R_add (hy _) (hb _)
theorem isReal_matMul {n k c : Nat} (y : Arr n k) (W : Arr k c) (hy : IsReal y) (hW : IsReal W) : IsReal (matMul y W) :=
  fun _ => R_sum _ _ fun q _ => R_mul (hy _) (hW _)
theorem isReal_relu {n c : Nat} (y : Arr n c) (hy : IsReal y) : IsReal (relu y) :=
  fun _ => R_max (hy _) R_zero
theorem isReal_meanRow {c : Nat} (s : Arr 1 c) (hs : IsReal s) : IsReal (meanRow s) :=
  fun _ => R_div_cnt (hs _)
theorem isReal_rowOf {c : Nat} (v : (⟨1, ![c]⟩ : Shape).Idx → EReal) (hv : IsReal v) : IsReal (rowOf v) :=
  fun _ => hv _

/-- The reference's variance of a real array is a nonnegative real. -/
theorem varRowR_nonneg {c : Nat} (y : Arr 100000 c) (hy : IsReal y) (i : (⟨2, ![1, c]⟩ : Shape).Idx) :
    ∃ v : ℝ, 0 ≤ v ∧ varRowR y i = (v : EReal) := by
  unfold varRowR
  rw [cntW_eq]
  exact var_nonneg (fun r => y (ix2 r (col i))) (fun r => hy _) 100000 (by norm_num)

/-- The reference's batch normalisation of a real array with real scale and shift is real. -/
theorem isReal_bnR {c : Nat} (y : Arr 100000 c) (g b : Arr 1 c) (hy : IsReal y) (hg : IsReal g) (hb : IsReal b) :
    IsReal (bnR y g b) := by
  intro i
  unfold bnR normAffine
  obtain ⟨v, hv0, hv⟩ := varRowR_nonneg y hy (ix2 0 (col i))
  obtain ⟨e, he0, he⟩ := ofBits_eps
  have hq : R (Ideal.rsqrt (varRowR y (ix2 0 (col i)) + eps)) := by
    rw [hv, show eps = (e : EReal) from he, ← EReal.coe_add]
    exact rsqrt_pos_real (v + e) (by linarith)
  exact R_add (R_mul (R_mul (R_sub (hy i) (isReal_meanRow _ (isReal_colSum y hy) _)) hq) (hg _)) (hb _)

end Cert.GSpec

end
-- ==== Proof.KRead.lean ====
/-
  The host operations between the tiled stages, read entry by entry over the extended reals: the row of column sums
  divided by the row count is the mean row; the mean of squares minus the squared mean is the variance row; a vector
  reshaped to a one-row array reads the vector at the column. Each is the corresponding function of the index-level
  specification.
-/
import proofs.«103981_j8873402434235_1_alg».proof.Proof.KHostStat
import proofs.«103981_j8873402434235_1_alg».proof.Proof.GStages
import Idealize.ShloMosaic.Lib.ValueIdx
import Idealize.ShloMosaic.Lib.ValueLayout
import Idealize.ShloMosaic.Lib.Pipeline.Value

noncomputable section

open Idealize.ShloMosaic Idealize.ShloMosaic.ValueIdx

namespace Cert.KernelIdeal.KRead

open Cert.KernelIdeal Cert.KernelIdeal.KVal Cert.KernelIdeal.Gen

/-! ## Width 128 -/

/-- The row of sums, as a vector, over the row count: entry j is the sum at (0, j) divided by 100000. -/
theorem mean128v_apply (s : C S1x128 .f32) (j : Fin 128) :
    mean128v s (ix1 j) = Ideal.div (s (ix2 (0 : Fin 1) j)) Cert.GSpec.cntW := by
  unfold mean128v Host.divf
  show Ideal.div (shapeCast S128 s shapeCasts_S1x128_S128 (ix1 j))
      (broadcastInDim S128 ![] bcast_S_S128 (constant (F := Ideal) S_ .f32 0x47C35000#32) (ix1 j)) = _
  rw [shapeCast_1a_a_apply, broadcastInDim_apply ![] bcast_S_S128 _ (ix1 j) ix0 (fun a => a.elim0)]
  rfl

/-- The mean row the program forms is the mean row of the specification. -/
theorem meanRow128_eq (s : C S1x128 .f32) : meanRow128 s = Cert.GSpec.meanRow s := by
  funext i
  obtain ⟨u, j, rfl⟩ : ∃ (u : Fin 1) (j : Fin 128), i = ix2 u j := ⟨i 0, i 1, eq_ix2 i⟩
  obtain rfl : u = 0 := Subsingleton.elim _ _
  unfold meanRow128 Cert.GSpec.meanRow
  rw [shapeCast_a_1a_apply, mean128v_apply]

/-- The variance row the program forms, mean of squares minus squared mean, is the specification's. -/
theorem varRow128_eq (s q : C S1x128 .f32) : varRow128 s q = Cert.GSpec.varRowK s q := by
  funext i
  obtain ⟨u, j, rfl⟩ : ∃ (u : Fin 1) (j : Fin 128), i = ix2 u j := ⟨i 0, i 1, eq_ix2 i⟩
  obtain rfl : u = 0 := Subsingleton.elim _ _
  unfold varRow128 Cert.GSpec.varRowK Cert.GSpec.meanRow
  rw [shapeCast_a_1a_apply, subf_apply, mulf_apply, mean128v_apply, mean128v_apply]

/-- A vector reshaped to one row reads the vector at the column. -/
theorem row128_eq (a : C S128 .f32) : row128 a = Cert.GSpec.rowOf a := by
  funext i
  obtain ⟨u, j, rfl⟩ : ∃ (u : Fin 1) (j : Fin 128), i = ix2 u j := ⟨i 0, i 1, eq_ix2 i⟩
  obtain rfl : u = 0 := Subsingleton.elim _ _
  unfold row128 Cert.GSpec.rowOf
  rw [shapeCast_a_1a_apply]
  rfl

/-! ## Width 64 -/

/-- The row of sums, as a vector, over the row count: entry j is the sum at (0, j) divided by 100000. -/
theorem mean64v_apply (s : C S1x64 .f32) (j : Fin 64) :
    mean64v s (ix1 j) = Ideal.div (s (ix2 (0 : Fin 1) j)) Cert.GSpec.cntW := by
  unfold mean64v Host.divf
  show Ideal.div (shapeCast S64 s shapeCasts_S1x64_S64 (ix1 j))
      (broadcastInDim S64 ![] bcast_S_S64 (constant (F := Ideal) S_ .f32 0x47C35000#32) (ix1 j)) = _
  rw [shapeCast_1a_a_apply, broadcastInDim_apply ![] bcast_S_S64 _ (ix1 j) ix0 (fun a => a.elim0)]
  rfl

/-- The mean row the program forms is the mean row of the specification. -/
theorem meanRow64_eq (s : C S1x64 .f32) : meanRow64 s = Cert.GSpec.meanRow s := by
  funext i
  obtain ⟨u, j, rfl⟩ : ∃ (u : Fin 1) (j : Fin 64), i = ix2 u j := ⟨i 0, i 1, eq_ix2 i⟩
  obtain rfl : u = 0 := Subsingleton.elim _ _
  unfold meanRow64 Cert.GSpec.meanRow
  rw [shapeCast_a_1a_apply, mean64v_apply]

/-- The variance row the program forms, mean of squares minus squared mean, is the specification's. -/
theorem varRow64_eq (s q : C S1x64 .f32) : varRow64 s q = Cert.GSpec.varRowK s q := by
  funext i
  obtain ⟨u, j, rfl⟩ : ∃ (u : Fin 1) (j : Fin 64), i = ix2 u j := ⟨i 0, i 1, eq_ix2 i⟩
  obtain rfl : u = 0 := Subsingleton.elim _ _
  unfold varRow64 Cert.GSpec.varRowK Cert.GSpec.meanRow
  rw [shapeCast_a_1a_apply, subf_apply, mulf_apply, mean64v_apply, mean64v_apply]

/-- A vector reshaped to one row reads the vector at the column. -/
theorem row64_eq (a : C S64 .f32) : row64 a = Cert.GSpec.rowOf a := by
  funext i
  obtain ⟨u, j, rfl⟩ : ∃ (u : Fin 1) (j : Fin 64), i = ix2 u j := ⟨i 0, i 1, eq_ix2 i⟩
  obtain rfl : u = 0 := Subsingleton.elim _ _
  unfold row64 Cert.GSpec.rowOf
  rw [shapeCast_a_1a_apply]
  rfl

end Cert.KernelIdeal.KRead

end
-- ==== Proof.KStat0.lean ====
/-
  The first statistics stage: ten row blocks of 10000 rows are visited in order; the two one-row outputs are reset at
  the first block and then accumulate, block after block, the column sums and the column sums of squares of the block.
  After the last block they hold the column sums and sums of squares of all 100000 rows.
-/
import proofs.«103981_j8873402434235_1_alg».proof.Proof.Gen.KernelIdeal.Frame
import proofs.«103981_j8873402434235_1_alg».proof.Proof.GSpec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

open scoped BigOperators
open Idealize.ShloMosaic Idealize.ShloMosaic.TcCoe Idealize.SL.Sem Idealize.ShloMosaic.ValueIdx
open Idealize.ShloMosaic.Pipeline (Dat)

namespace Cert.KernelIdeal.KVal

open Cert.KernelIdeal Cert.KernelIdeal.Gen

variable {F : FTy → Type} [FloatOps F]

theorem hz0 : (![0, 0] : Fin 2 → Nat) = fun _ => 0 := funext fun a => by fin_cases a <;> rfl

/-- A later block: the first output's buffer, holding `xo1`, is left at the payload of the block and `xo1`. -/
theorem out0_B_1_eq (c : Dev nD) (i : grid0.Coords) (a1 : Memref sig .tc .vmem S10000x128 .f32) (h1 : a1.IsWhole)
    (a2 : Memref sig .tc .vmem S1x128 .f32) (h2 : a2.IsWhole) (a3 : Memref sig .tc .vmem S1x128 .f32) (h3 : a3.IsWhole)
    (hc : ¬cond0_0 i) (x : Vec F S10000x128 .f32) (xo1 xo2 : Vec F S1x128 .f32) :
    out0_B_1 c i a1 h1 a2 h2 a3 h3 hc x xo1 xo2 = k0_pay3 x xo1 := by
  unfold out0_B_1
  rw [View.read_writes_eq_canon _ _ _ (cover0_B_1 c i a1 h1 a2 h2 a3 h3 hc x xo1 xo2)]
  unfold kernelRun0_B
  dsimp only
  rw [View.canon_unit_zero hz0]
  simp only [View.readAt_eq_ld, h1.read_unread, h2.read_unread, h3.read_unread, View.ld_unit_zero (S := S10000x128) hz0,
    View.ld_unit_zero (S := S1x128) hz0]

theorem out0_B_2_eq (c : Dev nD) (i : grid0.Coords) (a1 : Memref sig .tc .vmem S10000x128 .f32) (h1 : a1.IsWhole)
    (a2 : Memref sig .tc .vmem S1x128 .f32) (h2 : a2.IsWhole) (a3 : Memref sig .tc .vmem S1x128 .f32) (h3 : a3.IsWhole)
    (hc : ¬cond0_0 i) (x : Vec F S10000x128 .f32) (xo1 xo2 : Vec F S1x128 .f32) :
    out0_B_2 c i a1 h1 a2 h2 a3 h3 hc x xo1 xo2 = k0_pay4 x xo2 := by
  unfold out0_B_2
  rw [View.read_writes_eq_canon _ _ _ (cover0_B_2 c i a1 h1 a2 h2 a3 h3 hc x xo1 xo2)]
  unfold kernelRun0_B
  dsimp only
  rw [View.canon_unit_zero hz0]
  simp only [View.readAt_eq_ld, h1.read_unread, h2.read_unread, h3.read_unread, View.ld_unit_zero (S := S10000x128) hz0,
    View.ld_unit_zero (S := S1x128) hz0]

/-- The first block: the outputs are reset to the zero row and then accumulate the block. -/
theorem out0_A_1_eq (c : Dev nD) (i : grid0.Coords) (a1 : Memref sig .tc .vmem S10000x128 .f32) (h1 : a1.IsWhole)
    (a2 : Memref sig .tc .vmem S1x128 .f32) (h2 : a2.IsWhole) (a3 : Memref sig .tc .vmem S1x128 .f32) (h3 : a3.IsWhole)
    (hc : cond0_0 i) (x : Vec F S10000x128 .f32) :
    out0_A_1 c i a1 h1 a2 h2 a3 h3 hc x = k0_pay3 x (k0_pay1 (F := F)) := by
  unfold out0_A_1
  rw [View.read_writes_eq_canon _ _ _ (cover0_A_1 c i a1 h1 a2 h2 a3 h3 hc x)]
  unfold kernelRun0_A
  dsimp only
  sl_unfold_words
  rw [View.canon_cons_unit_zero (S := S1x128) hz0, View.readCov_unit_zero (S := S1x128) _ hz0]
  simp only [View.readAt_eq_ld, h1.read_unread, View.ld_unit_zero (S := S10000x128) hz0, View.ld_unit_zero (S := S1x128) hz0]

theorem out0_A_2_eq (c : Dev nD) (i : grid0.Coords) (a1 : Memref sig .tc .vmem S10000x128 .f32) (h1 : a1.IsWhole)
    (a2 : Memref sig .tc .vmem S1x128 .f32) (h2 : a2.IsWhole) (a3 : Memref sig .tc .vmem S1x128 .f32) (h3 : a3.IsWhole)
    (hc : cond0_0 i) (x : Vec F S10000x128 .f32) :
    out0_A_2 c i a1 h1 a2 h2 a3 h3 hc x = k0_pay4 x (k0_pay2 (F := F)) := by
  unfold out0_A_2
  rw [View.read_writes_eq_canon _ _ _ (cover0_A_2 c i a1 h1 a2 h2 a3 h3 hc x)]
  unfold kernelRun0_A
  dsimp only
  sl_unfold_words
  rw [View.canon_cons_unit_zero (S := S1x128) hz0, View.readCov_unit_zero (S := S1x128) _ hz0]
  simp only [View.readAt_eq_ld, h1.read_unread, View.ld_unit_zero (S := S10000x128) hz0, View.ld_unit_zero (S := S1x128) hz0]

/-! ## The payloads at an index, over the extended reals -/

/-- Putting the summed row coordinate back in front of a column index. -/
theorem lift0_eq (j : Fin 128) (r : Fin 10000) :
    (reduces_S10000x128_S128.lift (ix1 j) r : S10000x128.Idx) = ix2 r j := by
  funext a
  match a with
  | ⟨0, _⟩ => exact Fin.ext rfl
  | ⟨1, _⟩ => exact Fin.ext rfl

/-- The first output's payload: what the buffer held, plus the block's column sum. -/
theorem st0_pay3_apply (x : Vec Ideal S10000x128 .f32) (xo : Vec Ideal S1x128 .f32) (j : Fin 128) :
    k0_pay3 x xo (ix2 (0 : Fin 1) j) = xo (ix2 (0 : Fin 1) j) + ∑ r : Fin 10000, x (ix2 r j) := by
  unfold k0_pay3
  dsimp only
  rw [addf_apply, shapeCast_self, shapeCast_a_1a_apply]
  refine congrArg _ ?_
  refine (Ideal.multiReduction_add_single x _ _ _ _ (ix1 j)).trans ?_
  show ∑ r : Fin 10000, x (reduces_S10000x128_S128.lift (ix1 j) r) = _
  exact Finset.sum_congr rfl fun r _ => by rw [lift0_eq]

/-- The second output's payload: what the buffer held, plus the block's column sum of squares. -/
theorem st0_pay4_apply (x : Vec Ideal S10000x128 .f32) (xo : Vec Ideal S1x128 .f32) (j : Fin 128) :
    k0_pay4 x xo (ix2 (0 : Fin 1) j) = xo (ix2 (0 : Fin 1) j) + ∑ r : Fin 10000, x (ix2 r j) * x (ix2 r j) := by
  unfold k0_pay4
  dsimp only
  rw [addf_apply, shapeCast_self, shapeCast_a_1a_apply]
  refine congrArg _ ?_
  refine (Ideal.multiReduction_add_single (mulf x x) _ _ _ _ (ix1 j)).trans ?_
  show ∑ r : Fin 10000, x (reduces_S10000x128_S128.lift (ix1 j) r) * x (reduces_S10000x128_S128.lift (ix1 j) r) = _
  exact Finset.sum_congr rfl fun r _ => by rw [lift0_eq]

/-- The reset rows are zero. -/
theorem st0_pay1_apply (i : S1x128.Idx) : (k0_pay1 (F := Ideal)) i = 0 := by
  unfold k0_pay1; exact Ideal.ofBits_zero_f32
theorem st0_pay2_apply (i : S1x128.Idx) : (k0_pay2 (F := Ideal)) i = 0 := by
  unfold k0_pay2; exact Ideal.ofBits_zero_f32

/-! ## A block of the input, read through its window -/

section Blocks
variable (V : (c : Dev nD) → (b : Ref sig .tc) → Buf (Elt Ideal) ((c : Thread nD τ).loc b))

/-- The whole input array of the stage, as the stage finds it. -/
abbrev X0 (c : Dev nD) : Vec Ideal S100000x128 .f32 := V c (Pipeline.arrRef spec0 0)

/-- The array at a row given by a natural number (zero past the end; no row past the end is ever read). -/
def atRow {C : Nat} (X : (⟨2, ![100000, C]⟩ : Shape).Idx → EReal) (R : ℕ) (j : Fin C) : EReal :=
  if h : R < 100000 then X (ix2 (⟨R, h⟩ : Fin 100000) j) else 0

theorem atRow_lt {C : Nat} (X : (⟨2, ![100000, C]⟩ : Shape).Idx → EReal) (R : ℕ) (h : R < 100000) (j : Fin C) :
    atRow X R j = X (ix2 (⟨R, h⟩ : Fin 100000) j) := dif_pos h

/-- Where block `t` of the input window sits: block index `(t, 0)`. -/
theorem idx0_0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)

/-- Row `r` of block `t` is row `10000 t + r` of the array. -/
theorem iblk0_apply (c : Dev nD) (t : Fin cfg0.N) (r : Fin 10000) (j : Fin 128) :
    (iblk0 V c 0 t : Vec Ideal S10000x128 .f32) (ix2 r j) = atRow (X0 V c) (10000 * t.val + r.val) j := by
  have hN : t.val < 10 := lt_of_lt_of_eq t.isLt (show cfg0.N = 10 from N_0)
  have hR : 10000 * t.val + r.val < 100000 := by have := r.isLt; omega
  rw [atRow_lt _ _ hR]
  unfold iblk0
  rw [View.read_apply]
  show V c (Pipeline.arrRef spec0 0) _ = V c (Pipeline.arrRef spec0 0) _
  congr 1
  funext a
  apply Fin.ext
  match a with
  | ⟨0, _⟩ => show win0_0.index t 0 * 10000 + 1 * r.val = 10000 * t.val + r.val; rw [(idx0_0 t).1]; omega
  | ⟨1, _⟩ => show win0_0.index t 1 * 128 + 1 * j.val = j.val; rw [(idx0_0 t).2]; omega

end Blocks

/-! ## The running sums -/

/-- Column sum of the rows of blocks 0 … n. -/
def accS {C : Nat} (X : (⟨2, ![100000, C]⟩ : Shape).Idx → EReal) : ℕ → Fin C → EReal
  | 0, j => 0 + ∑ r ∈ Finset.range 10000, atRow X (10000 * 0 + r) j
  | n + 1, j => accS X n j + ∑ r ∈ Finset.range 10000, atRow X (10000 * (n + 1) + r) j

/-- Column sum of squares of the rows of blocks 0 … n. -/
def accQ {C : Nat} (X : (⟨2, ![100000, C]⟩ : Shape).Idx → EReal) : ℕ → Fin C → EReal
  | 0, j => 0 + ∑ r ∈ Finset.range 10000, atRow X (10000 * 0 + r) j * atRow X (10000 * 0 + r) j
  | n + 1, j => accQ X n j + ∑ r ∈ Finset.range 10000, atRow X (10000 * (n + 1) + r) j * atRow X (10000 * (n + 1) + r) j

/-- A sum over `T` consecutive blocks of `B` naturals is the sum over the first `T·B` naturals. -/
theorem sum_blocks (f : ℕ → EReal) (B : ℕ) : ∀ T : ℕ,
    ∑ t ∈ Finset.range T, ∑ r ∈ Finset.range B, f (B * t + r) = ∑ R ∈ Finset.range (B * T), f R
  | 0 => by simp
  | T + 1 => by rw [Finset.sum_range_succ, sum_blocks f B T, Nat.mul_succ, Finset.sum_range_add]

theorem accS_eq {C : Nat} (X : (⟨2, ![100000, C]⟩ : Shape).Idx → EReal) (j : Fin C) : ∀ n : ℕ,
    accS X n j = ∑ t ∈ Finset.range (n + 1), ∑ r ∈ Finset.range 10000, atRow X (10000 * t + r) j
  | 0 => by rw [accS, Finset.sum_range_one, zero_add]
  | n + 1 => by rw [accS, accS_eq X j n, Finset.sum_range_succ _ (n + 1)]

theorem accQ_eq {C : Nat} (X : (⟨2, ![100000, C]⟩ : Shape).Idx → EReal) (j : Fin C) : ∀ n : ℕ,
    accQ X n j = ∑ t ∈ Finset.range (n + 1), ∑ r ∈ Finset.range 10000, atRow X (10000 * t + r) j * atRow X (10000 * t + r) j
  | 0 => by rw [accQ, Finset.sum_range_one, zero_add]
  | n + 1 => by rw [accQ, accQ_eq X j n, Finset.sum_range_succ _ (n + 1)]

/-- After the last block the running sum is the column sum of the whole array. -/
theorem accS_last {C : Nat} (X : (⟨2, ![100000, C]⟩ : Shape).Idx → EReal) (i : (⟨2, ![1, C]⟩ : Shape).Idx) :
    accS X 9 (Cert.GSpec.col i) = Cert.GSpec.colSum X i := by
  rw [accS_eq, sum_blocks (fun R => atRow X R (Cert.GSpec.col i)) 10000 10]
  unfold Cert.GSpec.colSum
  rw [← Fin.sum_univ_eq_sum_range (fun R => atRow X R (Cert.GSpec.col i)) 100000]
  exact Finset.sum_congr rfl fun R _ => atRow_lt X R.val R.isLt _

theorem accQ_last {C : Nat} (X : (⟨2, ![100000, C]⟩ : Shape).Idx → EReal) (i : (⟨2, ![1, C]⟩ : Shape).Idx) :
    accQ X 9 (Cert.GSpec.col i) = Cert.GSpec.colSumSq X i := by
  rw [accQ_eq, sum_blocks (fun R => atRow X R (Cert.GSpec.col i) * atRow X R (Cert.GSpec.col i)) 10000 10]
  unfold Cert.GSpec.colSumSq
  rw [← Fin.sum_univ_eq_sum_range (fun R => atRow X R (Cert.GSpec.col i) * atRow X R (Cert.GSpec.col i)) 100000]
  exact Finset.sum_congr rfl fun R _ => by rw [atRow_lt X R.val R.isLt]

section Acc
variable (V : (c : Dev nD) → (b : Ref sig .tc) → Buf (Elt Ideal) ((c : Thread nD τ).loc b))

/-- What the two outputs' buffers hold after block `n`: the running sums. By induction on the block. -/
theorem outsAt0_eq (c : Dev nD) : ∀ (n : ℕ) (h : n < cfg0.N),
    outsAt0 (F := Ideal) V c n h
      = ((fun i => accS (X0 V c) n (Cert.GSpec.col i) : Vec Ideal S1x128 .f32), (fun i => accQ (X0 V c) n (Cert.GSpec.col i) : Vec Ideal S1x128 .f32))
  | 0, h => by
    rw [outsAt0_A V c ⟨0, h⟩ rfl, out0_A_1_eq, out0_A_2_eq]
    refine Prod.ext (funext fun i => ?_) (funext fun i => ?_)
    · obtain ⟨u, j, rfl⟩ : ∃ (u : Fin 1) (j : Fin 128), i = ix2 u j := ⟨i 0, i 1, eq_ix2 i⟩
      obtain rfl : u = 0 := Subsingleton.elim _ _
      refine (st0_pay3_apply _ _ j).trans ?_
      rw [st0_pay1_apply]
      exact congrArg _ ((Finset.sum_congr rfl fun r _ => by rw [iblk0_apply V c ⟨0, h⟩ r j]).trans
        (Fin.sum_univ_eq_sum_range (fun r => atRow (X0 V c) (10000 * 0 + r) j) 10000))
    · obtain ⟨u, j, rfl⟩ : ∃ (u : Fin 1) (j : Fin 128), i = ix2 u j := ⟨i 0, i 1, eq_ix2 i⟩
      obtain rfl : u = 0 := Subsingleton.elim _ _
      refine (st0_pay4_apply _ _ j).trans ?_
      rw [st0_pay2_apply]
      exact congrArg _ ((Finset.sum_congr rfl fun r _ => by rw [iblk0_apply V c ⟨0, h⟩ r j]).trans
        (Fin.sum_univ_eq_sum_range (fun r => atRow (X0 V c) (10000 * 0 + r) j * atRow (X0 V c) (10000 * 0 + r) j) 10000))
  | n + 1, h => by
    have hN : cfg0.N = 10 := N_0
    have hB : ¬(⟨n + 1, h⟩ : Fin cfg0.N).val % 10 = 0 := by dsimp only; omega
    have ih := outsAt0_eq c n (Nat.lt_of_succ_lt h)
    rw [outsAt0_B V c ⟨n + 1, h⟩ hB, out0_B_1_eq, out0_B_2_eq]
    refine Prod.ext (funext fun i => ?_) (funext fun i => ?_)
    · obtain ⟨u, j, rfl⟩ : ∃ (u : Fin 1) (j : Fin 128), i = ix2 u j := ⟨i 0, i 1, eq_ix2 i⟩
      obtain rfl : u = 0 := Subsingleton.elim _ _
      refine (st0_pay3_apply _ _ j).trans ?_
      show (outsAt0 V c n _).1 (ix2 0 j) + _ = accS (X0 V c) n j + _
      rw [ih]
      exact congrArg _ ((Finset.sum_congr rfl fun r _ => by rw [iblk0_apply V c ⟨n + 1, h⟩ r j]).trans
        (Fin.sum_univ_eq_sum_range (fun r => atRow (X0 V c) (10000 * (n + 1) + r) j) 10000))
    · obtain ⟨u, j, rfl⟩ : ∃ (u : Fin 1) (j : Fin 128), i = ix2 u j := ⟨i 0, i 1, eq_ix2 i⟩
      obtain rfl : u = 0 := Subsingleton.elim _ _
      refine (st0_pay4_apply _ _ j).trans ?_
      show (outsAt0 V c n _).2 (ix2 0 j) + _ = accQ (X0 V c) n j + _
      rw [ih]
      exact congrArg _ ((Finset.sum_congr rfl fun r _ => by rw [iblk0_apply V c ⟨n + 1, h⟩ r j]).trans
        (Fin.sum_univ_eq_sum_range (fun r => atRow (X0 V c) (10000 * (n + 1) + r) j * atRow (X0 V c) (10000 * (n + 1) + r) j) 10000))

end Acc

/-! ## The result arrays -/

section Final
variable (V : (c : Dev nD) → (b : Ref sig .tc) → Buf (Elt Ideal) ((c : Thread nD τ).loc b))

/-- The column sums of the whole input, as contents of the first result array. -/
abbrev sum0 (c : Dev nD) : Buf (Elt Ideal) ((c : Thread nD τ).loc main_v4_0) := Cert.GSpec.colSum (X0 V c)
/-- The column sums of squares, as contents of the second result array. -/
abbrev sumsq0 (c : Dev nD) : Buf (Elt Ideal) ((c : Thread nD τ).loc main_v4_1) := Cert.GSpec.colSumSq (X0 V c)

/-- The one write-back of the first output, after the last block, writes the column sums. -/
theorem flushed0_1_eq (c : Dev nD) (t : Fin cfg0.N) (hf : (cfg0.win 1).flush t = true) :
    (dat0 (F := Ideal) V c).flushed 1 t = ((cfg0.win 1).blk t).view.read (Elt Ideal) (sum0 V c) := by
  have hN : cfg0.N = 10 := N_0
  have h9 : t.val = 9 := by have := (flush0_1 t).mp hf; have := t.isLt; omega
  obtain rfl : t = t0_9 := Fin.ext h9
  show (cfg0.win 1).cut (grid0.coords t0_9) ((dat0 V c).after 1 t0_9) = _
  rw [after0_1, outsAt0_eq]
  have hz' : (fun a => win0_1.index t0_9 a * main_v4_0.ty.shape.size a) = fun _ => 0 := funext fun a => by fin_cases a <;> decide
  have e : (fun i => accS (X0 V c) 9 (Cert.GSpec.col i) : Vec Ideal S1x128 .f32) = sum0 V c := funext fun i => accS_last (X0 V c) i
  show (cfg0.win 1).cut (grid0.coords t0_9) (fun i => accS (X0 V c) 9 (Cert.GSpec.col i) : Vec Ideal S1x128 .f32) = _
  rw [e]
  exact (Memref.read_access_unit_zero (Elt Ideal) main_v4_0 hz' (fun a => by rw [congrFun hz' a]; simp) (sum0 V c)).symm

theorem flushed0_2_eq (c : Dev nD) (t : Fin cfg0.N) (hf : (cfg0.win 2).flush t = true) :
    (dat0 (F := Ideal) V c).flushed 2 t = ((cfg0.win 2).blk t).view.read (Elt Ideal) (sumsq0 V c) := by
  have hN : cfg0.N = 10 := N_0
  have h9 : t.val = 9 := by have := (flush0_2 t).mp hf; have := t.isLt; omega
  obtain rfl : t = t0_9 := Fin.ext h9
  show (cfg0.win 2).cut (grid0.coords t0_9) ((dat0 V c).after 2 t0_9) = _
  rw [after0_2, outsAt0_eq]
  have hz' : (fun a => win0_2.index t0_9 a * main_v4_1.ty.shape.size a) = fun _ => 0 := funext fun a => by fin_cases a <;> decide
  have e : (fun i => accQ (X0 V c) 9 (Cert.GSpec.col i) : Vec Ideal S1x128 .f32) = sumsq0 V c := funext fun i => accQ_last (X0 V c) i
  show (cfg0.win 2).cut (grid0.coords t0_9) (fun i => accQ (X0 V c) 9 (Cert.GSpec.col i) : Vec Ideal S1x128 .f32) = _
  rw [e]
  exact (Memref.read_access_unit_zero (Elt Ideal) main_v4_1 hz' (fun a => by rw [congrFun hz' a]; simp) (sumsq0 V c)).symm

/-- The first result array ends holding the column sums of all 100000 rows. -/
theorem final0_1 (c : Dev nD) : (dat0 (F := Ideal) V c).arrAt 1 cfg0.N = sum0 V c :=
  (dat0 (F := Ideal) V c).arrAt_eq_of_cover 1 (sum0 V c) (flushed0_1_eq V c) fun i =>
    ⟨t0_9, (flush0_1 t0_9).mpr rfl, by
      show i ∈ ((View.whole main_v4_0).slice (win0_1.rect t0_9)).set
      rw [View.set_slice_whole, Rect.mem_set_unit]
      intro a
      have h0 : (i 0 : Nat) < 1 := (i 0).isLt
      have h1 : (i 1 : Nat) < 128 := (i 1).isLt
      match a with
      | ⟨0, _⟩ => show win0_1.index t0_9 0 * win0_1.size 0 ≤ (i 0 : Nat) ∧ (i 0 : Nat) < win0_1.index t0_9 0 * win0_1.size 0 + win0_1.xsize (grid0.coords t0_9) 0
                  rw [show win0_1.index t0_9 0 * win0_1.size 0 = 0 from by decide +kernel, show win0_1.xsize (grid0.coords t0_9) 0 = 1 from by decide +kernel]; omega
      | ⟨1, _⟩ => show win0_1.index t0_9 1 * win0_1.size 1 ≤ (i 1 : Nat) ∧ (i 1 : Nat) < win0_1.index t0_9 1 * win0_1.size 1 + win0_1.xsize (grid0.coords t0_9) 1
                  rw [show win0_1.index t0_9 1 * win0_1.size 1 = 0 from by decide +kernel, show win0_1.xsize (grid0.coords t0_9) 1 = 128 from by decide +kernel]; omega⟩

/-- The second result array ends holding the column sums of squares of all 100000 rows. -/
theorem final0_2 (c : Dev nD) : (dat0 (F := Ideal) V c).arrAt 2 cfg0.N = sumsq0 V c :=
  (dat0 (F := Ideal) V c).arrAt_eq_of_cover 2 (sumsq0 V c) (flushed0_2_eq V c) fun i =>
    ⟨t0_9, (flush0_2 t0_9).mpr rfl, by
      show i ∈ ((View.whole main_v4_1).slice (win0_2.rect t0_9)).set
      rw [View.set_slice_whole, Rect.mem_set_unit]
      intro a
      have h0 : (i 0 : Nat) < 1 := (i 0).isLt
      have h1 : (i 1 : Nat) < 128 := (i 1).isLt
      match a with
      | ⟨0, _⟩ => show win0_2.index t0_9 0 * win0_2.size 0 ≤ (i 0 : Nat) ∧ (i 0 : Nat) < win0_2.index t0_9 0 * win0_2.size 0 + win0_2.xsize (grid0.coords t0_9) 0
                  rw [show win0_2.index t0_9 0 * win0_2.size 0 = 0 from by decide +kernel, show win0_2.xsize (grid0.coords t0_9) 0 = 1 from by decide +kernel]; omega
      | ⟨1, _⟩ => show win0_2.index t0_9 1 * win0_2.size 1 ≤ (i 1 : Nat) ∧ (i 1 : Nat) < win0_2.index t0_9 1 * win0_2.size 1 + win0_2.xsize (grid0.coords t0_9) 1
                  rw [show win0_2.index t0_9 1 * win0_2.size 1 = 0 from by decide +kernel, show win0_2.xsize (grid0.coords t0_9) 1 = 128 from by decide +kernel]; omega⟩

end Final

end Cert.KernelIdeal.KVal

end
-- ==== Proof.KStat3.lean ====
/-
  A later statistics stage: a bias row is first added to every row of the input; the ten row blocks of the sum are then
  accumulated exactly as in the first statistics stage. After the last block the two one-row outputs hold the column
  sums and the column sums of squares of (input + bias row) over all 100000 rows.
-/
import proofs.«103981_j8873402434235_1_alg».proof.Proof.KStat0

noncomputable section

open scoped BigOperators
open Idealize.ShloMosaic Idealize.ShloMosaic.TcCoe Idealize.SL.Sem Idealize.ShloMosaic.ValueIdx
open Idealize.ShloMosaic.Pipeline (Dat)

namespace Cert.KernelIdeal.KVal

open Cert.KernelIdeal Cert.KernelIdeal.Gen

variable {F : FTy → Type} [FloatOps F]

/-- A later block: the first output's buffer, holding `xo2`, is left at the payload of the block, the bias row and `xo2`. -/
theorem out3_B_2_eq (c : Dev nD) (i : grid3.Coords) (a1 : Memref sig .tc .vmem S10000x64 .f32) (h1 : a1.IsWhole)
    (a2 : Memref sig .tc .vmem S1x64 .f32) (h2 : a2.IsWhole) (a3 : Memref sig .tc .vmem S1x64 .f32) (h3 : a3.IsWhole)
    (a4 : Memref sig .tc .vmem S1x64 .f32) (h4 : a4.IsWhole)
    (hc : ¬cond3_0 i) (x : Vec F S10000x64 .f32) (b : Vec F S1x64 .f32) (xo2 xo3 : Vec F S1x64 .f32) :
    out3_B_2 c i a1 h1 a2 h2 a3 h3 a4 h4 hc x b xo2 xo3 = k3_pay4 x b xo2 := by
  unfold out3_B_2
  rw [View.read_writes_eq_canon _ _ _ (cover3_B_2 c i a1 h1 a2 h2 a3 h3 a4 h4 hc x b xo2 xo3)]
  unfold kernelRun3_B
  dsimp only
  rw [View.canon_unit_zero hz0]
  simp only [View.readAt_eq_ld, h1.read_unread, h2.read_unread, h3.read_unread, h4.read_unread,
    View.ld_unit_zero (S := S10000x64) hz0, View.ld_unit_zero (S := S1x64) hz0]

theorem out3_B_3_eq (c : Dev nD) (i : grid3.Coords) (a1 : Memref sig .tc .vmem S10000x64 .f32) (h1 : a1.IsWhole)
    (a2 : Memref sig .tc .vmem S1x64 .f32) (h2 : a2.IsWhole) (a3 : Memref sig .tc .vmem S1x64 .f32) (h3 : a3.IsWhole)
    (a4 : Memref sig .tc .vmem S1x64 .f32) (h4 : a4.IsWhole)
    (hc : ¬cond3_0 i) (x : Vec F S10000x64 .f32) (b : Vec F S1x64 .f32) (xo2 xo3 : Vec F S1x64 .f32) :
    out3_B_3 c i a1 h1 a2 h2 a3 h3 a4 h4 hc x b xo2 xo3 = k3_pay5 x b xo3 := by
  unfold out3_B_3
  rw [View.read_writes_eq_canon _ _ _ (cover3_B_3 c i a1 h1 a2 h2 a3 h3 a4 h4 hc x b xo2 xo3)]
  unfold kernelRun3_B
  dsimp only
  rw [View.canon_unit_zero hz0]
  simp only [View.readAt_eq_ld, h1.read_unread, h2.read_unread, h3.read_unread, h4.read_unread,
    View.ld_unit_zero (S := S10000x64) hz0, View.ld_unit_zero (S := S1x64) hz0]

/-- The first block: the outputs are reset to the zero row and then accumulate the block. -/
theorem out3_A_2_eq (c : Dev nD) (i : grid3.Coords) (a1 : Memref sig .tc .vmem S10000x64 .f32) (h1 : a1.IsWhole)
    (a2 : Memref sig .tc .vmem S1x64 .f32) (h2 : a2.IsWhole) (a3 : Memref sig .tc .vmem S1x64 .f32) (h3 : a3.IsWhole)
    (a4 : Memref sig .tc .vmem S1x64 .f32) (h4 : a4.IsWhole)
    (hc : cond3_0 i) (x : Vec F S10000x64 .f32) (b : Vec F S1x64 .f32) :
    out3_A_2 c i a1 h1 a2 h2 a3 h3 a4 h4 hc x b = k3_pay4 x b (k3_pay2 (F := F)) := by
  unfold out3_A_2
  rw [View.read_writes_eq_canon _ _ _ (cover3_A_2 c i a1 h1 a2 h2 a3 h3 a4 h4 hc x b)]
  unfold kernelRun3_A
  dsimp only
  sl_unfold_words
  rw [View.canon_cons_unit_zero (S := S1x64) hz0, View.readCov_unit_zero (S := S1x64) _ hz0]
  simp only [View.readAt_eq_ld, h1.read_unread, h2.read_unread, View.ld_unit_zero (S := S10000x64) hz0, View.ld_unit_zero (S := S1x64) hz0]

theorem out3_A_3_eq (c : Dev nD) (i : grid3.Coords) (a1 : Memref sig .tc .vmem S10000x64 .f32) (h1 : a1.IsWhole)
    (a2 : Memref sig .tc .vmem S1x64 .f32) (h2 : a2.IsWhole) (a3 : Memref sig .tc .vmem S1x64 .f32) (h3 : a3.IsWhole)
    (a4 : Memref sig .tc .vmem S1x64 .f32) (h4 : a4.IsWhole)
    (hc : cond3_0 i) (x : Vec F S10000x64 .f32) (b : Vec F S1x64 .f32) :
    out3_A_3 c i a1 h1 a2 h2 a3 h3 a4 h4 hc x b = k3_pay5 x b (k3_pay3 (F := F)) := by
  unfold out3_A_3
  rw [View.read_writes_eq_canon _ _ _ (cover3_A_3 c i a1 h1 a2 h2 a3 h3 a4 h4 hc x b)]
  unfold kernelRun3_A
  dsimp only
  sl_unfold_words
  rw [View.canon_cons_unit_zero (S := S1x64) hz0, View.readCov_unit_zero (S := S1x64) _ hz0]
  simp only [View.readAt_eq_ld, h1.read_unread, h2.read_unread, View.ld_unit_zero (S := S10000x64) hz0, View.ld_unit_zero (S := S1x64) hz0]

/-! ## The payloads at an index, over the extended reals -/

theorem lift3_eq (j : Fin 64) (r : Fin 10000) :
    (reduces_S10000x64_S64.lift (ix1 j) r : S10000x64.Idx) = ix2 r j := by
  funext a
  match a with
  | ⟨0, _⟩ => exact Fin.ext rfl
  | ⟨1, _⟩ => exact Fin.ext rfl

/-- The block with the bias row added to each of its rows. -/
theorem pay3_1_apply (x : Vec Ideal S10000x64 .f32) (b : Vec Ideal S1x64 .f32) (r : Fin 10000) (j : Fin 64) :
    k3_pay1 x b (ix2 r j) = x (ix2 r j) + b (ix2 (0 : Fin 1) j) := by
  unfold k3_pay1
  try dsimp only
  rw [addf_apply, shapeCast_self, shapeCast_self, broadcastTo_1b_ab_apply]

theorem pay3_4_apply (x : Vec Ideal S10000x64 .f32) (b : Vec Ideal S1x64 .f32) (xo : Vec Ideal S1x64 .f32) (j : Fin 64) :
    k3_pay4 x b xo (ix2 (0 : Fin 1) j) = xo (ix2 (0 : Fin 1) j) + ∑ r : Fin 10000, k3_pay1 x b (ix2 r j) := by
  unfold k3_pay4
  dsimp only
  rw [addf_apply, shapeCast_self, shapeCast_a_1a_apply]
  refine congrArg _ ?_
  refine (Ideal.multiReduction_add_single (k3_pay1 x b) _ _ _ _ (ix1 j)).trans ?_
  show ∑ r : Fin 10000, k3_pay1 x b (reduces_S10000x64_S64.lift (ix1 j) r) = _
  exact Finset.sum_congr rfl fun r _ => by rw [lift3_eq]

theorem pay3_5_apply (x : Vec Ideal S10000x64 .f32) (b : Vec Ideal S1x64 .f32) (xo : Vec Ideal S1x64 .f32) (j : Fin 64) :
    k3_pay5 x b xo (ix2 (0 : Fin 1) j) = xo (ix2 (0 : Fin 1) j) + ∑ r : Fin 10000, k3_pay1 x b (ix2 r j) * k3_pay1 x b (ix2 r j) := by
  unfold k3_pay5
  dsimp only
  rw [addf_apply, shapeCast_self, shapeCast_a_1a_apply]
  refine congrArg _ ?_
  refine (Ideal.multiReduction_add_single (mulf (k3_pay1 x b) (k3_pay1 x b)) _ _ _ _ (ix1 j)).trans ?_
  show ∑ r : Fin 10000, k3_pay1 x b (reduces_S10000x64_S64.lift (ix1 j) r) * k3_pay1 x b (reduces_S10000x64_S64.lift (ix1 j) r) = _
  exact Finset.sum_congr rfl fun r _ => by rw [lift3_eq]

theorem pay3_2_apply (i : S1x64.Idx) : (k3_pay2 (F := Ideal)) i = 0 := by
  unfold k3_pay2; exact Ideal.ofBits_zero_f32
theorem pay3_3_apply (i : S1x64.Idx) : (k3_pay3 (F := Ideal)) i = 0 := by
  unfold k3_pay3; exact Ideal.ofBits_zero_f32

/-! ## The blocks, read through their windows -/

section Blocks
variable (V : (c : Dev nD) → (b : Ref sig .tc) → Buf (Elt Ideal) ((c : Thread nD τ).loc b))

/-- The stage's input array and bias row, as the stage finds them, and their sum. -/
abbrev X3 (c : Dev nD) : Vec Ideal S100000x64 .f32 := V c (Pipeline.arrRef spec3 0)
abbrev B3 (c : Dev nD) : Vec Ideal S1x64 .f32 := V c (Pipeline.arrRef spec3 1)
abbrev Y3 (c : Dev nD) : Vec Ideal S100000x64 .f32 := Cert.GSpec.addRow (X3 V c) (B3 V c)

theorem idx3_0 : ∀ t : Fin cfg3.N, win3_0.index t (0 : Fin 2) = t.val ∧ win3_0.index t (1 : Fin 2) = 0 :=
  (by decide +kernel : ∀ t : Fin grid3.N, win3_0.index t (0 : Fin 2) = t.val ∧ win3_0.index t (1 : Fin 2) = 0)
theorem idx3_1 : ∀ t : Fin cfg3.N, win3_1.index t (0 : Fin 2) = 0 ∧ win3_1.index t (1 : Fin 2) = 0 :=
  (by decide +kernel : ∀ t : Fin grid3.N, win3_1.index t (0 : Fin 2) = 0 ∧ win3_1.index t (1 : Fin 2) = 0)

/-- Row `r` of block `t` of the input is row `10000 t + r` of the array. -/
theorem iblk3_0_apply (c : Dev nD) (t : Fin cfg3.N) (r : Fin 10000) (j : Fin 64) (hR : 10000 * t.val + r.val < 100000) :
    (iblk3 V c 0 t : Vec Ideal S10000x64 .f32) (ix2 r j) = X3 V c (ix2 (⟨10000 * t.val + r.val, hR⟩ : Fin 100000) j) := by
  unfold iblk3
  rw [View.read_apply]
  show V c (Pipeline.arrRef spec3 0) _ = V c (Pipeline.arrRef spec3 0) _
  congr 1
  funext a
  apply Fin.ext
  match a with
  | ⟨0, _⟩ => show win3_0.index t 0 * 10000 + 1 * r.val = 10000 * t.val + r.val; rw [(idx3_0 t).1]; omega
  | ⟨1, _⟩ => show win3_0.index t 1 * 64 + 1 * j.val = j.val; rw [(idx3_0 t).2]; omega

/-- The bias window's block is the whole bias row, at every block of the grid. -/
theorem iblk3_1_apply (c : Dev nD) (t : Fin cfg3.N) (j : Fin 64) :
    (iblk3 V c 1 t : Vec Ideal S1x64 .f32) (ix2 (0 : Fin 1) j) = B3 V c (ix2 (0 : Fin 1) j) := by
  unfold iblk3
  rw [View.read_apply]
  show V c (Pipeline.arrRef spec3 1) _ = V c (Pipeline.arrRef spec3 1) _
  congr 1
  funext a
  apply Fin.ext
  match a with
  | ⟨0, _⟩ => show win3_1.index t 0 * 1 + 1 * 0 = 0; rw [(idx3_1 t).1]
  | ⟨1, _⟩ => show win3_1.index t 1 * 64 + 1 * j.val = j.val; rw [(idx3_1 t).2]; omega

/-- Row `r` of block `t` of (input + bias row) is row `10000 t + r` of the summed array. -/
theorem blk3_apply (c : Dev nD) (t : Fin cfg3.N) (r : Fin 10000) (j : Fin 64) :
    k3_pay1 (iblk3 V c 0 t) (iblk3 V c 1 t) (ix2 r j) = atRow (Y3 V c) (10000 * t.val + r.val) j := by
  have hN : t.val < 10 := lt_of_lt_of_eq t.isLt (show cfg3.N = 10 from N_3)
  have hR : 10000 * t.val + r.val < 100000 := by have := r.isLt; omega
  rw [atRow_lt _ _ hR]
  refine (pay3_1_apply _ _ r j).trans ?_
  rw [iblk3_0_apply V c t r j hR, iblk3_1_apply V c t j]
  rfl

end Blocks

/-! ## The running sums -/

section Acc
variable (V : (c : Dev nD) → (b : Ref sig .tc) → Buf (Elt Ideal) ((c : Thread nD τ).loc b))

theorem outsAt3_eq (c : Dev nD) : ∀ (n : ℕ) (h : n < cfg3.N),
    outsAt3 (F := Ideal) V c n h
      = ((fun i => accS (Y3 V c) n (Cert.GSpec.col i) : Vec Ideal S1x64 .f32), (fun i => accQ (Y3 V c) n (Cert.GSpec.col i) : Vec Ideal S1x64 .f32))
  | 0, h => by
    rw [outsAt3_A V c ⟨0, h⟩ rfl, out3_A_2_eq, out3_A_3_eq]
    refine Prod.ext (funext fun i => ?_) (funext fun i => ?_)
    · obtain ⟨u, j, rfl⟩ : ∃ (u : Fin 1) (j : Fin 64), i = ix2 u j := ⟨i 0, i 1, eq_ix2 i⟩
      obtain rfl : u = 0 := Subsingleton.elim _ _
      refine (pay3_4_apply _ _ _ j).trans ?_
      rw [pay3_2_apply]
      exact congrArg _ ((Finset.sum_congr rfl fun r _ => by rw [blk3_apply V c ⟨0, h⟩ r j]).trans
        (Fin.sum_univ_eq_sum_range (fun r => atRow (Y3 V c) (10000 * 0 + r) j) 10000))
    · obtain ⟨u, j, rfl⟩ : ∃ (u : Fin 1) (j : Fin 64), i = ix2 u j := ⟨i 0, i 1, eq_ix2 i⟩
      obtain rfl : u = 0 := Subsingleton.elim _ _
      refine (pay3_5_apply _ _ _ j).trans ?_
      rw [pay3_3_apply]
      exact congrArg _ ((Finset.sum_congr rfl fun r _ => by rw [blk3_apply V c ⟨0, h⟩ r j]).trans
        (Fin.sum_univ_eq_sum_range (fun r => atRow (Y3 V c) (10000 * 0 + r) j * atRow (Y3 V c) (10000 * 0 + r) j) 10000))
  | n + 1, h => by
    have hN : cfg3.N = 10 := N_3
    have hB : ¬(⟨n + 1, h⟩ : Fin cfg3.N).val % 10 = 0 := by dsimp only; omega
    have ih := outsAt3_eq c n (Nat.lt_of_succ_lt h)
    rw [outsAt3_B V c ⟨n + 1, h⟩ hB, out3_B_2_eq, out3_B_3_eq]
    refine Prod.ext (funext fun i => ?_) (funext fun i => ?_)
    · obtain ⟨u, j, rfl⟩ : ∃ (u : Fin 1) (j : Fin 64), i = ix2 u j := ⟨i 0, i 1, eq_ix2 i⟩
      obtain rfl : u = 0 := Subsingleton.elim _ _
      refine (pay3_4_apply _ _ _ j).trans ?_
      show (outsAt3 V c n _).1 (ix2 0 j) + _ = accS (Y3 V c) n j + _
      rw [ih]
      exact congrArg _ ((Finset.sum_congr rfl fun r _ => by rw [blk3_apply V c ⟨n + 1, h⟩ r j]).trans
        (Fin.sum_univ_eq_sum_range (fun r => atRow (Y3 V c) (10000 * (n + 1) + r) j) 10000))
    · obtain ⟨u, j, rfl⟩ : ∃ (u : Fin 1) (j : Fin 64), i = ix2 u j := ⟨i 0, i 1, eq_ix2 i⟩
      obtain rfl : u = 0 := Subsingleton.elim _ _
      refine (pay3_5_apply _ _ _ j).trans ?_
      show (outsAt3 V c n _).2 (ix2 0 j) + _ = accQ (Y3 V c) n j + _
      rw [ih]
      exact congrArg _ ((Finset.sum_congr rfl fun r _ => by rw [blk3_apply V c ⟨n + 1, h⟩ r j]).trans
        (Fin.sum_univ_eq_sum_range (fun r => atRow (Y3 V c) (10000 * (n + 1) + r) j * atRow (Y3 V c) (10000 * (n + 1) + r) j) 10000))

end Acc

/-! ## The result arrays -/

section Final
variable (V : (c : Dev nD) → (b : Ref sig .tc) → Buf (Elt Ideal) ((c : Thread nD τ).loc b))

abbrev sum3 (c : Dev nD) : Buf (Elt Ideal) ((c : Thread nD τ).loc main_v60_0) := Cert.GSpec.colSum (Y3 V c)
abbrev sumsq3 (c : Dev nD) : Buf (Elt Ideal) ((c : Thread nD τ).loc main_v60_1) := Cert.GSpec.colSumSq (Y3 V c)

theorem flushed3_2_eq (c : Dev nD) (t : Fin cfg3.N) (hf : (cfg3.win 2).flush t = true) :
    (dat3 (F := Ideal) V c).flushed 2 t = ((cfg3.win 2).blk t).view.read (Elt Ideal) (sum3 V c) := by
  have hN : cfg3.N = 10 := N_3
  have h9 : t.val = 9 := by have := (flush3_2 t).mp hf; have := t.isLt; omega
  obtain rfl : t = t3_9 := Fin.ext h9
  show (cfg3.win 2).cut (grid3.coords t3_9) ((dat3 V c).after 2 t3_9) = _
  rw [after3_2, outsAt3_eq]
  have hz' : (fun a => win3_2.index t3_9 a * main_v60_0.ty.shape.size a) = fun _ => 0 := funext fun a => by fin_cases a <;> decide
  have e : (fun i => accS (Y3 V c) 9 (Cert.GSpec.col i) : Vec Ideal S1x64 .f32) = sum3 V c := funext fun i => accS_last (Y3 V c) i
  show (cfg3.win 2).cut (grid3.coords t3_9) (fun i => accS (Y3 V c) 9 (Cert.GSpec.col i) : Vec Ideal S1x64 .f32) = _
  rw [e]
  exact (Memref.read_access_unit_zero (Elt Ideal) main_v60_0 hz' (fun a => by rw [congrFun hz' a]; simp) (sum3 V c)).symm

theorem flushed3_3_eq (c : Dev nD) (t : Fin cfg3.N) (hf : (cfg3.win 3).flush t = true) :
    (dat3 (F := Ideal) V c).flushed 3 t = ((cfg3.win 3).blk t).view.read (Elt Ideal) (sumsq3 V c) := by
  have hN : cfg3.N = 10 := N_3
  have h9 : t.val = 9 := by have := (flush3_3 t).mp hf; have := t.isLt; omega
  obtain rfl : t = t3_9 := Fin.ext h9
  show (cfg3.win 3).cut (grid3.coords t3_9) ((dat3 V c).after 3 t3_9) = _
  rw [after3_3, outsAt3_eq]
  have hz' : (fun a => win3_3.index t3_9 a * main_v60_1.ty.shape.size a) = fun _ => 0 := funext fun a => by fin_cases a <;> decide
  have e : (fun i => accQ (Y3 V c) 9 (Cert.GSpec.col i) : Vec Ideal S1x64 .f32) = sumsq3 V c := funext fun i => accQ_last (Y3 V c) i
  show (cfg3.win 3).cut (grid3.coords t3_9) (fun i => accQ (Y3 V c) 9 (Cert.GSpec.col i) : Vec Ideal S1x64 .f32) = _
  rw [e]
  exact (Memref.read_access_unit_zero (Elt Ideal) main_v60_1 hz' (fun a => by rw [congrFun hz' a]; simp) (sumsq3 V c)).symm

/-- The first result array ends holding the column sums of (input + bias row) over all 100000 rows. -/
theorem final3_2 (c : Dev nD) : (dat3 (F := Ideal) V c).arrAt 2 cfg3.N = sum3 V c :=
  (dat3 (F := Ideal) V c).arrAt_eq_of_cover 2 (sum3 V c) (flushed3_2_eq V c) fun i =>
    ⟨t3_9, (flush3_2 t3_9).mpr rfl, by
      show i ∈ ((View.whole main_v60_0).slice (win3_2.rect t3_9)).set
      rw [View.set_slice_whole, Rect.mem_set_unit]
      intro a
      have h0 : (i 0 : Nat) < 1 := (i 0).isLt
      have h1 : (i 1 : Nat) < 64 := (i 1).isLt
      match a with
      | ⟨0, _⟩ => show win3_2.index t3_9 0 * win3_2.size 0 ≤ (i 0 : Nat) ∧ (i 0 : Nat) < win3_2.index t3_9 0 * win3_2.size 0 + win3_2.xsize (grid3.coords t3_9) 0
                  rw [show win3_2.index t3_9 0 * win3_2.size 0 = 0 from by decide +kernel, show win3_2.xsize (grid3.coords t3_9) 0 = 1 from by decide +kernel]; omega
      | ⟨1, _⟩ => show win3_2.index t3_9 1 * win3_2.size 1 ≤ (i 1 : Nat) ∧ (i 1 : Nat) < win3_2.index t3_9 1 * win3_2.size 1 + win3_2.xsize (grid3.coords t3_9) 1
                  rw [show win3_2.index t3_9 1 * win3_2.size 1 = 0 from by decide +kernel, show win3_2.xsize (grid3.coords t3_9) 1 = 64 from by decide +kernel]; omega⟩

/-- The second result array ends holding the column sums of squares. -/
theorem final3_3 (c : Dev nD) : (dat3 (F := Ideal) V c).arrAt 3 cfg3.N = sumsq3 V c :=
  (dat3 (F := Ideal) V c).arrAt_eq_of_cover 3 (sumsq3 V c) (flushed3_3_eq V c) fun i =>
    ⟨t3_9, (flush3_3 t3_9).mpr rfl, by
      show i ∈ ((View.whole main_v60_1).slice (win3_3.rect t3_9)).set
      rw [View.set_slice_whole, Rect.mem_set_unit]
      intro a
      have h0 : (i 0 : Nat) < 1 := (i 0).isLt
      have h1 : (i 1 : Nat) < 64 := (i 1).isLt
      match a with
      | ⟨0, _⟩ => show win3_3.index t3_9 0 * win3_3.size 0 ≤ (i 0 : Nat) ∧ (i 0 : Nat) < win3_3.index t3_9 0 * win3_3.size 0 + win3_3.xsize (grid3.coords t3_9) 0
                  rw [show win3_3.index t3_9 0 * win3_3.size 0 = 0 from by decide +kernel, show win3_3.xsize (grid3.coords t3_9) 0 = 1 from by decide +kernel]; omega
      | ⟨1, _⟩ => show win3_3.index t3_9 1 * win3_3.size 1 ≤ (i 1 : Nat) ∧ (i 1 : Nat) < win3_3.index t3_9 1 * win3_3.size 1 + win3_3.xsize (grid3.coords t3_9) 1
                  rw [show win3_3.index t3_9 1 * win3_3.size 1 = 0 from by decide +kernel, show win3_3.xsize (grid3.coords t3_9) 1 = 64 from by decide +kernel]; omega⟩

end Final

end Cert.KernelIdeal.KVal

end
-- ==== Proof.KStat6.lean ====
/-
  A later statistics stage: a bias row is first added to every row of the input; the ten row blocks of the sum are then
  accumulated exactly as in the first statistics stage. After the last block the two one-row outputs hold the column
  sums and the column sums of squares of (input + bias row) over all 100000 rows.
-/
import proofs.«103981_j8873402434235_1_alg».proof.Proof.KStat0

noncomputable section

open scoped BigOperators
open Idealize.ShloMosaic Idealize.ShloMosaic.TcCoe Idealize.SL.Sem Idealize.ShloMosaic.ValueIdx
open Idealize.ShloMosaic.Pipeline (Dat)

namespace Cert.KernelIdeal.KVal

open Cert.KernelIdeal Cert.KernelIdeal.Gen

variable {F : FTy → Type} [FloatOps F]

/-- A later block: the first output's buffer, holding `xo2`, is left at the payload of the block, the bias row and `xo2`. -/
theorem out6_B_2_eq (c : Dev nD) (i : grid6.Coords) (a1 : Memref sig .tc .vmem S10000x64 .f32) (h1 : a1.IsWhole)
    (a2 : Memref sig .tc .vmem S1x64 .f32) (h2 : a2.IsWhole) (a3 : Memref sig .tc .vmem S1x64 .f32) (h3 : a3.IsWhole)
    (a4 : Memref sig .tc .vmem S1x64 .f32) (h4 : a4.IsWhole)
    (hc : ¬cond6_0 i) (x : Vec F S10000x64 .f32) (b : Vec F S1x64 .f32) (xo2 xo3 : Vec F S1x64 .f32) :
    out6_B_2 c i a1 h1 a2 h2 a3 h3 a4 h4 hc x b xo2 xo3 = k6_pay4 x b xo2 := by
  unfold out6_B_2
  rw [View.read_writes_eq_canon _ _ _ (cover6_B_2 c i a1 h1 a2 h2 a3 h3 a4 h4 hc x b xo2 xo3)]
  unfold kernelRun6_B
  dsimp only
  rw [View.canon_unit_zero hz0]
  simp only [View.readAt_eq_ld, h1.read_unread, h2.read_unread, h3.read_unread, h4.read_unread,
    View.ld_unit_zero (S := S10000x64) hz0, View.ld_unit_zero (S := S1x64) hz0]

theorem out6_B_3_eq (c : Dev nD) (i : grid6.Coords) (a1 : Memref sig .tc .vmem S10000x64 .f32) (h1 : a1.IsWhole)
    (a2 : Memref sig .tc .vmem S1x64 .f32) (h2 : a2.IsWhole) (a3 : Memref sig .tc .vmem S1x64 .f32) (h3 : a3.IsWhole)
    (a4 : Memref sig .tc .vmem S1x64 .f32) (h4 : a4.IsWhole)
    (hc : ¬cond6_0 i) (x : Vec F S10000x64 .f32) (b : Vec F S1x64 .f32) (xo2 xo3 : Vec F S1x64 .f32) :
    out6_B_3 c i a1 h1 a2 h2 a3 h3 a4 h4 hc x b xo2 xo3 = k6_pay5 x b xo3 := by
  unfold out6_B_3
  rw [View.read_writes_eq_canon _ _ _ (cover6_B_3 c i a1 h1 a2 h2 a3 h3 a4 h4 hc x b xo2 xo3)]
  unfold kernelRun6_B
  dsimp only
  rw [View.canon_unit_zero hz0]
  simp only [View.readAt_eq_ld, h1.read_unread, h2.read_unread, h3.read_unread, h4.read_unread,
    View.ld_unit_zero (S := S10000x64) hz0, View.ld_unit_zero (S := S1x64) hz0]

/-- The first block: the outputs are reset to the zero row and then accumulate the block. -/
theorem out6_A_2_eq (c : Dev nD) (i : grid6.Coords) (a1 : Memref sig .tc .vmem S10000x64 .f32) (h1 : a1.IsWhole)
    (a2 : Memref sig .tc .vmem S1x64 .f32) (h2 : a2.IsWhole) (a3 : Memref sig .tc .vmem S1x64 .f32) (h3 : a3.IsWhole)
    (a4 : Memref sig .tc .vmem S1x64 .f32) (h4 : a4.IsWhole)
    (hc : cond6_0 i) (x : Vec F S10000x64 .f32) (b : Vec F S1x64 .f32) :
    out6_A_2 c i a1 h1 a2 h2 a3 h3 a4 h4 hc x b = k6_pay4 x b (k6_pay2 (F := F)) := by
  unfold out6_A_2
  rw [View.read_writes_eq_canon _ _ _ (cover6_A_2 c i a1 h1 a2 h2 a3 h3 a4 h4 hc x b)]
  unfold kernelRun6_A
  dsimp only
  sl_unfold_words
  rw [View.canon_cons_unit_zero (S := S1x64) hz0, View.readCov_unit_zero (S := S1x64) _ hz0]
  simp only [View.readAt_eq_ld, h1.read_unread, h2.read_unread, View.ld_unit_zero (S := S10000x64) hz0, View.ld_unit_zero (S := S1x64) hz0]

theorem out6_A_3_eq (c : Dev nD) (i : grid6.Coords) (a1 : Memref sig .tc .vmem S10000x64 .f32) (h1 : a1.IsWhole)
    (a2 : Memref sig .tc .vmem S1x64 .f32) (h2 : a2.IsWhole) (a3 : Memref sig .tc .vmem S1x64 .f32) (h3 : a3.IsWhole)
    (a4 : Memref sig .tc .vmem S1x64 .f32) (h4 : a4.IsWhole)
    (hc : cond6_0 i) (x : Vec F S10000x64 .f32) (b : Vec F S1x64 .f32) :
    out6_A_3 c i a1 h1 a2 h2 a3 h3 a4 h4 hc x b = k6_pay5 x b (k6_pay3 (F := F)) := by
  unfold out6_A_3
  rw [View.read_writes_eq_canon _ _ _ (cover6_A_3 c i a1 h1 a2 h2 a3 h3 a4 h4 hc x b)]
  unfold kernelRun6_A
  dsimp only
  sl_unfold_words
  rw [View.canon_cons_unit_zero (S := S1x64) hz0, View.readCov_unit_zero (S := S1x64) _ hz0]
  simp only [View.readAt_eq_ld, h1.read_unread, h2.read_unread, View.ld_unit_zero (S := S10000x64) hz0, View.ld_unit_zero (S := S1x64) hz0]

/-! ## The payloads at an index, over the extended reals -/

theorem lift6_eq (j : Fin 64) (r : Fin 10000) :
    (reduces_S10000x64_S64.lift (ix1 j) r : S10000x64.Idx) = ix2 r j := by
  funext a
  match a with
  | ⟨0, _⟩ => exact Fin.ext rfl
  | ⟨1, _⟩ => exact Fin.ext rfl

/-- The block with the bias row added to each of its rows. -/
theorem pay6_1_apply (x : Vec Ideal S10000x64 .f32) (b : Vec Ideal S1x64 .f32) (r : Fin 10000) (j : Fin 64) :
    k6_pay1 x b (ix2 r j) = x (ix2 r j) + b (ix2 (0 : Fin 1) j) := by
  unfold k6_pay1
  try dsimp only
  rw [addf_apply, shapeCast_self, shapeCast_self, broadcastTo_1b_ab_apply]

theorem pay6_4_apply (x : Vec Ideal S10000x64 .f32) (b : Vec Ideal S1x64 .f32) (xo : Vec Ideal S1x64 .f32) (j : Fin 64) :
    k6_pay4 x b xo (ix2 (0 : Fin 1) j) = xo (ix2 (0 : Fin 1) j) + ∑ r : Fin 10000, k6_pay1 x b (ix2 r j) := by
  unfold k6_pay4
  dsimp only
  rw [addf_apply, shapeCast_self, shapeCast_a_1a_apply]
  refine congrArg _ ?_
  refine (Ideal.multiReduction_add_single (k6_pay1 x b) _ _ _ _ (ix1 j)).trans ?_
  show ∑ r : Fin 10000, k6_pay1 x b (reduces_S10000x64_S64.lift (ix1 j) r) = _
  exact Finset.sum_congr rfl fun r _ => by rw [lift6_eq]

theorem pay6_5_apply (x : Vec Ideal S10000x64 .f32) (b : Vec Ideal S1x64 .f32) (xo : Vec Ideal S1x64 .f32) (j : Fin 64) :
    k6_pay5 x b xo (ix2 (0 : Fin 1) j) = xo (ix2 (0 : Fin 1) j) + ∑ r : Fin 10000, k6_pay1 x b (ix2 r j) * k6_pay1 x b (ix2 r j) := by
  unfold k6_pay5
  dsimp only
  rw [addf_apply, shapeCast_self, shapeCast_a_1a_apply]
  refine congrArg _ ?_
  refine (Ideal.multiReduction_add_single (mulf (k6_pay1 x b) (k6_pay1 x b)) _ _ _ _ (ix1 j)).trans ?_
  show ∑ r : Fin 10000, k6_pay1 x b (reduces_S10000x64_S64.lift (ix1 j) r) * k6_pay1 x b (reduces_S10000x64_S64.lift (ix1 j) r) = _
  exact Finset.sum_congr rfl fun r _ => by rw [lift6_eq]

theorem pay6_2_apply (i : S1x64.Idx) : (k6_pay2 (F := Ideal)) i = 0 := by
  unfold k6_pay2; exact Ideal.ofBits_zero_f32
theorem pay6_3_apply (i : S1x64.Idx) : (k6_pay3 (F := Ideal)) i = 0 := by
  unfold k6_pay3; exact Ideal.ofBits_zero_f32

/-! ## The blocks, read through their windows -/

section Blocks
variable (V : (c : Dev nD) → (b : Ref sig .tc) → Buf (Elt Ideal) ((c : Thread nD τ).loc b))

/-- The stage's input array and bias row, as the stage finds them, and their sum. -/
abbrev X6 (c : Dev nD) : Vec Ideal S100000x64 .f32 := V c (Pipeline.arrRef spec6 0)
abbrev B6 (c : Dev nD) : Vec Ideal S1x64 .f32 := V c (Pipeline.arrRef spec6 1)
abbrev Y6 (c : Dev nD) : Vec Ideal S100000x64 .f32 := Cert.GSpec.addRow (X6 V c) (B6 V c)

theorem idx6_0 : ∀ t : Fin cfg6.N, win6_0.index t (0 : Fin 2) = t.val ∧ win6_0.index t (1 : Fin 2) = 0 :=
  (by decide +kernel : ∀ t : Fin grid6.N, win6_0.index t (0 : Fin 2) = t.val ∧ win6_0.index t (1 : Fin 2) = 0)
theorem idx6_1 : ∀ t : Fin cfg6.N, win6_1.index t (0 : Fin 2) = 0 ∧ win6_1.index t (1 : Fin 2) = 0 :=
  (by decide +kernel : ∀ t : Fin grid6.N, win6_1.index t (0 : Fin 2) = 0 ∧ win6_1.index t (1 : Fin 2) = 0)

/-- Row `r` of block `t` of the input is row `10000 t + r` of the array. -/
theorem iblk6_0_apply (c : Dev nD) (t : Fin cfg6.N) (r : Fin 10000) (j : Fin 64) (hR : 10000 * t.val + r.val < 100000) :
    (iblk6 V c 0 t : Vec Ideal S10000x64 .f32) (ix2 r j) = X6 V c (ix2 (⟨10000 * t.val + r.val, hR⟩ : Fin 100000) j) := by
  unfold iblk6
  rw [View.read_apply]
  show V c (Pipeline.arrRef spec6 0) _ = V c (Pipeline.arrRef spec6 0) _
  congr 1
  funext a
  apply Fin.ext
  match a with
  | ⟨0, _⟩ => show win6_0.index t 0 * 10000 + 1 * r.val = 10000 * t.val + r.val; rw [(idx6_0 t).1]; omega
  | ⟨1, _⟩ => show win6_0.index t 1 * 64 + 1 * j.val = j.val; rw [(idx6_0 t).2]; omega

/-- The bias window's block is the whole bias row, at every block of the grid. -/
theorem iblk6_1_apply (c : Dev nD) (t : Fin cfg6.N) (j : Fin 64) :
    (iblk6 V c 1 t : Vec Ideal S1x64 .f32) (ix2 (0 : Fin 1) j) = B6 V c (ix2 (0 : Fin 1) j) := by
  unfold iblk6
  rw [View.read_apply]
  show V c (Pipeline.arrRef spec6 1) _ = V c (Pipeline.arrRef spec6 1) _
  congr 1
  funext a
  apply Fin.ext
  match a with
  | ⟨0, _⟩ => show win6_1.index t 0 * 1 + 1 * 0 = 0; rw [(idx6_1 t).1]
  | ⟨1, _⟩ => show win6_1.index t 1 * 64 + 1 * j.val = j.val; rw [(idx6_1 t).2]; omega

/-- Row `r` of block `t` of (input + bias row) is row `10000 t + r` of the summed array. -/
theorem blk6_apply (c : Dev nD) (t : Fin cfg6.N) (r : Fin 10000) (j : Fin 64) :
    k6_pay1 (iblk6 V c 0 t) (iblk6 V c 1 t) (ix2 r j) = atRow (Y6 V c) (10000 * t.val + r.val) j := by
  have hN : t.val < 10 := lt_of_lt_of_eq t.isLt (show cfg6.N = 10 from N_6)
  have hR : 10000 * t.val + r.val < 100000 := by have := r.isLt; omega
  rw [atRow_lt _ _ hR]
  refine (pay6_1_apply _ _ r j).trans ?_
  rw [iblk6_0_apply V c t r j hR, iblk6_1_apply V c t j]
  rfl

end Blocks

/-! ## The running sums -/

section Acc
variable (V : (c : Dev nD) → (b : Ref sig .tc) → Buf (Elt Ideal) ((c : Thread nD τ).loc b))

theorem outsAt6_eq (c : Dev nD) : ∀ (n : ℕ) (h : n < cfg6.N),
    outsAt6 (F := Ideal) V c n h
      = ((fun i => accS (Y6 V c) n (Cert.GSpec.col i) : Vec Ideal S1x64 .f32), (fun i => accQ (Y6 V c) n (Cert.GSpec.col i) : Vec Ideal S1x64 .f32))
  | 0, h => by
    rw [outsAt6_A V c ⟨0, h⟩ rfl, out6_A_2_eq, out6_A_3_eq]
    refine Prod.ext (funext fun i => ?_) (funext fun i => ?_)
    · obtain ⟨u, j, rfl⟩ : ∃ (u : Fin 1) (j : Fin 64), i = ix2 u j := ⟨i 0, i 1, eq_ix2 i⟩
      obtain rfl : u = 0 := Subsingleton.elim _ _
      refine (pay6_4_apply _ _ _ j).trans ?_
      rw [pay6_2_apply]
      exact congrArg _ ((Finset.sum_congr rfl fun r _ => by rw [blk6_apply V c ⟨0, h⟩ r j]).trans
        (Fin.sum_univ_eq_sum_range (fun r => atRow (Y6 V c) (10000 * 0 + r) j) 10000))
    · obtain ⟨u, j, rfl⟩ : ∃ (u : Fin 1) (j : Fin 64), i = ix2 u j := ⟨i 0, i 1, eq_ix2 i⟩
      obtain rfl : u = 0 := Subsingleton.elim _ _
      refine (pay6_5_apply _ _ _ j).trans ?_
      rw [pay6_3_apply]
      exact congrArg _ ((Finset.sum_congr rfl fun r _ => by rw [blk6_apply V c ⟨0, h⟩ r j]).trans
        (Fin.sum_univ_eq_sum_range (fun r => atRow (Y6 V c) (10000 * 0 + r) j * atRow (Y6 V c) (10000 * 0 + r) j) 10000))
  | n + 1, h => by
    have hN : cfg6.N = 10 := N_6
    have hB : ¬(⟨n + 1, h⟩ : Fin cfg6.N).val % 10 = 0 := by dsimp only; omega
    have ih := outsAt6_eq c n (Nat.lt_of_succ_lt h)
    rw [outsAt6_B V c ⟨n + 1, h⟩ hB, out6_B_2_eq, out6_B_3_eq]
    refine Prod.ext (funext fun i => ?_) (funext fun i => ?_)
    · obtain ⟨u, j, rfl⟩ : ∃ (u : Fin 1) (j : Fin 64), i = ix2 u j := ⟨i 0, i 1, eq_ix2 i⟩
      obtain rfl : u = 0 := Subsingleton.elim _ _
      refine (pay6_4_apply _ _ _ j).trans ?_
      show (outsAt6 V c n _).1 (ix2 0 j) + _ = accS (Y6 V c) n j + _
      rw [ih]
      exact congrArg _ ((Finset.sum_congr rfl fun r _ => by rw [blk6_apply V c ⟨n + 1, h⟩ r j]).trans
        (Fin.sum_univ_eq_sum_range (fun r => atRow (Y6 V c) (10000 * (n + 1) + r) j) 10000))
    · obtain ⟨u, j, rfl⟩ : ∃ (u : Fin 1) (j : Fin 64), i = ix2 u j := ⟨i 0, i 1, eq_ix2 i⟩
      obtain rfl : u = 0 := Subsingleton.elim _ _
      refine (pay6_5_apply _ _ _ j).trans ?_
      show (outsAt6 V c n _).2 (ix2 0 j) + _ = accQ (Y6 V c) n j + _
      rw [ih]
      exact congrArg _ ((Finset.sum_congr rfl fun r _ => by rw [blk6_apply V c ⟨n + 1, h⟩ r j]).trans
        (Fin.sum_univ_eq_sum_range (fun r => atRow (Y6 V c) (10000 * (n + 1) + r) j * atRow (Y6 V c) (10000 * (n + 1) + r) j) 10000))

end Acc

/-! ## The result arrays -/

section Final
variable (V : (c : Dev nD) → (b : Ref sig .tc) → Buf (Elt Ideal) ((c : Thread nD τ).loc b))

abbrev sum6 (c : Dev nD) : Buf (Elt Ideal) ((c : Thread nD τ).loc main_v116_0) := Cert.GSpec.colSum (Y6 V c)
abbrev sumsq6 (c : Dev nD) : Buf (Elt Ideal) ((c : Thread nD τ).loc main_v116_1) := Cert.GSpec.colSumSq (Y6 V c)

theorem flushed6_2_eq (c : Dev nD) (t : Fin cfg6.N) (hf : (cfg6.win 2).flush t = true) :
    (dat6 (F := Ideal) V c).flushed 2 t = ((cfg6.win 2).blk t).view.read (Elt Ideal) (sum6 V c) := by
  have hN : cfg6.N = 10 := N_6
  have h9 : t.val = 9 := by have := (flush6_2 t).mp hf; have := t.isLt; omega
  obtain rfl : t = t6_9 := Fin.ext h9
  show (cfg6.win 2).cut (grid6.coords t6_9) ((dat6 V c).after 2 t6_9) = _
  rw [after6_2, outsAt6_eq]
  have hz' : (fun a => win6_2.index t6_9 a * main_v116_0.ty.shape.size a) = fun _ => 0 := funext fun a => by fin_cases a <;> decide
  have e : (fun i => accS (Y6 V c) 9 (Cert.GSpec.col i) : Vec Ideal S1x64 .f32) = sum6 V c := funext fun i => accS_last (Y6 V c) i
  show (cfg6.win 2).cut (grid6.coords t6_9) (fun i => accS (Y6 V c) 9 (Cert.GSpec.col i) : Vec Ideal S1x64 .f32) = _
  rw [e]
  exact (Memref.read_access_unit_zero (Elt Ideal) main_v116_0 hz' (fun a => by rw [congrFun hz' a]; simp) (sum6 V c)).symm

theorem flushed6_3_eq (c : Dev nD) (t : Fin cfg6.N) (hf : (cfg6.win 3).flush t = true) :
    (dat6 (F := Ideal) V c).flushed 3 t = ((cfg6.win 3).blk t).view.read (Elt Ideal) (sumsq6 V c) := by
  have hN : cfg6.N = 10 := N_6
  have h9 : t.val = 9 := by have := (flush6_3 t).mp hf; have := t.isLt; omega
  obtain rfl : t = t6_9 := Fin.ext h9
  show (cfg6.win 3).cut (grid6.coords t6_9) ((dat6 V c).after 3 t6_9) = _
  rw [after6_3, outsAt6_eq]
  have hz' : (fun a => win6_3.index t6_9 a * main_v116_1.ty.shape.size a) = fun _ => 0 := funext fun a => by fin_cases a <;> decide
  have e : (fun i => accQ (Y6 V c) 9 (Cert.GSpec.col i) : Vec Ideal S1x64 .f32) = sumsq6 V c := funext fun i => accQ_last (Y6 V c) i
  show (cfg6.win 3).cut (grid6.coords t6_9) (fun i => accQ (Y6 V c) 9 (Cert.GSpec.col i) : Vec Ideal S1x64 .f32) = _
  rw [e]
  exact (Memref.read_access_unit_zero (Elt Ideal) main_v116_1 hz' (fun a => by rw [congrFun hz' a]; simp) (sumsq6 V c)).symm

/-- The first result array ends holding the column sums of (input + bias row) over all 100000 rows. -/
theorem final6_2 (c : Dev nD) : (dat6 (F := Ideal) V c).arrAt 2 cfg6.N = sum6 V c :=
  (dat6 (F := Ideal) V c).arrAt_eq_of_cover 2 (sum6 V c) (flushed6_2_eq V c) fun i =>
    ⟨t6_9, (flush6_2 t6_9).mpr rfl, by
      show i ∈ ((View.whole main_v116_0).slice (win6_2.rect t6_9)).set
      rw [View.set_slice_whole, Rect.mem_set_unit]
      intro a
      have h0 : (i 0 : Nat) < 1 := (i 0).isLt
      have h1 : (i 1 : Nat) < 64 := (i 1).isLt
      match a with
      | ⟨0, _⟩ => show win6_2.index t6_9 0 * win6_2.size 0 ≤ (i 0 : Nat) ∧ (i 0 : Nat) < win6_2.index t6_9 0 * win6_2.size 0 + win6_2.xsize (grid6.coords t6_9) 0
                  rw [show win6_2.index t6_9 0 * win6_2.size 0 = 0 from by decide +kernel, show win6_2.xsize (grid6.coords t6_9) 0 = 1 from by decide +kernel]; omega
      | ⟨1, _⟩ => show win6_2.index t6_9 1 * win6_2.size 1 ≤ (i 1 : Nat) ∧ (i 1 : Nat) < win6_2.index t6_9 1 * win6_2.size 1 + win6_2.xsize (grid6.coords t6_9) 1
                  rw [show win6_2.index t6_9 1 * win6_2.size 1 = 0 from by decide +kernel, show win6_2.xsize (grid6.coords t6_9) 1 = 64 from by decide +kernel]; omega⟩

/-- The second result array ends holding the column sums of squares. -/
theorem final6_3 (c : Dev nD) : (dat6 (F := Ideal) V c).arrAt 3 cfg6.N = sumsq6 V c :=
  (dat6 (F := Ideal) V c).arrAt_eq_of_cover 3 (sumsq6 V c) (flushed6_3_eq V c) fun i =>
    ⟨t6_9, (flush6_3 t6_9).mpr rfl, by
      show i ∈ ((View.whole main_v116_1).slice (win6_3.rect t6_9)).set
      rw [View.set_slice_whole, Rect.mem_set_unit]
      intro a
      have h0 : (i 0 : Nat) < 1 := (i 0).isLt
      have h1 : (i 1 : Nat) < 64 := (i 1).isLt
      match a with
      | ⟨0, _⟩ => show win6_3.index t6_9 0 * win6_3.size 0 ≤ (i 0 : Nat) ∧ (i 0 : Nat) < win6_3.index t6_9 0 * win6_3.size 0 + win6_3.xsize (grid6.coords t6_9) 0
                  rw [show win6_3.index t6_9 0 * win6_3.size 0 = 0 from by decide +kernel, show win6_3.xsize (grid6.coords t6_9) 0 = 1 from by decide +kernel]; omega
      | ⟨1, _⟩ => show win6_3.index t6_9 1 * win6_3.size 1 ≤ (i 1 : Nat) ∧ (i 1 : Nat) < win6_3.index t6_9 1 * win6_3.size 1 + win6_3.xsize (grid6.coords t6_9) 1
                  rw [show win6_3.index t6_9 1 * win6_3.size 1 = 0 from by decide +kernel, show win6_3.xsize (grid6.coords t6_9) 1 = 64 from by decide +kernel]; omega⟩

end Final

end Cert.KernelIdeal.KVal

end
-- ==== Proof.KVal1.lean ====
/-
  The second tiled stage of the kernel's first layer, read as one array: after its ten grid points have run, the
  stage's output array is, entry by entry, the array it reads by rows (ten blocks of 10000 rows of 128 columns)
  normalised by a GIVEN mean row and variance row, scaled and shifted by two more rows, multiplied by a 128 × 64
  matrix, a bias row added, and the positive part taken:
  max (Σ_k ((x(r,k) − μ_k) · (σ²_k + ε)^(-1/2) · γ_k + β_k) · W(k,j) + b_j, 0).
-/
import proofs.«103981_j8873402434235_1_alg».proof.Proof.Gen.KernelIdeal.Frame
import proofs.«103981_j8873402434235_1_alg».proof.Proof.GSpec
import Idealize.ShloMosaic.Lib.Pipeline.Value
import Idealize.ShloMosaic.Lib.ValueIdx
import Idealize.ShloMosaic.PureOps.Ideal.Laws

noncomputable section

open scoped BigOperators

namespace Cert.KernelIdeal.KVal

open Cert.KernelIdeal Cert.KernelIdeal.Gen Idealize.ShloMosaic Idealize.ShloMosaic.TcCoe Idealize.SL.Sem
open Idealize.ShloMosaic.Pipeline (Dat)
open Idealize.ShloMosaic.ValueIdx

/-- The zero offsets of a whole-block access, however they are spelt. -/
theorem origin1 : (![0, 0] : Fin 2 → Nat) = fun _ => 0 := funext fun a => by fin_cases a <;> rfl

/-! ## The body's arithmetic at an entry -/

/-- A row of 128 stretched over 10000 rows reads, at entry (p, k), the row's entry k. -/
theorem stretch1_128 {α : Type} (v : S1x128.Idx → α) (h : S1x128.Broadcasts S10000x128) (p : Fin 10000) (k : Fin 128) :
    broadcastTo S10000x128 v h (ix2 p k) = v (ix2 0 k) :=
  broadcastTo_apply v h (ix2 p k) (ix2 0 k) fun a => by
    match a with
    | ⟨0, _⟩ => rfl
    | ⟨1, _⟩ => rfl

/-- A row of 64 stretched over 10000 rows reads, at entry (p, q), the row's entry q. -/
theorem stretch1_64 {α : Type} (v : S1x64.Idx → α) (h : S1x64.Broadcasts S10000x64) (p : Fin 10000) (q : Fin 64) :
    broadcastTo S10000x64 v h (ix2 p q) = v (ix2 0 q) :=
  broadcastTo_apply v h (ix2 p q) (ix2 0 q) fun a => by
    match a with
    | ⟨0, _⟩ => rfl
    | ⟨1, _⟩ => rfl

/-- The left operand's index at output entry (p, q) and contraction position k is (p, k). -/
theorem mm1_lhs (p : Fin 10000) (q : Fin 64) (k : Fin 128) :
    dot_S10000x128_S128x64_S10000x64_1_0_0_1_n_n.lhsIdx (ix2 p q) ((contrEquiv1 dot_S10000x128_S128x64_S10000x64_1_0_0_1_n_n 128 rfl rfl).symm k) = ix2 p k := by
  have hk := contrEquiv1_symm_val dot_S10000x128_S128x64_S10000x64_1_0_0_1_n_n 128 rfl rfl k
  funext a; apply Fin.ext
  match a with
  | ⟨0, _⟩ =>
    show (dot_S10000x128_S128x64_S10000x64_1_0_0_1_n_n.lhsIdx (ix2 p q) _ (0 : Fin S10000x128.rank)).val = p.val
    unfold DotDims.lhsIdx
    rw [dif_neg (show ¬(0 : Fin S10000x128.rank) ∈ dot_S10000x128_S128x64_S10000x64_1_0_0_1_n_n.lhsBatch by decide), dif_pos (show (0 : Fin S10000x128.rank) ∈ dot_S10000x128_S128x64_S10000x64_1_0_0_1_n_n.lhsNonContracting by decide)]
    rfl
  | ⟨1, _⟩ => exact (dot_S10000x128_S128x64_S10000x64_1_0_0_1_n_n.lhsIdx_val_of_single rfl (ix2 p q) _).trans hk

/-- The right operand's index at output entry (p, q) and contraction position k is (k, q). -/
theorem mm1_rhs (p : Fin 10000) (q : Fin 64) (k : Fin 128) :
    dot_S10000x128_S128x64_S10000x64_1_0_0_1_n_n.rhsIdx (ix2 p q) ((contrEquiv1 dot_S10000x128_S128x64_S10000x64_1_0_0_1_n_n 128 rfl rfl).symm k) = ix2 k q := by
  have hk := contrEquiv1_symm_val dot_S10000x128_S128x64_S10000x64_1_0_0_1_n_n 128 rfl rfl k
  funext a; apply Fin.ext
  match a with
  | ⟨0, _⟩ => exact (dot_S10000x128_S128x64_S10000x64_1_0_0_1_n_n.rhsIdx_val_of_single rfl (ix2 p q) _).trans hk
  | ⟨1, _⟩ =>
    show (dot_S10000x128_S128x64_S10000x64_1_0_0_1_n_n.rhsIdx (ix2 p q) _ (1 : Fin S128x64.rank)).val = q.val
    unfold DotDims.rhsIdx
    rw [dif_neg (show ¬(1 : Fin S128x64.rank) ∈ dot_S10000x128_S128x64_S10000x64_1_0_0_1_n_n.rhsBatch by decide), dif_pos (show (1 : Fin S128x64.rank) ∈ dot_S10000x128_S128x64_S10000x64_1_0_0_1_n_n.rhsNonContracting by decide)]
    rfl

/-- The body's stored value at entry (p, q) of its block: the sum over k of the normalised, scaled and shifted
    entry (p, k) of the row block times the matrix's (k, q), plus the bias row's entry q, and the positive part of
    that. The change of float format before the product is the identity on extended reals and the accumulator is
    the zero array. -/
theorem pay1_apply (x0 : Vec Ideal S10000x128 .f32) (mu va g b : Vec Ideal S1x128 .f32) (W : Vec Ideal S128x64 .f32)
    (bp : Vec Ideal S1x64 .f32) (p : Fin 10000) (q : Fin 64) :
    k1_pay1 (F := Ideal) x0 mu va g b W bp (ix2 p q)
      = max (∑ k : Fin 128, ((x0 (ix2 p k) - mu (ix2 0 k)) * Ideal.rsqrt (va (ix2 0 k) + Cert.GSpec.eps) * g (ix2 0 k) + b (ix2 0 k)) * W (ix2 k q)
          + bp (ix2 0 q)) 0 := by
  unfold k1_pay1
  simp only [shapeCast_self, matmul, maximumf_apply, addf_apply, stretch1_64, broadcast_apply]
  rw [Ideal.matmul_constant_zero_apply, ← Equiv.sum_comp (contrEquiv1 dot_S10000x128_S128x64_S10000x64_1_0_0_1_n_n 128 rfl rfl).symm]
  show max (_ + bp (ix2 0 q)) (Ideal.ofBits .f32 0x00000000#32) = _
  rw [Ideal.ofBits_zero_f32]
  refine congrArg (fun s => max (s + bp (ix2 0 q)) 0) (Finset.sum_congr rfl fun k _ => ?_)
  rw [mm1_lhs, mm1_rhs]
  simp only [truncf_apply, addf_apply, mulf_apply, subf_apply, stretch1_128, broadcast_apply]
  rfl

/-! ## From the ten blocks to the array -/

variable (V : (c : Dev nD) → (b : Ref sig .tc) → Buf (Elt Ideal) ((c : Thread nD τ).loc b))

/-- The printed block index maps, decided over the ten grid points: point t reads row block t of the array it
    tiles and writes row block t of the output; the four rows of 128, the matrix and the row of 64 are read whole at
    every point. -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

set_option maxHeartbeats 4000000 in
/-- Entry y of the row block point t reads is entry (10000 t + y₀, y₁) of the array. -/
theorem rows1 (c : Dev nD) (t : Fin cfg1.N) (y : S10000x128.Idx) (i : S100000x128.Idx)
    (h0 : (i 0).val = t.val * 10000 + (y 0).val) (h1 : (i 1).val = (y 1).val) :
    (iblk1 V c 0 t : Vec Ideal S10000x128 .f32) y = (V c (Pipeline.arrRef spec1 0) : S100000x128.Idx → EReal) i := by
  obtain ⟨e0, e1, -⟩ := idx1 t
  unfold iblk1
  rw [View.read_apply]
  show V c (Pipeline.arrRef spec1 0) _ = V c (Pipeline.arrRef spec1 0) _
  congr 1
  funext a; apply Fin.ext
  match a with
  | ⟨0, _⟩ => show win1_0.index t (0 : Fin 2) * 10000 + 1 * (y 0).val = (i 0).val; rw [e0, h0]; omega
  | ⟨1, _⟩ => show win1_0.index t (1 : Fin 2) * 128 + 1 * (y 1).val = (i 1).val; rw [e1, h1]; omega

set_option maxHeartbeats 4000000 in
/-- The mean row every point reads is the whole array. -/
theorem whole1_1 (c : Dev nD) (t : Fin cfg1.N) (y : S1x128.Idx) :
    (iblk1 V c 1 t : Vec Ideal S1x128 .f32) y = (V c (Pipeline.arrRef spec1 1) : S1x128.Idx → EReal) y := by
  obtain ⟨-, -, e0, e1, -⟩ := idx1 t
  unfold iblk1
  rw [View.read_apply]
  show V c (Pipeline.arrRef spec1 1) _ = V c (Pipeline.arrRef spec1 1) _
  congr 1
  funext a; apply Fin.ext
  match a with
  | ⟨0, _⟩ => show win1_1.index t (0 : Fin 2) * 1 + 1 * (y 0).val = (y 0).val; rw [e0]; omega
  | ⟨1, _⟩ => show win1_1.index t (1 : Fin 2) * 128 + 1 * (y 1).val = (y 1).val; rw [e1]; omega

set_option maxHeartbeats 4000000 in
/-- The variance row every point reads is the whole array. -/
theorem whole1_2 (c : Dev nD) (t : Fin cfg1.N) (y : S1x128.Idx) :
    (iblk1 V c 2 t : Vec Ideal S1x128 .f32) y = (V c (Pipeline.arrRef spec1 2) : S1x128.Idx → EReal) y := by
  obtain ⟨-, -, -, -, e0, e1, -⟩ := idx1 t
  unfold iblk1
  rw [View.read_apply]
  show V c (Pipeline.arrRef spec1 2) _ = V c (Pipeline.arrRef spec1 2) _
  congr 1
  funext a; apply Fin.ext
  match a with
  | ⟨0, _⟩ => show win1_2.index t (0 : Fin 2) * 1 + 1 * (y 0).val = (y 0).val; rw [e0]; omega
  | ⟨1, _⟩ => show win1_2.index t (1 : Fin 2) * 128 + 1 * (y 1).val = (y 1).val; rw [e1]; omega

set_option maxHeartbeats 4000000 in
/-- The scale row every point reads is the whole array. -/
theorem whole1_3 (c : Dev nD) (t : Fin cfg1.N) (y : S1x128.Idx) :
    (iblk1 V c 3 t : Vec Ideal S1x128 .f32) y = (V c (Pipeline.arrRef spec1 3) : S1x128.Idx → EReal) y := by
  obtain ⟨-, -, -, -, -, -, e0, e1, -⟩ := idx1 t
  unfold iblk1
  rw [View.read_apply]
  show V c (Pipeline.arrRef spec1 3) _ = V c (Pipeline.arrRef spec1 3) _
  congr 1
  funext a; apply Fin.ext
  match a with
  | ⟨0, _⟩ => show win1_3.index t (0 : Fin 2) * 1 + 1 * (y 0).val = (y 0).val; rw [e0]; omega
  | ⟨1, _⟩ => show win1_3.index t (1 : Fin 2) * 128 + 1 * (y 1).val = (y 1).val; rw [e1]; omega

set_option maxHeartbeats 4000000 in
/-- The shift row every point reads is the whole array. -/
theorem whole1_4 (c : Dev nD) (t : Fin cfg1.N) (y : S1x128.Idx) :
    (iblk1 V c 4 t : Vec Ideal S1x128 .f32) y = (V c (Pipeline.arrRef spec1 4) : S1x128.Idx → EReal) y := by
  obtain ⟨-, -, -, -, -, -, -, -, e0, e1, -⟩ := idx1 t
  unfold iblk1
  rw [View.read_apply]
  show V c (Pipeline.arrRef spec1 4) _ = V c (Pipeline.arrRef spec1 4) _
  congr 1
  funext a; apply Fin.ext
  match a with
  | ⟨0, _⟩ => show win1_4.index t (0 : Fin 2) * 1 + 1 * (y 0).val = (y 0).val; rw [e0]; omega
  | ⟨1, _⟩ => show win1_4.index t (1 : Fin 2) * 128 + 1 * (y 1).val = (y 1).val; rw [e1]; omega

set_option maxHeartbeats 4000000 in
/-- The weight matrix every point reads is the whole array. -/
theorem whole1_5 (c : Dev nD) (t : Fin cfg1.N) (y : S128x64.Idx) :
    (iblk1 V c 5 t : Vec Ideal S128x64 .f32) y = (V c (Pipeline.arrRef spec1 5) : S128x64.Idx → EReal) y := by
  obtain ⟨-, -, -, -, -, -, -, -, -, -, e0, e1, -⟩ := idx1 t
  unfold iblk1
  rw [View.read_apply]
  show V c (Pipeline.arrRef spec1 5) _ = V c (Pipeline.arrRef spec1 5) _
  congr 1
  funext a; apply Fin.ext
  match a with
  | ⟨0, _⟩ => show win1_5.index t (0 : Fin 2) * 128 + 1 * (y 0).val = (y 0).val; rw [e0]; omega
  | ⟨1, _⟩ => show win1_5.index t (1 : Fin 2) * 64 + 1 * (y 1).val = (y 1).val; rw [e1]; omega

set_option maxHeartbeats 4000000 in
/-- The bias row every point reads is the whole array. -/
theorem whole1_6 (c : Dev nD) (t : Fin cfg1.N) (y : S1x64.Idx) :
    (iblk1 V c 6 t : Vec Ideal S1x64 .f32) y = (V c (Pipeline.arrRef spec1 6) : S1x64.Idx → EReal) y := by
  obtain ⟨-, -, -, -, -, -, -, -, -, -, -, -, e0, e1, -⟩ := idx1 t
  unfold iblk1
  rw [View.read_apply]
  show V c (Pipeline.arrRef spec1 6) _ = V c (Pipeline.arrRef spec1 6) _
  congr 1
  funext a; apply Fin.ext
  match a with
  | ⟨0, _⟩ => show win1_6.index t (0 : Fin 2) * 1 + 1 * (y 0).val = (y 0).val; rw [e0]; omega
  | ⟨1, _⟩ => show win1_6.index t (1 : Fin 2) * 64 + 1 * (y 1).val = (y 1).val; rw [e1]; omega

set_option maxHeartbeats 4000000 in
/-- WHAT POINT t WRITES BACK is block t of the whole-array map of the seven arrays as the stage finds them. -/
theorem flushed1_eq (c : Dev nD) (t : Fin cfg1.N) :
    (dat1 (F := Ideal) V c).flushed 7 t = ((cfg1.win 7).blk t).view.read (Elt Ideal)
      (Cert.GSpec.relu (Cert.GSpec.addRow (Cert.GSpec.matMul (Cert.GSpec.normAffine (V c (Pipeline.arrRef spec1 0) : S100000x128.Idx → EReal) (V c (Pipeline.arrRef spec1 1) : S1x128.Idx → EReal) (V c (Pipeline.arrRef spec1 2) : S1x128.Idx → EReal) (V c (Pipeline.arrRef spec1 3) : S1x128.Idx → EReal) (V c (Pipeline.arrRef spec1 4) : S1x128.Idx → EReal)) (V c (Pipeline.arrRef spec1 5) : S128x64.Idx → EReal)) (V c (Pipeline.arrRef spec1 6) : S1x64.Idx → EReal))) := by
  show (cfg1.win 7).cut (grid1.coords t) ((dat1 V c).after 7 t) = _
  rw [after1_7]
  unfold out1_7
  rw [View.canon_unit_zero origin1]
  simp only [View.ld_unit_zero (S := S10000x128) origin1, View.ld_unit_zero (S := S1x128) origin1, View.ld_unit_zero (S := S128x64) origin1, View.ld_unit_zero (S := S1x64) origin1]
  obtain ⟨-, -, -, -, -, -, -, -, -, -, -, -, -, -, e0, e1⟩ := idx1 t
  funext j
  obtain ⟨p, q, rfl⟩ : ∃ (p : Fin 10000) (q : Fin 64), j = ix2 p q := ⟨j 0, j 1, eq_ix2 j⟩
  show k1_pay1 (F := Ideal) (iblk1 V c 0 t) (iblk1 V c 1 t) (iblk1 V c 2 t) (iblk1 V c 3 t) (iblk1 V c 4 t) (iblk1 V c 5 t) (iblk1 V c 6 t) (ix2 p q)
    = (Cert.GSpec.relu (Cert.GSpec.addRow (Cert.GSpec.matMul (Cert.GSpec.normAffine (V c (Pipeline.arrRef spec1 0) : S100000x128.Idx → EReal) (V c (Pipeline.arrRef spec1 1) : S1x128.Idx → EReal) (V c (Pipeline.arrRef spec1 2) : S1x128.Idx → EReal) (V c (Pipeline.arrRef spec1 3) : S1x128.Idx → EReal) (V c (Pipeline.arrRef spec1 4) : S1x128.Idx → EReal)) (V c (Pipeline.arrRef spec1 5) : S128x64.Idx → EReal)) (V c (Pipeline.arrRef spec1 6) : S1x64.Idx → EReal))) (((cfg1.win 7).blk t).view.emb (ix2 p q))
  have hcol : Cert.GSpec.col (((cfg1.win 7).blk t).view.emb (ix2 p q) : S100000x64.Idx) = q :=
    Fin.ext (by show win1_7.index t (1 : Fin 2) * 64 + 1 * q.val = q.val; rw [e1]; omega)
  have hrow : (Cert.GSpec.row (((cfg1.win 7).blk t).view.emb (ix2 p q) : S100000x64.Idx)).val = t.val * 10000 + p.val := by
    show win1_7.index t (0 : Fin 2) * 10000 + 1 * p.val = t.val * 10000 + p.val; rw [e0]; omega
  rw [pay1_apply]
  unfold Cert.GSpec.relu Cert.GSpec.addRow Cert.GSpec.matMul Cert.GSpec.normAffine
  simp only [Cert.GSpec.col_ix2]
  rw [hcol, whole1_6 V c t]
  refine congrArg (fun s => max (s + (V c (Pipeline.arrRef spec1 6) : S1x64.Idx → EReal) (ix2 0 q)) 0) (Finset.sum_congr rfl fun k _ => ?_)
  rw [rows1 V c t (ix2 p k) (ix2 (Cert.GSpec.row (((cfg1.win 7).blk t).view.emb (ix2 p q) : S100000x64.Idx)) k) hrow rfl,
    whole1_1 V c t, whole1_2 V c t, whole1_3 V c t, whole1_4 V c t, whole1_5 V c t]

set_option maxHeartbeats 4000000 in
/-- An index of the output array is in point t's block iff each coordinate is in the block's range on its axis. -/
theorem mem_blk1 (t : Fin cfg1.N) (i : S100000x64.Idx) :
    i ∈ ((cfg1.win 7).blk t).view.set ↔ ∀ a : Fin 2, win1_7.index t a * S10000x64.size a ≤ (i a).val ∧ (i a).val < win1_7.index t a * S10000x64.size a + S10000x64.size a := by
  show i ∈ ((View.whole main_v18).slice (win1_7.rect t)).set ↔ _
  rw [View.set_slice_whole, Rect.mem_set_unit]
  exact Iff.rfl

set_option maxHeartbeats 4000000 in
/-- Every entry of the output array lies in some point's block: row r is in block r / 10000. -/
theorem cover1 (i : S100000x64.Idx) : ∃ t : Fin cfg1.N, (cfg1.win 7).flush t = true ∧ i ∈ ((cfg1.win 7).blk t).view.set := by
  have hN : cfg1.N = 10 := N_1
  have hi0 : (i 0).val < 100000 := (i 0).isLt
  have hi1 : (i 1).val < 64 := (i 1).isLt
  refine ⟨⟨(i 0).val / 10000, by omega⟩, flush1_7 _, ?_⟩
  obtain ⟨-, -, -, -, -, -, -, -, -, -, -, -, -, -, e0, e1⟩ := idx1 ⟨(i 0).val / 10000, by omega⟩
  rw [mem_blk1]
  intro a
  match a with
  | ⟨0, _⟩ => show win1_7.index _ (0 : Fin 2) * 10000 ≤ (i 0).val ∧ (i 0).val < win1_7.index _ (0 : Fin 2) * 10000 + 10000; rw [e0]; show (i 0).val / 10000 * 10000 ≤ (i 0).val ∧ (i 0).val < (i 0).val / 10000 * 10000 + 10000; omega
  | ⟨1, _⟩ => show win1_7.index _ (1 : Fin 2) * 64 ≤ (i 1).val ∧ (i 1).val < win1_7.index _ (1 : Fin 2) * 64 + 64; rw [e1]; omega

set_option maxHeartbeats 4000000 in
/-- THE OUTPUT ARRAY after the stage's ten points: the tiled array normalised by the given mean and variance
    rows, scaled and shifted, times the weight matrix, plus the bias row, and the positive part of that. -/
theorem final1 (c : Dev nD) :
    (dat1 (F := Ideal) V c).arrAt 7 cfg1.N
      = Cert.GSpec.relu (Cert.GSpec.addRow (Cert.GSpec.matMul (Cert.GSpec.normAffine (V c (Pipeline.arrRef spec1 0) : S100000x128.Idx → EReal) (V c (Pipeline.arrRef spec1 1) : S1x128.Idx → EReal) (V c (Pipeline.arrRef spec1 2) : S1x128.Idx → EReal) (V c (Pipeline.arrRef spec1 3) : S1x128.Idx → EReal) (V c (Pipeline.arrRef spec1 4) : S1x128.Idx → EReal)) (V c (Pipeline.arrRef spec1 5) : S128x64.Idx → EReal)) (V c (Pipeline.arrRef spec1 6) : S1x64.Idx → EReal)) :=
  (dat1 (F := Ideal) V c).arrAt_eq_of_cover 7 _ (fun t _ => flushed1_eq V c t) cover1

end Cert.KernelIdeal.KVal

end
-- ==== Proof.KVal2.lean ====
/-
  The second tiled stage of the kernel, read as one array: after its ten grid points have run, the stage's output
  array is the matrix product of the array it reads by rows (ten blocks of 10000 rows) and the small square matrix
  every point reads whole. Entry (r, j) of the product is the sum over q of X (r, q) * W (q, j).
-/
import proofs.«103981_j8873402434235_1_alg».proof.Proof.Gen.KernelIdeal.Frame
import proofs.«103981_j8873402434235_1_alg».proof.Proof.GSpec
import Idealize.ShloMosaic.Lib.Pipeline.Value
import Idealize.ShloMosaic.Lib.ValueIdx
import Idealize.ShloMosaic.PureOps.Ideal.Laws

noncomputable section

open scoped BigOperators

namespace Cert.KernelIdeal.KVal

open Cert.KernelIdeal Cert.KernelIdeal.Gen Idealize.ShloMosaic Idealize.ShloMosaic.TcCoe Idealize.SL.Sem
open Idealize.ShloMosaic.Pipeline (Dat)
open Idealize.ShloMosaic.ValueIdx

/-- The zero offsets of a whole-block access, however they are spelt. -/
theorem origin2 : (![0, 0] : Fin 2 → Nat) = fun _ => 0 := funext fun a => by fin_cases a <;> rfl

/-! ## The product of two blocks at an entry -/

/-- The left operand's index at output entry (p, q) and contraction position k is (p, k). -/
theorem mm2_lhs (p : Fin 10000) (q : Fin 64) (k : Fin 64) :
    dot_S10000x64_S64x64_S10000x64_1_0_0_1_n_n.lhsIdx (ix2 p q) ((contrEquiv1 dot_S10000x64_S64x64_S10000x64_1_0_0_1_n_n 64 rfl rfl).symm k) = ix2 p k := by
  have hk := contrEquiv1_symm_val dot_S10000x64_S64x64_S10000x64_1_0_0_1_n_n 64 rfl rfl k
  funext a; apply Fin.ext
  match a with
  | ⟨0, _⟩ =>
    show (dot_S10000x64_S64x64_S10000x64_1_0_0_1_n_n.lhsIdx (ix2 p q) _ (0 : Fin S10000x64.rank)).val = p.val
    unfold DotDims.lhsIdx
    rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
    rfl
  | ⟨1, _⟩ => exact (dot_S10000x64_S64x64_S10000x64_1_0_0_1_n_n.lhsIdx_val_of_single rfl (ix2 p q) _).trans hk

/-- The right operand's index at output entry (p, q) and contraction position k is (k, q). -/
theorem mm2_rhs (p : Fin 10000) (q : Fin 64) (k : Fin 64) :
    dot_S10000x64_S64x64_S10000x64_1_0_0_1_n_n.rhsIdx (ix2 p q) ((contrEquiv1 dot_S10000x64_S64x64_S10000x64_1_0_0_1_n_n 64 rfl rfl).symm k) = ix2 k q := by
  have hk := contrEquiv1_symm_val dot_S10000x64_S64x64_S10000x64_1_0_0_1_n_n 64 rfl rfl k
  funext a; apply Fin.ext
  match a with
  | ⟨0, _⟩ => exact (dot_S10000x64_S64x64_S10000x64_1_0_0_1_n_n.rhsIdx_val_of_single rfl (ix2 p q) _).trans hk
  | ⟨1, _⟩ =>
    show (dot_S10000x64_S64x64_S10000x64_1_0_0_1_n_n.rhsIdx (ix2 p q) _ (1 : Fin S64x64.rank)).val = q.val
    unfold DotDims.rhsIdx
    rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
    rfl

/-- The body's stored value at entry (p, q) of its block: the sum over k of the row block's (p, k) times the
    matrix's (k, q). The change of float format before the product is the identity on extended reals and the
    accumulator is the zero array. -/
theorem pay2_apply (x0 : Vec Ideal S10000x64 .f32) (x1 : Vec Ideal S64x64 .f32) (p : Fin 10000) (q : Fin 64) :
    k2_pay1 (F := Ideal) x0 x1 (ix2 p q) = ∑ k : Fin 64, x0 (ix2 p k) * x1 (ix2 k q) := by
  unfold k2_pay1
  simp only [shapeCast_self, matmul]
  rw [Ideal.matmul_constant_zero_apply, ← Equiv.sum_comp (contrEquiv1 dot_S10000x64_S64x64_S10000x64_1_0_0_1_n_n 64 rfl rfl).symm]
  refine Finset.sum_congr rfl fun k _ => ?_
  rw [mm2_lhs, mm2_rhs]
  rfl

/-! ## From the ten blocks to the array -/

variable (V : (c : Dev nD) → (b : Ref sig .tc) → Buf (Elt Ideal) ((c : Thread nD τ).loc b))

/-- The printed block index maps, decided over the ten grid points: point t reads row block t of the array it
    tiles and writes row block t of the output; the square matrix is read whole at every point. -/
theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Entry y of the row block point t reads is entry (10000 t + y₀, y₁) of the array. -/
theorem rows2 (c : Dev nD) (t : Fin cfg2.N) (y : S10000x64.Idx) (i : S100000x64.Idx)
    (h0 : (i 0).val = t.val * 10000 + (y 0).val) (h1 : (i 1).val = (y 1).val) :
    (iblk2 V c 0 t : Vec Ideal S10000x64 .f32) y = (V c (Pipeline.arrRef spec2 0) : S100000x64.Idx → EReal) i := by
  obtain ⟨e0, e1, -⟩ := idx2 t
  unfold iblk2
  rw [View.read_apply]
  show V c (Pipeline.arrRef spec2 0) _ = V c (Pipeline.arrRef spec2 0) _
  congr 1
  funext a; apply Fin.ext
  match a with
  | ⟨0, _⟩ => show win2_0.index t (0 : Fin 2) * 10000 + 1 * (y 0).val = (i 0).val; rw [e0, h0]; omega
  | ⟨1, _⟩ => show win2_0.index t (1 : Fin 2) * 64 + 1 * (y 1).val = (i 1).val; rw [e1, h1]; omega

/-- The block of the square matrix every point reads is the matrix itself. -/
theorem whole2 (c : Dev nD) (t : Fin cfg2.N) (y : S64x64.Idx) :
    (iblk2 V c 1 t : Vec Ideal S64x64 .f32) y = (V c (Pipeline.arrRef spec2 1) : S64x64.Idx → EReal) y := by
  obtain ⟨-, -, e0, e1, -⟩ := idx2 t
  unfold iblk2
  rw [View.read_apply]
  show V c (Pipeline.arrRef spec2 1) _ = V c (Pipeline.arrRef spec2 1) _
  congr 1
  funext a; apply Fin.ext
  match a with
  | ⟨0, _⟩ => show win2_1.index t (0 : Fin 2) * 64 + 1 * (y 0).val = (y 0).val; rw [e0]; omega
  | ⟨1, _⟩ => show win2_1.index t (1 : Fin 2) * 64 + 1 * (y 1).val = (y 1).val; rw [e1]; omega

/-- WHAT POINT t WRITES BACK is block t of the product of the two arrays as the stage finds them. -/
theorem flushed2_eq (c : Dev nD) (t : Fin cfg2.N) :
    (dat2 (F := Ideal) V c).flushed 2 t = ((cfg2.win 2).blk t).view.read (Elt Ideal)
      (Cert.GSpec.matMul (V c (Pipeline.arrRef spec2 0) : S100000x64.Idx → EReal) (V c (Pipeline.arrRef spec2 1) : S64x64.Idx → EReal)) := by
  show (cfg2.win 2).cut (grid2.coords t) ((dat2 V c).after 2 t) = _
  rw [after2_2]
  unfold out2_2
  rw [View.canon_unit_zero origin2]
  simp only [View.ld_unit_zero (S := S10000x64) origin2, View.ld_unit_zero (S := S64x64) origin2]
  obtain ⟨-, -, -, -, e0, e1⟩ := idx2 t
  funext j
  obtain ⟨p, q, rfl⟩ : ∃ (p : Fin 10000) (q : Fin 64), j = ix2 p q := ⟨j 0, j 1, eq_ix2 j⟩
  show k2_pay1 (F := Ideal) (iblk2 V c 0 t) (iblk2 V c 1 t) (ix2 p q)
    = Cert.GSpec.matMul (V c (Pipeline.arrRef spec2 0) : S100000x64.Idx → EReal) (V c (Pipeline.arrRef spec2 1) : S64x64.Idx → EReal) (((cfg2.win 2).blk t).view.emb (ix2 p q))
  rw [pay2_apply]
  unfold Cert.GSpec.matMul
  refine Finset.sum_congr rfl fun k _ => ?_
  rw [rows2 V c t (ix2 p k) (ix2 (Cert.GSpec.row (((cfg2.win 2).blk t).view.emb (ix2 p q))) k) ?_ rfl, whole2 V c t (ix2 k q)]
  · congr 2
    funext a; apply Fin.ext
    match a with
    | ⟨0, _⟩ => rfl
    | ⟨1, _⟩ => show q.val = win2_2.index t (1 : Fin 2) * 64 + 1 * q.val; rw [e1]; omega
  · show win2_2.index t (0 : Fin 2) * 10000 + 1 * p.val = t.val * 10000 + p.val; rw [e0]; omega

/-- An index of the output array is in point t's block iff each coordinate is in the block's range on its axis. -/
theorem mem_blk2 (t : Fin cfg2.N) (i : S100000x64.Idx) :
    i ∈ ((cfg2.win 2).blk t).view.set ↔ ∀ a : Fin 2, win2_2.index t a * S10000x64.size a ≤ (i a).val ∧ (i a).val < win2_2.index t a * S10000x64.size a + S10000x64.size a := by
  show i ∈ ((View.whole main_v19).slice (win2_2.rect t)).set ↔ _
  rw [View.set_slice_whole, Rect.mem_set_unit]
  exact Iff.rfl

/-- Every entry of the output array lies in some point's block: row r is in block r / 10000. -/
theorem cover2 (i : S100000x64.Idx) : ∃ t : Fin cfg2.N, (cfg2.win 2).flush t = true ∧ i ∈ ((cfg2.win 2).blk t).view.set := by
  have hN : cfg2.N = 10 := N_2
  have hi0 : (i 0).val < 100000 := (i 0).isLt
  have hi1 : (i 1).val < 64 := (i 1).isLt
  refine ⟨⟨(i 0).val / 10000, by omega⟩, flush2_2 _, ?_⟩
  obtain ⟨-, -, -, -, e0, e1⟩ := idx2 ⟨(i 0).val / 10000, by omega⟩
  rw [mem_blk2]
  intro a
  match a with
  | ⟨0, _⟩ => show win2_2.index _ (0 : Fin 2) * 10000 ≤ (i 0).val ∧ (i 0).val < win2_2.index _ (0 : Fin 2) * 10000 + 10000; rw [e0]; show (i 0).val / 10000 * 10000 ≤ (i 0).val ∧ (i 0).val < (i 0).val / 10000 * 10000 + 10000; omega
  | ⟨1, _⟩ => show win2_2.index _ (1 : Fin 2) * 64 ≤ (i 1).val ∧ (i 1).val < win2_2.index _ (1 : Fin 2) * 64 + 64; rw [e1]; omega

/-- THE OUTPUT ARRAY after the stage's ten points: the product of the two arrays the stage reads, as it finds them. -/
theorem final2 (c : Dev nD) :
    (dat2 (F := Ideal) V c).arrAt 2 cfg2.N
      = Cert.GSpec.matMul (V c (Pipeline.arrRef spec2 0) : S100000x64.Idx → EReal) (V c (Pipeline.arrRef spec2 1) : S64x64.Idx → EReal) :=
  (dat2 (F := Ideal) V c).arrAt_eq_of_cover 2 _ (fun t _ => flushed2_eq V c t) cover2

end Cert.KernelIdeal.KVal

end
-- ==== Proof.KVal4.lean ====
/-
  The fifth tiled stage of the kernel, read as one array: after its ten grid points have run, the stage's output
  array is, entry by entry, the array it reads by rows (ten blocks of 10000 rows) with a bias row added to every
  row, normalised by a GIVEN mean row and variance row, scaled and shifted by two more rows, and its positive part
  taken: max ((x + b − μ) · (σ² + ε)^(-1/2) · γ + β, 0), each row read at the entry's column.
-/
import proofs.«103981_j8873402434235_1_alg».proof.Proof.Gen.KernelIdeal.Frame
import proofs.«103981_j8873402434235_1_alg».proof.Proof.GSpec
import Idealize.ShloMosaic.Lib.Pipeline.Value
import Idealize.ShloMosaic.Lib.ValueIdx
import Idealize.ShloMosaic.PureOps.Ideal.Laws

noncomputable section

open scoped BigOperators

namespace Cert.KernelIdeal.KVal

open Cert.KernelIdeal Cert.KernelIdeal.Gen Idealize.ShloMosaic Idealize.ShloMosaic.TcCoe Idealize.SL.Sem
open Idealize.ShloMosaic.Pipeline (Dat)
open Idealize.ShloMosaic.ValueIdx

/-- The zero offsets of a whole-block access, however they are spelt. -/
theorem origin4 : (![0, 0] : Fin 2 → Nat) = fun _ => 0 := funext fun a => by fin_cases a <;> rfl

/-! ## The body's arithmetic at an entry -/

/-- A row stretched over 10000 rows reads, at entry (p, q), the row's entry q. -/
theorem stretch4 {α : Type} (v : S1x64.Idx → α) (h : S1x64.Broadcasts S10000x64) (p : Fin 10000) (q : Fin 64) :
    broadcastTo S10000x64 v h (ix2 p q) = v (ix2 0 q) :=
  broadcastTo_apply v h (ix2 p q) (ix2 0 q) fun a => by
    match a with
    | ⟨0, _⟩ => rfl
    | ⟨1, _⟩ => rfl

/-- The body's stored value at entry (p, q) of its block: the bias row added, the mean row taken off, times the
    inverse square root of the variance row plus the stabiliser, times the scale row, plus the shift row, and the
    positive part of that — each row read at column q. -/
theorem pay4_apply (x0 : Vec Ideal S10000x64 .f32) (b mu va g be : Vec Ideal S1x64 .f32) (p : Fin 10000) (q : Fin 64) :
    k4_pay1 (F := Ideal) x0 b mu va g be (ix2 p q) = max ((x0 (ix2 p q) + b (ix2 0 q) - mu (ix2 0 q)) * Ideal.rsqrt (va (ix2 0 q) + Cert.GSpec.eps) * g (ix2 0 q) + be (ix2 0 q)) 0 := by
  unfold k4_pay1
  simp only [shapeCast_self, maximumf_apply, addf_apply, mulf_apply, subf_apply, stretch4, broadcast_apply]
  show max (_ * Ideal.rsqrt (_ + Ideal.ofBits .f32 0x3727C5AC#32) * _ + _) (Ideal.ofBits .f32 0x00000000#32) = _
  rw [Ideal.ofBits_zero_f32]
  rfl

/-! ## From the ten blocks to the array -/

variable (V : (c : Dev nD) → (b : Ref sig .tc) → Buf (Elt Ideal) ((c : Thread nD τ).loc b))

/-- The printed block index maps, decided over the ten grid points: point t reads row block t of the array it
    tiles and writes row block t of the output; each of the five rows is read whole at every point. -/
theorem idx4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = t.val ∧ win4_6.index t (1 : Fin 2) = 0 :=
  (by decide +kernel : ∀ t : Fin grid4.N, _)

set_option maxHeartbeats 4000000 in
/-- Entry y of the row block point t reads is entry (10000 t + y₀, y₁) of the array. -/
theorem rows4 (c : Dev nD) (t : Fin cfg4.N) (y : S10000x64.Idx) (i : S100000x64.Idx)
    (h0 : (i 0).val = t.val * 10000 + (y 0).val) (h1 : (i 1).val = (y 1).val) :
    (iblk4 V c 0 t : Vec Ideal S10000x64 .f32) y = (V c (Pipeline.arrRef spec4 0) : S100000x64.Idx → EReal) i := by
  obtain ⟨e0, e1, -⟩ := idx4 t
  unfold iblk4
  rw [View.read_apply]
  show V c (Pipeline.arrRef spec4 0) _ = V c (Pipeline.arrRef spec4 0) _
  congr 1
  funext a; apply Fin.ext
  match a with
  | ⟨0, _⟩ => show win4_0.index t (0 : Fin 2) * 10000 + 1 * (y 0).val = (i 0).val; rw [e0, h0]; omega
  | ⟨1, _⟩ => show win4_0.index t (1 : Fin 2) * 64 + 1 * (y 1).val = (i 1).val; rw [e1, h1]; omega

set_option maxHeartbeats 4000000 in
/-- The bias row every point reads is the whole one-row array. -/
theorem row4_1 (c : Dev nD) (t : Fin cfg4.N) (y : S1x64.Idx) :
    (iblk4 V c 1 t : Vec Ideal S1x64 .f32) y = (V c (Pipeline.arrRef spec4 1) : S1x64.Idx → EReal) y := by
  obtain ⟨-, -, e0, e1, -⟩ := idx4 t
  unfold iblk4
  rw [View.read_apply]
  show V c (Pipeline.arrRef spec4 1) _ = V c (Pipeline.arrRef spec4 1) _
  congr 1
  funext a; apply Fin.ext
  match a with
  | ⟨0, _⟩ => show win4_1.index t (0 : Fin 2) * 1 + 1 * (y 0).val = (y 0).val; rw [e0]; omega
  | ⟨1, _⟩ => show win4_1.index t (1 : Fin 2) * 64 + 1 * (y 1).val = (y 1).val; rw [e1]; omega

set_option maxHeartbeats 4000000 in
/-- The mean row every point reads is the whole one-row array. -/
theorem row4_2 (c : Dev nD) (t : Fin cfg4.N) (y : S1x64.Idx) :
    (iblk4 V c 2 t : Vec Ideal S1x64 .f32) y = (V c (Pipeline.arrRef spec4 2) : S1x64.Idx → EReal) y := by
  obtain ⟨-, -, -, -, e0, e1, -⟩ := idx4 t
  unfold iblk4
  rw [View.read_apply]
  show V c (Pipeline.arrRef spec4 2) _ = V c (Pipeline.arrRef spec4 2) _
  congr 1
  funext a; apply Fin.ext
  match a with
  | ⟨0, _⟩ => show win4_2.index t (0 : Fin 2) * 1 + 1 * (y 0).val = (y 0).val; rw [e0]; omega
  | ⟨1, _⟩ => show win4_2.index t (1 : Fin 2) * 64 + 1 * (y 1).val = (y 1).val; rw [e1]; omega

set_option maxHeartbeats 4000000 in
/-- The variance row every point reads is the whole one-row array. -/
theorem row4_3 (c : Dev nD) (t : Fin cfg4.N) (y : S1x64.Idx) :
    (iblk4 V c 3 t : Vec Ideal S1x64 .f32) y = (V c (Pipeline.arrRef spec4 3) : S1x64.Idx → EReal) y := by
  obtain ⟨-, -, -, -, -, -, e0, e1, -⟩ := idx4 t
  unfold iblk4
  rw [View.read_apply]
  show V c (Pipeline.arrRef spec4 3) _ = V c (Pipeline.arrRef spec4 3) _
  congr 1
  funext a; apply Fin.ext
  match a with
  | ⟨0, _⟩ => show win4_3.index t (0 : Fin 2) * 1 + 1 * (y 0).val = (y 0).val; rw [e0]; omega
  | ⟨1, _⟩ => show win4_3.index t (1 : Fin 2) * 64 + 1 * (y 1).val = (y 1).val; rw [e1]; omega

set_option maxHeartbeats 4000000 in
/-- The scale row every point reads is the whole one-row array. -/
theorem row4_4 (c : Dev nD) (t : Fin cfg4.N) (y : S1x64.Idx) :
    (iblk4 V c 4 t : Vec Ideal S1x64 .f32) y = (V c (Pipeline.arrRef spec4 4) : S1x64.Idx → EReal) y := by
  obtain ⟨-, -, -, -, -, -, -, -, e0, e1, -⟩ := idx4 t
  unfold iblk4
  rw [View.read_apply]
  show V c (Pipeline.arrRef spec4 4) _ = V c (Pipeline.arrRef spec4 4) _
  congr 1
  funext a; apply Fin.ext
  match a with
  | ⟨0, _⟩ => show win4_4.index t (0 : Fin 2) * 1 + 1 * (y 0).val = (y 0).val; rw [e0]; omega
  | ⟨1, _⟩ => show win4_4.index t (1 : Fin 2) * 64 + 1 * (y 1).val = (y 1).val; rw [e1]; omega

set_option maxHeartbeats 4000000 in
/-- The shift row every point reads is the whole one-row array. -/
theorem row4_5 (c : Dev nD) (t : Fin cfg4.N) (y : S1x64.Idx) :
    (iblk4 V c 5 t : Vec Ideal S1x64 .f32) y = (V c (Pipeline.arrRef spec4 5) : S1x64.Idx → EReal) y := by
  obtain ⟨-, -, -, -, -, -, -, -, -, -, e0, e1, -⟩ := idx4 t
  unfold iblk4
  rw [View.read_apply]
  show V c (Pipeline.arrRef spec4 5) _ = V c (Pipeline.arrRef spec4 5) _
  congr 1
  funext a; apply Fin.ext
  match a with
  | ⟨0, _⟩ => show win4_5.index t (0 : Fin 2) * 1 + 1 * (y 0).val = (y 0).val; rw [e0]; omega
  | ⟨1, _⟩ => show win4_5.index t (1 : Fin 2) * 64 + 1 * (y 1).val = (y 1).val; rw [e1]; omega

set_option maxHeartbeats 4000000 in
/-- WHAT POINT t WRITES BACK is block t of the whole-array map of the six arrays as the stage finds them. -/
theorem flushed4_eq (c : Dev nD) (t : Fin cfg4.N) :
    (dat4 (F := Ideal) V c).flushed 6 t = ((cfg4.win 6).blk t).view.read (Elt Ideal)
      (Cert.GSpec.relu (Cert.GSpec.normAffine (Cert.GSpec.addRow (V c (Pipeline.arrRef spec4 0) : S100000x64.Idx → EReal) (V c (Pipeline.arrRef spec4 1) : S1x64.Idx → EReal)) (V c (Pipeline.arrRef spec4 2) : S1x64.Idx → EReal) (V c (Pipeline.arrRef spec4 3) : S1x64.Idx → EReal) (V c (Pipeline.arrRef spec4 4) : S1x64.Idx → EReal) (V c (Pipeline.arrRef spec4 5) : S1x64.Idx → EReal))) := by
  show (cfg4.win 6).cut (grid4.coords t) ((dat4 V c).after 6 t) = _
  rw [after4_6]
  unfold out4_6
  rw [View.canon_unit_zero origin4]
  simp only [View.ld_unit_zero (S := S10000x64) origin4, View.ld_unit_zero (S := S1x64) origin4]
  obtain ⟨-, -, -, -, -, -, -, -, -, -, -, -, e0, e1⟩ := idx4 t
  funext j
  obtain ⟨p, q, rfl⟩ : ∃ (p : Fin 10000) (q : Fin 64), j = ix2 p q := ⟨j 0, j 1, eq_ix2 j⟩
  show k4_pay1 (F := Ideal) (iblk4 V c 0 t) (iblk4 V c 1 t) (iblk4 V c 2 t) (iblk4 V c 3 t) (iblk4 V c 4 t) (iblk4 V c 5 t) (ix2 p q)
    = (Cert.GSpec.relu (Cert.GSpec.normAffine (Cert.GSpec.addRow (V c (Pipeline.arrRef spec4 0) : S100000x64.Idx → EReal) (V c (Pipeline.arrRef spec4 1) : S1x64.Idx → EReal)) (V c (Pipeline.arrRef spec4 2) : S1x64.Idx → EReal) (V c (Pipeline.arrRef spec4 3) : S1x64.Idx → EReal) (V c (Pipeline.arrRef spec4 4) : S1x64.Idx → EReal) (V c (Pipeline.arrRef spec4 5) : S1x64.Idx → EReal))) (((cfg4.win 6).blk t).view.emb (ix2 p q))
  have hcol : Cert.GSpec.col (((cfg4.win 6).blk t).view.emb (ix2 p q) : S100000x64.Idx) = q :=
    Fin.ext (by show win4_6.index t (1 : Fin 2) * 64 + 1 * q.val = q.val; rw [e1]; omega)
  rw [pay4_apply]
  unfold Cert.GSpec.relu Cert.GSpec.normAffine Cert.GSpec.addRow
  rw [hcol, rows4 V c t (ix2 p q) (((cfg4.win 6).blk t).view.emb (ix2 p q)) ?_ ?_, row4_1 V c t, row4_2 V c t, row4_3 V c t, row4_4 V c t, row4_5 V c t]
  · show win4_6.index t (0 : Fin 2) * 10000 + 1 * p.val = t.val * 10000 + p.val; rw [e0]; omega
  · show win4_6.index t (1 : Fin 2) * 64 + 1 * q.val = q.val; rw [e1]; omega

set_option maxHeartbeats 4000000 in
/-- An index of the output array is in point t's block iff each coordinate is in the block's range on its axis. -/
theorem mem_blk4 (t : Fin cfg4.N) (i : S100000x64.Idx) :
    i ∈ ((cfg4.win 6).blk t).view.set ↔ ∀ a : Fin 2, win4_6.index t a * S10000x64.size a ≤ (i a).val ∧ (i a).val < win4_6.index t a * S10000x64.size a + S10000x64.size a := by
  show i ∈ ((View.whole main_v74).slice (win4_6.rect t)).set ↔ _
  rw [View.set_slice_whole, Rect.mem_set_unit]
  exact Iff.rfl

set_option maxHeartbeats 4000000 in
/-- Every entry of the output array lies in some point's block: row r is in block r / 10000. -/
theorem cover4 (i : S100000x64.Idx) : ∃ t : Fin cfg4.N, (cfg4.win 6).flush t = true ∧ i ∈ ((cfg4.win 6).blk t).view.set := by
  have hN : cfg4.N = 10 := N_4
  have hi0 : (i 0).val < 100000 := (i 0).isLt
  have hi1 : (i 1).val < 64 := (i 1).isLt
  refine ⟨⟨(i 0).val / 10000, by omega⟩, flush4_6 _, ?_⟩
  obtain ⟨-, -, -, -, -, -, -, -, -, -, -, -, e0, e1⟩ := idx4 ⟨(i 0).val / 10000, by omega⟩
  rw [mem_blk4]
  intro a
  match a with
  | ⟨0, _⟩ => show win4_6.index _ (0 : Fin 2) * 10000 ≤ (i 0).val ∧ (i 0).val < win4_6.index _ (0 : Fin 2) * 10000 + 10000; rw [e0]; show (i 0).val / 10000 * 10000 ≤ (i 0).val ∧ (i 0).val < (i 0).val / 10000 * 10000 + 10000; omega
  | ⟨1, _⟩ => show win4_6.index _ (1 : Fin 2) * 64 ≤ (i 1).val ∧ (i 1).val < win4_6.index _ (1 : Fin 2) * 64 + 64; rw [e1]; omega

set_option maxHeartbeats 4000000 in
/-- THE OUTPUT ARRAY after the stage's ten points: the bias row added to every row of the tiled array, then the
    normalise-and-affine map with the given mean, variance, scale and shift rows, then the positive part. -/
theorem final4 (c : Dev nD) :
    (dat4 (F := Ideal) V c).arrAt 6 cfg4.N
      = Cert.GSpec.relu (Cert.GSpec.normAffine (Cert.GSpec.addRow (V c (Pipeline.arrRef spec4 0) : S100000x64.Idx → EReal) (V c (Pipeline.arrRef spec4 1) : S1x64.Idx → EReal)) (V c (Pipeline.arrRef spec4 2) : S1x64.Idx → EReal) (V c (Pipeline.arrRef spec4 3) : S1x64.Idx → EReal) (V c (Pipeline.arrRef spec4 4) : S1x64.Idx → EReal) (V c (Pipeline.arrRef spec4 5) : S1x64.Idx → EReal)) :=
  (dat4 (F := Ideal) V c).arrAt_eq_of_cover 6 _ (fun t _ => flushed4_eq V c t) cover4

end Cert.KernelIdeal.KVal

end
-- ==== Proof.KVal5.lean ====
/-
  The second matrix-product stage of the kernel (its sixth tiled stage), read as one array: after its ten grid points have run, the stage's output
  array is the matrix product of the array it reads by rows (ten blocks of 10000 rows) and the small square matrix
  every point reads whole. Entry (r, j) of the product is the sum over q of X (r, q) * W (q, j).
-/
import proofs.«103981_j8873402434235_1_alg».proof.Proof.Gen.KernelIdeal.Frame
import proofs.«103981_j8873402434235_1_alg».proof.Proof.GSpec
import Idealize.ShloMosaic.Lib.Pipeline.Value
import Idealize.ShloMosaic.Lib.ValueIdx
import Idealize.ShloMosaic.PureOps.Ideal.Laws

noncomputable section

open scoped BigOperators

namespace Cert.KernelIdeal.KVal

open Cert.KernelIdeal Cert.KernelIdeal.Gen Idealize.ShloMosaic Idealize.ShloMosaic.TcCoe Idealize.SL.Sem
open Idealize.ShloMosaic.Pipeline (Dat)
open Idealize.ShloMosaic.ValueIdx

/-- The zero offsets of a whole-block access, however they are spelt. -/
theorem origin5 : (![0, 0] : Fin 2 → Nat) = fun _ => 0 := funext fun a => by fin_cases a <;> rfl

/-! ## The product of two blocks at an entry -/

/-- The left operand's index at output entry (p, q) and contraction position k is (p, k). -/
theorem mm5_lhs (p : Fin 10000) (q : Fin 64) (k : Fin 64) :
    dot_S10000x64_S64x64_S10000x64_1_0_0_1_n_n.lhsIdx (ix2 p q) ((contrEquiv1 dot_S10000x64_S64x64_S10000x64_1_0_0_1_n_n 64 rfl rfl).symm k) = ix2 p k := by
  have hk := contrEquiv1_symm_val dot_S10000x64_S64x64_S10000x64_1_0_0_1_n_n 64 rfl rfl k
  funext a; apply Fin.ext
  match a with
  | ⟨0, _⟩ =>
    show (dot_S10000x64_S64x64_S10000x64_1_0_0_1_n_n.lhsIdx (ix2 p q) _ (0 : Fin S10000x64.rank)).val = p.val
    unfold DotDims.lhsIdx
    rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
    rfl
  | ⟨1, _⟩ => exact (dot_S10000x64_S64x64_S10000x64_1_0_0_1_n_n.lhsIdx_val_of_single rfl (ix2 p q) _).trans hk

/-- The right operand's index at output entry (p, q) and contraction position k is (k, q). -/
theorem mm5_rhs (p : Fin 10000) (q : Fin 64) (k : Fin 64) :
    dot_S10000x64_S64x64_S10000x64_1_0_0_1_n_n.rhsIdx (ix2 p q) ((contrEquiv1 dot_S10000x64_S64x64_S10000x64_1_0_0_1_n_n 64 rfl rfl).symm k) = ix2 k q := by
  have hk := contrEquiv1_symm_val dot_S10000x64_S64x64_S10000x64_1_0_0_1_n_n 64 rfl rfl k
  funext a; apply Fin.ext
  match a with
  | ⟨0, _⟩ => exact (dot_S10000x64_S64x64_S10000x64_1_0_0_1_n_n.rhsIdx_val_of_single rfl (ix2 p q) _).trans hk
  | ⟨1, _⟩ =>
    show (dot_S10000x64_S64x64_S10000x64_1_0_0_1_n_n.rhsIdx (ix2 p q) _ (1 : Fin S64x64.rank)).val = q.val
    unfold DotDims.rhsIdx
    rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
    rfl

/-- The body's stored value at entry (p, q) of its block: the sum over k of the row block's (p, k) times the
    matrix's (k, q). The change of float format before the product is the identity on extended reals and the
    accumulator is the zero array. -/
theorem pay5_apply (x0 : Vec Ideal S10000x64 .f32) (x1 : Vec Ideal S64x64 .f32) (p : Fin 10000) (q : Fin 64) :
    k5_pay1 (F := Ideal) x0 x1 (ix2 p q) = ∑ k : Fin 64, x0 (ix2 p k) * x1 (ix2 k q) := by
  unfold k5_pay1
  simp only [shapeCast_self, matmul]
  rw [Ideal.matmul_constant_zero_apply, ← Equiv.sum_comp (contrEquiv1 dot_S10000x64_S64x64_S10000x64_1_0_0_1_n_n 64 rfl rfl).symm]
  refine Finset.sum_congr rfl fun k _ => ?_
  rw [mm5_lhs, mm5_rhs]
  rfl

/-! ## From the ten blocks to the array -/

variable (V : (c : Dev nD) → (b : Ref sig .tc) → Buf (Elt Ideal) ((c : Thread nD τ).loc b))

/-- The printed block index maps, decided over the ten grid points: point t reads row block t of the array it
    tiles and writes row block t of the output; the square matrix is read whole at every point. -/
theorem idx5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- Entry y of the row block point t reads is entry (10000 t + y₀, y₁) of the array. -/
theorem rows5 (c : Dev nD) (t : Fin cfg5.N) (y : S10000x64.Idx) (i : S100000x64.Idx)
    (h0 : (i 0).val = t.val * 10000 + (y 0).val) (h1 : (i 1).val = (y 1).val) :
    (iblk5 V c 0 t : Vec Ideal S10000x64 .f32) y = (V c (Pipeline.arrRef spec5 0) : S100000x64.Idx → EReal) i := by
  obtain ⟨e0, e1, -⟩ := idx5 t
  unfold iblk5
  rw [View.read_apply]
  show V c (Pipeline.arrRef spec5 0) _ = V c (Pipeline.arrRef spec5 0) _
  congr 1
  funext a; apply Fin.ext
  match a with
  | ⟨0, _⟩ => show win5_0.index t (0 : Fin 2) * 10000 + 1 * (y 0).val = (i 0).val; rw [e0, h0]; omega
  | ⟨1, _⟩ => show win5_0.index t (1 : Fin 2) * 64 + 1 * (y 1).val = (i 1).val; rw [e1, h1]; omega

/-- The block of the square matrix every point reads is the matrix itself. -/
theorem whole5 (c : Dev nD) (t : Fin cfg5.N) (y : S64x64.Idx) :
    (iblk5 V c 1 t : Vec Ideal S64x64 .f32) y = (V c (Pipeline.arrRef spec5 1) : S64x64.Idx → EReal) y := by
  obtain ⟨-, -, e0, e1, -⟩ := idx5 t
  unfold iblk5
  rw [View.read_apply]
  show V c (Pipeline.arrRef spec5 1) _ = V c (Pipeline.arrRef spec5 1) _
  congr 1
  funext a; apply Fin.ext
  match a with
  | ⟨0, _⟩ => show win5_1.index t (0 : Fin 2) * 64 + 1 * (y 0).val = (y 0).val; rw [e0]; omega
  | ⟨1, _⟩ => show win5_1.index t (1 : Fin 2) * 64 + 1 * (y 1).val = (y 1).val; rw [e1]; omega

/-- WHAT POINT t WRITES BACK is block t of the product of the two arrays as the stage finds them. -/
theorem flushed5_eq (c : Dev nD) (t : Fin cfg5.N) :
    (dat5 (F := Ideal) V c).flushed 2 t = ((cfg5.win 2).blk t).view.read (Elt Ideal)
      (Cert.GSpec.matMul (V c (Pipeline.arrRef spec5 0) : S100000x64.Idx → EReal) (V c (Pipeline.arrRef spec5 1) : S64x64.Idx → EReal)) := by
  show (cfg5.win 2).cut (grid5.coords t) ((dat5 V c).after 2 t) = _
  rw [after5_2]
  unfold out5_2
  rw [View.canon_unit_zero origin5]
  simp only [View.ld_unit_zero (S := S10000x64) origin5, View.ld_unit_zero (S := S64x64) origin5]
  obtain ⟨-, -, -, -, e0, e1⟩ := idx5 t
  funext j
  obtain ⟨p, q, rfl⟩ : ∃ (p : Fin 10000) (q : Fin 64), j = ix2 p q := ⟨j 0, j 1, eq_ix2 j⟩
  show k5_pay1 (F := Ideal) (iblk5 V c 0 t) (iblk5 V c 1 t) (ix2 p q)
    = Cert.GSpec.matMul (V c (Pipeline.arrRef spec5 0) : S100000x64.Idx → EReal) (V c (Pipeline.arrRef spec5 1) : S64x64.Idx → EReal) (((cfg5.win 2).blk t).view.emb (ix2 p q))
  rw [pay5_apply]
  unfold Cert.GSpec.matMul
  refine Finset.sum_congr rfl fun k _ => ?_
  rw [rows5 V c t (ix2 p k) (ix2 (Cert.GSpec.row (((cfg5.win 2).blk t).view.emb (ix2 p q))) k) ?_ rfl, whole5 V c t (ix2 k q)]
  · congr 2
    funext a; apply Fin.ext
    match a with
    | ⟨0, _⟩ => rfl
    | ⟨1, _⟩ => show q.val = win5_2.index t (1 : Fin 2) * 64 + 1 * q.val; rw [e1]; omega
  · show win5_2.index t (0 : Fin 2) * 10000 + 1 * p.val = t.val * 10000 + p.val; rw [e0]; omega

/-- An index of the output array is in point t's block iff each coordinate is in the block's range on its axis. -/
theorem mem_blk5 (t : Fin cfg5.N) (i : S100000x64.Idx) :
    i ∈ ((cfg5.win 2).blk t).view.set ↔ ∀ a : Fin 2, win5_2.index t a * S10000x64.size a ≤ (i a).val ∧ (i a).val < win5_2.index t a * S10000x64.size a + S10000x64.size a := by
  show i ∈ ((View.whole main_v75).slice (win5_2.rect t)).set ↔ _
  rw [View.set_slice_whole, Rect.mem_set_unit]
  exact Iff.rfl

/-- Every entry of the output array lies in some point's block: row r is in block r / 10000. -/
theorem cover5 (i : S100000x64.Idx) : ∃ t : Fin cfg5.N, (cfg5.win 2).flush t = true ∧ i ∈ ((cfg5.win 2).blk t).view.set := by
  have hN : cfg5.N = 10 := N_5
  have hi0 : (i 0).val < 100000 := (i 0).isLt
  have hi1 : (i 1).val < 64 := (i 1).isLt
  refine ⟨⟨(i 0).val / 10000, by omega⟩, flush5_2 _, ?_⟩
  obtain ⟨-, -, -, -, e0, e1⟩ := idx5 ⟨(i 0).val / 10000, by omega⟩
  rw [mem_blk5]
  intro a
  match a with
  | ⟨0, _⟩ => show win5_2.index _ (0 : Fin 2) * 10000 ≤ (i 0).val ∧ (i 0).val < win5_2.index _ (0 : Fin 2) * 10000 + 10000; rw [e0]; show (i 0).val / 10000 * 10000 ≤ (i 0).val ∧ (i 0).val < (i 0).val / 10000 * 10000 + 10000; omega
  | ⟨1, _⟩ => show win5_2.index _ (1 : Fin 2) * 64 ≤ (i 1).val ∧ (i 1).val < win5_2.index _ (1 : Fin 2) * 64 + 64; rw [e1]; omega

/-- THE OUTPUT ARRAY after the stage's ten points: the product of the two arrays the stage reads, as it finds them. -/
theorem final5 (c : Dev nD) :
    (dat5 (F := Ideal) V c).arrAt 2 cfg5.N
      = Cert.GSpec.matMul (V c (Pipeline.arrRef spec5 0) : S100000x64.Idx → EReal) (V c (Pipeline.arrRef spec5 1) : S64x64.Idx → EReal) :=
  (dat5 (F := Ideal) V c).arrAt_eq_of_cover 2 _ (fun t _ => flushed5_eq V c t) cover5

end Cert.KernelIdeal.KVal

end
-- ==== Proof.KVal7.lean ====
/-
  The last tiled stage of the kernel, read as one array: after its ten grid points have run, the stage's output
  array is, entry by entry, the array it reads by rows (ten blocks of 10000 rows) with a bias row added to every
  row, normalised by a GIVEN mean row and variance row, scaled and shifted by two more rows:
  (x + b − μ) · (σ² + ε)^(-1/2) · γ + β, each row read at the entry's column.
-/
import proofs.«103981_j8873402434235_1_alg».proof.Proof.Gen.KernelIdeal.Frame
import proofs.«103981_j8873402434235_1_alg».proof.Proof.GSpec
import Idealize.ShloMosaic.Lib.Pipeline.Value
import Idealize.ShloMosaic.Lib.ValueIdx
import Idealize.ShloMosaic.PureOps.Ideal.Laws

noncomputable section

open scoped BigOperators

namespace Cert.KernelIdeal.KVal

open Cert.KernelIdeal Cert.KernelIdeal.Gen Idealize.ShloMosaic Idealize.ShloMosaic.TcCoe Idealize.SL.Sem
open Idealize.ShloMosaic.Pipeline (Dat)
open Idealize.ShloMosaic.ValueIdx

/-- The zero offsets of a whole-block access, however they are spelt. -/
theorem origin7 : (![0, 0] : Fin 2 → Nat) = fun _ => 0 := funext fun a => by fin_cases a <;> rfl

/-! ## The body's arithmetic at an entry -/

/-- A row stretched over 10000 rows reads, at entry (p, q), the row's entry q. -/
theorem stretch7 {α : Type} (v : S1x64.Idx → α) (h : S1x64.Broadcasts S10000x64) (p : Fin 10000) (q : Fin 64) :
    broadcastTo S10000x64 v h (ix2 p q) = v (ix2 0 q) :=
  broadcastTo_apply v h (ix2 p q) (ix2 0 q) fun a => by
    match a with
    | ⟨0, _⟩ => rfl
    | ⟨1, _⟩ => rfl

/-- The body's stored value at entry (p, q) of its block: the bias row added, the mean row taken off, times the
    inverse square root of the variance row plus the stabiliser, times the scale row, plus the shift row — each row read at column q. -/
theorem pay7_apply (x0 : Vec Ideal S10000x64 .f32) (b mu va g be : Vec Ideal S1x64 .f32) (p : Fin 10000) (q : Fin 64) :
    k7_pay1 (F := Ideal) x0 b mu va g be (ix2 p q) = (x0 (ix2 p q) + b (ix2 0 q) - mu (ix2 0 q)) * Ideal.rsqrt (va (ix2 0 q) + Cert.GSpec.eps) * g (ix2 0 q) + be (ix2 0 q) := by
  unfold k7_pay1
  simp only [shapeCast_self, addf_apply, mulf_apply, subf_apply, stretch7, broadcast_apply]
  rfl

/-! ## From the ten blocks to the array -/

variable (V : (c : Dev nD) → (b : Ref sig .tc) → Buf (Elt Ideal) ((c : Thread nD τ).loc b))

/-- The printed block index maps, decided over the ten grid points: point t reads row block t of the array it
    tiles and writes row block t of the output; each of the five rows is read whole at every point. -/
theorem idx7 : ∀ t : Fin cfg7.N, win7_0.index t (0 : Fin 2) = t.val ∧ win7_0.index t (1 : Fin 2) = 0
    ∧ win7_1.index t (0 : Fin 2) = 0 ∧ win7_1.index t (1 : Fin 2) = 0
    ∧ win7_2.index t (0 : Fin 2) = 0 ∧ win7_2.index t (1 : Fin 2) = 0
    ∧ win7_3.index t (0 : Fin 2) = 0 ∧ win7_3.index t (1 : Fin 2) = 0
    ∧ win7_4.index t (0 : Fin 2) = 0 ∧ win7_4.index t (1 : Fin 2) = 0
    ∧ win7_5.index t (0 : Fin 2) = 0 ∧ win7_5.index t (1 : Fin 2) = 0
    ∧ win7_6.index t (0 : Fin 2) = t.val ∧ win7_6.index t (1 : Fin 2) = 0 :=
  (by decide +kernel : ∀ t : Fin grid7.N, _)

set_option maxHeartbeats 4000000 in
/-- Entry y of the row block point t reads is entry (10000 t + y₀, y₁) of the array. -/
theorem rows7 (c : Dev nD) (t : Fin cfg7.N) (y : S10000x64.Idx) (i : S100000x64.Idx)
    (h0 : (i 0).val = t.val * 10000 + (y 0).val) (h1 : (i 1).val = (y 1).val) :
    (iblk7 V c 0 t : Vec Ideal S10000x64 .f32) y = (V c (Pipeline.arrRef spec7 0) : S100000x64.Idx → EReal) i := by
  obtain ⟨e0, e1, -⟩ := idx7 t
  unfold iblk7
  rw [View.read_apply]
  show V c (Pipeline.arrRef spec7 0) _ = V c (Pipeline.arrRef spec7 0) _
  congr 1
  funext a; apply Fin.ext
  match a with
  | ⟨0, _⟩ => show win7_0.index t (0 : Fin 2) * 10000 + 1 * (y 0).val = (i 0).val; rw [e0, h0]; omega
  | ⟨1, _⟩ => show win7_0.index t (1 : Fin 2) * 64 + 1 * (y 1).val = (i 1).val; rw [e1, h1]; omega

set_option maxHeartbeats 4000000 in
/-- The bias row every point reads is the whole one-row array. -/
theorem row7_1 (c : Dev nD) (t : Fin cfg7.N) (y : S1x64.Idx) :
    (iblk7 V c 1 t : Vec Ideal S1x64 .f32) y = (V c (Pipeline.arrRef spec7 1) : S1x64.Idx → EReal) y := by
  obtain ⟨-, -, e0, e1, -⟩ := idx7 t
  unfold iblk7
  rw [View.read_apply]
  show V c (Pipeline.arrRef spec7 1) _ = V c (Pipeline.arrRef spec7 1) _
  congr 1
  funext a; apply Fin.ext
  match a with
  | ⟨0, _⟩ => show win7_1.index t (0 : Fin 2) * 1 + 1 * (y 0).val = (y 0).val; rw [e0]; omega
  | ⟨1, _⟩ => show win7_1.index t (1 : Fin 2) * 64 + 1 * (y 1).val = (y 1).val; rw [e1]; omega

set_option maxHeartbeats 4000000 in
/-- The mean row every point reads is the whole one-row array. -/
theorem row7_2 (c : Dev nD) (t : Fin cfg7.N) (y : S1x64.Idx) :
    (iblk7 V c 2 t : Vec Ideal S1x64 .f32) y = (V c (Pipeline.arrRef spec7 2) : S1x64.Idx → EReal) y := by
  obtain ⟨-, -, -, -, e0, e1, -⟩ := idx7 t
  unfold iblk7
  rw [View.read_apply]
  show V c (Pipeline.arrRef spec7 2) _ = V c (Pipeline.arrRef spec7 2) _
  congr 1
  funext a; apply Fin.ext
  match a with
  | ⟨0, _⟩ => show win7_2.index t (0 : Fin 2) * 1 + 1 * (y 0).val = (y 0).val; rw [e0]; omega
  | ⟨1, _⟩ => show win7_2.index t (1 : Fin 2) * 64 + 1 * (y 1).val = (y 1).val; rw [e1]; omega

set_option maxHeartbeats 4000000 in
/-- The variance row every point reads is the whole one-row array. -/
theorem row7_3 (c : Dev nD) (t : Fin cfg7.N) (y : S1x64.Idx) :
    (iblk7 V c 3 t : Vec Ideal S1x64 .f32) y = (V c (Pipeline.arrRef spec7 3) : S1x64.Idx → EReal) y := by
  obtain ⟨-, -, -, -, -, -, e0, e1, -⟩ := idx7 t
  unfold iblk7
  rw [View.read_apply]
  show V c (Pipeline.arrRef spec7 3) _ = V c (Pipeline.arrRef spec7 3) _
  congr 1
  funext a; apply Fin.ext
  match a with
  | ⟨0, _⟩ => show win7_3.index t (0 : Fin 2) * 1 + 1 * (y 0).val = (y 0).val; rw [e0]; omega
  | ⟨1, _⟩ => show win7_3.index t (1 : Fin 2) * 64 + 1 * (y 1).val = (y 1).val; rw [e1]; omega

set_option maxHeartbeats 4000000 in
/-- The scale row every point reads is the whole one-row array. -/
theorem row7_4 (c : Dev nD) (t : Fin cfg7.N) (y : S1x64.Idx) :
    (iblk7 V c 4 t : Vec Ideal S1x64 .f32) y = (V c (Pipeline.arrRef spec7 4) : S1x64.Idx → EReal) y := by
  obtain ⟨-, -, -, -, -, -, -, -, e0, e1, -⟩ := idx7 t
  unfold iblk7
  rw [View.read_apply]
  show V c (Pipeline.arrRef spec7 4) _ = V c (Pipeline.arrRef spec7 4) _
  congr 1
  funext a; apply Fin.ext
  match a with
  | ⟨0, _⟩ => show win7_4.index t (0 : Fin 2) * 1 + 1 * (y 0).val = (y 0).val; rw [e0]; omega
  | ⟨1, _⟩ => show win7_4.index t (1 : Fin 2) * 64 + 1 * (y 1).val = (y 1).val; rw [e1]; omega

set_option maxHeartbeats 4000000 in
/-- The shift row every point reads is the whole one-row array. -/
theorem row7_5 (c : Dev nD) (t : Fin cfg7.N) (y : S1x64.Idx) :
    (iblk7 V c 5 t : Vec Ideal S1x64 .f32) y = (V c (Pipeline.arrRef spec7 5) : S1x64.Idx → EReal) y := by
  obtain ⟨-, -, -, -, -, -, -, -, -, -, e0, e1, -⟩ := idx7 t
  unfold iblk7
  rw [View.read_apply]
  show V c (Pipeline.arrRef spec7 5) _ = V c (Pipeline.arrRef spec7 5) _
  congr 1
  funext a; apply Fin.ext
  match a with
  | ⟨0, _⟩ => show win7_5.index t (0 : Fin 2) * 1 + 1 * (y 0).val = (y 0).val; rw [e0]; omega
  | ⟨1, _⟩ => show win7_5.index t (1 : Fin 2) * 64 + 1 * (y 1).val = (y 1).val; rw [e1]; omega

set_option maxHeartbeats 4000000 in
/-- WHAT POINT t WRITES BACK is block t of the whole-array map of the six arrays as the stage finds them. -/
theorem flushed7_eq (c : Dev nD) (t : Fin cfg7.N) :
    (dat7 (F := Ideal) V c).flushed 6 t = ((cfg7.win 6).blk t).view.read (Elt Ideal)
      (Cert.GSpec.normAffine (Cert.GSpec.addRow (V c (Pipeline.arrRef spec7 0) : S100000x64.Idx → EReal) (V c (Pipeline.arrRef spec7 1) : S1x64.Idx → EReal)) (V c (Pipeline.arrRef spec7 2) : S1x64.Idx → EReal) (V c (Pipeline.arrRef spec7 3) : S1x64.Idx → EReal) (V c (Pipeline.arrRef spec7 4) : S1x64.Idx → EReal) (V c (Pipeline.arrRef spec7 5) : S1x64.Idx → EReal)) := by
  show (cfg7.win 6).cut (grid7.coords t) ((dat7 V c).after 6 t) = _
  rw [after7_6]
  unfold out7_6
  rw [View.canon_unit_zero origin7]
  simp only [View.ld_unit_zero (S := S10000x64) origin7, View.ld_unit_zero (S := S1x64) origin7]
  obtain ⟨-, -, -, -, -, -, -, -, -, -, -, -, e0, e1⟩ := idx7 t
  funext j
  obtain ⟨p, q, rfl⟩ : ∃ (p : Fin 10000) (q : Fin 64), j = ix2 p q := ⟨j 0, j 1, eq_ix2 j⟩
  show k7_pay1 (F := Ideal) (iblk7 V c 0 t) (iblk7 V c 1 t) (iblk7 V c 2 t) (iblk7 V c 3 t) (iblk7 V c 4 t) (iblk7 V c 5 t) (ix2 p q)
    = (Cert.GSpec.normAffine (Cert.GSpec.addRow (V c (Pipeline.arrRef spec7 0) : S100000x64.Idx → EReal) (V c (Pipeline.arrRef spec7 1) : S1x64.Idx → EReal)) (V c (Pipeline.arrRef spec7 2) : S1x64.Idx → EReal) (V c (Pipeline.arrRef spec7 3) : S1x64.Idx → EReal) (V c (Pipeline.arrRef spec7 4) : S1x64.Idx → EReal) (V c (Pipeline.arrRef spec7 5) : S1x64.Idx → EReal)) (((cfg7.win 6).blk t).view.emb (ix2 p q))
  have hcol : Cert.GSpec.col (((cfg7.win 6).blk t).view.emb (ix2 p q) : S100000x64.Idx) = q :=
    Fin.ext (by show win7_6.index t (1 : Fin 2) * 64 + 1 * q.val = q.val; rw [e1]; omega)
  rw [pay7_apply]
  unfold Cert.GSpec.normAffine Cert.GSpec.addRow
  rw [hcol, rows7 V c t (ix2 p q) (((cfg7.win 6).blk t).view.emb (ix2 p q)) ?_ ?_, row7_1 V c t, row7_2 V c t, row7_3 V c t, row7_4 V c t, row7_5 V c t]
  · show win7_6.index t (0 : Fin 2) * 10000 + 1 * p.val = t.val * 10000 + p.val; rw [e0]; omega
  · show win7_6.index t (1 : Fin 2) * 64 + 1 * q.val = q.val; rw [e1]; omega

set_option maxHeartbeats 4000000 in
/-- An index of the output array is in point t's block iff each coordinate is in the block's range on its axis. -/
theorem mem_blk7 (t : Fin cfg7.N) (i : S100000x64.Idx) :
    i ∈ ((cfg7.win 6).blk t).view.set ↔ ∀ a : Fin 2, win7_6.index t a * S10000x64.size a ≤ (i a).val ∧ (i a).val < win7_6.index t a * S10000x64.size a + S10000x64.size a := by
  show i ∈ ((View.whole main_v130).slice (win7_6.rect t)).set ↔ _
  rw [View.set_slice_whole, Rect.mem_set_unit]
  exact Iff.rfl

set_option maxHeartbeats 4000000 in
/-- Every entry of the output array lies in some point's block: row r is in block r / 10000. -/
theorem cover7 (i : S100000x64.Idx) : ∃ t : Fin cfg7.N, (cfg7.win 6).flush t = true ∧ i ∈ ((cfg7.win 6).blk t).view.set := by
  have hN : cfg7.N = 10 := N_7
  have hi0 : (i 0).val < 100000 := (i 0).isLt
  have hi1 : (i 1).val < 64 := (i 1).isLt
  refine ⟨⟨(i 0).val / 10000, by omega⟩, flush7_6 _, ?_⟩
  obtain ⟨-, -, -, -, -, -, -, -, -, -, -, -, e0, e1⟩ := idx7 ⟨(i 0).val / 10000, by omega⟩
  rw [mem_blk7]
  intro a
  match a with
  | ⟨0, _⟩ => show win7_6.index _ (0 : Fin 2) * 10000 ≤ (i 0).val ∧ (i 0).val < win7_6.index _ (0 : Fin 2) * 10000 + 10000; rw [e0]; show (i 0).val / 10000 * 10000 ≤ (i 0).val ∧ (i 0).val < (i 0).val / 10000 * 10000 + 10000; omega
  | ⟨1, _⟩ => show win7_6.index _ (1 : Fin 2) * 64 ≤ (i 1).val ∧ (i 1).val < win7_6.index _ (1 : Fin 2) * 64 + 64; rw [e1]; omega

set_option maxHeartbeats 4000000 in
/-- THE OUTPUT ARRAY after the stage's ten points: the bias row added to every row of the tiled array, then the
    normalise-and-affine map with the given mean, variance, scale and shift rows. -/
theorem final7 (c : Dev nD) :
    (dat7 (F := Ideal) V c).arrAt 6 cfg7.N
      = Cert.GSpec.normAffine (Cert.GSpec.addRow (V c (Pipeline.arrRef spec7 0) : S100000x64.Idx → EReal) (V c (Pipeline.arrRef spec7 1) : S1x64.Idx → EReal)) (V c (Pipeline.arrRef spec7 2) : S1x64.Idx → EReal) (V c (Pipeline.arrRef spec7 3) : S1x64.Idx → EReal) (V c (Pipeline.arrRef spec7 4) : S1x64.Idx → EReal) (V c (Pipeline.arrRef spec7 5) : S1x64.Idx → EReal) :=
  (dat7 (F := Ideal) V c).arrAt_eq_of_cover 6 _ (fun t _ => flushed7_eq V c t) cover7

end Cert.KernelIdeal.KVal

end
-- ==== Proof.GOut.lean ====
/-
  The whole two-layer network over the stage functions, with the batch normalisation and the graph aggregation as
  parameters: input normalisation, projection with bias and positive part; then twice: product with the layer's
  matrix, aggregation, bias, normalisation (followed by the positive part after the first layer only).
  With an aggregation that keeps real entries real, and real inputs, the network built on the sums-of-squares
  variance and the network built on the squared-deviations variance are the same function.
-/
import proofs.«103981_j8873402434235_1_alg».proof.Proof.GStages

noncomputable section

open scoped BigOperators
open Idealize.ShloMosaic Idealize.ShloMosaic.ValueIdx
open Cert.BNMath

namespace Cert.GSpec

/-- The network, given a batch normalisation `bn` (per width) and an aggregation `A`. -/
def net (bn128 : Arr 100000 128 → Arr 1 128 → Arr 1 128 → Arr 100000 128)
    (bn64 : Arr 100000 64 → Arr 1 64 → Arr 1 64 → Arr 100000 64) (A : Arr 100000 64 → Arr 100000 64)
    (x : Arr 100000 128) (g0 b0 : Arr 1 128) (Wp : Arr 128 64) (bp : Arr 1 64)
    (W1 : Arr 64 64) (b1 g1 be1 : Arr 1 64) (W2 : Arr 64 64) (b2 g2 be2 : Arr 1 64) : Arr 100000 64 :=
  bn64 (addRow (A (matMul (relu (bn64 (addRow (A (matMul (relu (addRow (matMul (bn128 x g0 b0) Wp) bp)) W1)) b1) g1 be1)) W2)) b2) g2 be2

/-- On real inputs, with an aggregation that keeps real arrays real, the two variance formulas give one network. -/
theorem net_bnK_eq_bnR (A : Arr 100000 64 → Arr 100000 64) (hA : ∀ p, IsReal p → IsReal (A p))
    (x : Arr 100000 128) (g0 b0 : Arr 1 128) (Wp : Arr 128 64) (bp : Arr 1 64)
    (W1 : Arr 64 64) (b1 g1 be1 : Arr 1 64) (W2 : Arr 64 64) (b2 g2 be2 : Arr 1 64)
    (hx : IsReal x) (hg0 : IsReal g0) (hb0 : IsReal b0) (hWp : IsReal Wp) (hbp : IsReal bp)
    (hW1 : IsReal W1) (hb1 : IsReal b1) (hg1 : IsReal g1) (hbe1 : IsReal be1)
    (hW2 : IsReal W2) (hb2 : IsReal b2) (hg2 : IsReal g2) (hbe2 : IsReal be2) :
    net bnK bnK A x g0 b0 Wp bp W1 b1 g1 be1 W2 b2 g2 be2 = net bnR bnR A x g0 b0 Wp bp W1 b1 g1 be1 W2 b2 g2 be2 := by
  unfold net
  -- the input normalisation
  rw [bnK_eq_bnR x g0 b0 hx]
  have h0 : IsReal (relu (addRow (matMul (bnR x g0 b0) Wp) bp)) :=
    isReal_relu _ (isReal_addRow _ _ (isReal_matMul _ _ (isReal_bnR x g0 b0 hx hg0 hb0) hWp) hbp)
  -- the first layer
  have hy1 : IsReal (addRow (A (matMul (relu (addRow (matMul (bnR x g0 b0) Wp) bp)) W1)) b1) :=
    isReal_addRow _ _ (hA _ (isReal_matMul _ _ h0 hW1)) hb1
  rw [bnK_eq_bnR _ g1 be1 hy1]
  have h1 : IsReal (relu (bnR (addRow (A (matMul (relu (addRow (matMul (bnR x g0 b0) Wp) bp)) W1)) b1) g1 be1)) :=
    isReal_relu _ (isReal_bnR _ g1 be1 hy1 hg1 hbe1)
  -- the second layer
  have hy2 : IsReal (addRow (A (matMul (relu (bnR (addRow (A (matMul (relu (addRow (matMul (bnR x g0 b0) Wp) bp)) W1)) b1) g1 be1)) W2)) b2) :=
    isReal_addRow _ _ (hA _ (isReal_matMul _ _ h1 hW2)) hb2
  rw [bnK_eq_bnR _ g2 be2 hy2]

end Cert.GSpec

end
-- ==== Proof.KOut.lean ====
/-
  The tiled program's result, read through its eight stages and the host operations between them, is the network
  over the stage functions with the sums-of-squares variance and the program's own graph aggregation.
-/
import proofs.«103981_j8873402434235_1_alg».proof.Proof.KChain
import proofs.«103981_j8873402434235_1_alg».proof.Proof.KRead
import proofs.«103981_j8873402434235_1_alg».proof.Proof.KStat3
import proofs.«103981_j8873402434235_1_alg».proof.Proof.KStat6
import proofs.«103981_j8873402434235_1_alg».proof.Proof.KVal1
import proofs.«103981_j8873402434235_1_alg».proof.Proof.KVal2
import proofs.«103981_j8873402434235_1_alg».proof.Proof.KVal4
import proofs.«103981_j8873402434235_1_alg».proof.Proof.KVal5
import proofs.«103981_j8873402434235_1_alg».proof.Proof.KVal7
import proofs.«103981_j8873402434235_1_alg».proof.Proof.GOut

set_option maxRecDepth 16384
set_option maxHeartbeats 4000000

noncomputable section

namespace Cert.KernelIdeal.KVal

open Idealize.ShloMosaic Idealize.ShloMosaic.TcCoe
open Idealize.ShloMosaic.Pipeline (Dat Cfg Window)
open Cert.KernelIdeal.Gen Cert.KernelIdeal.KRead Cert.GSpec

variable (m : (ℓ : Loc nD τ sig) → Buf (Elt Ideal) ℓ) (ρ : Dev nD → PrngReg) (c : Dev nD)

/-- The launch contents of the arguments, with the names of the network's parameters. -/
abbrev aX : C S100000x128 .f32 := m ((c : Thread nD τ).loc main_arg0)
abbrev aE : C S2x1600000 .i32 := m ((c : Thread nD τ).loc main_arg1)

/-- Stage 0: the column sums and sums of squares of the input. -/
theorem st0_1 : (dat0 (V1 m ρ) c).arrAt 1 cfg0.N = colSum (aX m c) := by
  rw [final0_1 (V1 m ρ) c]
  show colSum (V1 m ρ c (Pipeline.arrRef spec0 0) : C S100000x128 .f32) = _
  rw [in0_0 m ρ c]
theorem st0_2 : (dat0 (V1 m ρ) c).arrAt 2 cfg0.N = colSumSq (aX m c) := by
  rw [final0_2 (V1 m ρ) c]
  show colSumSq (V1 m ρ c (Pipeline.arrRef spec0 0) : C S100000x128 .f32) = _
  rw [in0_0 m ρ c]

/-- Stage 1: the normalised input, projected, biased, positive part. -/
theorem st1 : (dat1 (V3 m ρ) c).arrAt 7 cfg1.N
    = relu (addRow (matMul (bnK (aX m c) (rowOf (m ((c : Thread nD τ).loc main_arg2))) (rowOf (m ((c : Thread nD τ).loc main_arg3))))
        (m ((c : Thread nD τ).loc main_arg4))) (rowOf (m ((c : Thread nD τ).loc main_arg5)))) := by
  rw [final1 (V3 m ρ) c, in1_0 m ρ c, in1_1 m ρ c, in1_2 m ρ c, in1_3 m ρ c, in1_4 m ρ c, in1_5 m ρ c, in1_6 m ρ c,
    st0_1 m ρ c, st0_2 m ρ c, meanRow128_eq, varRow128_eq, row128_eq, row128_eq, row64_eq]
  rfl

/-- Stage 2: the first layer's product. -/
theorem st2 : (dat2 (V4 m ρ) c).arrAt 2 cfg2.N = matMul ((dat1 (V3 m ρ) c).arrAt 7 cfg1.N) (m ((c : Thread nD τ).loc main_arg6)) := by
  rw [final2 (V4 m ρ) c, in2_0 m ρ c, in2_1 m ρ c]

/-- The first layer's aggregated product plus bias. -/
abbrev y1 : C S100000x64 .f32 :=
  addRow (aggK (aE m c) ((dat2 (V4 m ρ) c).arrAt 2 cfg2.N)) (rowOf (m ((c : Thread nD τ).loc main_arg7)))

/-- Stage 3: its column sums and sums of squares. -/
theorem st3_2 : (dat3 (V8 m ρ) c).arrAt 2 cfg3.N = colSum (y1 m ρ c) := by
  rw [final3_2 (V8 m ρ) c]
  show colSum (addRow (V8 m ρ c (Pipeline.arrRef spec3 0) : C S100000x64 .f32) (V8 m ρ c (Pipeline.arrRef spec3 1) : C S1x64 .f32)) = _
  rw [in3_0 m ρ c, in3_1 m ρ c, row64_eq]
theorem st3_3 : (dat3 (V8 m ρ) c).arrAt 3 cfg3.N = colSumSq (y1 m ρ c) := by
  rw [final3_3 (V8 m ρ) c]
  show colSumSq (addRow (V8 m ρ c (Pipeline.arrRef spec3 0) : C S100000x64 .f32) (V8 m ρ c (Pipeline.arrRef spec3 1) : C S1x64 .f32)) = _
  rw [in3_0 m ρ c, in3_1 m ρ c, row64_eq]

/-- Stage 4: the first layer normalised, positive part. -/
theorem st4 : (dat4 (V10 m ρ) c).arrAt 6 cfg4.N
    = relu (bnK (y1 m ρ c) (rowOf (m ((c : Thread nD τ).loc main_arg8))) (rowOf (m ((c : Thread nD τ).loc main_arg9)))) := by
  rw [final4 (V10 m ρ) c, in4_0 m ρ c, in4_1 m ρ c, in4_2 m ρ c, in4_3 m ρ c, in4_4 m ρ c, in4_5 m ρ c,
    st3_2 m ρ c, st3_3 m ρ c, meanRow64_eq, varRow64_eq, row64_eq, row64_eq, row64_eq]
  rfl

/-- Stage 5: the second layer's product. -/
theorem st5 : (dat5 (V11 m ρ) c).arrAt 2 cfg5.N = matMul ((dat4 (V10 m ρ) c).arrAt 6 cfg4.N) (m ((c : Thread nD τ).loc main_arg10)) := by
  rw [final5 (V11 m ρ) c, in5_0 m ρ c, in5_1 m ρ c]

/-- The second layer's aggregated product plus bias. -/
abbrev y2 : C S100000x64 .f32 :=
  addRow (aggK (aE m c) ((dat5 (V11 m ρ) c).arrAt 2 cfg5.N)) (rowOf (m ((c : Thread nD τ).loc main_arg11)))

theorem st6_2 : (dat6 (V15 m ρ) c).arrAt 2 cfg6.N = colSum (y2 m ρ c) := by
  rw [final6_2 (V15 m ρ) c]
  show colSum (addRow (V15 m ρ c (Pipeline.arrRef spec6 0) : C S100000x64 .f32) (V15 m ρ c (Pipeline.arrRef spec6 1) : C S1x64 .f32)) = _
  rw [in6_0 m ρ c, in6_1 m ρ c, row64_eq]
theorem st6_3 : (dat6 (V15 m ρ) c).arrAt 3 cfg6.N = colSumSq (y2 m ρ c) := by
  rw [final6_3 (V15 m ρ) c]
  show colSumSq (addRow (V15 m ρ c (Pipeline.arrRef spec6 0) : C S100000x64 .f32) (V15 m ρ c (Pipeline.arrRef spec6 1) : C S1x64 .f32)) = _
  rw [in6_0 m ρ c, in6_1 m ρ c, row64_eq]

/-- Stage 7: the second layer normalised. -/
theorem st7 : (dat7 (V17 m ρ) c).arrAt 6 cfg7.N
    = bnK (y2 m ρ c) (rowOf (m ((c : Thread nD τ).loc main_arg12))) (rowOf (m ((c : Thread nD τ).loc main_arg13))) := by
  rw [final7 (V17 m ρ) c, in7_0 m ρ c, in7_1 m ρ c, in7_2 m ρ c, in7_3 m ρ c, in7_4 m ρ c, in7_5 m ρ c,
    st6_2 m ρ c, st6_3 m ρ c, meanRow64_eq, varRow64_eq, row64_eq, row64_eq, row64_eq]
  rfl

/-- The result is the network. -/
theorem kernel_value : (W18 m ρ c (Proc.devRef .tc main_v130) : C S100000x64 .f32)
    = net bnK bnK (aggK (aE m c)) (aX m c) (rowOf (m ((c : Thread nD τ).loc main_arg2))) (rowOf (m ((c : Thread nD τ).loc main_arg3)))
        (m ((c : Thread nD τ).loc main_arg4)) (rowOf (m ((c : Thread nD τ).loc main_arg5)))
        (m ((c : Thread nD τ).loc main_arg6)) (rowOf (m ((c : Thread nD τ).loc main_arg7))) (rowOf (m ((c : Thread nD τ).loc main_arg8))) (rowOf (m ((c : Thread nD τ).loc main_arg9)))
        (m ((c : Thread nD τ).loc main_arg10)) (rowOf (m ((c : Thread nD τ).loc main_arg11))) (rowOf (m ((c : Thread nD τ).loc main_arg12))) (rowOf (m ((c : Thread nD τ).loc main_arg13))) := by
  rw [result_eq m ρ c, st7 m ρ c]
  unfold net
  show bnK (addRow (aggK (aE m c) ((dat5 (V11 m ρ) c).arrAt 2 cfg5.N)) _) _ _ = _
  rw [st5 m ρ c, st4 m ρ c]
  show bnK (addRow (aggK (aE m c) (matMul (relu (bnK (addRow (aggK (aE m c) ((dat2 (V4 m ρ) c).arrAt 2 cfg2.N)) _) _ _)) _)) _) _ _ = _
  rw [st2 m ρ c, st1 m ρ c]

end Cert.KernelIdeal.KVal

end
-- ==== Proof.KAggEq.lean ====
/-
  The graph aggregation between two tiled stages is the reference's aggregation, as functions of the edge list and
  the feature array. Both are the same chain of operations — the edge rows with the self loops appended, the degrees
  by a scatter-add of ones, their reciprocal roots where positive, the edge weights as products of the end points'
  factors, the gather of the source rows, the scaling, the scatter-add at the targets — over the same shapes and the
  same dimension records, each program spelling its own copy of them. The one difference in the arithmetic: the
  reference multiplies the first gathered factor by a vector of ones before the second, and x * 1 = x.
-/
import proofs.«103981_j8873402434235_1_alg».proof.Proof.KAggDefs
import proofs.«103981_j8873402434235_1_alg».proof.Proof.RefStages
import proofs.«103981_j8873402434235_1_alg».proof.Proof.BNMath
import Idealize.ShloMosaic.Lib.ValueIdx

noncomputable section

open Idealize.ShloMosaic Idealize.ShloMosaic.ValueIdx

namespace Cert.KernelIdeal.KRead

open Cert.KernelIdeal.KVal (C withLoops colI normIdx degree degInv atEdges edgeW aggCore aggK edgeRow0 edgeRow1)
open Cert.ReferenceIdeal.RefValue (srcV dstV wrapIx ones17 oneS zeroS degOf dinvOf srcIx dstIx normOf aggOf)

variable [Cert.ReferenceIdeal.Facts]

/-- Multiplying by the vector of ones changes nothing: its word denotes 1. -/
theorem mulf_ones17 (a : FVec Ideal Cert.ReferenceIdeal.S1700000 .f32) : mulf a ones17 = a := by
  funext i
  rw [mulf_apply]
  show a i * Ideal.ofBits .f32 0x3F800000#32 = a i
  rw [Cert.BNMath.ofBits_one, mul_one]

/-- The sources with the self loops appended. -/
theorem src_eq (e : C Cert.KernelIdeal.S2x1600000 .i32) : withLoops (edgeRow0 e) = srcV e := rfl

/-- The targets with the self loops appended. -/
theorem dst_eq (e : C Cert.KernelIdeal.S2x1600000 .i32) : withLoops (edgeRow1 e) = dstV e := rfl

/-- Negative node numbers moved up by the node count, as a column of indices. -/
theorem wrap_eq (v : C Cert.KernelIdeal.S1700000 .i32) : colI (normIdx v) = wrapIx v := rfl

/-- The degrees. -/
theorem deg_eq (e : C Cert.KernelIdeal.S2x1600000 .i32) : degree (withLoops (edgeRow1 e)) = degOf e := by
  unfold degree degOf colI
  rw [dst_eq]
  rfl

/-- Their reciprocal roots, zero where the degree is not positive. -/
theorem dinv_eq (e : C Cert.KernelIdeal.S2x1600000 .i32) : degInv (withLoops (edgeRow1 e)) = dinvOf e := by
  unfold degInv dinvOf
  rw [deg_eq]
  rfl

/-- The edge weights. -/
theorem norm_eq (e : C Cert.KernelIdeal.S2x1600000 .i32) : edgeW (edgeRow0 e) (edgeRow1 e) = normOf e := by
  unfold edgeW normOf atEdges
  rw [dinv_eq, wrap_eq, wrap_eq, src_eq, dst_eq, mulf_ones17]
  rfl

/-- The aggregation. -/
theorem aggK_eq (e : C Cert.KernelIdeal.S2x1600000 .i32) (p : C Cert.KernelIdeal.S100000x64 .f32) :
    aggK e p = aggOf e p := by
  unfold aggK aggCore aggOf dstIx srcIx
  rw [norm_eq, wrap_eq, src_eq, dst_eq]
  rfl

end Cert.KernelIdeal.KRead

end
-- ==== Proof.RefRead.lean ====
/-
  The reference's stage functions read entry by entry: each is the corresponding stage function of the index-level
  specification — the host's sums over the row axis are column sums, its broadcasts of a vector read the vector at the
  column, its matrix product is the sum over the contracted index, its variance is the mean squared deviation (the
  divisor 100000 − 0 is positive, so the guarded branch is taken).
-/
import proofs.«103981_j8873402434235_1_alg».proof.Proof.RefStages
import proofs.«103981_j8873402434235_1_alg».proof.Proof.GStages
import Idealize.ShloMosaic.Lib.ValueIdx
import Idealize.ShloMosaic.Lib.Pipeline.Value
import Idealize.ShloMosaic.Lib.KernelVsHost
import Idealize.ShloMosaic.PureOps.Ideal.Laws

noncomputable section

open scoped BigOperators
open Idealize.ShloMosaic Idealize.ShloMosaic.ValueIdx

namespace Cert.ReferenceIdeal.RefRead

open Cert.ReferenceIdeal Cert.ReferenceIdeal.RefValue Cert.GSpec
open Cert.ReferenceIdeal.Facts₀ Cert.ReferenceIdeal.Facts

variable [Facts]

/-! ## The scalars -/

theorem zeroS_apply (i : S_.Idx) : zeroS i = 0 := by unfold zeroS; exact Cert.BNMath.ofBits_zero
theorem rowsS_apply (i : S_.Idx) : rowsS i = cntW := rfl
theorem epsS_apply (i : S_.Idx) : epsS i = eps := rfl
/-- The variance's divisor, 100000 minus the converted integer zero, is 100000. -/
theorem cntS_apply (i : S_.Idx) : cntS i = cntW := by
  unfold cntS
  rw [subf_apply]
  show cntW - (((0#32 : BitVec 32).toInt : ℝ) : EReal) = cntW
  rw [show (0#32 : BitVec 32).toInt = 0 from rfl]
  simp
/-- The divisor is positive. -/
theorem cmp_cnt (i : S_.Idx) : cmpf .ogt cntS zeroS i = 1#1 := by
  rw [cmpf_apply, cntS_apply, zeroS_apply, Ideal.cmpf_def, cntW_eq]
  unfold Ideal.cmp
  simp

/-- A broadcast scalar reads the scalar. -/
theorem bcastS_apply {α : Type} {t : Shape} (h : S_.BroadcastsInDim t ![]) (s : S_.Idx → α) (j : t.Idx) :
    broadcastInDim t ![] h s j = s ix0 :=
  broadcastInDim_apply ![] h s j ix0 (fun a => a.elim0)

/-! ## Width 64 -/

/-- A 64-vector broadcast to one row reads the vector. -/
theorem vecRow64_apply (v : FVec Ideal S64 .f32) (j : Fin 64) :
    broadcastInDim S1x64 ![1] bcast_S64_S1x64_1 v (ix2 (0 : Fin 1) j) = v (ix1 j) := by
  refine broadcastInDim_apply ![1] bcast_S64_S1x64_1 v (ix2 (0 : Fin 1) j) (ix1 j) ?_
  intro a
  fin_cases a
  show j.val = if (64 : ℕ) = 1 then 0 else j.val
  simp

/-- A 64-vector as every row of the array reads the vector at the column. -/
theorem row64_apply (v : FVec Ideal S64 .f32) (r : Fin 100000) (j : Fin 64) : row64 v (ix2 r j) = v (ix1 j) := by
  unfold row64
  rw [broadcastInDim_oneRow_apply, vecRow64_apply]

theorem lift64_eq (j : Fin 64) (r : Fin 100000) :
    ((by decide : S100000x64.Reduces [0] S64).lift (ix1 j) r : S100000x64.Idx) = ix2 r j := by
  funext a
  match a with
  | ⟨0, _⟩ => exact Fin.ext rfl
  | ⟨1, _⟩ => exact Fin.ext rfl

/-- The host's column sum from zero is the column sum. -/
theorem sum64_apply (y : FVec Ideal S100000x64 .f32) (j : Fin 64) :
    Host.reduceAdd y zeroS reducesTo_S100000x64_S64_d0 h_S_ (ix1 j) = colSum y (ix2 (0 : Fin 1) j) := by
  unfold Host.reduceAdd
  rw [Ideal.hostReduceAdd_def, Ideal.hostReduceAdd_single reducesTo_S100000x64_S64_d0 (by decide), zeroS_apply, zero_add]
  unfold colSum
  show ∑ r : Fin 100000, y _ = _
  exact Finset.sum_congr rfl fun r _ => by rw [lift64_eq]; rfl

/-- The column means are the mean row of the column sums. -/
theorem mean64_apply (y : FVec Ideal S100000x64 .f32) (j : Fin 64) :
    mean64 y (ix1 j) = meanRow (colSum y) (ix2 (0 : Fin 1) j) := by
  unfold mean64 Host.divf meanRow
  show Ideal.div (Host.reduceAdd y zeroS reducesTo_S100000x64_S64_d0 h_S_ (ix1 j)) (broadcastInDim S64 ![] bcast_S_S64 rowsS (ix1 j)) = _
  rw [sum64_apply, bcastS_apply, rowsS_apply]

/-- The centred array, as the variance computes it. -/
theorem cen64_apply (y : FVec Ideal S100000x64 .f32) (r : Fin 100000) (j : Fin 64) :
    cen64 y (ix2 r j) = y (ix2 r j) - Ideal.div (∑ r' : Fin 100000, y (ix2 r' j)) cntW := by
  unfold cen64 Host.divf
  rw [subf_apply, broadcastInDim_oneRow_apply]
  show y (ix2 r j) - Ideal.div (broadcastInDim S1x64 ![1] bcast_S64_S1x64_1 (Host.reduceAdd y zeroS reducesTo_S100000x64_S64_d0 h_S_) (ix2 (0 : Fin 1) j))
    (broadcastInDim S1x64 ![] bcast_S_S1x64 rowsS (ix2 (0 : Fin 1) j)) = _
  rw [vecRow64_apply, sum64_apply, bcastS_apply, rowsS_apply]
  rfl

/-- The column variances are the mean squared deviations. -/
theorem var64_apply (y : FVec Ideal S100000x64 .f32) (j : Fin 64) :
    var64 y (ix1 j) = varRowR y (ix2 (0 : Fin 1) j) := by
  unfold var64 Host.divf
  rw [select_apply, show broadcastInDim S64 ![] bcast_S_S64 (cmpf .ogt cntS zeroS) (ix1 j) = 1#1 from
    (bcastS_apply _ _ _).trans (cmp_cnt _), select_one]
  show Ideal.div (Host.reduceAdd (mulf (cen64 y) (cen64 y)) zeroS reducesTo_S100000x64_S64_d0 h_S_ (ix1 j))
    (broadcastInDim S64 ![] bcast_S_S64 cntS (ix1 j)) = _
  rw [sum64_apply, bcastS_apply, cntS_apply]
  unfold varRowR colSum
  refine congrArg (Ideal.div · cntW) (Finset.sum_congr rfl fun r _ => ?_)
  rw [mulf_apply]
  show cen64 y (ix2 r j) * cen64 y (ix2 r j) = _
  rw [cen64_apply]
  rfl

/-- The reference's batch normalisation is the stage function. -/
theorem bn64_eq (y : FVec Ideal S100000x64 .f32) (g b : FVec Ideal S64 .f32) :
    bn64 y g b = bnR y (rowOf g) (rowOf b) := by
  funext i
  obtain ⟨r, j, rfl⟩ : ∃ (r : Fin 100000) (j : Fin 64), i = ix2 r j := ⟨i 0, i 1, eq_ix2 i⟩
  unfold bn64 bnR normAffine
  rw [addf_apply, mulf_apply, mulf_apply, subf_apply, row64_apply, row64_apply, row64_apply, row64_apply, mean64_apply]
  unfold Host.rsqrt
  show (y (ix2 r j) - meanRow (colSum y) (ix2 0 j)) * Ideal.rsqrt (addf (var64 y) (broadcastInDim S64 ![] bcast_S_S64 epsS) (ix1 j)) * g (ix1 j) + b (ix1 j) = _
  rw [addf_apply, var64_apply, bcastS_apply, epsS_apply]
  rfl

/-! ## Width 128 -/

/-- A 128-vector broadcast to one row reads the vector. -/
theorem vecRow128_apply (v : FVec Ideal S128 .f32) (j : Fin 128) :
    broadcastInDim S1x128 ![1] bcast_S128_S1x128_1 v (ix2 (0 : Fin 1) j) = v (ix1 j) := by
  refine broadcastInDim_apply ![1] bcast_S128_S1x128_1 v (ix2 (0 : Fin 1) j) (ix1 j) ?_
  intro a
  fin_cases a
  show j.val = if (128 : ℕ) = 1 then 0 else j.val
  simp

/-- A 128-vector as every row of the array reads the vector at the column. -/
theorem row128_apply (v : FVec Ideal S128 .f32) (r : Fin 100000) (j : Fin 128) : row128 v (ix2 r j) = v (ix1 j) := by
  unfold row128
  rw [broadcastInDim_oneRow_apply, vecRow128_apply]

theorem lift128_eq (j : Fin 128) (r : Fin 100000) :
    ((by decide : S100000x128.Reduces [0] S128).lift (ix1 j) r : S100000x128.Idx) = ix2 r j := by
  funext a
  match a with
  | ⟨0, _⟩ => exact Fin.ext rfl
  | ⟨1, _⟩ => exact Fin.ext rfl

/-- The host's column sum from zero is the column sum. -/
theorem sum128_apply (y : FVec Ideal S100000x128 .f32) (j : Fin 128) :
    Host.reduceAdd y zeroS reducesTo_S100000x128_S128_d0 h_S_ (ix1 j) = colSum y (ix2 (0 : Fin 1) j) := by
  unfold Host.reduceAdd
  rw [Ideal.hostReduceAdd_def, Ideal.hostReduceAdd_single reducesTo_S100000x128_S128_d0 (by decide), zeroS_apply, zero_add]
  unfold colSum
  show ∑ r : Fin 100000, y _ = _
  exact Finset.sum_congr rfl fun r _ => by rw [lift128_eq]; rfl

/-- The column means are the mean row of the column sums. -/
theorem mean128_apply (y : FVec Ideal S100000x128 .f32) (j : Fin 128) :
    mean128 y (ix1 j) = meanRow (colSum y) (ix2 (0 : Fin 1) j) := by
  unfold mean128 Host.divf meanRow
  show Ideal.div (Host.reduceAdd y zeroS reducesTo_S100000x128_S128_d0 h_S_ (ix1 j)) (broadcastInDim S128 ![] bcast_S_S128 rowsS (ix1 j)) = _
  rw [sum128_apply, bcastS_apply, rowsS_apply]

/-- The centred array, as the variance computes it. -/
theorem cen128_apply (y : FVec Ideal S100000x128 .f32) (r : Fin 100000) (j : Fin 128) :
    cen128 y (ix2 r j) = y (ix2 r j) - Ideal.div (∑ r' : Fin 100000, y (ix2 r' j)) cntW := by
  unfold cen128 Host.divf
  rw [subf_apply, broadcastInDim_oneRow_apply]
  show y (ix2 r j) - Ideal.div (broadcastInDim S1x128 ![1] bcast_S128_S1x128_1 (Host.reduceAdd y zeroS reducesTo_S100000x128_S128_d0 h_S_) (ix2 (0 : Fin 1) j))
    (broadcastInDim S1x128 ![] bcast_S_S1x128 rowsS (ix2 (0 : Fin 1) j)) = _
  rw [vecRow128_apply, sum128_apply, bcastS_apply, rowsS_apply]
  rfl

/-- The column variances are the mean squared deviations. -/
theorem var128_apply (y : FVec Ideal S100000x128 .f32) (j : Fin 128) :
    var128 y (ix1 j) = varRowR y (ix2 (0 : Fin 1) j) := by
  unfold var128 Host.divf
  rw [select_apply, show broadcastInDim S128 ![] bcast_S_S128 (cmpf .ogt cntS zeroS) (ix1 j) = 1#1 from
    (bcastS_apply _ _ _).trans (cmp_cnt _), select_one]
  show Ideal.div (Host.reduceAdd (mulf (cen128 y) (cen128 y)) zeroS reducesTo_S100000x128_S128_d0 h_S_ (ix1 j))
    (broadcastInDim S128 ![] bcast_S_S128 cntS (ix1 j)) = _
  rw [sum128_apply, bcastS_apply, cntS_apply]
  unfold varRowR colSum
  refine congrArg (Ideal.div · cntW) (Finset.sum_congr rfl fun r _ => ?_)
  rw [mulf_apply]
  show cen128 y (ix2 r j) * cen128 y (ix2 r j) = _
  rw [cen128_apply]
  rfl

/-- The reference's batch normalisation is the stage function. -/
theorem bn128_eq (y : FVec Ideal S100000x128 .f32) (g b : FVec Ideal S128 .f32) :
    bn128 y g b = bnR y (rowOf g) (rowOf b) := by
  funext i
  obtain ⟨r, j, rfl⟩ : ∃ (r : Fin 100000) (j : Fin 128), i = ix2 r j := ⟨i 0, i 1, eq_ix2 i⟩
  unfold bn128 bnR normAffine
  rw [addf_apply, mulf_apply, mulf_apply, subf_apply, row128_apply, row128_apply, row128_apply, row128_apply, mean128_apply]
  unfold Host.rsqrt
  show (y (ix2 r j) - meanRow (colSum y) (ix2 0 j)) * Ideal.rsqrt (addf (var128 y) (broadcastInDim S128 ![] bcast_S_S128 epsS) (ix1 j)) * g (ix1 j) + b (ix1 j) = _
  rw [addf_apply, var128_apply, bcastS_apply, epsS_apply]
  rfl

/-! ## The pointwise and matrix stages -/

theorem relu64_eq (z : FVec Ideal S100000x64 .f32) : relu64 z = relu z := by
  funext i
  unfold relu64 relu
  rw [maximumf_apply, bcastS_apply, zeroS_apply]

theorem bias64_eq (y : FVec Ideal S100000x64 .f32) (b : FVec Ideal S64 .f32) : bias64 y b = addRow y (rowOf b) := by
  funext i
  obtain ⟨r, j, rfl⟩ : ∃ (r : Fin 100000) (j : Fin 64), i = ix2 r j := ⟨i 0, i 1, eq_ix2 i⟩
  unfold bias64 addRow
  rw [addf_apply, row64_apply]
  rfl

end Cert.ReferenceIdeal.RefRead

end
-- ==== Proof.RefRead2.lean ====
/-
  The reference's matrix products read entry by entry: the host's contraction over one axis is the sum over that
  axis's coordinate of the products of the two operands' entries.
-/
import proofs.«103981_j8873402434235_1_alg».proof.Proof.RefRead

noncomputable section

open scoped BigOperators
open Idealize.ShloMosaic Idealize.ShloMosaic.ValueIdx

namespace Cert.ReferenceIdeal.RefRead

open Cert.ReferenceIdeal Cert.ReferenceIdeal.RefValue Cert.GSpec
open Cert.ReferenceIdeal.Facts₀ Cert.ReferenceIdeal.Facts

variable [Facts]

/-- The left operand's index at output entry (p, q) and contraction position k is (p, k). -/
theorem mm_lhs (p : Fin 100000) (q : Fin 64) (k : Fin 64) :
    dot_S100000x64_S64x64_S100000x64_1_0_0_1_n_n.lhsIdx (ix2 p q) ((contrEquiv1 dot_S100000x64_S64x64_S100000x64_1_0_0_1_n_n 64 rfl rfl).symm k) = ix2 p k := by
  have hk := contrEquiv1_symm_val dot_S100000x64_S64x64_S100000x64_1_0_0_1_n_n 64 rfl rfl k
  funext a; apply Fin.ext
  match a with
  | ⟨0, _⟩ =>
    show (dot_S100000x64_S64x64_S100000x64_1_0_0_1_n_n.lhsIdx (ix2 p q) _ (0 : Fin S100000x64.rank)).val = p.val
    unfold DotDims.lhsIdx
    rw [dif_neg (show ¬(0 : Fin S100000x64.rank) ∈ dot_S100000x64_S64x64_S100000x64_1_0_0_1_n_n.lhsBatch by simp [dot_S100000x64_S64x64_S100000x64_1_0_0_1_n_n]), dif_pos (show (0 : Fin S100000x64.rank) ∈ dot_S100000x64_S64x64_S100000x64_1_0_0_1_n_n.lhsNonContracting by simp [dot_S100000x64_S64x64_S100000x64_1_0_0_1_n_n])]
    rfl
  | ⟨1, _⟩ => exact (dot_S100000x64_S64x64_S100000x64_1_0_0_1_n_n.lhsIdx_val_of_single rfl (ix2 p q) _).trans hk

/-- The right operand's index at output entry (p, q) and contraction position k is (k, q). -/
theorem mm_rhs (p : Fin 100000) (q : Fin 64) (k : Fin 64) :
    dot_S100000x64_S64x64_S100000x64_1_0_0_1_n_n.rhsIdx (ix2 p q) ((contrEquiv1 dot_S100000x64_S64x64_S100000x64_1_0_0_1_n_n 64 rfl rfl).symm k) = ix2 k q := by
  have hk := contrEquiv1_symm_val dot_S100000x64_S64x64_S100000x64_1_0_0_1_n_n 64 rfl rfl k
  funext a; apply Fin.ext
  match a with
  | ⟨0, _⟩ => exact (dot_S100000x64_S64x64_S100000x64_1_0_0_1_n_n.rhsIdx_val_of_single rfl (ix2 p q) _).trans hk
  | ⟨1, _⟩ =>
    show (dot_S100000x64_S64x64_S100000x64_1_0_0_1_n_n.rhsIdx (ix2 p q) _ (1 : Fin S64x64.rank)).val = q.val
    unfold DotDims.rhsIdx
    rw [dif_neg (show ¬(1 : Fin S64x64.rank) ∈ dot_S100000x64_S64x64_S100000x64_1_0_0_1_n_n.rhsBatch by simp [dot_S100000x64_S64x64_S100000x64_1_0_0_1_n_n]), dif_pos (show (1 : Fin S64x64.rank) ∈ dot_S100000x64_S64x64_S100000x64_1_0_0_1_n_n.rhsNonContracting by simp [dot_S100000x64_S64x64_S100000x64_1_0_0_1_n_n])]
    rfl

/-- The host's product is the matrix product. -/
theorem mm_dot_eq (h : FVec Ideal S100000x64 .f32) (W : FVec Ideal S64x64 .f32) :
    Host.dotGeneral dot_S100000x64_S64x64_S100000x64_1_0_0_1_n_n none h W = matMul h W := by
  funext i
  obtain ⟨p, q, rfl⟩ : ∃ (p : Fin 100000) (q : Fin 64), i = ix2 p q := ⟨i 0, i 1, eq_ix2 i⟩
  unfold Host.dotGeneral matMul
  rw [Ideal.dotGeneral_apply, ← Equiv.sum_comp (contrEquiv1 dot_S100000x64_S64x64_S100000x64_1_0_0_1_n_n 64 rfl rfl).symm]
  refine Finset.sum_congr rfl fun k _ => ?_
  rw [mm_lhs, mm_rhs]
  rfl

/-- The left operand's index at output entry (p, q) and contraction position k is (p, k). -/
theorem pj_lhs (p : Fin 100000) (q : Fin 64) (k : Fin 128) :
    dot_S100000x128_S128x64_S100000x64_1_0_0_1_n_n.lhsIdx (ix2 p q) ((contrEquiv1 dot_S100000x128_S128x64_S100000x64_1_0_0_1_n_n 128 rfl rfl).symm k) = ix2 p k := by
  have hk := contrEquiv1_symm_val dot_S100000x128_S128x64_S100000x64_1_0_0_1_n_n 128 rfl rfl k
  funext a; apply Fin.ext
  match a with
  | ⟨0, _⟩ =>
    show (dot_S100000x128_S128x64_S100000x64_1_0_0_1_n_n.lhsIdx (ix2 p q) _ (0 : Fin S100000x128.rank)).val = p.val
    unfold DotDims.lhsIdx
    rw [dif_neg (show ¬(0 : Fin S100000x128.rank) ∈ dot_S100000x128_S128x64_S100000x64_1_0_0_1_n_n.lhsBatch by simp [dot_S100000x128_S128x64_S100000x64_1_0_0_1_n_n]), dif_pos (show (0 : Fin S100000x128.rank) ∈ dot_S100000x128_S128x64_S100000x64_1_0_0_1_n_n.lhsNonContracting by simp [dot_S100000x128_S128x64_S100000x64_1_0_0_1_n_n])]
    rfl
  | ⟨1, _⟩ => exact (dot_S100000x128_S128x64_S100000x64_1_0_0_1_n_n.lhsIdx_val_of_single rfl (ix2 p q) _).trans hk

/-- The right operand's index at output entry (p, q) and contraction position k is (k, q). -/
theorem pj_rhs (p : Fin 100000) (q : Fin 64) (k : Fin 128) :
    dot_S100000x128_S128x64_S100000x64_1_0_0_1_n_n.rhsIdx (ix2 p q) ((contrEquiv1 dot_S100000x128_S128x64_S100000x64_1_0_0_1_n_n 128 rfl rfl).symm k) = ix2 k q := by
  have hk := contrEquiv1_symm_val dot_S100000x128_S128x64_S100000x64_1_0_0_1_n_n 128 rfl rfl k
  funext a; apply Fin.ext
  match a with
  | ⟨0, _⟩ => exact (dot_S100000x128_S128x64_S100000x64_1_0_0_1_n_n.rhsIdx_val_of_single rfl (ix2 p q) _).trans hk
  | ⟨1, _⟩ =>
    show (dot_S100000x128_S128x64_S100000x64_1_0_0_1_n_n.rhsIdx (ix2 p q) _ (1 : Fin S128x64.rank)).val = q.val
    unfold DotDims.rhsIdx
    rw [dif_neg (show ¬(1 : Fin S128x64.rank) ∈ dot_S100000x128_S128x64_S100000x64_1_0_0_1_n_n.rhsBatch by simp [dot_S100000x128_S128x64_S100000x64_1_0_0_1_n_n]), dif_pos (show (1 : Fin S128x64.rank) ∈ dot_S100000x128_S128x64_S100000x64_1_0_0_1_n_n.rhsNonContracting by simp [dot_S100000x128_S128x64_S100000x64_1_0_0_1_n_n])]
    rfl

/-- The host's product is the matrix product. -/
theorem pj_dot_eq (h : FVec Ideal S100000x128 .f32) (W : FVec Ideal S128x64 .f32) :
    Host.dotGeneral dot_S100000x128_S128x64_S100000x64_1_0_0_1_n_n none h W = matMul h W := by
  funext i
  obtain ⟨p, q, rfl⟩ : ∃ (p : Fin 100000) (q : Fin 64), i = ix2 p q := ⟨i 0, i 1, eq_ix2 i⟩
  unfold Host.dotGeneral matMul
  rw [Ideal.dotGeneral_apply, ← Equiv.sum_comp (contrEquiv1 dot_S100000x128_S128x64_S100000x64_1_0_0_1_n_n 128 rfl rfl).symm]
  refine Finset.sum_congr rfl fun k _ => ?_
  rw [pj_lhs, pj_rhs]
  rfl

theorem mm64_eq (h : FVec Ideal S100000x64 .f32) (W : FVec Ideal S64x64 .f32) : mm64 h W = matMul h W := by
  unfold mm64; exact mm_dot_eq h W

theorem proj_eq (z : FVec Ideal S100000x128 .f32) (Wp : FVec Ideal S128x64 .f32) (bp : FVec Ideal S64 .f32) :
    proj z Wp bp = relu (addRow (matMul z Wp) (rowOf bp)) := by
  unfold proj
  rw [relu64_eq, pj_dot_eq]
  refine congrArg relu (funext fun i => ?_)
  obtain ⟨r, j, rfl⟩ : ∃ (r : Fin 100000) (j : Fin 64), i = ix2 r j := ⟨i 0, i 1, eq_ix2 i⟩
  unfold addRow
  rw [addf_apply, row64_apply]
  rfl

end Cert.ReferenceIdeal.RefRead

end
-- ==== Proof.RefOut.lean ====
/-
  The reference's whole function is the network over the stage functions with the squared-deviations variance and the
  reference's own aggregation.
-/
import proofs.«103981_j8873402434235_1_alg».proof.Proof.RefRead2
import proofs.«103981_j8873402434235_1_alg».proof.Proof.GOut

noncomputable section

open Idealize.ShloMosaic Idealize.ShloMosaic.ValueIdx

namespace Cert.ReferenceIdeal.RefRead

open Cert.ReferenceIdeal Cert.ReferenceIdeal.RefValue Cert.GSpec
open Cert.ReferenceIdeal.Facts₀ Cert.ReferenceIdeal.Facts

variable [Facts]

theorem OUT_eq (x : FVec Ideal S100000x128 .f32) (e : IVec S2x1600000 32) (g0 b0 : FVec Ideal S128 .f32)
    (Wp : FVec Ideal S128x64 .f32) (bp : FVec Ideal S64 .f32)
    (W1 : FVec Ideal S64x64 .f32) (b1 g1 be1 : FVec Ideal S64 .f32)
    (W2 : FVec Ideal S64x64 .f32) (b2 g2 be2 : FVec Ideal S64 .f32) :
    OUT x e g0 b0 Wp bp W1 b1 g1 be1 W2 b2 g2 be2
      = net bnR bnR (aggOf e) x (rowOf g0) (rowOf b0) Wp (rowOf bp) W1 (rowOf b1) (rowOf g1) (rowOf be1) W2 (rowOf b2) (rowOf g2) (rowOf be2) := by
  unfold OUT net
  rw [bn128_eq, proj_eq, mm64_eq, bias64_eq, bn64_eq, relu64_eq, mm64_eq, bias64_eq, bn64_eq]

end Cert.ReferenceIdeal.RefRead

end
-- ==== Proof.AggReal.lean ====
/-
  The graph aggregation keeps real entries real: a gather only re-reads entries, a scatter-add adds finitely many
  of them to a zero, the degrees are finite sums of ones, and the reciprocal root of a positive real degree is real
  (a non-positive degree is replaced by zero).
-/
import proofs.«103981_j8873402434235_1_alg».proof.Proof.RefStages
import proofs.«103981_j8873402434235_1_alg».proof.Proof.GStages
import proofs.«103981_j8873402434235_1_alg».proof.Proof.RefRead
import Idealize.ShloMosaic.Lib.ValueIdx
import Idealize.ShloMosaic.PureOps.Ideal.Laws

noncomputable section

open scoped BigOperators
open Idealize.ShloMosaic Idealize.ShloMosaic.ValueIdx
open Cert.BNMath

namespace Cert.ReferenceIdeal.AggReal

open Cert.ReferenceIdeal Cert.ReferenceIdeal.RefValue Cert.GSpec
open Cert.ReferenceIdeal.Facts₀ Cert.ReferenceIdeal.Facts

variable [Facts]

theorem isReal_scatterAdd {s si su : Shape} {w : Nat} (d : ScatterDims s si su) (x : FVec Ideal s .f32) (idx : IVec si w)
    (upd : FVec Ideal su .f32) (hx : IsReal x) (hu : IsReal upd) : IsReal (Host.scatterAdd d x idx upd) := by
  intro i
  unfold Host.scatterAdd
  rw [Ideal.hostScatterAdd_def]
  unfold Ideal.hostScatterAdd
  exact R_add (hx i) (R_sum _ _ fun j _ => hu j)

theorem isReal_gather {s si t : Shape} {w : Nat} (d : GatherDims s si t) (x : FVec Ideal s .f32) (idx : IVec si w)
    (hx : IsReal x) : IsReal (Host.gather d x idx) := fun j => hx _

theorem isReal_bcast {s t : Shape} (dims : Fin s.rank → Fin t.rank) (h : s.BroadcastsInDim t dims) (x : FVec Ideal s .f32)
    (hx : IsReal x) : IsReal (broadcastInDim t dims h x) := fun j => hx _

theorem isReal_mulf {s : Shape} (a b : FVec Ideal s .f32) (ha : IsReal a) (hb : IsReal b) : IsReal (mulf a b) :=
  fun i => R_mul (ha i) (hb i)

theorem isReal_zeroS : IsReal zeroS := fun i => ⟨0, by unfold zeroS; exact Cert.BNMath.ofBits_zero⟩
theorem isReal_oneS : IsReal oneS := fun i => ⟨1, by unfold oneS; exact Cert.BNMath.ofBits_one⟩

theorem isReal_degOf (e : IVec S2x1600000 32) : IsReal (degOf e) := by
  unfold degOf
  exact isReal_scatterAdd _ _ _ _ (isReal_bcast _ _ _ isReal_zeroS) (isReal_bcast _ _ _ isReal_oneS)

/-- A guarded reciprocal root of a real is real: the root of a positive real, the fallback zero otherwise. -/
theorem R_guarded_rsqrt (x z : EReal) (hx : R x) (hz : z = 0) :
    R (Scalar.select (FloatOps.cmpf (F := Ideal) (φ := .f32) .ogt x z) (FloatOps.hostUnary (F := Ideal) (φ := .f32) .rsqrt x) z) := by
  obtain ⟨d, rfl⟩ := hx
  subst hz
  rw [Ideal.cmpf_def, Ideal.hostUnary_rsqrt_def]
  unfold Ideal.cmp
  by_cases h : (0 : EReal) < (d : EReal)
  · rw [show BitVec.ofBool (decide ((0 : EReal) < (d : EReal))) = 1#1 from by simp [h], select_one]
    exact rsqrt_pos_real d (by exact_mod_cast h)
  · rw [show BitVec.ofBool (decide ((0 : EReal) < (d : EReal))) = 0#1 from by simp [h], select_zero]
    exact R_zero

/-- Entry by entry: a guarded reciprocal root of a real array, with a zero fallback, is real. -/
theorem isReal_guarded {s : Shape} (x z : FVec Ideal s .f32) (hx : IsReal x) (hz : ∀ i, z i = 0) :
    IsReal (select (cmpf .ogt x z) (Host.rsqrt x) z) :=
  fun i => R_guarded_rsqrt (x i) (z i) (hx i) (hz i)

/-- The reciprocal root degrees: real where the degree is positive, zero elsewhere. -/
theorem isReal_dinvOf (e : IVec S2x1600000 32) : IsReal (dinvOf e) := by
  unfold dinvOf
  exact isReal_guarded _ _ (isReal_degOf e) fun i =>
    (Cert.ReferenceIdeal.RefRead.bcastS_apply _ _ _).trans (Cert.ReferenceIdeal.RefRead.zeroS_apply _)

theorem isReal_normOf (e : IVec S2x1600000 32) : IsReal (normOf e) := by
  unfold normOf ones17
  exact isReal_mulf _ _ (isReal_mulf _ _ (isReal_gather _ _ _ (isReal_dinvOf e)) (isReal_bcast _ _ _ isReal_oneS))
    (isReal_gather _ _ _ (isReal_dinvOf e))

/-- The aggregation of a real array is real. -/
theorem isReal_aggOf (e : IVec S2x1600000 32) (p : FVec Ideal S100000x64 .f32) (hp : IsReal p) : IsReal (aggOf e p) := by
  unfold aggOf
  exact isReal_scatterAdd _ _ _ _ (isReal_bcast _ _ _ isReal_zeroS)
    (isReal_mulf _ _ (isReal_gather _ _ _ hp) (isReal_bcast _ _ _ (isReal_bcast _ _ _ (isReal_normOf e))))

end Cert.ReferenceIdeal.AggReal

end
-- ==== Proof.PreReal.lean ====
/-
  Finiteness read back from the precondition. The precondition tests, for each of the thirteen float
  arguments, that every entry x satisfies |x| < +∞, and joins the thirteen tests by "and". Over the extended
  reals |x| is max x (-x), and max x (-x) < ⊤ holds exactly when x is neither ⊤ nor ⊥, that is, when x is a
  real number. So a precondition that evaluates to 1 says that every entry of every float argument is real.
-/
import proofs.«103981_j8873402434235_1_alg».proof.Pre_finite_inputs
import proofs.«103981_j8873402434235_1_alg».proof.Proof.BNMath
import Idealize.ShloMosaic.Lib.ReduceAll
import Idealize.ShloMosaic.Lib.ValueIdx
import Idealize.ShloMosaic.PureOps.Ideal.Laws

noncomputable section

open Idealize.ShloMosaic

namespace Cert.PreReal

open Cert.Pre_finite_inputs

/-- The rank-0 shape has exactly one index. -/
instance : Subsingleton S_.Idx := ⟨fun a b => funext fun d => d.elim0⟩

/-- The word of +∞ denotes ⊤. -/
theorem ofBits_inf : Ideal.ofBits .f32 0x7F800000#32 = (⊤ : EReal) := by
  simp [Ideal.ofBits, Ideal.ieee]

/-- An ordered "less than" of extended reals that answers 1 is the strict order. -/
theorem lt_of_cmp_olt {x y : EReal} (h : Ideal.cmp .olt x y = 1#1) : x < y := by
  unfold Ideal.cmp at h
  by_contra hn
  simp [hn] at h

/-- An extended real whose absolute value max x (-x) is below ⊤ is a real number:
    at ⊤ the maximum is ⊤, at ⊥ it is -⊥ = ⊤. -/
theorem real_of_abs_lt_top (x : EReal) (h : max x (-x) < ⊤) : ∃ r : ℝ, x = (r : EReal) := by
  induction x using EReal.rec with
  | bot => simp at h
  | top => simp at h
  | coe r => exact ⟨r, rfl⟩

/-- One test of the precondition, over any shape: if the "and" of |a i| < +∞ over all indices i is 1,
    every entry of a is a real number. -/
theorem isReal_of_all {s : Shape} {axes : List (Fin s.rank)} (a : FVec Ideal s .f32)
    (hb : S_.BroadcastsInDim s (![] : Fin 0 → Fin s.rank)) (hr : s.ReducesTo axes S_) (hS : 0 < S_.numel)
    (j : S_.Idx)
    (h : Host.reduce IntOp.andi
          (cmpf .olt (Host.absf a) (broadcastInDim s ![] hb (constant S_ .f32 0x7F800000#32)))
          (constantI S_ 1 1#1) hr hS j = 1#1) :
    Cert.BNMath.IsReal a := by
  intro i
  have e := Host.reduce_andi_all _ _ hr hS j h i
  have e' : Ideal.cmp .olt (max (a i) (-(a i))) (Ideal.ofBits .f32 0x7F800000#32) = 1#1 := e
  rw [ofBits_inf] at e'
  exact real_of_abs_lt_top (a i) (lt_of_cmp_olt e')

variable [Cert.Pre_finite_inputs.Facts]

/-- The precondition at 1 makes every entry of each of the thirteen float arguments a real number. -/
theorem real_of_pre (a0 : FVec Ideal S100000x128 .f32) (a1 : IVec S2x1600000 32) (a2 a3 : FVec Ideal S128 .f32)
    (a4 : FVec Ideal S128x64 .f32) (a5 : FVec Ideal S64 .f32) (a6 : FVec Ideal S64x64 .f32)
    (a7 a8 a9 : FVec Ideal S64 .f32) (a10 : FVec Ideal S64x64 .f32) (a11 a12 a13 : FVec Ideal S64 .f32)
    (h : Cert.Pre_finite_inputs.fn (F := Ideal) a0 a1 a2 a3 a4 a5 a6 a7 a8 a9 a10 a11 a12 a13 = fun _ => 1#1) :
    Cert.BNMath.IsReal a0 ∧ Cert.BNMath.IsReal a2 ∧ Cert.BNMath.IsReal a3 ∧ Cert.BNMath.IsReal a4
      ∧ Cert.BNMath.IsReal a5 ∧ Cert.BNMath.IsReal a6 ∧ Cert.BNMath.IsReal a7 ∧ Cert.BNMath.IsReal a8
      ∧ Cert.BNMath.IsReal a9 ∧ Cert.BNMath.IsReal a10 ∧ Cert.BNMath.IsReal a11 ∧ Cert.BNMath.IsReal a12
      ∧ Cert.BNMath.IsReal a13 := by
  have h0 := congrFun h ValueIdx.ix0
  dsimp only [Cert.Pre_finite_inputs.fn, Cert.Pre_finite_inputs.fn_part1, Cert.Pre_finite_inputs.fn_part2,
    Cert.Pre_finite_inputs.fn_part3, Idealize.ShloMosaic.andi] at h0
  simp only [IntOp.andi_eq_one] at h0
  obtain ⟨⟨⟨⟨⟨⟨⟨⟨⟨⟨⟨⟨h0, h2⟩, h3⟩, h4⟩, h5⟩, h6⟩, h7⟩, h8⟩, h9⟩, h10⟩, h11⟩, h12⟩, h13⟩ := h0
  exact ⟨isReal_of_all a0 _ _ _ _ h0, isReal_of_all a2 _ _ _ _ h2, isReal_of_all a3 _ _ _ _ h3,
    isReal_of_all a4 _ _ _ _ h4, isReal_of_all a5 _ _ _ _ h5, isReal_of_all a6 _ _ _ _ h6,
    isReal_of_all a7 _ _ _ _ h7, isReal_of_all a8 _ _ _ _ h8, isReal_of_all a9 _ _ _ _ h9,
    isReal_of_all a10 _ _ _ _ h10, isReal_of_all a11 _ _ _ _ h11, isReal_of_all a12 _ _ _ _ h12,
    isReal_of_all a13 _ _ _ _ h13⟩

end Cert.PreReal

end
-- ==== Proof.ValueEq.lean ====
import proofs.«103981_j8873402434235_1_alg».proof.Defs
import proofs.«103981_j8873402434235_1_alg».proof.Proof.Gen.KernelIdeal
import proofs.«103981_j8873402434235_1_alg».proof.Proof.Gen.ReferenceIdeal
import proofs.«103981_j8873402434235_1_alg».proof.Proof.Gen.Pre_finite_inputs
import proofs.«103981_j8873402434235_1_alg».proof.Proof.KOut
import proofs.«103981_j8873402434235_1_alg».proof.Proof.KAggEq
import proofs.«103981_j8873402434235_1_alg».proof.Proof.RefOut
import proofs.«103981_j8873402434235_1_alg».proof.Proof.AggReal
import proofs.«103981_j8873402434235_1_alg».proof.Proof.PreReal

set_option maxHeartbeats 4000000

noncomputable section

namespace Cert.Proof

open Idealize.ShloMosaic Idealize.SL.Sem

/-- Both programs' results are the network over the stage functions; the variances agree on real entries, which the
    precondition gives and every stage keeps. -/
theorem value_eq (m : (ℓ : Loc Cert.KernelIdeal.nD Cert.KernelIdeal.τ Cert.KernelIdeal.sig) → Buf (Elt Ideal) ℓ)
    (ρ : Dev Cert.KernelIdeal.nD → PrngReg) (c : Dev Cert.KernelIdeal.nD)
    (hpre : Cert.Pre_KernelIdeal (hPre_finite_inputs := Cert.Pre_finite_inputs.Gen.facts) m) :
    @Cert.ReferenceIdeal.RefValue.OUT Cert.ReferenceIdeal.Gen.facts (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))
      = Cert.KernelIdeal.Gen.W18 m ρ c (Proc.devRef .tc Cert.KernelIdeal.main_v130) := by
  haveI : Cert.ReferenceIdeal.Facts := Cert.ReferenceIdeal.Gen.facts
  haveI : Cert.Pre_finite_inputs.Facts := Cert.Pre_finite_inputs.Gen.facts
  obtain ⟨r0, r2, r3, r4, r5, r6, r7, r8, r9, r10, r11, r12, r13⟩ :=
    Cert.PreReal.real_of_pre _ _ _ _ _ _ _ _ _ _ _ _ _ _ (hpre c)
  refine (Cert.ReferenceIdeal.RefRead.OUT_eq _ _ _ _ _ _ _ _ _ _ _ _ _ _).trans ?_
  refine Eq.symm ((Cert.KernelIdeal.KVal.kernel_value m ρ c).trans ?_)
  rw [show Cert.KernelIdeal.KVal.aggK (Cert.KernelIdeal.KVal.aE m c)
      = Cert.ReferenceIdeal.RefValue.aggOf (Cert.KernelIdeal.KVal.aE m c) from
    funext fun p => Cert.KernelIdeal.KRead.aggK_eq _ p]
  exact Cert.GSpec.net_bnK_eq_bnR _ (fun p hp => Cert.ReferenceIdeal.AggReal.isReal_aggOf _ p hp)
    _ _ _ _ _ _ _ _ _ _ _ _ _ r0 (Cert.GSpec.isReal_rowOf _ r2) (Cert.GSpec.isReal_rowOf _ r3) r4 (Cert.GSpec.isReal_rowOf _ r5)
    r6 (Cert.GSpec.isReal_rowOf _ r7) (Cert.GSpec.isReal_rowOf _ r8) (Cert.GSpec.isReal_rowOf _ r9)
    r10 (Cert.GSpec.isReal_rowOf _ r11) (Cert.GSpec.isReal_rowOf _ r12) (Cert.GSpec.isReal_rowOf _ r13)

end Cert.Proof

end
-- ==== Proof.lean ====
/-
  A two-layer graph convolution network with batch normalisation over 100000 nodes: a program of eight tiled stages
  (column statistics; normalise–project–positive part; the layers' matrix products; bias–normalise with and without
  positive part) joined by host operations (the graph aggregation by gathers and a scatter-add), against the plain
  reference. Over the extended reals the two programs differ in one law only: the tiled program takes a column's
  variance as the mean of squares minus the squared mean, the reference as the mean of squared deviations. The two
  agree on real entries, and every stage keeps real entries real (the variance is a nonnegative real, the stabiliser is
  positive, so the inverse square root is a real; sums, products and maxima of reals are real; a gather re-reads entries
  and a scatter-add adds finitely many). The inputs are real by the precondition. The reference's aggregation carries
  an extra factor one. Everything else — tiling, the order of sums, the change of float format before the matrix unit —
  is the identity at this instance.
-/
import proofs.«103981_j8873402434235_1_alg».proof.Defs
import proofs.«103981_j8873402434235_1_alg».proof.Proof.Gen.Kernel
import proofs.«103981_j8873402434235_1_alg».proof.Proof.Gen.Kernel.Frame
import proofs.«103981_j8873402434235_1_alg».proof.Proof.Gen.KernelIdeal
import proofs.«103981_j8873402434235_1_alg».proof.Proof.Gen.KernelIdeal.Frame
import proofs.«103981_j8873402434235_1_alg».proof.Proof.Gen.ReferenceIdeal
import proofs.«103981_j8873402434235_1_alg».proof.Proof.Gen.Pre_finite_inputs
import proofs.«103981_j8873402434235_1_alg».proof.Proof.KRun
import proofs.«103981_j8873402434235_1_alg».proof.Proof.RefRun
import proofs.«103981_j8873402434235_1_alg».proof.Proof.ValueEq
import Idealize.ShloMosaic.Adequacy
import Idealize.ShloMosaic.Init

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference runs and keeps its arguments: its run with the result dropped. -/
theorem frame_ri : Cert.frame_ReferenceIdeal (hReferenceIdeal := Cert.ReferenceIdeal.Gen.facts) (hPre_finite_inputs := Cert.Pre_finite_inputs.Gen.facts) :=
  Cert.ReferenceIdeal.RefValue.frame_ri

/-- The two programs end with equal results: the tiled program's run names its result, the reference's run ends at its
    whole function of arguments that agree, and the two values are equal under the precondition. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.Gen.W18 m ρ c (Proc.devRef .tc Cert.KernelIdeal.main_v130),
    Cert.KernelIdeal.KVal.run_value m ρ, ?_⟩
  haveI : Cert.ReferenceIdeal.Facts := Cert.ReferenceIdeal.Gen.facts
  refine (θ_run _ _ _).mono (fun _ h c => ⟨(h c).1.trans ?_, (h c).2⟩)
    (@Cert.ReferenceIdeal.RefValue.run Cert.ReferenceIdeal.Gen.facts m' ρ')
  obtain ⟨e0, e1, e2, e3, e4, e5, e6, e7, e8, e9, e10, e11, e12, e13⟩ := hagree c
  rw [e0, e1, e2, e3, e4, e5, e6, e7, e8, e9, e10, e11, e12, e13]
  exact value_eq m ρ c hpre

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
